-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v307)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v307) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v405) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x6 : Shape := ⟨2, ![32, 6]⟩
abbrev S7x9 : Shape := ⟨2, ![7, 9]⟩
abbrev S9 : Shape := ⟨1, ![9]⟩
abbrev S9x1 : Shape := ⟨2, ![9, 1]⟩
abbrev S1 : Shape := ⟨1, ![1]⟩
abbrev S32x16 : Shape := ⟨2, ![32, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x6 : S_.BroadcastsInDim S32x6 (![] : Fin 0 → Fin S32x6.rank)
  reducesTo_S32x6_S_d0_1 : S32x6.ReducesTo [0, 1] S_
  bcast_S_S7x9 : S_.BroadcastsInDim S7x9 (![] : Fin 0 → Fin S7x9.rank)
  reducesTo_S7x9_S_d0_1 : S7x9.ReducesTo [0, 1] S_
  bcast_S_S9 : S_.BroadcastsInDim S9 (![] : Fin 0 → Fin S9.rank)
  reducesTo_S9_S_d0 : S9.ReducesTo [0] S_
  bcast_S_S9x1 : S_.BroadcastsInDim S9x1 (![] : Fin 0 → Fin S9x1.rank)
  reducesTo_S9x1_S_d0_1 : S9x1.ReducesTo [0, 1] S_
  bcast_S_S1 : S_.BroadcastsInDim S1 (![] : Fin 0 → Fin S1.rank)
  reducesTo_S1_S_d0 : S1.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg5 : FVec F S9x1 .f32) (main_arg6 : FVec F S1 .f32) (main_arg7 : FVec F S32x16 .f32) (main_arg8 : FVec F S16 .f32) (main_v13 : IVec S_ 1) (main_v16 : IVec S9 1) : IVec S_ 1 :=
  let main_c_5 : IVec S_ 1 := constantI S_ 1 1#1
  let main_v17 : IVec S_ 1 := (fun x v => Host.reduce IntOp.andi x v reducesTo_S9_S_d0 h_S_) main_v16 main_c_5
  let main_v18 : IVec S_ 1 := andi main_v13 main_v17
  let main_v19 : FVec F S9x1 .f32 := Host.absf main_arg5
  let main_cst_6 : FVec F S_ .f32 := constant S_ .f32 0x7F800000#32
  let main_v20 : FVec F S9x1 .f32 := broadcastInDim S9x1 ![] bcast_S_S9x1 main_cst_6
  let main_v21 : IVec S9x1 1 := cmpf .olt main_v19 main_v20
  let main_c_7 : IVec S_ 1 := constantI S_ 1 1#1
  let main_v22 : IVec S_ 1 := (fun x v => Host.reduce IntOp.andi x v reducesTo_S9x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg8 main_v33

def fn {F : FTy → Type} [FloatOps F] (main_arg0 : FVec F S100000x32 .f32) (main_arg1 : IVec S2x1600000 32) (main_arg2 : FVec F S32x6 .f32) (main_arg3 : FVec F S7x9 .f32) (main_arg4 : FVec F S9 .f32) (main_arg5 : FVec F S9x1 .f32) (main_arg6 : FVec F S1 .f32) (main_arg7 : FVec F S32x16 .f32) (main_arg8 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x6 .f32 := Host.absf main_arg2
  let main_cst_0 : FVec F S_ .f32 := constant S_ .f32 0x7F800000#32
  let main_v5 : FVec F S32x6 .f32 := broadcastInDim S32x6 ![] bcast_S_S32x6 main_cst_0
  let main_v6 : IVec S32x6 1 := cmpf .olt main_v4 main_v5
  let main_c_1 : IVec S_ 1 := constantI S_ 1 1#1
  let main_v7 : IVec S_ 1 := (fun x v => Host.reduce IntOp.andi x v reducesTo_S32x6_S_d0_1 h_S_) main_v6 main_c_1
  let main_v8 : IVec S_ 1 := andi main_v3 main_v7
  let main_v9 : FVec F S7x9 .f32 := Host.absf main_arg3
  let main_cst_2 : FVec F S_ .f32 := constant S_ .f32 0x7F800000#32
  let main_v10 : FVec F S7x9 .f32 := broadcastInDim S7x9 ![] bcast_S_S7x9 main_cst_2
  let main_v11 : IVec S7x9 1 := cmpf .olt main_v9 main_v10
  let main_c_3 : IVec S_ 1 := constantI S_ 1 1#1
  let main_v12 : IVec S_ 1 := (fun x v => Host.reduce IntOp.andi x v reducesTo_S7x9_S_d0_1 h_S_) main_v11 main_c_3
  let main_v13 : IVec S_ 1 := andi main_v8 main_v12
  let main_v14 : FVec F S9 .f32 := Host.absf main_arg4
  let main_cst_4 : FVec F S_ .f32 := constant S_ .f32 0x7F800000#32
  let main_v15 : FVec F S9 .f32 := broadcastInDim S9 ![] bcast_S_S9 main_cst_4
  let main_v16 : IVec S9 1 := cmpf .olt main_v14 main_v15
  fn_part1 (F := F) main_arg5 main_arg6 main_arg7 main_arg8 main_v13 main_v16
-- ==== Kernel.lean ====
abbrev S100000x32 : Shape := ⟨2, ![100000, 32]⟩
abbrev S2x1600000 : Shape := ⟨2, ![2, 1600000]⟩
abbrev S32x6 : Shape := ⟨2, ![32, 6]⟩
abbrev S7x9 : Shape := ⟨2, ![7, 9]⟩
abbrev S9 : Shape := ⟨1, ![9]⟩
abbrev S9x1 : Shape := ⟨2, ![9, 1]⟩
abbrev S1 : Shape := ⟨1, ![1]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S2000x32 : Shape := ⟨2, ![2000, 32]⟩
abbrev S400x32 : Shape := ⟨2, ![400, 32]⟩
abbrev S1x9 : Shape := ⟨2, ![1, 9]⟩
abbrev S6x9 : Shape := ⟨2, ![6, 9]⟩
abbrev S32x9 : Shape := ⟨2, ![32, 9]⟩
abbrev S400x1 : Shape := ⟨2, ![400, 1]⟩
abbrev S400x9 : Shape := ⟨2, ![400, 9]⟩
abbrev S1x1 : Shape := ⟨2, ![1, 1]⟩
abbrev S100000x16 : Shape := ⟨2, ![100000, 16]⟩
abbrev S2000x16 : Shape := ⟨2, ![2000, 16]⟩
abbrev S1x16 : Shape := ⟨2, ![1, 16]⟩

abbrev nBuf : Space → Nat
  | .hbm => 384
  | .vmem => 135
  | .smem => 0
  | _ => 0

abbrev hbmTy0_0 (i : Nat) : BufTy := match i % 128 with
  | 0 => ⟨S100000x32, .f32⟩
  | 1 => ⟨S2x1600000, .i32⟩
  | 2 => ⟨S32x6, .f32⟩
  | 3 => ⟨S7x9, .f32⟩
  | 4 => ⟨S9, .f32⟩
  | 5 => ⟨S9x1, .f32⟩
  | 6 => ⟨S1, .f32⟩
  | 7 => ⟨S32x16, .f32⟩
  | 8 => ⟨S16, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x32, .f32⟩
  | 51 => ⟨S1600000x1, .f32⟩
  | 52 => ⟨S1600000x32, .f32⟩
  | 53 => ⟨S1600000x32, .f32⟩
  | 54 => ⟨S_, .f32⟩
  | 55 => ⟨S100000x32, .f32⟩
  | 56 => ⟨S1600000x1, .i32⟩
  | 57 => ⟨S100000x32, .f32⟩
  | 58 => ⟨S100000x32, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x32, .f32⟩
  | 68 => ⟨S1600000x1, .f32⟩
  | 69 => ⟨S1600000x32, .f32⟩
  | 70 => ⟨S1600000x32, .f32⟩
  | 71 => ⟨S_, .f32⟩
  | 72 => ⟨S100000x32, .f32⟩
  | 73 => ⟨S1600000x1, .i32⟩
  | 74 => ⟨S100000x32, .f32⟩
  | 75 => ⟨S100000x32, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x32, .f32⟩
  | 85 => ⟨S1600000x1, .f32⟩
  | 86 => ⟨S1600000x32, .f32⟩
  | 87 => ⟨S1600000x32, .f32⟩
  | 88 => ⟨S_, .f32⟩
  | 89 => ⟨S100000x32, .f32⟩
  | 90 => ⟨S1600000x1, .i32⟩
  | 91 => ⟨S100000x32, .f32⟩
  | 92 => ⟨S100000x32, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x32, .f32⟩
  | 102 => ⟨S1600000x1, .f32⟩
  | 103 => ⟨S1600000x32, .f32⟩
  | 104 => ⟨S1600000x32, .f32⟩
  | 105 => ⟨S_, .f32⟩
  | 106 => ⟨S100000x32, .f32⟩
  | 107 => ⟨S1600000x1, .i32⟩
  | 108 => ⟨S100000x32, .f32⟩
  | 109 => ⟨S100000x32, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x32, .f32⟩
  | 119 => ⟨S1600000x1, .f32⟩
  | 120 => ⟨S1600000x32, .f32⟩
  | 121 => ⟨S1600000x32, .f32⟩
  | 122 => ⟨S_, .f32⟩
  | 123 => ⟨S100000x32, .f32⟩
  | 124 => ⟨S1600000x1, .i32⟩
  | 125 => ⟨S100000x32, .f32⟩
  | 126 => ⟨S100000x32, .f32⟩
  | 127 => ⟨S_, .i32⟩
  | _ => ⟨S100000x32, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x32, .f32⟩
  | 8 => ⟨S1600000x1, .f32⟩
  | 9 => ⟨S1600000x32, .f32⟩
  | 10 => ⟨S1600000x32, .f32⟩
  | 11 => ⟨S_, .f32⟩
  | 12 => ⟨S100000x32, .f32⟩
  | 13 => ⟨S1600000x1, .i32⟩
  | 14 => ⟨S100000x32, .f32⟩
  | 15 => ⟨S100000x32, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x32, .f32⟩
  | 25 => ⟨S1600000x1, .f32⟩
  | 26 => ⟨S1600000x32, .f32⟩
  | 27 => ⟨S1600000x32, .f32⟩
  | 28 => ⟨S_, .f32⟩
  | 29 => ⟨S100000x32, .f32⟩
  | 30 => ⟨S1600000x1, .i32⟩
  | 31 => ⟨S100000x32, .f32⟩
  | 32 => ⟨S100000x32, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x32, .f32⟩
  | 42 => ⟨S1600000x1, .f32⟩
  | 43 => ⟨S1600000x32, .f32⟩
  | 44 => ⟨S1600000x32, .f32⟩
  | 45 => ⟨S_, .f32⟩
  | 46 => ⟨S100000x32, .f32⟩
  | 47 => ⟨S1600000x1, .i32⟩
  | 48 => ⟨S100000x32, .f32⟩
  | 49 => ⟨S100000x32, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x32, .f32⟩
  | 59 => ⟨S1600000x1, .f32⟩
  | 60 => ⟨S1600000x32, .f32⟩
  | 61 => ⟨S1600000x32, .f32⟩
  | 62 => ⟨S_, .f32⟩
  | 63 => ⟨S100000x32, .f32⟩
  | 64 => ⟨S1600000x1, .i32⟩
  | 65 => ⟨S100000x32, .f32⟩
  | 66 => ⟨S100000x32, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x32, .f32⟩
  | 76 => ⟨S1600000x1, .f32⟩
  | 77 => ⟨S1600000x32, .f32⟩
  | 78 => ⟨S1600000x32, .f32⟩
  | 79 => ⟨S_, .f32⟩
  | 80 => ⟨S100000x32, .f32⟩
  | 81 => ⟨S1600000x1, .i32⟩
  | 82 => ⟨S100000x32, .f32⟩
  | 83 => ⟨S100000x32, .f32⟩
  | 84 => ⟨S100000x32, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x32, .f32⟩
  | 94 => ⟨S1600000x1, .f32⟩
  | 95 => ⟨S1600000x32, .f32⟩
  | 96 => ⟨S1600000x32, .f32⟩
  | 97 => ⟨S_, .f32⟩
  | 98 => ⟨S100000x32, .f32⟩
  | 99 => ⟨S1600000x1, .i32⟩
  | 100 => ⟨S100000x32, .f32⟩
  | 101 => ⟨S100000x32, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x32, .f32⟩
  | 111 => ⟨S1600000x1, .f32⟩
  | 112 => ⟨S1600000x32, .f32⟩
  | 113 => ⟨S1600000x32, .f32⟩
  | 114 => ⟨S_, .f32⟩
  | 115 => ⟨S100000x32, .f32⟩
  | 116 => ⟨S1600000x1, .i32⟩
  | 117 => ⟨S100000x32, .f32⟩
  | 118 => ⟨S100000x32, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x32, .f32⟩
  | _ => ⟨S100000x32, .f32⟩

abbrev hbmTy0_2 (i : Nat) : BufTy := match i % 128 with
  | 0 => ⟨S1600000x1, .f32⟩
  | 1 => ⟨S1600000x32, .f32⟩
  | 2 => ⟨S1600000x32, .f32⟩
  | 3 => ⟨S_, .f32⟩
  | 4 => ⟨S100000x32, .f32⟩
  | 5 => ⟨S1600000x1, .i32⟩
  | 6 => ⟨S100000x32, .f32⟩
  | 7 => ⟨S100000x32, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x32, .f32⟩
  | 17 => ⟨S1600000x1, .f32⟩
  | 18 => ⟨S1600000x32, .f32⟩
  | 19 => ⟨S1600000x32, .f32⟩
  | 20 => ⟨S_, .f32⟩
  | 21 => ⟨S100000x32, .f32⟩
  | 22 => ⟨S1600000x1, .i32⟩
  | 23 => ⟨S100000x32, .f32⟩
  | 24 => ⟨S100000x32, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x32, .f32⟩
  | 34 => ⟨S1600000x1, .f32⟩
  | 35 => ⟨S1600000x32, .f32⟩
  | 36 => ⟨S1600000x32, .f32⟩
  | 37 => ⟨S_, .f32⟩
  | 38 => ⟨S100000x32, .f32⟩
  | 39 => ⟨S1600000x1, .i32⟩
  | 40 => ⟨S100000x32, .f32⟩
  | 41 => ⟨S100000x32, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x32, .f32⟩
  | 51 => ⟨S1600000x1, .f32⟩
  | 52 => ⟨S1600000x32, .f32⟩
  | 53 => ⟨S1600000x32, .f32⟩
  | 54 => ⟨S_, .f32⟩
  | 55 => ⟨S100000x32, .f32⟩
  | 56 => ⟨S1600000x1, .i32⟩
  | 57 => ⟨S100000x32, .f32⟩
  | 58 => ⟨S100000x32, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x32, .f32⟩
  | 68 => ⟨S1600000x1, .f32⟩
  | 69 => ⟨S1600000x32, .f32⟩
  | 70 => ⟨S1600000x32, .f32⟩
  | 71 => ⟨S_, .f32⟩
  | 72 => ⟨S100000x32, .f32⟩
  | 73 => ⟨S1600000x1, .i32⟩
  | 74 => ⟨S100000x32, .f32⟩
  | 75 => ⟨S100000x32, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x32, .f32⟩
  | 85 => ⟨S1600000x1, .f32⟩
  | 86 => ⟨S1600000x32, .f32⟩
  | 87 => ⟨S1600000x32, .f32⟩
  | 88 => ⟨S_, .f32⟩
  | 89 => ⟨S100000x32, .f32⟩
  | 90 => ⟨S1600000x1, .i32⟩
  | 91 => ⟨S100000x32, .f32⟩
  | 92 => ⟨S100000x32, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x32, .f32⟩
  | 102 => ⟨S1600000x1, .f32⟩
  | 103 => ⟨S1600000x32, .f32⟩
  | 104 => ⟨S1600000x32, .f32⟩
  | 105 => ⟨S_, .f32⟩
  | 106 => ⟨S100000x32, .f32⟩
  | 107 => ⟨S1600000x1, .i32⟩
  | 108 => ⟨S100000x32, .f32⟩
  | 109 => ⟨S100000x32, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x32, .f32⟩
  | 119 => ⟨S1600000x1, .f32⟩
  | 120 => ⟨S1600000x32, .f32⟩
  | 121 => ⟨S1600000x32, .f32⟩
  | 122 => ⟨S_, .f32⟩
  | 123 => ⟨S100000x32, .f32⟩
  | 124 => ⟨S1600000x1, .i32⟩
  | 125 => ⟨S100000x32, .f32⟩
  | 126 => ⟨S100000x32, .f32⟩
  | 127 => ⟨S100000x16, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev vmemTy0_0 (i : Nat) : BufTy := match i % 128 with
  | 0 => ⟨S2000x32, .f32⟩
  | 1 => ⟨S2000x32, .f32⟩
  | 2 => ⟨S2000x32, .f32⟩
  | 3 => ⟨S2000x32, .f32⟩
  | 4 => ⟨S2000x32, .f32⟩
  | 5 => ⟨S2000x32, .f32⟩
  | 6 => ⟨S2000x32, .f32⟩
  | 7 => ⟨S2000x32, .f32⟩
  | 8 => ⟨S2000x32, .f32⟩
  | 9 => ⟨S2000x32, .f32⟩
  | 10 => ⟨S2000x32, .f32⟩
  | 11 => ⟨S2000x32, .f32⟩
  | 12 => ⟨S2000x32, .f32⟩
  | 13 => ⟨S2000x32, .f32⟩
  | 14 => ⟨S2000x32, .f32⟩
  | 15 => ⟨S2000x32, .f32⟩
  | 16 => ⟨S2000x32, .f32⟩
  | 17 => ⟨S2000x32, .f32⟩
  | 18 => ⟨S2000x32, .f32⟩
  | 19 => ⟨S2000x32, .f32⟩
  | 20 => ⟨S2000x32, .f32⟩
  | 21 => ⟨S2000x32, .f32⟩
  | 22 => ⟨S2000x32, .f32⟩
  | 23 => ⟨S2000x32, .f32⟩
  | 24 => ⟨S2000x32, .f32⟩
  | 25 => ⟨S2000x32, .f32⟩
  | 26 => ⟨S2000x32, .f32⟩
  | 27 => ⟨S2000x32, .f32⟩
  | 28 => ⟨S2000x32, .f32⟩
  | 29 => ⟨S2000x32, .f32⟩
  | 30 => ⟨S2000x32, .f32⟩
  | 31 => ⟨S2000x32, .f32⟩
  | 32 => ⟨S2000x32, .f32⟩
  | 33 => ⟨S2000x32, .f32⟩
  | 34 => ⟨S2000x32, .f32⟩
  | 35 => ⟨S2000x32, .f32⟩
  | 36 => ⟨S2000x32, .f32⟩
  | 37 => ⟨S2000x32, .f32⟩
  | 38 => ⟨S2000x32, .f32⟩
  | 39 => ⟨S2000x32, .f32⟩
  | 40 => ⟨S2000x32, .f32⟩
  | 41 => ⟨S2000x32, .f32⟩
  | 42 => ⟨S2000x32, .f32⟩
  | 43 => ⟨S2000x32, .f32⟩
  | 44 => ⟨S2000x32, .f32⟩
  | 45 => ⟨S2000x32, .f32⟩
  | 46 => ⟨S2000x32, .f32⟩
  | 47 => ⟨S2000x32, .f32⟩
  | 48 => ⟨S2000x32, .f32⟩
  | 49 => ⟨S2000x32, .f32⟩
  | 50 => ⟨S2000x32, .f32⟩
  | 51 => ⟨S2000x32, .f32⟩
  | 52 => ⟨S2000x32, .f32⟩
  | 53 => ⟨S2000x32, .f32⟩
  | 54 => ⟨S2000x32, .f32⟩
  | 55 => ⟨S2000x32, .f32⟩
  | 56 => ⟨S2000x32, .f32⟩
  | 57 => ⟨S2000x32, .f32⟩
  | 58 => ⟨S2000x32, .f32⟩
  | 59 => ⟨S2000x32, .f32⟩
  | 60 => ⟨S400x32, .f32⟩
  | 61 => ⟨S400x32, .f32⟩
  | 62 => ⟨S32x6, .f32⟩
  | 63 => ⟨S7x9, .f32⟩
  | 64 => ⟨S9, .f32⟩
  | 65 => ⟨S9x1, .f32⟩
  | 66 => ⟨S1, .f32⟩
  | 67 => ⟨S400x32, .f32⟩
  | 68 => ⟨S400x32, .f32⟩
  | 69 => ⟨S2000x32, .f32⟩
  | 70 => ⟨S2000x32, .f32⟩
  | 71 => ⟨S2000x32, .f32⟩
  | 72 => ⟨S2000x32, .f32⟩
  | 73 => ⟨S2000x32, .f32⟩
  | 74 => ⟨S2000x32, .f32⟩
  | 75 => ⟨S2000x32, .f32⟩
  | 76 => ⟨S2000x32, .f32⟩
  | 77 => ⟨S2000x32, .f32⟩
  | 78 => ⟨S2000x32, .f32⟩
  | 79 => ⟨S2000x32, .f32⟩
  | 80 => ⟨S2000x32, .f32⟩
  | 81 => ⟨S2000x32, .f32⟩
  | 82 => ⟨S2000x32, .f32⟩
  | 83 => ⟨S2000x32, .f32⟩
  | 84 => ⟨S2000x32, .f32⟩
  | 85 => ⟨S2000x32, .f32⟩
  | 86 => ⟨S2000x32, .f32⟩
  | 87 => ⟨S2000x32, .f32⟩
  | 88 => ⟨S2000x32, .f32⟩
  | 89 => ⟨S2000x32, .f32⟩
  | 90 => ⟨S2000x32, .f32⟩
  | 91 => ⟨S2000x32, .f32⟩
  | 92 => ⟨S2000x32, .f32⟩
  | 93 => ⟨S2000x32, .f32⟩
  | 94 => ⟨S2000x32, .f32⟩
  | 95 => ⟨S2000x32, .f32⟩
  | 96 => ⟨S2000x32, .f32⟩
  | 97 => ⟨S2000x32, .f32⟩
  | 98 => ⟨S2000x32, .f32⟩
  | 99 => ⟨S2000x32, .f32⟩
  | 100 => ⟨S2000x32, .f32⟩
  | 101 => ⟨S2000x32, .f32⟩
  | 102 => ⟨S2000x32, .f32⟩
  | 103 => ⟨S2000x32, .f32⟩
  | 104 => ⟨S2000x32, .f32⟩
  | 105 => ⟨S2000x32, .f32⟩
  | 106 => ⟨S2000x32, .f32⟩
  | 107 => ⟨S2000x32, .f32⟩
  | 108 => ⟨S2000x32, .f32⟩
  | 109 => ⟨S2000x32, .f32⟩
  | 110 => ⟨S2000x32, .f32⟩
  | 111 => ⟨S2000x32, .f32⟩
  | 112 => ⟨S2000x32, .f32⟩
  | 113 => ⟨S2000x32, .f32⟩
  | 114 => ⟨S2000x32, .f32⟩
  | 115 => ⟨S2000x32, .f32⟩
  | 116 => ⟨S2000x32, .f32⟩
  | 117 => ⟨S2000x32, .f32⟩
  | 118 => ⟨S2000x32, .f32⟩
  | 119 => ⟨S2000x32, .f32⟩
  | 120 => ⟨S2000x32, .f32⟩
  | 121 => ⟨S2000x32, .f32⟩
  | 122 => ⟨S2000x32, .f32⟩
  | 123 => ⟨S2000x32, .f32⟩
  | 124 => ⟨S2000x32, .f32⟩
  | 125 => ⟨S2000x32, .f32⟩
  | 126 => ⟨S2000x32, .f32⟩
  | 127 => ⟨S2000x32, .f32⟩
  | _ => ⟨S100000x32, .f32⟩

abbrev vmemTy0_1 (i : Nat) : BufTy := match i % 128 with
  | 0 => ⟨S2000x32, .f32⟩
  | 1 => ⟨S2000x32, .f32⟩
  | 2 => ⟨S2000x32, .f32⟩
  | 3 => ⟨S32x16, .f32⟩
  | 4 => ⟨S16, .f32⟩
  | 5 => ⟨S2000x16, .f32⟩
  | 6 => ⟨S2000x16, .f32⟩
  | _ => ⟨S100000x32, .f32⟩

abbrev vmemTy (i : Nat) : BufTy := match i / 128 with
  | 0 => vmemTy0_0 i
  | 1 => vmemTy0_1 i
  | _ => ⟨S100000x32, .f32⟩

abbrev bufTy : (tb : Table) → Fin (tcTables nBuf tb) → BufTy
  | .hbm, ⟨i, _⟩ => hbmTy i
  | .local _ .vmem, ⟨i, _⟩ => vmemTy i
  | _, _ => ⟨S100000x32, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 135 → Bool
  | ⟨i, _⟩ => dmaSemScopedAt i

abbrev sig : RefSig :=
  ofTc nBuf bufTy 0 135 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_c_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_14 : Ref sig .tc := ⟨.hbm, 93, rfl⟩
abbrev main_v68 : Ref sig .tc := ⟨.hbm, 94, rfl⟩
abbrev main_v69 : Ref sig .tc := ⟨.hbm, 95, rfl⟩
abbrev main_c_15 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_17 : Ref sig .tc := ⟨.hbm, 110, rfl⟩
abbrev main_v82 : Ref sig .tc := ⟨.hbm, 111, rfl⟩
abbrev main_v83 : Ref sig .tc := ⟨.hbm, 112, rfl⟩
abbrev main_c_18 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_20 : Ref sig .tc := ⟨.hbm, 127, rfl⟩
abbrev main_v96 : Ref sig .tc := ⟨.hbm, 128, rfl⟩
abbrev main_v97 : Ref sig .tc := ⟨.hbm, 129, rfl⟩
abbrev main_c_21 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_22 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_c_23 : Ref sig .tc := ⟨.hbm, 144, rfl⟩
abbrev main_v110 : Ref sig .tc := ⟨.hbm, 145, rfl⟩
abbrev main_v111 : Ref sig .tc := ⟨.hbm, 146, rfl⟩
abbrev main_c_24 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_25 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_c_26 : Ref sig .tc := ⟨.hbm, 161, rfl⟩
abbrev main_v124 : Ref sig .tc := ⟨.hbm, 162, rfl⟩
abbrev main_v125 : Ref sig .tc := ⟨.hbm, 163, rfl⟩
abbrev main_c_27 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_28 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_c_29 : Ref sig .tc := ⟨.hbm, 178, rfl⟩
abbrev main_v138 : Ref sig .tc := ⟨.hbm, 179, rfl⟩
abbrev main_v139 : Ref sig .tc := ⟨.hbm, 180, rfl⟩
abbrev main_c_30 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_31 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_c_32 : Ref sig .tc := ⟨.hbm, 195, rfl⟩
abbrev main_v152 : Ref sig .tc := ⟨.hbm, 196, rfl⟩
abbrev main_v153 : Ref sig .tc := ⟨.hbm, 197, rfl⟩
abbrev main_c_33 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_34 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_c_35 : Ref sig .tc := ⟨.hbm, 213, rfl⟩
abbrev main_v167 : Ref sig .tc := ⟨.hbm, 214, rfl⟩
abbrev main_v168 : Ref sig .tc := ⟨.hbm, 215, rfl⟩
abbrev main_c_36 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_cst_37 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_c_38 : Ref sig .tc := ⟨.hbm, 230, rfl⟩
abbrev main_v181 : Ref sig .tc := ⟨.hbm, 231, rfl⟩
abbrev main_v182 : Ref sig .tc := ⟨.hbm, 232, rfl⟩
abbrev main_c_39 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_cst_40 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_c_41 : Ref sig .tc := ⟨.hbm, 247, rfl⟩
abbrev main_v195 : Ref sig .tc := ⟨.hbm, 248, rfl⟩
abbrev main_v196 : Ref sig .tc := ⟨.hbm, 249, rfl⟩
abbrev main_c_42 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_cst_43 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_c_44 : Ref sig .tc := ⟨.hbm, 264, rfl⟩
abbrev main_v209 : Ref sig .tc := ⟨.hbm, 265, rfl⟩
abbrev main_v210 : Ref sig .tc := ⟨.hbm, 266, rfl⟩
abbrev main_c_45 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_cst_46 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_c_47 : Ref sig .tc := ⟨.hbm, 281, rfl⟩
abbrev main_v223 : Ref sig .tc := ⟨.hbm, 282, rfl⟩
abbrev main_v224 : Ref sig .tc := ⟨.hbm, 283, rfl⟩
abbrev main_c_48 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_cst_49 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_c_50 : Ref sig .tc := ⟨.hbm, 298, rfl⟩
abbrev main_v237 : Ref sig .tc := ⟨.hbm, 299, rfl⟩
abbrev main_v238 : Ref sig .tc := ⟨.hbm, 300, rfl⟩
abbrev main_c_51 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_cst_52 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_c_53 : Ref sig .tc := ⟨.hbm, 315, rfl⟩
abbrev main_v251 : Ref sig .tc := ⟨.hbm, 316, rfl⟩
abbrev main_v252 : Ref sig .tc := ⟨.hbm, 317, rfl⟩
abbrev main_c_54 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_cst_55 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_c_56 : Ref sig .tc := ⟨.hbm, 332, rfl⟩
abbrev main_v265 : Ref sig .tc := ⟨.hbm, 333, rfl⟩
abbrev main_v266 : Ref sig .tc := ⟨.hbm, 334, rfl⟩
abbrev main_c_57 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_cst_58 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_c_59 : Ref sig .tc := ⟨.hbm, 349, rfl⟩
abbrev main_v279 : Ref sig .tc := ⟨.hbm, 350, rfl⟩
abbrev main_v280 : Ref sig .tc := ⟨.hbm, 351, rfl⟩
abbrev main_c_60 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_cst_61 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩
abbrev main_c_62 : Ref sig .tc := ⟨.hbm, 366, rfl⟩
abbrev main_v293 : Ref sig .tc := ⟨.hbm, 367, rfl⟩
abbrev main_v294 : Ref sig .tc := ⟨.hbm, 368, rfl⟩
abbrev main_c_63 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_v298 : Ref sig .tc := ⟨.hbm, 373, rfl⟩
abbrev main_v299 : Ref sig .tc := ⟨.hbm, 374, rfl⟩
abbrev main_v300 : Ref sig .tc := ⟨.hbm, 375, rfl⟩
abbrev main_v301 : Ref sig .tc := ⟨.hbm, 376, rfl⟩
abbrev main_v302 : Ref sig .tc := ⟨.hbm, 377, rfl⟩
abbrev main_cst_64 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_v306 : Ref sig .tc := ⟨.hbm, 382, rfl⟩
abbrev main_v307 : Ref sig .tc := ⟨.hbm, 383, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg2_0 : Ref sig .tc := ⟨.vmem, 63, rfl⟩
abbrev cc10_stg3_0 : Ref sig .tc := ⟨.vmem, 64, rfl⟩
abbrev cc10_stg4_0 : Ref sig .tc := ⟨.vmem, 65, rfl⟩
abbrev cc10_stg5_0 : Ref sig .tc := ⟨.vmem, 66, rfl⟩
abbrev cc10_stg6_0 : Ref sig .tc := ⟨.vmem, 67, rfl⟩
abbrev cc10_stg6_1 : Ref sig .tc := ⟨.vmem, 68, rfl⟩
abbrev cc11_stg0_0 : Ref sig .tc := ⟨.vmem, 69, rfl⟩
abbrev cc11_stg0_1 : Ref sig .tc := ⟨.vmem, 70, rfl⟩
abbrev cc11_stg1_0 : Ref sig .tc := ⟨.vmem, 71, rfl⟩
abbrev cc11_stg1_1 : Ref sig .tc := ⟨.vmem, 72, rfl⟩
abbrev cc11_stg2_0 : Ref sig .tc := ⟨.vmem, 73, rfl⟩
abbrev cc11_stg2_1 : Ref sig .tc := ⟨.vmem, 74, rfl⟩
abbrev cc12_stg0_0 : Ref sig .tc := ⟨.vmem, 75, rfl⟩
abbrev cc12_stg0_1 : Ref sig .tc := ⟨.vmem, 76, rfl⟩
abbrev cc12_stg1_0 : Ref sig .tc := ⟨.vmem, 77, rfl⟩
abbrev cc12_stg1_1 : Ref sig .tc := ⟨.vmem, 78, rfl⟩
abbrev cc12_stg2_0 : Ref sig .tc := ⟨.vmem, 79, rfl⟩
abbrev cc12_stg2_1 : Ref sig .tc := ⟨.vmem, 80, rfl⟩
abbrev cc13_stg0_0 : Ref sig .tc := ⟨.vmem, 81, rfl⟩
abbrev cc13_stg0_1 : Ref sig .tc := ⟨.vmem, 82, rfl⟩
abbrev cc13_stg1_0 : Ref sig .tc := ⟨.vmem, 83, rfl⟩
abbrev cc13_stg1_1 : Ref sig .tc := ⟨.vmem, 84, rfl⟩
abbrev cc13_stg2_0 : Ref sig .tc := ⟨.vmem, 85, rfl⟩
abbrev cc13_stg2_1 : Ref sig .tc := ⟨.vmem, 86, rfl⟩
abbrev cc14_stg0_0 : Ref sig .tc := ⟨.vmem, 87, rfl⟩
abbrev cc14_stg0_1 : Ref sig .tc := ⟨.vmem, 88, rfl⟩
abbrev cc14_stg1_0 : Ref sig .tc := ⟨.vmem, 89, rfl⟩
abbrev cc14_stg1_1 : Ref sig .tc := ⟨.vmem, 90, rfl⟩
abbrev cc14_stg2_0 : Ref sig .tc := ⟨.vmem, 91, rfl⟩
abbrev cc14_stg2_1 : Ref sig .tc := ⟨.vmem, 92, rfl⟩
abbrev cc15_stg0_0 : Ref sig .tc := ⟨.vmem, 93, rfl⟩
abbrev cc15_stg0_1 : Ref sig .tc := ⟨.vmem, 94, rfl⟩
abbrev cc15_stg1_0 : Ref sig .tc := ⟨.vmem, 95, rfl⟩
abbrev cc15_stg1_1 : Ref sig .tc := ⟨.vmem, 96, rfl⟩
abbrev cc15_stg2_0 : Ref sig .tc := ⟨.vmem, 97, rfl⟩
abbrev cc15_stg2_1 : Ref sig .tc := ⟨.vmem, 98, rfl⟩
abbrev cc16_stg0_0 : Ref sig .tc := ⟨.vmem, 99, rfl⟩
abbrev cc16_stg0_1 : Ref sig .tc := ⟨.vmem, 100, rfl⟩
abbrev cc16_stg1_0 : Ref sig .tc := ⟨.vmem, 101, rfl⟩
abbrev cc16_stg1_1 : Ref sig .tc := ⟨.vmem, 102, rfl⟩
abbrev cc16_stg2_0 : Ref sig .tc := ⟨.vmem, 103, rfl⟩
abbrev cc16_stg2_1 : Ref sig .tc := ⟨.vmem, 104, rfl⟩
abbrev cc17_stg0_0 : Ref sig .tc := ⟨.vmem, 105, rfl⟩
abbrev cc17_stg0_1 : Ref sig .tc := ⟨.vmem, 106, rfl⟩
abbrev cc17_stg1_0 : Ref sig .tc := ⟨.vmem, 107, rfl⟩
abbrev cc17_stg1_1 : Ref sig .tc := ⟨.vmem, 108, rfl⟩
abbrev cc17_stg2_0 : Ref sig .tc := ⟨.vmem, 109, rfl⟩
abbrev cc17_stg2_1 : Ref sig .tc := ⟨.vmem, 110, rfl⟩
abbrev cc18_stg0_0 : Ref sig .tc := ⟨.vmem, 111, rfl⟩
abbrev cc18_stg0_1 : Ref sig .tc := ⟨.vmem, 112, rfl⟩
abbrev cc18_stg1_0 : Ref sig .tc := ⟨.vmem, 113, rfl⟩
abbrev cc18_stg1_1 : Ref sig .tc := ⟨.vmem, 114, rfl⟩
abbrev cc18_stg2_0 : Ref sig .tc := ⟨.vmem, 115, rfl⟩
abbrev cc18_stg2_1 : Ref sig .tc := ⟨.vmem, 116, rfl⟩
abbrev cc19_stg0_0 : Ref sig .tc := ⟨.vmem, 117, rfl⟩
abbrev cc19_stg0_1 : Ref sig .tc := ⟨.vmem, 118, rfl⟩
abbrev cc19_stg1_0 : Ref sig .tc := ⟨.vmem, 119, rfl⟩
abbrev cc19_stg1_1 : Ref sig .tc := ⟨.vmem, 120, rfl⟩
abbrev cc19_stg2_0 : Ref sig .tc := ⟨.vmem, 121, rfl⟩
abbrev cc19_stg2_1 : Ref sig .tc := ⟨.vmem, 122, rfl⟩
abbrev cc20_stg0_0 : Ref sig .tc := ⟨.vmem, 123, rfl⟩
abbrev cc20_stg0_1 : Ref sig .tc := ⟨.vmem, 124, rfl⟩
abbrev cc20_stg1_0 : Ref sig .tc := ⟨.vmem, 125, rfl⟩
abbrev cc20_stg1_1 : Ref sig .tc := ⟨.vmem, 126, rfl⟩
abbrev cc20_stg2_0 : Ref sig .tc := ⟨.vmem, 127, rfl⟩
abbrev cc20_stg2_1 : Ref sig .tc := ⟨.vmem, 128, rfl⟩
abbrev cc21_stg0_0 : Ref sig .tc := ⟨.vmem, 129, rfl⟩
abbrev cc21_stg0_1 : Ref sig .tc := ⟨.vmem, 130, rfl⟩
abbrev cc21_stg1_0 : Ref sig .tc := ⟨.vmem, 131, rfl⟩
abbrev cc21_stg2_0 : Ref sig .tc := ⟨.vmem, 132, rfl⟩
abbrev cc21_stg3_0 : Ref sig .tc := ⟨.vmem, 133, rfl⟩
abbrev cc21_stg3_1 : Ref sig .tc := ⟨.vmem, 134, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem2_0 : DmaSem sig := 63
abbrev cc10_sem3_0 : DmaSem sig := 64
abbrev cc10_sem4_0 : DmaSem sig := 65
abbrev cc10_sem5_0 : DmaSem sig := 66
abbrev cc10_sem6_0 : DmaSem sig := 67
abbrev cc10_sem6_1 : DmaSem sig := 68
abbrev cc11_sem0_0 : DmaSem sig := 69
abbrev cc11_sem0_1 : DmaSem sig := 70
abbrev cc11_sem1_0 : DmaSem sig := 71
abbrev cc11_sem1_1 : DmaSem sig := 72
abbrev cc11_sem2_0 : DmaSem sig := 73
abbrev cc11_sem2_1 : DmaSem sig := 74
abbrev cc12_sem0_0 : DmaSem sig := 75
abbrev cc12_sem0_1 : DmaSem sig := 76
abbrev cc12_sem1_0 : DmaSem sig := 77
abbrev cc12_sem1_1 : DmaSem sig := 78
abbrev cc12_sem2_0 : DmaSem sig := 79
abbrev cc12_sem2_1 : DmaSem sig := 80
abbrev cc13_sem0_0 : DmaSem sig := 81
abbrev cc13_sem0_1 : DmaSem sig := 82
abbrev cc13_sem1_0 : DmaSem sig := 83
abbrev cc13_sem1_1 : DmaSem sig := 84
abbrev cc13_sem2_0 : DmaSem sig := 85
abbrev cc13_sem2_1 : DmaSem sig := 86
abbrev cc14_sem0_0 : DmaSem sig := 87
abbrev cc14_sem0_1 : DmaSem sig := 88
abbrev cc14_sem1_0 : DmaSem sig := 89
abbrev cc14_sem1_1 : DmaSem sig := 90
abbrev cc14_sem2_0 : DmaSem sig := 91
abbrev cc14_sem2_1 : DmaSem sig := 92
abbrev cc15_sem0_0 : DmaSem sig := 93
abbrev cc15_sem0_1 : DmaSem sig := 94
abbrev cc15_sem1_0 : DmaSem sig := 95
abbrev cc15_sem1_1 : DmaSem sig := 96
abbrev cc15_sem2_0 : DmaSem sig := 97
abbrev cc15_sem2_1 : DmaSem sig := 98
abbrev cc16_sem0_0 : DmaSem sig := 99
abbrev cc16_sem0_1 : DmaSem sig := 100
abbrev cc16_sem1_0 : DmaSem sig := 101
abbrev cc16_sem1_1 : DmaSem sig := 102
abbrev cc16_sem2_0 : DmaSem sig := 103
abbrev cc16_sem2_1 : DmaSem sig := 104
abbrev cc17_sem0_0 : DmaSem sig := 105
abbrev cc17_sem0_1 : DmaSem sig := 106
abbrev cc17_sem1_0 : DmaSem sig := 107
abbrev cc17_sem1_1 : DmaSem sig := 108
abbrev cc17_sem2_0 : DmaSem sig := 109
abbrev cc17_sem2_1 : DmaSem sig := 110
abbrev cc18_sem0_0 : DmaSem sig := 111
abbrev cc18_sem0_1 : DmaSem sig := 112
abbrev cc18_sem1_0 : DmaSem sig := 113
abbrev cc18_sem1_1 : DmaSem sig := 114
abbrev cc18_sem2_0 : DmaSem sig := 115
abbrev cc18_sem2_1 : DmaSem sig := 116
abbrev cc19_sem0_0 : DmaSem sig := 117
abbrev cc19_sem0_1 : DmaSem sig := 118
abbrev cc19_sem1_0 : DmaSem sig := 119
abbrev cc19_sem1_1 : DmaSem sig := 120
abbrev cc19_sem2_0 : DmaSem sig := 121
abbrev cc19_sem2_1 : DmaSem sig := 122
abbrev cc20_sem0_0 : DmaSem sig := 123
abbrev cc20_sem0_1 : DmaSem sig := 124
abbrev cc20_sem1_0 : DmaSem sig := 125
abbrev cc20_sem1_1 : DmaSem sig := 126
abbrev cc20_sem2_0 : DmaSem sig := 127
abbrev cc20_sem2_1 : DmaSem sig := 128
abbrev cc21_sem0_0 : DmaSem sig := 129
abbrev cc21_sem0_1 : DmaSem sig := 130
abbrev cc21_sem1_0 : DmaSem sig := 131
abbrev cc21_sem2_0 : DmaSem sig := 132
abbrev cc21_sem3_0 : DmaSem sig := 133
abbrev cc21_sem3_1 : DmaSem sig := 134

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x32 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![250], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S400x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x6 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S7x9 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S9 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S9x1 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S400x32 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x32 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x32 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x32 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x32 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S2000x32 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x32 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x32 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S2000x32 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x32 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S2000x32 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S2000x32 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x32 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S2000x32 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S2000x32 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![50], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2000x32 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S2000x32 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S2000x32 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![50], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2000x32 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S2000x32 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S2000x32 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![50], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S2000x32 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S2000x32 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S2000x32 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![50], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S2000x32 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S2000x32 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S2000x32 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![50], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S2000x32 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S2000x32 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S2000x32 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev grid21 : Pipeline.Grid := ⟨1, ![50], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 1 → Nat :=
  let arg0 : BitVec 32 := BitVec.ofNat 32 (i 0).val
  let c0_i32 : BitVec 32 := 0#32
  let c0_i32_0 : BitVec 32 := 0#32
  ![c0_i32.toNat]

def cc21_transform_3 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S2000x32 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S32x16 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S16 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 2 → Memref sig .tc .vmem S2000x16 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S400x32_S400x32_0_0 : ∀ a, (![0, 0] : Fin 2 → Nat) a + S400x32.size a ≤ S400x32.size a
  h_S400x32 : 0 < S400x32.numel
  shapeCasts_S400x32_S400x32 : S400x32.ShapeCasts S400x32
  inb_S32x6_S32x6_0_0 : ∀ a, (![0, 0] : Fin 2 → Nat) a + S32x6.size a ≤ S32x6.size a
  h_S32x6 : 0 < S32x6.numel
  inb_S7x9_S7x9_0_0 : ∀ a, (![0, 0] : Fin 2 → Nat) a + S7x9.size a ≤ S7x9.size a
  h_S7x9 : 0 < S7x9.numel
  inb_S9_S9_0 : ∀ a, (![0] : Fin 1 → Nat) a + S9.size a ≤ S9.size a
  h_S9 : 0 < S9.numel
  inb_S9x1_S9x1_0_0 : ∀ a, (![0, 0] : Fin 2 → Nat) a + S9x1.size a ≤ S9x1.size a
  h_S9x1 : 0 < S9x1.numel
  inb_S1_S1_0 : ∀ a, (![0] : Fin 1 → Nat) a + S1.size a ≤ S1.size a
  h_S1 : 0 < S1.numel
  slices_S7x9_o0_0_S1x9 : S7x9.Slices ![0, 0] S1x9
  shapeCasts_S1x9_S9 : S1x9.ShapeCasts S9
  slices_S7x9_o1_0_S6x9 : S7x9.Slices ![1, 0] S6x9
  bitsLt_bf16_f32 : FTy.bits .bf16 < FTy.bits .f32
  shapeCasts_S9_S1x9 : S9.ShapeCasts S1x9
  broadcasts_S1x9_S32x9 : S1x9.Broadcasts S32x9
  slices_S400x32_o0_0_S400x1 : S400x32.Slices ![0, 0] S400x1
  broadcasts_S400x1_S400x9 : S400x1.Broadcasts S400x9
  broadcasts_S1x9_S400x9 : S1x9.Broadcasts S400x9
  slices_S32x9_o0_0_S1x9 : S32x9.Slices ![0, 0] S1x9
  shapeCasts_S1_S1x1 : S1.ShapeCasts S1x1
  broadcasts_S1x1_S400x1 : S1x1.Broadcasts S400x1
  slices_S400x32_o0_1_S400x1 : S400x32.Slices ![0, 1] S400x1
  slices_S32x9_o1_0_S1x9 : S32x9.Slices ![1, 0] S1x9
  slices_S400x32_o0_2_S400x1 : S400x32.Slices ![0, 2] S400x1
  slices_S32x9_o2_0_S1x9 : S32x9.Slices ![2, 0] S1x9
  slices_S400x32_o0_3_S400x1 : S400x32.Slices ![0, 3] S400x1
  slices_S32x9_o3_0_S1x9 : S32x9.Slices ![3, 0] S1x9
  slices_S400x32_o0_4_S400x1 : S400x32.Slices ![0, 4] S400x1
  slices_S32x9_o4_0_S1x9 : S32x9.Slices ![4, 0] S1x9
  slices_S400x32_o0_5_S400x1 : S400x32.Slices ![0, 5] S400x1
  slices_S32x9_o5_0_S1x9 : S32x9.Slices ![5, 0] S1x9
  slices_S400x32_o0_6_S400x1 : S400x32.Slices ![0, 6] S400x1
  slices_S32x9_o6_0_S1x9 : S32x9.Slices ![6, 0] S1x9
  slices_S400x32_o0_7_S400x1 : S400x32.Slices ![0, 7] S400x1
  slices_S32x9_o7_0_S1x9 : S32x9.Slices ![7, 0] S1x9
  slices_S400x32_o0_8_S400x1 : S400x32.Slices ![0, 8] S400x1
  slices_S32x9_o8_0_S1x9 : S32x9.Slices ![8, 0] S1x9
  slices_S400x32_o0_9_S400x1 : S400x32.Slices ![0, 9] S400x1
  slices_S32x9_o9_0_S1x9 : S32x9.Slices ![9, 0] S1x9
  slices_S400x32_o0_10_S400x1 : S400x32.Slices ![0, 10] S400x1
  slices_S32x9_o10_0_S1x9 : S32x9.Slices ![10, 0] S1x9
  slices_S400x32_o0_11_S400x1 : S400x32.Slices ![0, 11] S400x1
  slices_S32x9_o11_0_S1x9 : S32x9.Slices ![11, 0] S1x9
  slices_S400x32_o0_12_S400x1 : S400x32.Slices ![0, 12] S400x1
  slices_S32x9_o12_0_S1x9 : S32x9.Slices ![12, 0] S1x9
  slices_S400x32_o0_13_S400x1 : S400x32.Slices ![0, 13] S400x1
  slices_S32x9_o13_0_S1x9 : S32x9.Slices ![13, 0] S1x9
  slices_S400x32_o0_14_S400x1 : S400x32.Slices ![0, 14] S400x1
  slices_S32x9_o14_0_S1x9 : S32x9.Slices ![14, 0] S1x9
  slices_S400x32_o0_15_S400x1 : S400x32.Slices ![0, 15] S400x1
  slices_S32x9_o15_0_S1x9 : S32x9.Slices ![15, 0] S1x9
  slices_S400x32_o0_16_S400x1 : S400x32.Slices ![0, 16] S400x1
  slices_S32x9_o16_0_S1x9 : S32x9.Slices ![16, 0] S1x9
  slices_S400x32_o0_17_S400x1 : S400x32.Slices ![0, 17] S400x1
  slices_S32x9_o17_0_S1x9 : S32x9.Slices ![17, 0] S1x9
  slices_S400x32_o0_18_S400x1 : S400x32.Slices ![0, 18] S400x1
  slices_S32x9_o18_0_S1x9 : S32x9.Slices ![18, 0] S1x9
  slices_S400x32_o0_19_S400x1 : S400x32.Slices ![0, 19] S400x1
  slices_S32x9_o19_0_S1x9 : S32x9.Slices ![19, 0] S1x9
  slices_S400x32_o0_20_S400x1 : S400x32.Slices ![0, 20] S400x1
  slices_S32x9_o20_0_S1x9 : S32x9.Slices ![20, 0] S1x9
  slices_S400x32_o0_21_S400x1 : S400x32.Slices ![0, 21] S400x1
  slices_S32x9_o21_0_S1x9 : S32x9.Slices ![21, 0] S1x9
  slices_S400x32_o0_22_S400x1 : S400x32.Slices ![0, 22] S400x1
  slices_S32x9_o22_0_S1x9 : S32x9.Slices ![22, 0] S1x9
  slices_S400x32_o0_23_S400x1 : S400x32.Slices ![0, 23] S400x1
  slices_S32x9_o23_0_S1x9 : S32x9.Slices ![23, 0] S1x9
  slices_S400x32_o0_24_S400x1 : S400x32.Slices ![0, 24] S400x1
  slices_S32x9_o24_0_S1x9 : S32x9.Slices ![24, 0] S1x9
  slices_S400x32_o0_25_S400x1 : S400x32.Slices ![0, 25] S400x1
  slices_S32x9_o25_0_S1x9 : S32x9.Slices ![25, 0] S1x9
  slices_S400x32_o0_26_S400x1 : S400x32.Slices ![0, 26] S400x1
  slices_S32x9_o26_0_S1x9 : S32x9.Slices ![26, 0] S1x9
  slices_S400x32_o0_27_S400x1 : S400x32.Slices ![0, 27] S400x1
  slices_S32x9_o27_0_S1x9 : S32x9.Slices ![27, 0] S1x9
  slices_S400x32_o0_28_S400x1 : S400x32.Slices ![0, 28] S400x1
  slices_S32x9_o28_0_S1x9 : S32x9.Slices ![28, 0] S1x9
  slices_S400x32_o0_29_S400x1 : S400x32.Slices ![0, 29] S400x1
  slices_S32x9_o29_0_S1x9 : S32x9.Slices ![29, 0] S1x9
  slices_S400x32_o0_30_S400x1 : S400x32.Slices ![0, 30] S400x1
  slices_S32x9_o30_0_S1x9 : S32x9.Slices ![30, 0] S1x9
  slices_S400x32_o0_31_S400x1 : S400x32.Slices ![0, 31] S400x1
  slices_S32x9_o31_0_S1x9 : S32x9.Slices ![31, 0] S1x9
  concatenates_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x32_d1 : Shape.Concatenates [S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1] S400x32 1
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S32x6_S6x9_S32x9_1_0_0_1_n_n_wf : DotDims.WF S32x6 S6x9 S32x9 [1] [0] [0] [1] [] []
  dot_S400x9_S9x1_S400x1_1_0_0_1_n_n_wf : DotDims.WF S400x9 S9x1 S400x1 [1] [0] [0] [1] [] []
  dot_S2000x32_S32x16_S2000x16_1_0_0_1_n_n_wf : DotDims.WF S2000x32 S32x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S100000x32.size a
  hwx0_1 : ∀ i : grid0.Coords, EltTy.bits .f32 = 32 ∨ (Rect.block (s := S100000x32) S2000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S100000x32.size a
  hwx2_1 : ∀ i : grid2.Coords, EltTy.bits .f32 = 32 ∨ (Rect.block (s := S100000x32) S2000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x32.size a ≤ S100000x32.size a
  hwx3_1 : ∀ i : grid3.Coords, EltTy.bits .f32 = 32 ∨ (Rect.block (s := S100000x32) S2000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x32.size a ≤ S100000x32.size a
  hwx3_2 : ∀ i : grid3.Coords, EltTy.bits .f32 = 32 ∨ (Rect.block (s := S100000x32) S2000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x32.size a ≤ S100000x32.size a
  hwx4_1 : ∀ i : grid4.Coords, EltTy.bits .f32 = 32 ∨ (Rect.block (s := S100000x32) S2000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x32.size a ≤ S100000x32.size a
  hwx4_2 : ∀ i : grid4.Coords, EltTy.bits .f32 = 32 ∨ (Rect.block (s := S100000x32) S2000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x32.size a ≤ S100000x32.size a
  hwx5_1 : ∀ i : grid5.Coords, EltTy.bits .f32 = 32 ∨ (Rect.block (s := S100000x32) S2000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x32.size a ≤ S100000x32.size a
  hwx5_2 : ∀ i : grid5.Coords, EltTy.bits .f32 = 32 ∨ (Rect.block (s := S100000x32) S2000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x32.size a ≤ S100000x32.size a
  hwx6_0 : ∀ i : grid6.Coords, EltTy.bits .f32 = 32 ∨ (Rect.block (s := S100000x32) S2000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x32.size a ≤ S100000x32.size a
  hwx6_1 : ∀ i : grid6.Coords, EltTy.bits .f32 = 32 ∨ (Rect.block (s := S100000x32) S2000x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x32.size a ≤ S100000x32.size a
  hwx6_2 : ∀ i : grid6.Coords, EltTy.bits .f32 = 32 ∨ (Rect.block (s := S100000x32) S2000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x32.size a ≤ S100000x32.size a
  hwx7_0 : ∀ i : grid7.Coords, EltTy.bits .f32 = 32 ∨ (Rect.block (s := S100000x32) S2000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x32.size a ≤ S100000x32.size a
  hwx7_1 : ∀ i : grid7.Coords, EltTy.bits .f32 = 32 ∨ (Rect.block (s := S100000x32) S2000x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x32.size a ≤ S100000x32.size a
  hwx7_2 : ∀ i : grid7.Coords, EltTy.bits .f32 = 32 ∨ (Rect.block (s := S100000x32) S2000x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x32.size a ≤ S100000x32.size a
  hwx8_0 : ∀ i : grid8.Coords, EltTy.bits .f32 = 32 ∨ (Rect.block (s := S100000x32) S2000x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x32.size a ≤ S100000x32.size a
  hwx8_1 : ∀ i : grid8.Coords, EltTy.bits .f32 = 32 ∨ (Rect.block (s := S100000x32) S2000x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x32.size a ≤ S100000x32.size a
  hwx8_2 : ∀ i : grid8.Coords, EltTy.bits .f32 = 32 ∨ (Rect.block (s := S100000x32) S2000x32.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x32.size a ≤ S100000x32.size a
  hwx9_0 : ∀ i : grid9.Coords, EltTy.bits .f32 = 32 ∨ (Rect.block (s := S100000x32) S2000x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x32.size a ≤ S100000x32.size a
  hwx9_1 : ∀ i : grid9.Coords, EltTy.bits .f32 = 32 ∨ (Rect.block (s := S100000x32) S2000x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x32.size a ≤ S100000x32.size a
  hwx9_2 : ∀ i : grid9.Coords, EltTy.bits .f32 = 32 ∨ (Rect.block (s := S100000x32) S2000x32.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S400x32.size a ≤ S100000x32.size a
  hwx10_0 : ∀ i : grid10.Coords, EltTy.bits .f32 = 32 ∨ (Rect.block (s := S100000x32) S400x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x6.size a ≤ S32x6.size a
  hwx10_1 : ∀ i : grid10.Coords, EltTy.bits .f32 = 32 ∨ (Rect.block (s := S32x6) S32x6.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S7x9.size a ≤ S7x9.size a
  hwx10_2 : ∀ i : grid10.Coords, EltTy.bits .f32 = 32 ∨ (Rect.block (s := S7x9) S7x9.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S9.size a ≤ S9.size a
  hwx10_3 : ∀ i : grid10.Coords, EltTy.bits .f32 = 32 ∨ (Rect.block (s := S9) S9.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S9x1.size a ≤ S9x1.size a
  hwx10_4 : ∀ i : grid10.Coords, EltTy.bits .f32 = 32 ∨ (Rect.block (s := S9x1) S9x1.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1.size a ≤ S1.size a
  hwx10_5 : ∀ i : grid10.Coords, EltTy.bits .f32 = 32 ∨ (Rect.block (s := S1) S1.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S400x32.size a ≤ S100000x32.size a
  hwx10_6 : ∀ i : grid10.Coords, EltTy.bits .f32 = 32 ∨ (Rect.block (s := S100000x32) S400x32.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x32.size a ≤ S100000x32.size a
  hwx11_0 : ∀ i : grid11.Coords, EltTy.bits .f32 = 32 ∨ (Rect.block (s := S100000x32) S2000x32.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x32.size a ≤ S100000x32.size a
  hwx11_1 : ∀ i : grid11.Coords, EltTy.bits .f32 = 32 ∨ (Rect.block (s := S100000x32) S2000x32.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x32.size a ≤ S100000x32.size a
  hwx11_2 : ∀ i : grid11.Coords, EltTy.bits .f32 = 32 ∨ (Rect.block (s := S100000x32) S2000x32.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x32.size a ≤ S100000x32.size a
  hwx12_0 : ∀ i : grid12.Coords, EltTy.bits .f32 = 32 ∨ (Rect.block (s := S100000x32) S2000x32.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x32.size a ≤ S100000x32.size a
  hwx12_1 : ∀ i : grid12.Coords, EltTy.bits .f32 = 32 ∨ (Rect.block (s := S100000x32) S2000x32.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x32.size a ≤ S100000x32.size a
  hwx12_2 : ∀ i : grid12.Coords, EltTy.bits .f32 = 32 ∨ (Rect.block (s := S100000x32) S2000x32.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x32.size a ≤ S100000x32.size a
  hwx13_0 : ∀ i : grid13.Coords, EltTy.bits .f32 = 32 ∨ (Rect.block (s := S100000x32) S2000x32.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x32.size a ≤ S100000x32.size a
  hwx13_1 : ∀ i : grid13.Coords, EltTy.bits .f32 = 32 ∨ (Rect.block (s := S100000x32) S2000x32.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x32.size a ≤ S100000x32.size a
  hwx13_2 : ∀ i : grid13.Coords, EltTy.bits .f32 = 32 ∨ (Rect.block (s := S100000x32) S2000x32.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x32.size a ≤ S100000x32.size a
  hwx14_0 : ∀ i : grid14.Coords, EltTy.bits .f32 = 32 ∨ (Rect.block (s := S100000x32) S2000x32.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S2000x32.size a ≤ S100000x32.size a
  hwx14_1 : ∀ i : grid14.Coords, EltTy.bits .f32 = 32 ∨ (Rect.block (s := S100000x32) S2000x32.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S2000x32.size a ≤ S100000x32.size a
  hwx14_2 : ∀ i : grid14.Coords, EltTy.bits .f32 = 32 ∨ (Rect.block (s := S100000x32) S2000x32.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x32.size a ≤ S100000x32.size a
  hwx15_0 : ∀ i : grid15.Coords, EltTy.bits .f32 = 32 ∨ (Rect.block (s := S100000x32) S2000x32.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S2000x32.size a ≤ S100000x32.size a
  hwx15_1 : ∀ i : grid15.Coords, EltTy.bits .f32 = 32 ∨ (Rect.block (s := S100000x32) S2000x32.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S2000x32.size a ≤ S100000x32.size a
  hwx15_2 : ∀ i : grid15.Coords, EltTy.bits .f32 = 32 ∨ (Rect.block (s := S100000x32) S2000x32.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x32.size a ≤ S100000x32.size a
  hwx16_0 : ∀ i : grid16.Coords, EltTy.bits .f32 = 32 ∨ (Rect.block (s := S100000x32) S2000x32.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S2000x32.size a ≤ S100000x32.size a
  hwx16_1 : ∀ i : grid16.Coords, EltTy.bits .f32 = 32 ∨ (Rect.block (s := S100000x32) S2000x32.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S2000x32.size a ≤ S100000x32.size a
  hwx16_2 : ∀ i : grid16.Coords, EltTy.bits .f32 = 32 ∨ (Rect.block (s := S100000x32) S2000x32.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2000x32.size a ≤ S100000x32.size a
  hwx17_0 : ∀ i : grid17.Coords, EltTy.bits .f32 = 32 ∨ (Rect.block (s := S100000x32) S2000x32.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S2000x32.size a ≤ S100000x32.size a
  hwx17_1 : ∀ i : grid17.Coords, EltTy.bits .f32 = 32 ∨ (Rect.block (s := S100000x32) S2000x32.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S2000x32.size a ≤ S100000x32.size a
  hwx17_2 : ∀ i : grid17.Coords, EltTy.bits .f32 = 32 ∨ (Rect.block (s := S100000x32) S2000x32.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S2000x32.size a ≤ S100000x32.size a
  hwx18_0 : ∀ i : grid18.Coords, EltTy.bits .f32 = 32 ∨ (Rect.block (s := S100000x32) S2000x32.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S2000x32.size a ≤ S100000x32.size a
  hwx18_1 : ∀ i : grid18.Coords, EltTy.bits .f32 = 32 ∨ (Rect.block (s := S100000x32) S2000x32.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S2000x32.size a ≤ S100000x32.size a
  hwx18_2 : ∀ i : grid18.Coords, EltTy.bits .f32 = 32 ∨ (Rect.block (s := S100000x32) S2000x32.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S2000x32.size a ≤ S100000x32.size a
  hwx19_0 : ∀ i : grid19.Coords, EltTy.bits .f32 = 32 ∨ (Rect.block (s := S100000x32) S2000x32.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S2000x32.size a ≤ S100000x32.size a
  hwx19_1 : ∀ i : grid19.Coords, EltTy.bits .f32 = 32 ∨ (Rect.block (s := S100000x32) S2000x32.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S2000x32.size a ≤ S100000x32.size a
  hwx19_2 : ∀ i : grid19.Coords, EltTy.bits .f32 = 32 ∨ (Rect.block (s := S100000x32) S2000x32.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S2000x32.size a ≤ S100000x32.size a
  hwx20_0 : ∀ i : grid20.Coords, EltTy.bits .f32 = 32 ∨ (Rect.block (s := S100000x32) S2000x32.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S2000x32.size a ≤ S100000x32.size a
  hwx20_1 : ∀ i : grid20.Coords, EltTy.bits .f32 = 32 ∨ (Rect.block (s := S100000x32) S2000x32.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S2000x32.size a ≤ S100000x32.size a
  hwx20_2 : ∀ i : grid20.Coords, EltTy.bits .f32 = 32 ∨ (Rect.block (s := S100000x32) S2000x32.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S2000x32.size a ≤ S100000x32.size a
  hwx21_0 : ∀ i : grid21.Coords, EltTy.bits .f32 = 32 ∨ (Rect.block (s := S100000x32) S2000x32.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S32x16.size a ≤ S32x16.size a
  hwx21_1 : ∀ i : grid21.Coords, EltTy.bits .f32 = 32 ∨ (Rect.block (s := S32x16) S32x16.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S16.size a ≤ S16.size a
  hwx21_2 : ∀ i : grid21.Coords, EltTy.bits .f32 = 32 ∨ (Rect.block (s := S16) S16.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S2000x16.size a ≤ S100000x16.size a
  hwx21_3 : ∀ i : grid21.Coords, EltTy.bits .f32 = 32 ∨ (Rect.block (s := S100000x16) S2000x16.size (cc21_transform_3 i) (hinb21_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S32x6_S6x9_S32x9_1_0_0_1_n_n : DotDims S32x6 S6x9 S32x9 where
  lhsContracting := [1]
  rhsContracting := [0]
  lhsNonContracting := [0]
  rhsNonContracting := [1]
  lhsBatch := []
  rhsBatch := []
  wf := dot_S32x6_S6x9_S32x9_1_0_0_1_n_n_wf
def dot_S400x9_S9x1_S400x1_1_0_0_1_n_n : DotDims S400x9 S9x1 S400x1 where
  lhsContracting := [1]
  rhsContracting := [0]
  lhsNonContracting := [0]
  rhsNonContracting := [1]
  lhsBatch := []
  rhsBatch := []
  wf := dot_S400x9_S9x1_S400x1_1_0_0_1_n_n_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf

abbrev win0_0 : Pipeline.Window sig grid0 :=
  Pipeline.Window.ofSpec (Memref.whole main_v38) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S2000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S2000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S2000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S2000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v94) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S2000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v95) S2000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v108) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S2000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v109) S2000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v122) S2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg0) S2000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v123) S2000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v136) S2000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg0) S2000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v137) S2000x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v150) S2000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg0) S2000x32.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v151) S2000x32.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v164) S2000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg0) S2000x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v165) S2000x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v165) S400x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg2) S32x6.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg3) S7x9.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg4) S9.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_arg5) S9x1.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg6) S1.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v166) S400x32.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v179) S2000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v166) S2000x32.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v180) S2000x32.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v193) S2000x32.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v166) S2000x32.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v194) S2000x32.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v207) S2000x32.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v166) S2000x32.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v208) S2000x32.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v221) S2000x32.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v166) S2000x32.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v222) S2000x32.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v235) S2000x32.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v166) S2000x32.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v236) S2000x32.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v249) S2000x32.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v166) S2000x32.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v250) S2000x32.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v263) S2000x32.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v166) S2000x32.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v264) S2000x32.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v277) S2000x32.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v166) S2000x32.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v278) S2000x32.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v291) S2000x32.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v166) S2000x32.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v292) S2000x32.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v305) S2000x32.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v166) S2000x32.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v306) S2000x32.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v306) S2000x32.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_arg7) S32x16.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_arg8) S16.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v307) S2000x16.size cc21_transform_3 reads21_3 true false 2 stage21_3 sem21_3
    hrank21 hreads21_3 hinb21_3 nbuf21_3 (Memref.isWhole_whole _) hwx21_3 hstage21_3

abbrev win21 : Fin 4 → Pipeline.Window sig grid21 := fun | 0 => win21_0 | 1 => win21_1 | 2 => win21_2 | 3 => win21_3 | ⟨_ + 4, h⟩ => absurd h (Nat.not_lt.2 (Nat.le_add_left _ _))
abbrev spec21 : Fin 4 → Pipeline.WinSpec sig grid21.rank := fun w => (win21 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x6 : Shape := ⟨2, ![32, 6]⟩
abbrev S7x9 : Shape := ⟨2, ![7, 9]⟩
abbrev S9 : Shape := ⟨1, ![9]⟩
abbrev S9x1 : Shape := ⟨2, ![9, 1]⟩
abbrev S1 : Shape := ⟨1, ![1]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S32x100000 : Shape := ⟨2, ![32, 100000]⟩
abbrev S3200000x1 : Shape := ⟨2, ![3200000, 1]⟩
abbrev S32x100000x6 : Shape := ⟨3, ![32, 100000, 6]⟩
abbrev S3200000x6 : Shape := ⟨2, ![3200000, 6]⟩
abbrev S3200000x7 : Shape := ⟨2, ![3200000, 7]⟩
abbrev S3200000x9 : Shape := ⟨2, ![3200000, 9]⟩
abbrev S1x9 : Shape := ⟨2, ![1, 9]⟩
abbrev S1x1 : Shape := ⟨2, ![1, 1]⟩
abbrev S100000x16 : Shape := ⟨2, ![100000, 16]⟩
abbrev S1x16 : Shape := ⟨2, ![1, 16]⟩

abbrev nBuf : Space → Nat
  | .hbm => 524
  | .vmem => 0
  | .smem => 0
  | _ => 0

abbrev hbmTy0_0 (i : Nat) : BufTy := match i % 128 with
  | 0 => ⟨S100000x32, .f32⟩
  | 1 => ⟨S2x1600000, .i32⟩
  | 2 => ⟨S32x6, .f32⟩
  | 3 => ⟨S7x9, .f32⟩
  | 4 => ⟨S9, .f32⟩
  | 5 => ⟨S9x1, .f32⟩
  | 6 => ⟨S1, .f32⟩
  | 7 => ⟨S32x16, .f32⟩
  | 8 => ⟨S16, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x32, .f32⟩
  | 51 => ⟨S1600000x1, .f32⟩
  | 52 => ⟨S1600000x32, .f32⟩
  | 53 => ⟨S1600000x32, .f32⟩
  | 54 => ⟨S_, .f32⟩
  | 55 => ⟨S100000x32, .f32⟩
  | 56 => ⟨S1600000x1, .i32⟩
  | 57 => ⟨S100000x32, .f32⟩
  | 58 => ⟨S_, .f32⟩
  | 59 => ⟨S100000x32, .f32⟩
  | 60 => ⟨S100000x32, .f32⟩
  | 61 => ⟨S_, .f32⟩
  | 62 => ⟨S100000x32, .f32⟩
  | 63 => ⟨S100000x32, .f32⟩
  | 64 => ⟨S100000x32, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x32, .f32⟩
  | 74 => ⟨S1600000x1, .f32⟩
  | 75 => ⟨S1600000x32, .f32⟩
  | 76 => ⟨S1600000x32, .f32⟩
  | 77 => ⟨S_, .f32⟩
  | 78 => ⟨S100000x32, .f32⟩
  | 79 => ⟨S1600000x1, .i32⟩
  | 80 => ⟨S100000x32, .f32⟩
  | 81 => ⟨S_, .f32⟩
  | 82 => ⟨S100000x32, .f32⟩
  | 83 => ⟨S100000x32, .f32⟩
  | 84 => ⟨S_, .f32⟩
  | 85 => ⟨S100000x32, .f32⟩
  | 86 => ⟨S100000x32, .f32⟩
  | 87 => ⟨S100000x32, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x32, .f32⟩
  | 97 => ⟨S1600000x1, .f32⟩
  | 98 => ⟨S1600000x32, .f32⟩
  | 99 => ⟨S1600000x32, .f32⟩
  | 100 => ⟨S_, .f32⟩
  | 101 => ⟨S100000x32, .f32⟩
  | 102 => ⟨S1600000x1, .i32⟩
  | 103 => ⟨S100000x32, .f32⟩
  | 104 => ⟨S_, .f32⟩
  | 105 => ⟨S100000x32, .f32⟩
  | 106 => ⟨S100000x32, .f32⟩
  | 107 => ⟨S_, .f32⟩
  | 108 => ⟨S100000x32, .f32⟩
  | 109 => ⟨S100000x32, .f32⟩
  | 110 => ⟨S100000x32, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x32, .f32⟩
  | 120 => ⟨S1600000x1, .f32⟩
  | 121 => ⟨S1600000x32, .f32⟩
  | 122 => ⟨S1600000x32, .f32⟩
  | 123 => ⟨S_, .f32⟩
  | 124 => ⟨S100000x32, .f32⟩
  | 125 => ⟨S1600000x1, .i32⟩
  | 126 => ⟨S100000x32, .f32⟩
  | 127 => ⟨S_, .f32⟩
  | _ => ⟨S100000x32, .f32⟩

abbrev hbmTy0_1 (i : Nat) : BufTy := match i % 128 with
  | 0 => ⟨S100000x32, .f32⟩
  | 1 => ⟨S100000x32, .f32⟩
  | 2 => ⟨S_, .f32⟩
  | 3 => ⟨S100000x32, .f32⟩
  | 4 => ⟨S100000x32, .f32⟩
  | 5 => ⟨S100000x32, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x32, .f32⟩
  | 15 => ⟨S1600000x1, .f32⟩
  | 16 => ⟨S1600000x32, .f32⟩
  | 17 => ⟨S1600000x32, .f32⟩
  | 18 => ⟨S_, .f32⟩
  | 19 => ⟨S100000x32, .f32⟩
  | 20 => ⟨S1600000x1, .i32⟩
  | 21 => ⟨S100000x32, .f32⟩
  | 22 => ⟨S_, .f32⟩
  | 23 => ⟨S100000x32, .f32⟩
  | 24 => ⟨S100000x32, .f32⟩
  | 25 => ⟨S_, .f32⟩
  | 26 => ⟨S100000x32, .f32⟩
  | 27 => ⟨S100000x32, .f32⟩
  | 28 => ⟨S100000x32, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x32, .f32⟩
  | 38 => ⟨S1600000x1, .f32⟩
  | 39 => ⟨S1600000x32, .f32⟩
  | 40 => ⟨S1600000x32, .f32⟩
  | 41 => ⟨S_, .f32⟩
  | 42 => ⟨S100000x32, .f32⟩
  | 43 => ⟨S1600000x1, .i32⟩
  | 44 => ⟨S100000x32, .f32⟩
  | 45 => ⟨S_, .f32⟩
  | 46 => ⟨S100000x32, .f32⟩
  | 47 => ⟨S100000x32, .f32⟩
  | 48 => ⟨S_, .f32⟩
  | 49 => ⟨S100000x32, .f32⟩
  | 50 => ⟨S100000x32, .f32⟩
  | 51 => ⟨S100000x32, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x32, .f32⟩
  | 61 => ⟨S1600000x1, .f32⟩
  | 62 => ⟨S1600000x32, .f32⟩
  | 63 => ⟨S1600000x32, .f32⟩
  | 64 => ⟨S_, .f32⟩
  | 65 => ⟨S100000x32, .f32⟩
  | 66 => ⟨S1600000x1, .i32⟩
  | 67 => ⟨S100000x32, .f32⟩
  | 68 => ⟨S_, .f32⟩
  | 69 => ⟨S100000x32, .f32⟩
  | 70 => ⟨S100000x32, .f32⟩
  | 71 => ⟨S_, .f32⟩
  | 72 => ⟨S100000x32, .f32⟩
  | 73 => ⟨S100000x32, .f32⟩
  | 74 => ⟨S100000x32, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x32, .f32⟩
  | 84 => ⟨S1600000x1, .f32⟩
  | 85 => ⟨S1600000x32, .f32⟩
  | 86 => ⟨S1600000x32, .f32⟩
  | 87 => ⟨S_, .f32⟩
  | 88 => ⟨S100000x32, .f32⟩
  | 89 => ⟨S1600000x1, .i32⟩
  | 90 => ⟨S100000x32, .f32⟩
  | 91 => ⟨S_, .f32⟩
  | 92 => ⟨S100000x32, .f32⟩
  | 93 => ⟨S100000x32, .f32⟩
  | 94 => ⟨S_, .f32⟩
  | 95 => ⟨S100000x32, .f32⟩
  | 96 => ⟨S100000x32, .f32⟩
  | 97 => ⟨S100000x32, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x32, .f32⟩
  | 107 => ⟨S1600000x1, .f32⟩
  | 108 => ⟨S1600000x32, .f32⟩
  | 109 => ⟨S1600000x32, .f32⟩
  | 110 => ⟨S_, .f32⟩
  | 111 => ⟨S100000x32, .f32⟩
  | 112 => ⟨S1600000x1, .i32⟩
  | 113 => ⟨S100000x32, .f32⟩
  | 114 => ⟨S_, .f32⟩
  | 115 => ⟨S100000x32, .f32⟩
  | 116 => ⟨S100000x32, .f32⟩
  | 117 => ⟨S_, .f32⟩
  | 118 => ⟨S100000x32, .f32⟩
  | 119 => ⟨S100000x32, .f32⟩
  | 120 => ⟨S100000x32, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x32, .f32⟩

abbrev hbmTy0_2 (i : Nat) : BufTy := match i % 128 with
  | 0 => ⟨S1600000x1, .i32⟩
  | 1 => ⟨S1600000x32, .f32⟩
  | 2 => ⟨S1600000x1, .f32⟩
  | 3 => ⟨S1600000x32, .f32⟩
  | 4 => ⟨S1600000x32, .f32⟩
  | 5 => ⟨S_, .f32⟩
  | 6 => ⟨S100000x32, .f32⟩
  | 7 => ⟨S1600000x1, .i32⟩
  | 8 => ⟨S100000x32, .f32⟩
  | 9 => ⟨S_, .f32⟩
  | 10 => ⟨S100000x32, .f32⟩
  | 11 => ⟨S100000x32, .f32⟩
  | 12 => ⟨S_, .f32⟩
  | 13 => ⟨S100000x32, .f32⟩
  | 14 => ⟨S100000x32, .f32⟩
  | 15 => ⟨S100000x32, .f32⟩
  | 16 => ⟨S32x100000, .f32⟩
  | 17 => ⟨S3200000x1, .f32⟩
  | 18 => ⟨S32x100000x6, .f32⟩
  | 19 => ⟨S3200000x6, .f32⟩
  | 20 => ⟨S3200000x7, .f32⟩
  | 21 => ⟨S3200000x9, .f32⟩
  | 22 => ⟨S1x9, .f32⟩
  | 23 => ⟨S3200000x9, .f32⟩
  | 24 => ⟨S3200000x9, .f32⟩
  | 25 => ⟨S_, .f32⟩
  | 26 => ⟨S3200000x9, .f32⟩
  | 27 => ⟨S3200000x9, .f32⟩
  | 28 => ⟨S3200000x1, .f32⟩
  | 29 => ⟨S1x1, .f32⟩
  | 30 => ⟨S3200000x1, .f32⟩
  | 31 => ⟨S3200000x1, .f32⟩
  | 32 => ⟨S32x100000, .f32⟩
  | 33 => ⟨S100000x32, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x32, .f32⟩
  | 43 => ⟨S1600000x1, .f32⟩
  | 44 => ⟨S1600000x32, .f32⟩
  | 45 => ⟨S1600000x32, .f32⟩
  | 46 => ⟨S_, .f32⟩
  | 47 => ⟨S100000x32, .f32⟩
  | 48 => ⟨S1600000x1, .i32⟩
  | 49 => ⟨S100000x32, .f32⟩
  | 50 => ⟨S_, .f32⟩
  | 51 => ⟨S100000x32, .f32⟩
  | 52 => ⟨S100000x32, .f32⟩
  | 53 => ⟨S_, .f32⟩
  | 54 => ⟨S100000x32, .f32⟩
  | 55 => ⟨S100000x32, .f32⟩
  | 56 => ⟨S100000x32, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x32, .f32⟩
  | 66 => ⟨S1600000x1, .f32⟩
  | 67 => ⟨S1600000x32, .f32⟩
  | 68 => ⟨S1600000x32, .f32⟩
  | 69 => ⟨S_, .f32⟩
  | 70 => ⟨S100000x32, .f32⟩
  | 71 => ⟨S1600000x1, .i32⟩
  | 72 => ⟨S100000x32, .f32⟩
  | 73 => ⟨S_, .f32⟩
  | 74 => ⟨S100000x32, .f32⟩
  | 75 => ⟨S100000x32, .f32⟩
  | 76 => ⟨S_, .f32⟩
  | 77 => ⟨S100000x32, .f32⟩
  | 78 => ⟨S100000x32, .f32⟩
  | 79 => ⟨S100000x32, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x32, .f32⟩
  | 89 => ⟨S1600000x1, .f32⟩
  | 90 => ⟨S1600000x32, .f32⟩
  | 91 => ⟨S1600000x32, .f32⟩
  | 92 => ⟨S_, .f32⟩
  | 93 => ⟨S100000x32, .f32⟩
  | 94 => ⟨S1600000x1, .i32⟩
  | 95 => ⟨S100000x32, .f32⟩
  | 96 => ⟨S_, .f32⟩
  | 97 => ⟨S100000x32, .f32⟩
  | 98 => ⟨S100000x32, .f32⟩
  | 99 => ⟨S_, .f32⟩
  | 100 => ⟨S100000x32, .f32⟩
  | 101 => ⟨S100000x32, .f32⟩
  | 102 => ⟨S100000x32, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x32, .f32⟩
  | 112 => ⟨S1600000x1, .f32⟩
  | 113 => ⟨S1600000x32, .f32⟩
  | 114 => ⟨S1600000x32, .f32⟩
  | 115 => ⟨S_, .f32⟩
  | 116 => ⟨S100000x32, .f32⟩
  | 117 => ⟨S1600000x1, .i32⟩
  | 118 => ⟨S100000x32, .f32⟩
  | 119 => ⟨S_, .f32⟩
  | 120 => ⟨S100000x32, .f32⟩
  | 121 => ⟨S100000x32, .f32⟩
  | 122 => ⟨S_, .f32⟩
  | 123 => ⟨S100000x32, .f32⟩
  | 124 => ⟨S100000x32, .f32⟩
  | 125 => ⟨S100000x32, .f32⟩
  | 126 => ⟨S_, .i32⟩
  | 127 => ⟨S1600000, .i32⟩
  | _ => ⟨S100000x32, .f32⟩

abbrev hbmTy0_3 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x32, .f32⟩
  | 7 => ⟨S1600000x1, .f32⟩
  | 8 => ⟨S1600000x32, .f32⟩
  | 9 => ⟨S1600000x32, .f32⟩
  | 10 => ⟨S_, .f32⟩
  | 11 => ⟨S100000x32, .f32⟩
  | 12 => ⟨S1600000x1, .i32⟩
  | 13 => ⟨S100000x32, .f32⟩
  | 14 => ⟨S_, .f32⟩
  | 15 => ⟨S100000x32, .f32⟩
  | 16 => ⟨S100000x32, .f32⟩
  | 17 => ⟨S_, .f32⟩
  | 18 => ⟨S100000x32, .f32⟩
  | 19 => ⟨S100000x32, .f32⟩
  | 20 => ⟨S100000x32, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x32, .f32⟩
  | 30 => ⟨S1600000x1, .f32⟩
  | 31 => ⟨S1600000x32, .f32⟩
  | 32 => ⟨S1600000x32, .f32⟩
  | 33 => ⟨S_, .f32⟩
  | 34 => ⟨S100000x32, .f32⟩
  | 35 => ⟨S1600000x1, .i32⟩
  | 36 => ⟨S100000x32, .f32⟩
  | 37 => ⟨S_, .f32⟩
  | 38 => ⟨S100000x32, .f32⟩
  | 39 => ⟨S100000x32, .f32⟩
  | 40 => ⟨S_, .f32⟩
  | 41 => ⟨S100000x32, .f32⟩
  | 42 => ⟨S100000x32, .f32⟩
  | 43 => ⟨S100000x32, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x32, .f32⟩
  | 53 => ⟨S1600000x1, .f32⟩
  | 54 => ⟨S1600000x32, .f32⟩
  | 55 => ⟨S1600000x32, .f32⟩
  | 56 => ⟨S_, .f32⟩
  | 57 => ⟨S100000x32, .f32⟩
  | 58 => ⟨S1600000x1, .i32⟩
  | 59 => ⟨S100000x32, .f32⟩
  | 60 => ⟨S_, .f32⟩
  | 61 => ⟨S100000x32, .f32⟩
  | 62 => ⟨S100000x32, .f32⟩
  | 63 => ⟨S_, .f32⟩
  | 64 => ⟨S100000x32, .f32⟩
  | 65 => ⟨S100000x32, .f32⟩
  | 66 => ⟨S100000x32, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x32, .f32⟩
  | 76 => ⟨S1600000x1, .f32⟩
  | 77 => ⟨S1600000x32, .f32⟩
  | 78 => ⟨S1600000x32, .f32⟩
  | 79 => ⟨S_, .f32⟩
  | 80 => ⟨S100000x32, .f32⟩
  | 81 => ⟨S1600000x1, .i32⟩
  | 82 => ⟨S100000x32, .f32⟩
  | 83 => ⟨S_, .f32⟩
  | 84 => ⟨S100000x32, .f32⟩
  | 85 => ⟨S100000x32, .f32⟩
  | 86 => ⟨S_, .f32⟩
  | 87 => ⟨S100000x32, .f32⟩
  | 88 => ⟨S100000x32, .f32⟩
  | 89 => ⟨S100000x32, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x32, .f32⟩
  | 99 => ⟨S1600000x1, .f32⟩
  | 100 => ⟨S1600000x32, .f32⟩
  | 101 => ⟨S1600000x32, .f32⟩
  | 102 => ⟨S_, .f32⟩
  | 103 => ⟨S100000x32, .f32⟩
  | 104 => ⟨S1600000x1, .i32⟩
  | 105 => ⟨S100000x32, .f32⟩
  | 106 => ⟨S_, .f32⟩
  | 107 => ⟨S100000x32, .f32⟩
  | 108 => ⟨S100000x32, .f32⟩
  | 109 => ⟨S_, .f32⟩
  | 110 => ⟨S100000x32, .f32⟩
  | 111 => ⟨S100000x32, .f32⟩
  | 112 => ⟨S100000x32, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x32, .f32⟩
  | 122 => ⟨S1600000x1, .f32⟩
  | 123 => ⟨S1600000x32, .f32⟩
  | 124 => ⟨S1600000x32, .f32⟩
  | 125 => ⟨S_, .f32⟩
  | 126 => ⟨S100000x32, .f32⟩
  | 127 => ⟨S1600000x1, .i32⟩
  | _ => ⟨S100000x32, .f32⟩

abbrev hbmTy0_4 (i : Nat) : BufTy := match i % 128 with
  | 0 => ⟨S100000x32, .f32⟩
  | 1 => ⟨S_, .f32⟩
  | 2 => ⟨S100000x32, .f32⟩
  | 3 => ⟨S100000x32, .f32⟩
  | 4 => ⟨S_, .f32⟩
  | 5 => ⟨S100000x32, .f32⟩
  | 6 => ⟨S100000x32, .f32⟩
  | 7 => ⟨S100000x32, .f32⟩
  | 8 => ⟨S100000x16, .f32⟩
  | 9 => ⟨S1x16, .f32⟩
  | 10 => ⟨S100000x16, .f32⟩
  | 11 => ⟨S100000x16, .f32⟩
  | _ => ⟨S100000x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_15 : Ref sig .tc := ⟨.hbm, 88, rfl⟩
abbrev main_v62 : Ref sig .tc := ⟨.hbm, 89, rfl⟩
abbrev main_v63 : Ref sig .tc := ⟨.hbm, 90, rfl⟩
abbrev main_c_16 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_17 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_18 : Ref sig .tc := ⟨.hbm, 104, rfl⟩
abbrev main_v75 : Ref sig .tc := ⟨.hbm, 105, rfl⟩
abbrev main_v76 : Ref sig .tc := ⟨.hbm, 106, rfl⟩
abbrev main_cst_19 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_20 : Ref sig .tc := ⟨.hbm, 111, rfl⟩
abbrev main_v80 : Ref sig .tc := ⟨.hbm, 112, rfl⟩
abbrev main_v81 : Ref sig .tc := ⟨.hbm, 113, rfl⟩
abbrev main_c_21 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_22 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_23 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_25 : Ref sig .tc := ⟨.hbm, 134, rfl⟩
abbrev main_v98 : Ref sig .tc := ⟨.hbm, 135, rfl⟩
abbrev main_v99 : Ref sig .tc := ⟨.hbm, 136, rfl⟩
abbrev main_c_26 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_27 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_28 : Ref sig .tc := ⟨.hbm, 150, rfl⟩
abbrev main_v111 : Ref sig .tc := ⟨.hbm, 151, rfl⟩
abbrev main_v112 : Ref sig .tc := ⟨.hbm, 152, rfl⟩
abbrev main_cst_29 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_30 : Ref sig .tc := ⟨.hbm, 157, rfl⟩
abbrev main_v116 : Ref sig .tc := ⟨.hbm, 158, rfl⟩
abbrev main_v117 : Ref sig .tc := ⟨.hbm, 159, rfl⟩
abbrev main_c_31 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_32 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_33 : Ref sig .tc := ⟨.hbm, 173, rfl⟩
abbrev main_v129 : Ref sig .tc := ⟨.hbm, 174, rfl⟩
abbrev main_v130 : Ref sig .tc := ⟨.hbm, 175, rfl⟩
abbrev main_cst_34 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_c_35 : Ref sig .tc := ⟨.hbm, 180, rfl⟩
abbrev main_v134 : Ref sig .tc := ⟨.hbm, 181, rfl⟩
abbrev main_v135 : Ref sig .tc := ⟨.hbm, 182, rfl⟩
abbrev main_c_36 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_37 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_38 : Ref sig .tc := ⟨.hbm, 196, rfl⟩
abbrev main_v147 : Ref sig .tc := ⟨.hbm, 197, rfl⟩
abbrev main_v148 : Ref sig .tc := ⟨.hbm, 198, rfl⟩
abbrev main_cst_39 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_c_40 : Ref sig .tc := ⟨.hbm, 203, rfl⟩
abbrev main_v152 : Ref sig .tc := ⟨.hbm, 204, rfl⟩
abbrev main_v153 : Ref sig .tc := ⟨.hbm, 205, rfl⟩
abbrev main_c_41 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_cst_42 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_43 : Ref sig .tc := ⟨.hbm, 219, rfl⟩
abbrev main_v165 : Ref sig .tc := ⟨.hbm, 220, rfl⟩
abbrev main_v166 : Ref sig .tc := ⟨.hbm, 221, rfl⟩
abbrev main_cst_44 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_c_45 : Ref sig .tc := ⟨.hbm, 226, rfl⟩
abbrev main_v170 : Ref sig .tc := ⟨.hbm, 227, rfl⟩
abbrev main_v171 : Ref sig .tc := ⟨.hbm, 228, rfl⟩
abbrev main_c_46 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_cst_47 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_cst_48 : Ref sig .tc := ⟨.hbm, 242, rfl⟩
abbrev main_v183 : Ref sig .tc := ⟨.hbm, 243, rfl⟩
abbrev main_v184 : Ref sig .tc := ⟨.hbm, 244, rfl⟩
abbrev main_cst_49 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_c_50 : Ref sig .tc := ⟨.hbm, 249, rfl⟩
abbrev main_v188 : Ref sig .tc := ⟨.hbm, 250, rfl⟩
abbrev main_v189 : Ref sig .tc := ⟨.hbm, 251, rfl⟩
abbrev main_c_51 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_cst_52 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_cst_53 : Ref sig .tc := ⟨.hbm, 265, rfl⟩
abbrev main_v201 : Ref sig .tc := ⟨.hbm, 266, rfl⟩
abbrev main_v202 : Ref sig .tc := ⟨.hbm, 267, rfl⟩
abbrev main_cst_54 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_call0_cst : Ref sig .tc := ⟨.hbm, 281, rfl⟩
abbrev main_call0_v0 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_c_55 : Ref sig .tc := ⟨.hbm, 290, rfl⟩
abbrev main_v222 : Ref sig .tc := ⟨.hbm, 291, rfl⟩
abbrev main_v223 : Ref sig .tc := ⟨.hbm, 292, rfl⟩
abbrev main_c_56 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_cst_57 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_cst_58 : Ref sig .tc := ⟨.hbm, 306, rfl⟩
abbrev main_v235 : Ref sig .tc := ⟨.hbm, 307, rfl⟩
abbrev main_v236 : Ref sig .tc := ⟨.hbm, 308, rfl⟩
abbrev main_cst_59 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_c_60 : Ref sig .tc := ⟨.hbm, 313, rfl⟩
abbrev main_v240 : Ref sig .tc := ⟨.hbm, 314, rfl⟩
abbrev main_v241 : Ref sig .tc := ⟨.hbm, 315, rfl⟩
abbrev main_c_61 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_cst_62 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_cst_63 : Ref sig .tc := ⟨.hbm, 329, rfl⟩
abbrev main_v253 : Ref sig .tc := ⟨.hbm, 330, rfl⟩
abbrev main_v254 : Ref sig .tc := ⟨.hbm, 331, rfl⟩
abbrev main_cst_64 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_c_65 : Ref sig .tc := ⟨.hbm, 336, rfl⟩
abbrev main_v258 : Ref sig .tc := ⟨.hbm, 337, rfl⟩
abbrev main_v259 : Ref sig .tc := ⟨.hbm, 338, rfl⟩
abbrev main_c_66 : Ref sig .tc := ⟨.hbm, 339, rfl⟩
abbrev main_v260 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_cst_67 : Ref sig .tc := ⟨.hbm, 348, rfl⟩
abbrev main_v268 : Ref sig .tc := ⟨.hbm, 349, rfl⟩
abbrev main_v269 : Ref sig .tc := ⟨.hbm, 350, rfl⟩
abbrev main_v270 : Ref sig .tc := ⟨.hbm, 351, rfl⟩
abbrev main_cst_68 : Ref sig .tc := ⟨.hbm, 352, rfl⟩
abbrev main_v271 : Ref sig .tc := ⟨.hbm, 353, rfl⟩
abbrev main_v272 : Ref sig .tc := ⟨.hbm, 354, rfl⟩
abbrev main_cst_69 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_c_70 : Ref sig .tc := ⟨.hbm, 359, rfl⟩
abbrev main_v276 : Ref sig .tc := ⟨.hbm, 360, rfl⟩
abbrev main_v277 : Ref sig .tc := ⟨.hbm, 361, rfl⟩
abbrev main_c_71 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_cst_72 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_cst_73 : Ref sig .tc := ⟨.hbm, 375, rfl⟩
abbrev main_v289 : Ref sig .tc := ⟨.hbm, 376, rfl⟩
abbrev main_v290 : Ref sig .tc := ⟨.hbm, 377, rfl⟩
abbrev main_cst_74 : Ref sig .tc := ⟨.hbm, 378, rfl⟩
abbrev main_v291 : Ref sig .tc := ⟨.hbm, 379, rfl⟩
abbrev main_v292 : Ref sig .tc := ⟨.hbm, 380, rfl⟩
abbrev main_v293 : Ref sig .tc := ⟨.hbm, 381, rfl⟩
abbrev main_c_75 : Ref sig .tc := ⟨.hbm, 382, rfl⟩
abbrev main_v294 : Ref sig .tc := ⟨.hbm, 383, rfl⟩
abbrev main_v295 : Ref sig .tc := ⟨.hbm, 384, rfl⟩
abbrev main_c_76 : Ref sig .tc := ⟨.hbm, 385, rfl⟩
abbrev main_v296 : Ref sig .tc := ⟨.hbm, 386, rfl⟩
abbrev main_v297 : Ref sig .tc := ⟨.hbm, 387, rfl⟩
abbrev main_v298 : Ref sig .tc := ⟨.hbm, 388, rfl⟩
abbrev main_v299 : Ref sig .tc := ⟨.hbm, 389, rfl⟩
abbrev main_v300 : Ref sig .tc := ⟨.hbm, 390, rfl⟩
abbrev main_v301 : Ref sig .tc := ⟨.hbm, 391, rfl⟩
abbrev main_v302 : Ref sig .tc := ⟨.hbm, 392, rfl⟩
abbrev main_v303 : Ref sig .tc := ⟨.hbm, 393, rfl⟩
abbrev main_cst_77 : Ref sig .tc := ⟨.hbm, 394, rfl⟩
abbrev main_v304 : Ref sig .tc := ⟨.hbm, 395, rfl⟩
abbrev main_v305 : Ref sig .tc := ⟨.hbm, 396, rfl⟩
abbrev main_v306 : Ref sig .tc := ⟨.hbm, 397, rfl⟩
abbrev main_cst_78 : Ref sig .tc := ⟨.hbm, 398, rfl⟩
abbrev main_v307 : Ref sig .tc := ⟨.hbm, 399, rfl⟩
abbrev main_v308 : Ref sig .tc := ⟨.hbm, 400, rfl⟩
abbrev main_cst_79 : Ref sig .tc := ⟨.hbm, 401, rfl⟩
abbrev main_v309 : Ref sig .tc := ⟨.hbm, 402, rfl⟩
abbrev main_v310 : Ref sig .tc := ⟨.hbm, 403, rfl⟩
abbrev main_v311 : Ref sig .tc := ⟨.hbm, 404, rfl⟩
abbrev main_c_80 : Ref sig .tc := ⟨.hbm, 405, rfl⟩
abbrev main_v312 : Ref sig .tc := ⟨.hbm, 406, rfl⟩
abbrev main_v313 : Ref sig .tc := ⟨.hbm, 407, rfl⟩
abbrev main_c_81 : Ref sig .tc := ⟨.hbm, 408, rfl⟩
abbrev main_v314 : Ref sig .tc := ⟨.hbm, 409, rfl⟩
abbrev main_v315 : Ref sig .tc := ⟨.hbm, 410, rfl⟩
abbrev main_v316 : Ref sig .tc := ⟨.hbm, 411, rfl⟩
abbrev main_v317 : Ref sig .tc := ⟨.hbm, 412, rfl⟩
abbrev main_v318 : Ref sig .tc := ⟨.hbm, 413, rfl⟩
abbrev main_v319 : Ref sig .tc := ⟨.hbm, 414, rfl⟩
abbrev main_v320 : Ref sig .tc := ⟨.hbm, 415, rfl⟩
abbrev main_v321 : Ref sig .tc := ⟨.hbm, 416, rfl⟩
abbrev main_cst_82 : Ref sig .tc := ⟨.hbm, 417, rfl⟩
abbrev main_v322 : Ref sig .tc := ⟨.hbm, 418, rfl⟩
abbrev main_v323 : Ref sig .tc := ⟨.hbm, 419, rfl⟩
abbrev main_v324 : Ref sig .tc := ⟨.hbm, 420, rfl⟩
abbrev main_cst_83 : Ref sig .tc := ⟨.hbm, 421, rfl⟩
abbrev main_v325 : Ref sig .tc := ⟨.hbm, 422, rfl⟩
abbrev main_v326 : Ref sig .tc := ⟨.hbm, 423, rfl⟩
abbrev main_cst_84 : Ref sig .tc := ⟨.hbm, 424, rfl⟩
abbrev main_v327 : Ref sig .tc := ⟨.hbm, 425, rfl⟩
abbrev main_v328 : Ref sig .tc := ⟨.hbm, 426, rfl⟩
abbrev main_v329 : Ref sig .tc := ⟨.hbm, 427, rfl⟩
abbrev main_c_85 : Ref sig .tc := ⟨.hbm, 428, rfl⟩
abbrev main_v330 : Ref sig .tc := ⟨.hbm, 429, rfl⟩
abbrev main_v331 : Ref sig .tc := ⟨.hbm, 430, rfl⟩
abbrev main_c_86 : Ref sig .tc := ⟨.hbm, 431, rfl⟩
abbrev main_v332 : Ref sig .tc := ⟨.hbm, 432, rfl⟩
abbrev main_v333 : Ref sig .tc := ⟨.hbm, 433, rfl⟩
abbrev main_v334 : Ref sig .tc := ⟨.hbm, 434, rfl⟩
abbrev main_v335 : Ref sig .tc := ⟨.hbm, 435, rfl⟩
abbrev main_v336 : Ref sig .tc := ⟨.hbm, 436, rfl⟩
abbrev main_v337 : Ref sig .tc := ⟨.hbm, 437, rfl⟩
abbrev main_v338 : Ref sig .tc := ⟨.hbm, 438, rfl⟩
abbrev main_v339 : Ref sig .tc := ⟨.hbm, 439, rfl⟩
abbrev main_cst_87 : Ref sig .tc := ⟨.hbm, 440, rfl⟩
abbrev main_v340 : Ref sig .tc := ⟨.hbm, 441, rfl⟩
abbrev main_v341 : Ref sig .tc := ⟨.hbm, 442, rfl⟩
abbrev main_v342 : Ref sig .tc := ⟨.hbm, 443, rfl⟩
abbrev main_cst_88 : Ref sig .tc := ⟨.hbm, 444, rfl⟩
abbrev main_v343 : Ref sig .tc := ⟨.hbm, 445, rfl⟩
abbrev main_v344 : Ref sig .tc := ⟨.hbm, 446, rfl⟩
abbrev main_cst_89 : Ref sig .tc := ⟨.hbm, 447, rfl⟩
abbrev main_v345 : Ref sig .tc := ⟨.hbm, 448, rfl⟩
abbrev main_v346 : Ref sig .tc := ⟨.hbm, 449, rfl⟩
abbrev main_v347 : Ref sig .tc := ⟨.hbm, 450, rfl⟩
abbrev main_c_90 : Ref sig .tc := ⟨.hbm, 451, rfl⟩
abbrev main_v348 : Ref sig .tc := ⟨.hbm, 452, rfl⟩
abbrev main_v349 : Ref sig .tc := ⟨.hbm, 453, rfl⟩
abbrev main_c_91 : Ref sig .tc := ⟨.hbm, 454, rfl⟩
abbrev main_v350 : Ref sig .tc := ⟨.hbm, 455, rfl⟩
abbrev main_v351 : Ref sig .tc := ⟨.hbm, 456, rfl⟩
abbrev main_v352 : Ref sig .tc := ⟨.hbm, 457, rfl⟩
abbrev main_v353 : Ref sig .tc := ⟨.hbm, 458, rfl⟩
abbrev main_v354 : Ref sig .tc := ⟨.hbm, 459, rfl⟩
abbrev main_v355 : Ref sig .tc := ⟨.hbm, 460, rfl⟩
abbrev main_v356 : Ref sig .tc := ⟨.hbm, 461, rfl⟩
abbrev main_v357 : Ref sig .tc := ⟨.hbm, 462, rfl⟩
abbrev main_cst_92 : Ref sig .tc := ⟨.hbm, 463, rfl⟩
abbrev main_v358 : Ref sig .tc := ⟨.hbm, 464, rfl⟩
abbrev main_v359 : Ref sig .tc := ⟨.hbm, 465, rfl⟩
abbrev main_v360 : Ref sig .tc := ⟨.hbm, 466, rfl⟩
abbrev main_cst_93 : Ref sig .tc := ⟨.hbm, 467, rfl⟩
abbrev main_v361 : Ref sig .tc := ⟨.hbm, 468, rfl⟩
abbrev main_v362 : Ref sig .tc := ⟨.hbm, 469, rfl⟩
abbrev main_cst_94 : Ref sig .tc := ⟨.hbm, 470, rfl⟩
abbrev main_v363 : Ref sig .tc := ⟨.hbm, 471, rfl⟩
abbrev main_v364 : Ref sig .tc := ⟨.hbm, 472, rfl⟩
abbrev main_v365 : Ref sig .tc := ⟨.hbm, 473, rfl⟩
abbrev main_c_95 : Ref sig .tc := ⟨.hbm, 474, rfl⟩
abbrev main_v366 : Ref sig .tc := ⟨.hbm, 475, rfl⟩
abbrev main_v367 : Ref sig .tc := ⟨.hbm, 476, rfl⟩
abbrev main_c_96 : Ref sig .tc := ⟨.hbm, 477, rfl⟩
abbrev main_v368 : Ref sig .tc := ⟨.hbm, 478, rfl⟩
abbrev main_v369 : Ref sig .tc := ⟨.hbm, 479, rfl⟩
abbrev main_v370 : Ref sig .tc := ⟨.hbm, 480, rfl⟩
abbrev main_v371 : Ref sig .tc := ⟨.hbm, 481, rfl⟩
abbrev main_v372 : Ref sig .tc := ⟨.hbm, 482, rfl⟩
abbrev main_v373 : Ref sig .tc := ⟨.hbm, 483, rfl⟩
abbrev main_v374 : Ref sig .tc := ⟨.hbm, 484, rfl⟩
abbrev main_v375 : Ref sig .tc := ⟨.hbm, 485, rfl⟩
abbrev main_cst_97 : Ref sig .tc := ⟨.hbm, 486, rfl⟩
abbrev main_v376 : Ref sig .tc := ⟨.hbm, 487, rfl⟩
abbrev main_v377 : Ref sig .tc := ⟨.hbm, 488, rfl⟩
abbrev main_v378 : Ref sig .tc := ⟨.hbm, 489, rfl⟩
abbrev main_cst_98 : Ref sig .tc := ⟨.hbm, 490, rfl⟩
abbrev main_v379 : Ref sig .tc := ⟨.hbm, 491, rfl⟩
abbrev main_v380 : Ref sig .tc := ⟨.hbm, 492, rfl⟩
abbrev main_cst_99 : Ref sig .tc := ⟨.hbm, 493, rfl⟩
abbrev main_v381 : Ref sig .tc := ⟨.hbm, 494, rfl⟩
abbrev main_v382 : Ref sig .tc := ⟨.hbm, 495, rfl⟩
abbrev main_v383 : Ref sig .tc := ⟨.hbm, 496, rfl⟩
abbrev main_c_100 : Ref sig .tc := ⟨.hbm, 497, rfl⟩
abbrev main_v384 : Ref sig .tc := ⟨.hbm, 498, rfl⟩
abbrev main_v385 : Ref sig .tc := ⟨.hbm, 499, rfl⟩
abbrev main_c_101 : Ref sig .tc := ⟨.hbm, 500, rfl⟩
abbrev main_v386 : Ref sig .tc := ⟨.hbm, 501, rfl⟩
abbrev main_v387 : Ref sig .tc := ⟨.hbm, 502, rfl⟩
abbrev main_v388 : Ref sig .tc := ⟨.hbm, 503, rfl⟩
abbrev main_v389 : Ref sig .tc := ⟨.hbm, 504, rfl⟩
abbrev main_v390 : Ref sig .tc := ⟨.hbm, 505, rfl⟩
abbrev main_v391 : Ref sig .tc := ⟨.hbm, 506, rfl⟩
abbrev main_v392 : Ref sig .tc := ⟨.hbm, 507, rfl⟩
abbrev main_v393 : Ref sig .tc := ⟨.hbm, 508, rfl⟩
abbrev main_cst_102 : Ref sig .tc := ⟨.hbm, 509, rfl⟩
abbrev main_v394 : Ref sig .tc := ⟨.hbm, 510, rfl⟩
abbrev main_v395 : Ref sig .tc := ⟨.hbm, 511, rfl⟩
abbrev main_v396 : Ref sig .tc := ⟨.hbm, 512, rfl⟩
abbrev main_cst_103 : Ref sig .tc := ⟨.hbm, 513, rfl⟩
abbrev main_v397 : Ref sig .tc := ⟨.hbm, 514, rfl⟩
abbrev main_v398 : Ref sig .tc := ⟨.hbm, 515, rfl⟩
abbrev main_cst_104 : Ref sig .tc := ⟨.hbm, 516, rfl⟩
abbrev main_v399 : Ref sig .tc := ⟨.hbm, 517, rfl⟩
abbrev main_v400 : Ref sig .tc := ⟨.hbm, 518, rfl⟩
abbrev main_v401 : Ref sig .tc := ⟨.hbm, 519, rfl⟩
abbrev main_v402 : Ref sig .tc := ⟨.hbm, 520, rfl⟩
abbrev main_v403 : Ref sig .tc := ⟨.hbm, 521, rfl⟩
abbrev main_v404 : Ref sig .tc := ⟨.hbm, 522, rfl⟩
abbrev main_v405 : Ref sig .tc := ⟨.hbm, 523, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  transposes_S100000x32_S32x100000_1_0 : S100000x32.Transposes [1, 0] S32x100000
  shapeCasts_S32x100000_S3200000x1 : S32x100000.ShapeCasts S3200000x1
  bcast_S32x6_S32x100000x6_0_2 : S32x6.BroadcastsInDim S32x100000x6 (![0, 2] : Fin 2 → Fin S32x100000x6.rank)
  shapeCasts_S32x100000x6_S3200000x6 : S32x100000x6.ShapeCasts S3200000x6
  concatenates_S3200000x1_S3200000x6_S3200000x7_d1 : Shape.Concatenates [S3200000x1, S3200000x6] S3200000x7 1
  bcast_S9_S1x9_1 : S9.BroadcastsInDim S1x9 (![1] : Fin 1 → Fin S1x9.rank)
  bcast_S1x9_S3200000x9_0_1 : S1x9.BroadcastsInDim S3200000x9 (![0, 1] : Fin 2 → Fin S3200000x9.rank)
  bcast_S_S3200000x9 : S_.BroadcastsInDim S3200000x9 (![] : Fin 0 → Fin S3200000x9.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  shapeCasts_S3200000x1_S32x100000 : S3200000x1.ShapeCasts S32x100000
  transposes_S32x100000_S100000x32_1_0 : S32x100000.Transposes [1, 0] S100000x32
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S3200000x7_S7x9_S3200000x9_1_0_0_1_n_n_wf : DotDims.WF S3200000x7 S7x9 S3200000x9 [1] [0] [0] [1] [] []
  dot_S3200000x9_S9x1_S3200000x1_1_0_0_1_n_n_wf : DotDims.WF S3200000x9 S9x1 S3200000x1 [1] [0] [0] [1] [] []
  dot_S100000x32_S32x16_S100000x16_1_0_0_1_n_n_wf : DotDims.WF S100000x32 S32x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S3200000x7_S7x9_S3200000x9_1_0_0_1_n_n : DotDims S3200000x7 S7x9 S3200000x9 where
  lhsContracting := [1]
  rhsContracting := [0]
  lhsNonContracting := [0]
  rhsNonContracting := [1]
  lhsBatch := []
  rhsBatch := []
  wf := dot_S3200000x7_S7x9_S3200000x9_1_0_0_1_n_n_wf
def dot_S3200000x9_S9x1_S3200000x1_1_0_0_1_n_n : DotDims S3200000x9 S9x1 S3200000x1 where
  lhsContracting := [1]
  rhsContracting := [0]
  lhsNonContracting := [0]
  rhsNonContracting := [1]
  lhsBatch := []
  rhsBatch := []
  wf := dot_S3200000x9_S9x1_S3200000x1_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.Spec.lean ====
/-
  The computation both programs perform, written once as functions of whole arrays in the host's own operations.

  A graph on 100000 nodes is given by 1600000 directed edges (a source row and a destination row of node numbers).
  `degOf` counts the edges arriving at each node and clamps the count below by 1; `normOf` is, per edge,
  `1 / sqrt (deg src * deg dst)`.  One convolution `conv` gathers the source node's 32 features along every edge,
  scales them by the edge's weight and adds them up at the destination node.  One diffusion step `step` mixes the
  convolution with the features the diffusion started from, `0.9 * conv h + 0.1 * h0` (both factors the binary
  fractions the two programs share); `diffuse` is ten steps.  Between two diffusions `mlp` passes every entry
  `h[n, ch]`, with the six numbers attached to its column `ch`, through a small two-layer perceptron
  (7 -> 9 -> 1, a maximum with 0 in between); `fin` is the last dense layer 32 -> 16 with its bias.
-/
import proofs.«104874_j7885559956094_2_alg».proof.Proof.Gen.ReferenceIdeal
import Idealize.ShloMosaic.PureOps.Ideal

noncomputable section

namespace Cert.Spec

open Cert.ReferenceIdeal Cert.ReferenceIdeal.Gen Idealize.ShloMosaic Idealize.ShloMosaic.TcCoe Idealize.SL.Sem Idealize.ShloMosaic.StableHlo

variable {F : FTy → Type} [FloatOps F]

/-- Node features: 100000 rows of 32. -/
abbrev Nodes (F : FTy → Type) [FloatOps F] := (⟨S100000x32, .f32⟩ : BufTy).Contents (Elt F)
/-- One node number per edge. -/
abbrev EdgeIx (F : FTy → Type) [FloatOps F] := (⟨S1600000, .i32⟩ : BufTy).Contents (Elt F)
/-- One weight per edge. -/
abbrev EdgeW (F : FTy → Type) [FloatOps F] := (⟨S1600000, .f32⟩ : BufTy).Contents (Elt F)

/-- Row 0 of the edge list: each edge's source node. -/
def srcOf (e : (⟨S2x1600000, .i32⟩ : BufTy).Contents (Elt F)) : EdgeIx F :=
  shapeCast _ (extractStridedSlice S1x1600000 ![0, 0] e slices_S2x1600000_S1x1600000_0_0) shapeCasts_S1x1600000_S1600000

/-- Row 1 of the edge list: each edge's destination node. -/
def dstOf (e : (⟨S2x1600000, .i32⟩ : BufTy).Contents (Elt F)) : EdgeIx F :=
  shapeCast _ (extractStridedSlice S1x1600000 ![1, 0] e slices_S2x1600000_S1x1600000_1_0) shapeCasts_S1x1600000_S1600000

/-- Node numbers as a gather's start indices: a negative number counts from the end (100000 is added), and the
    row becomes a column. -/
def wrap (s : EdgeIx F) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The number of edges arriving at each node, at least 1. -/
def degOf (d : EdgeIx F) : (⟨S100000, .f32⟩ : BufTy).Contents (Elt F) :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 d)
      (broadcastInDim S1600000 ![] bcast_S_S1600000 (constant S_ .f32 0x3F800000#32)))
    (broadcastInDim S100000 ![] bcast_S_S100000 (constant S_ .f32 0x3F800000#32))

/-- Each edge's weight `1 / sqrt (deg (source) * deg (destination))`. -/
def normOf (s d : EdgeIx F) : EdgeW F :=
  Host.rsqrt (mulf (Host.gather gather_S100000_S1600000x1_S1600000_n_0_n_n_0_1_1 (degOf d) (wrap s))
    (Host.gather gather_S100000_S1600000x1_S1600000_n_0_n_n_0_1_1 (degOf d) (wrap d)))

/-- One graph convolution: along every edge the source node's row, scaled by the edge's weight, is added into the
    destination node's row of an array that starts at zero. -/
def conv (s d : EdgeIx F) (w : EdgeW F) (h : Nodes F) : Nodes F :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 d)
    (mulf (Host.gather gather_S100000x32_S1600000x1_S1600000x32_1_0_n_n_0_1_132 h (wrap s))
      (broadcastInDim S1600000x32 ![0, 1] bcast_S1600000x1_S1600000x32_0_1
        (broadcastInDim S1600000x1 ![0] bcast_S1600000_S1600000x1_0 w)))

/-- The residual mix `0.9 * cv + 0.1 * h0`, entry by entry (the two factors are the shared binary fractions). -/
def mix (cv h0 : Nodes F) : Nodes F :=
  addf (mulf cv (broadcastInDim S100000x32 ![] bcast_S_S100000x32 (constant S_ .f32 0x3F666666#32)))
    (mulf (broadcastInDim S100000x32 ![] bcast_S_S100000x32 (constant S_ .f32 0x3DCCCCCD#32)) h0)

/-- One diffusion step from `h`, anchored at `h0`. -/
def step (s d : EdgeIx F) (w : EdgeW F) (h0 h : Nodes F) : Nodes F := mix (conv s d w h) h0

/-- Ten diffusion steps starting from, and anchored at, `h0`. -/
def diffuse (s d : EdgeIx F) (w : EdgeW F) (h0 : Nodes F) : Nodes F :=
  step s d w h0 (step s d w h0 (step s d w h0 (step s d w h0 (step s d w h0
    (step s d w h0 (step s d w h0 (step s d w h0 (step s d w h0 (step s d w h0 h0)))))))))

/-- The per-entry perceptron between the two diffusions: entry `(n, ch)` of `h`, followed by row `ch` of the
    32 x 6 table, is a row of 7 numbers; it goes through `W1` (7 x 9) plus `b1`, a maximum with 0, then `W2` (9 x 1)
    plus `b2`.  The host lays the 3200000 rows out column-major (all nodes of column 0 first) and undoes that at the end. -/
def mlp (h : Nodes F) (emb : (⟨S32x6, .f32⟩ : BufTy).Contents (Elt F)) (W1 : (⟨S7x9, .f32⟩ : BufTy).Contents (Elt F))
    (b1 : (⟨S9, .f32⟩ : BufTy).Contents (Elt F)) (W2 : (⟨S9x1, .f32⟩ : BufTy).Contents (Elt F))
    (b2 : (⟨S1, .f32⟩ : BufTy).Contents (Elt F)) : Nodes F :=
  transpose S100000x32 [1, 0]
    (shapeCast _
      (addf
        (Host.dotGeneral dot_S3200000x9_S9x1_S3200000x1_1_0_0_1_n_n none
          (maximumf
            (addf
              (Host.dotGeneral dot_S3200000x7_S7x9_S3200000x9_1_0_0_1_n_n none
                (concatenate S3200000x7 1
                  [⟨S3200000x1, (shapeCast _ (transpose S32x100000 [1, 0] h transposes_S100000x32_S32x100000_1_0) shapeCasts_S32x100000_S3200000x1)⟩,
                   ⟨S3200000x6, (shapeCast _ (broadcastInDim S32x100000x6 ![0, 2] bcast_S32x6_S32x100000x6_0_2 emb) shapeCasts_S32x100000x6_S3200000x6)⟩]
                  concatenates_S3200000x1_S3200000x6_S3200000x7_d1)
                W1)
              (broadcastInDim S3200000x9 ![0, 1] bcast_S1x9_S3200000x9_0_1 (broadcastInDim S1x9 ![1] bcast_S9_S1x9_1 b1)))
            (broadcastInDim S3200000x9 ![] bcast_S_S3200000x9 (constant S_ .f32 0x00000000#32)))
          W2)
        (broadcastInDim S3200000x1 ![0, 1] bcast_S1x1_S3200000x1_0_1 (broadcastInDim S1x1 ![1] bcast_S1_S1x1_1 b2)))
      shapeCasts_S3200000x1_S32x100000)
    transposes_S32x100000_S100000x32_1_0

/-- The last dense layer: `h` (100000 x 32) times `Wout` (32 x 16) plus the bias row. -/
def fin (h : Nodes F) (Wout : (⟨S32x16, .f32⟩ : BufTy).Contents (Elt F)) (bout : (⟨S16, .f32⟩ : BufTy).Contents (Elt F)) :
    (⟨S100000x16, .f32⟩ : BufTy).Contents (Elt F) :=
  addf (Host.dotGeneral dot_S100000x32_S32x16_S100000x16_1_0_0_1_n_n none h Wout)
    (broadcastInDim S100000x16 ![0, 1] bcast_S1x16_S100000x16_0_1 (broadcastInDim S1x16 ![1] bcast_S16_S1x16_1 bout))

/-- The whole computation: diffuse, perceptron, diffuse, last layer. -/
def whole (x : Nodes F) (e : (⟨S2x1600000, .i32⟩ : BufTy).Contents (Elt F)) (emb : (⟨S32x6, .f32⟩ : BufTy).Contents (Elt F))
    (W1 : (⟨S7x9, .f32⟩ : BufTy).Contents (Elt F)) (b1 : (⟨S9, .f32⟩ : BufTy).Contents (Elt F))
    (W2 : (⟨S9x1, .f32⟩ : BufTy).Contents (Elt F)) (b2 : (⟨S1, .f32⟩ : BufTy).Contents (Elt F))
    (Wout : (⟨S32x16, .f32⟩ : BufTy).Contents (Elt F)) (bout : (⟨S16, .f32⟩ : BufTy).Contents (Elt F)) :
    (⟨S100000x16, .f32⟩ : BufTy).Contents (Elt F) :=
  fin (diffuse (srcOf e) (dstOf e) (normOf (srcOf e) (dstOf e))
        (mlp (diffuse (srcOf e) (dstOf e) (normOf (srcOf e) (dstOf e)) x) emb W1 b1 W2 b2))
    Wout bout

end Cert.Spec

end
-- ==== Proof.RefOps.lean ====
/-
  The host program's 515 operations, in order, cut into 22 consecutive lists: the edge rows, degrees, weights and the
  first diffusion step (`ops0`); one diffusion step each (`ops1` … `ops9`, anchored at the input features); the
  per-entry perceptron (`opsM`); one diffusion step each (`ops11` … `ops20`, anchored at the perceptron's result);
  the last dense layer (`opsF`).  `ops` is their concatenation.
-/
import proofs.«104874_j7885559956094_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 … 55 of the program (the last writes `main_v43`). -/
abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v10 (broadcastInDim S1600000 ![] bcast_S_S1600000 : (⟨S_, .i32⟩ : BufTy).Contents (Elt F) → (⟨S1600000, .i32⟩ : BufTy).Contents (Elt F)),
    binary main_v1 main_v10 main_v11 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v12 (broadcastInDim S1600000 ![] bcast_S_S1600000 : (⟨S_, .i32⟩ : BufTy).Contents (Elt F) → (⟨S1600000, .i32⟩ : BufTy).Contents (Elt F)),
    binary main_v1 main_v12 main_v13 (addi : (⟨S1600000, .i32⟩ : BufTy).Contents (Elt F) → (⟨S1600000, .i32⟩ : BufTy).Contents (Elt F) → (⟨S1600000, .i32⟩ : BufTy).Contents (Elt F)),
    ternary main_v11 main_v13 main_v1 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v14 main_v15 (broadcastInDim S1600000x1 ![0] bcast_S1600000_S1600000x1_0 : (⟨S1600000, .i32⟩ : BufTy).Contents (Elt F) → (⟨S1600000x1, .i32⟩ : BufTy).Contents (Elt F)),
    binary main_v9 main_v15 main_v16 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v17 (broadcastInDim S1600000 ![] bcast_S_S1600000 : (⟨S_, .i32⟩ : BufTy).Contents (Elt F) → (⟨S1600000, .i32⟩ : BufTy).Contents (Elt F)),
    binary main_v3 main_v17 main_v18 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v19 (broadcastInDim S1600000 ![] bcast_S_S1600000 : (⟨S_, .i32⟩ : BufTy).Contents (Elt F) → (⟨S1600000, .i32⟩ : BufTy).Contents (Elt F)),
    binary main_v3 main_v19 main_v20 (addi : (⟨S1600000, .i32⟩ : BufTy).Contents (Elt F) → (⟨S1600000, .i32⟩ : BufTy).Contents (Elt F) → (⟨S1600000, .i32⟩ : BufTy).Contents (Elt F)),
    ternary main_v18 main_v20 main_v3 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v21 main_v22 (broadcastInDim S1600000x1 ![0] bcast_S1600000_S1600000x1_0 : (⟨S1600000, .i32⟩ : BufTy).Contents (Elt F) → (⟨S1600000x1, .i32⟩ : BufTy).Contents (Elt F)),
    binary main_v9 main_v22 main_v23 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v16 main_v23 main_v24 (mulf : (⟨S1600000, .f32⟩ : BufTy).Contents (Elt F) → (⟨S1600000, .f32⟩ : BufTy).Contents (Elt F) → (⟨S1600000, .f32⟩ : BufTy).Contents (Elt F)),
    unary main_v24 main_v25 (Host.rsqrt : (⟨S1600000, .f32⟩ : BufTy).Contents (Elt F) → (⟨S1600000, .f32⟩ : BufTy).Contents (Elt F)),
    nullary main_c_5 (constantI S_ 32 0#32),
    unary main_c_5 main_v26 (broadcastInDim S1600000 ![] bcast_S_S1600000 : (⟨S_, .i32⟩ : BufTy).Contents (Elt F) → (⟨S1600000, .i32⟩ : BufTy).Contents (Elt F)),
    binary main_v1 main_v26 main_v27 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v28 (broadcastInDim S1600000 ![] bcast_S_S1600000 : (⟨S_, .i32⟩ : BufTy).Contents (Elt F) → (⟨S1600000, .i32⟩ : BufTy).Contents (Elt F)),
    binary main_v1 main_v28 main_v29 (addi : (⟨S1600000, .i32⟩ : BufTy).Contents (Elt F) → (⟨S1600000, .i32⟩ : BufTy).Contents (Elt F) → (⟨S1600000, .i32⟩ : BufTy).Contents (Elt F)),
    ternary main_v27 main_v29 main_v1 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v30 main_v31 (broadcastInDim S1600000x1 ![0] bcast_S1600000_S1600000x1_0 : (⟨S1600000, .i32⟩ : BufTy).Contents (Elt F) → (⟨S1600000x1, .i32⟩ : BufTy).Contents (Elt F)),
    binary main_arg0 main_v31 main_v32 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v33 (broadcastInDim S1600000x1 ![0] bcast_S1600000_S1600000x1_0 : (⟨S1600000, .f32⟩ : BufTy).Contents (Elt F) → (⟨S1600000x1, .f32⟩ : BufTy).Contents (Elt F)),
    unary main_v33 main_v34 (broadcastInDim S1600000x32 ![0, 1] bcast_S1600000x1_S1600000x32_0_1 : (⟨S1600000x1, .f32⟩ : BufTy).Contents (Elt F) → (⟨S1600000x32, .f32⟩ : BufTy).Contents (Elt F)),
    binary main_v32 main_v34 main_v35 (mulf : (⟨S1600000x32, .f32⟩ : BufTy).Contents (Elt F) → (⟨S1600000x32, .f32⟩ : BufTy).Contents (Elt F) → (⟨S1600000x32, .f32⟩ : BufTy).Contents (Elt F)),
    nullary main_cst_7 (constant S_ .f32 0x00000000#32),
    unary main_cst_7 main_v36 (broadcastInDim S100000x32 ![] bcast_S_S100000x32 : (⟨S_, .f32⟩ : BufTy).Contents (Elt F) → (⟨S100000x32, .f32⟩ : BufTy).Contents (Elt F)),
    unary main_v3 main_v37 (broadcastInDim S1600000x1 ![0] bcast_S1600000_S1600000x1_0 : (⟨S1600000, .i32⟩ : BufTy).Contents (Elt F) → (⟨S1600000x1, .i32⟩ : BufTy).Contents (Elt F)),
    ternary main_v36 main_v37 main_v35 main_v38 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_8 (constant S_ .f32 0x3F666666#32),
    unary main_cst_8 main_v39 (broadcastInDim S100000x32 ![] bcast_S_S100000x32 : (⟨S_, .f32⟩ : BufTy).Contents (Elt F) → (⟨S100000x32, .f32⟩ : BufTy).Contents (Elt F)),
    binary main_v38 main_v39 main_v40 (mulf : (⟨S100000x32, .f32⟩ : BufTy).Contents (Elt F) → (⟨S100000x32, .f32⟩ : BufTy).Contents (Elt F) → (⟨S100000x32, .f32⟩ : BufTy).Contents (Elt F)),
    nullary main_cst_9 (constant S_ .f32 0x3DCCCCCD#32),
    unary main_cst_9 main_v41 (broadcastInDim S100000x32 ![] bcast_S_S100000x32 : (⟨S_, .f32⟩ : BufTy).Contents (Elt F) → (⟨S100000x32, .f32⟩ : BufTy).Contents (Elt F)),
    binary main_v41 main_arg0 main_v42 (mulf : (⟨S100000x32, .f32⟩ : BufTy).Contents (Elt F) → (⟨S100000x32, .f32⟩ : BufTy).Contents (Elt F) → (⟨S100000x32, .f32⟩ : BufTy).Contents (Elt F)),
    binary main_v40 main_v42 main_v43 (addf : (⟨S100000x32, .f32⟩ : BufTy).Contents (Elt F) → (⟨S100000x32, .f32⟩ : BufTy).Contents (Elt F) → (⟨S100000x32, .f32⟩ : BufTy).Contents (Elt F)) ]

/-- Operations 56 … 78 of the program (the last writes `main_v61`). -/
abbrev ops1 : List (HloOp τ sig (Elt F)) :=
  [ nullary main_c_10 (constantI S_ 32 0#32),
    unary main_c_10 main_v44 (broadcastInDim S1600000 ![] bcast_S_S1600000 : (⟨S_, .i32⟩ : BufTy).Contents (Elt F) → (⟨S1600000, .i32⟩ : BufTy).Contents (Elt F)),
    binary main_v1 main_v44 main_v45 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v46 (broadcastInDim S1600000 ![] bcast_S_S1600000 : (⟨S_, .i32⟩ : BufTy).Contents (Elt F) → (⟨S1600000, .i32⟩ : BufTy).Contents (Elt F)),
    binary main_v1 main_v46 main_v47 (addi : (⟨S1600000, .i32⟩ : BufTy).Contents (Elt F) → (⟨S1600000, .i32⟩ : BufTy).Contents (Elt F) → (⟨S1600000, .i32⟩ : BufTy).Contents (Elt F)),
    ternary main_v45 main_v47 main_v1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v48 main_v49 (broadcastInDim S1600000x1 ![0] bcast_S1600000_S1600000x1_0 : (⟨S1600000, .i32⟩ : BufTy).Contents (Elt F) → (⟨S1600000x1, .i32⟩ : BufTy).Contents (Elt F)),
    binary main_v43 main_v49 main_v50 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v51 (broadcastInDim S1600000x1 ![0] bcast_S1600000_S1600000x1_0 : (⟨S1600000, .f32⟩ : BufTy).Contents (Elt F) → (⟨S1600000x1, .f32⟩ : BufTy).Contents (Elt F)),
    unary main_v51 main_v52 (broadcastInDim S1600000x32 ![0, 1] bcast_S1600000x1_S1600000x32_0_1 : (⟨S1600000x1, .f32⟩ : BufTy).Contents (Elt F) → (⟨S1600000x32, .f32⟩ : BufTy).Contents (Elt F)),
    binary main_v50 main_v52 main_v53 (mulf : (⟨S1600000x32, .f32⟩ : BufTy).Contents (Elt F) → (⟨S1600000x32, .f32⟩ : BufTy).Contents (Elt F) → (⟨S1600000x32, .f32⟩ : BufTy).Contents (Elt F)),
    nullary main_cst_12 (constant S_ .f32 0x00000000#32),
    unary main_cst_12 main_v54 (broadcastInDim S100000x32 ![] bcast_S_S100000x32 : (⟨S_, .f32⟩ : BufTy).Contents (Elt F) → (⟨S100000x32, .f32⟩ : BufTy).Contents (Elt F)),
    unary main_v3 main_v55 (broadcastInDim S1600000x1 ![0] bcast_S1600000_S1600000x1_0 : (⟨S1600000, .i32⟩ : BufTy).Contents (Elt F) → (⟨S1600000x1, .i32⟩ : BufTy).Contents (Elt F)),
    ternary main_v54 main_v55 main_v53 main_v56 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_13 (constant S_ .f32 0x3F666666#32),
    unary main_cst_13 main_v57 (broadcastInDim S100000x32 ![] bcast_S_S100000x32 : (⟨S_, .f32⟩ : BufTy).Contents (Elt F) → (⟨S100000x32, .f32⟩ : BufTy).Contents (Elt F)),
    binary main_v56 main_v57 main_v58 (mulf : (⟨S100000x32, .f32⟩ : BufTy).Contents (Elt F) → (⟨S100000x32, .f32⟩ : BufTy).Contents (Elt F) → (⟨S100000x32, .f32⟩ : BufTy).Contents (Elt F)),
    nullary main_cst_14 (constant S_ .f32 0x3DCCCCCD#32),
    unary main_cst_14 main_v59 (broadcastInDim S100000x32 ![] bcast_S_S100000x32 : (⟨S_, .f32⟩ : BufTy).Contents (Elt F) → (⟨S100000x32, .f32⟩ : BufTy).Contents (Elt F)),
    binary main_v59 main_arg0 main_v60 (mulf : (⟨S100000x32, .f32⟩ : BufTy).Contents (Elt F) → (⟨S100000x32, .f32⟩ : BufTy).Contents (Elt F) → (⟨S100000x32, .f32⟩ : BufTy).Contents (Elt F)),
    binary main_v58 main_v60 main_v61 (addf : (⟨S100000x32, .f32⟩ : BufTy).Contents (Elt F) → (⟨S100000x32, .f32⟩ : BufTy).Contents (Elt F) → (⟨S100000x32, .f32⟩ : BufTy).Contents (Elt F)) ]

/-- Operations 79 … 101 of the program (the last writes `main_v79`). -/
abbrev ops2 : List (HloOp τ sig (Elt F)) :=
  [ nullary main_c_15 (constantI S_ 32 0#32),
    unary main_c_15 main_v62 (broadcastInDim S1600000 ![] bcast_S_S1600000 : (⟨S_, .i32⟩ : BufTy).Contents (Elt F) → (⟨S1600000, .i32⟩ : BufTy).Contents (Elt F)),
    binary main_v1 main_v62 main_v63 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v64 (broadcastInDim S1600000 ![] bcast_S_S1600000 : (⟨S_, .i32⟩ : BufTy).Contents (Elt F) → (⟨S1600000, .i32⟩ : BufTy).Contents (Elt F)),
    binary main_v1 main_v64 main_v65 (addi : (⟨S1600000, .i32⟩ : BufTy).Contents (Elt F) → (⟨S1600000, .i32⟩ : BufTy).Contents (Elt F) → (⟨S1600000, .i32⟩ : BufTy).Contents (Elt F)),
    ternary main_v63 main_v65 main_v1 main_v66 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v66 main_v67 (broadcastInDim S1600000x1 ![0] bcast_S1600000_S1600000x1_0 : (⟨S1600000, .i32⟩ : BufTy).Contents (Elt F) → (⟨S1600000x1, .i32⟩ : BufTy).Contents (Elt F)),
    binary main_v61 main_v67 main_v68 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v69 (broadcastInDim S1600000x1 ![0] bcast_S1600000_S1600000x1_0 : (⟨S1600000, .f32⟩ : BufTy).Contents (Elt F) → (⟨S1600000x1, .f32⟩ : BufTy).Contents (Elt F)),
    unary main_v69 main_v70 (broadcastInDim S1600000x32 ![0, 1] bcast_S1600000x1_S1600000x32_0_1 : (⟨S1600000x1, .f32⟩ : BufTy).Contents (Elt F) → (⟨S1600000x32, .f32⟩ : BufTy).Contents (Elt F)),
    binary main_v68 main_v70 main_v71 (mulf : (⟨S1600000x32, .f32⟩ : BufTy).Contents (Elt F) → (⟨S1600000x32, .f32⟩ : BufTy).Contents (Elt F) → (⟨S1600000x32, .f32⟩ : BufTy).Contents (Elt F)),
    nullary main_cst_17 (constant S_ .f32 0x00000000#32),
    unary main_cst_17 main_v72 (broadcastInDim S100000x32 ![] bcast_S_S100000x32 : (⟨S_, .f32⟩ : BufTy).Contents (Elt F) → (⟨S100000x32, .f32⟩ : BufTy).Contents (Elt F)),
    unary main_v3 main_v73 (broadcastInDim S1600000x1 ![0] bcast_S1600000_S1600000x1_0 : (⟨S1600000, .i32⟩ : BufTy).Contents (Elt F) → (⟨S1600000x1, .i32⟩ : BufTy).Contents (Elt F)),
    ternary main_v72 main_v73 main_v71 main_v74 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_18 (constant S_ .f32 0x3F666666#32),
    unary main_cst_18 main_v75 (broadcastInDim S100000x32 ![] bcast_S_S100000x32 : (⟨S_, .f32⟩ : BufTy).Contents (Elt F) → (⟨S100000x32, .f32⟩ : BufTy).Contents (Elt F)),
    binary main_v74 main_v75 main_v76 (mulf : (⟨S100000x32, .f32⟩ : BufTy).Contents (Elt F) → (⟨S100000x32, .f32⟩ : BufTy).Contents (Elt F) → (⟨S100000x32, .f32⟩ : BufTy).Contents (Elt F)),
    nullary main_cst_19 (constant S_ .f32 0x3DCCCCCD#32),
    unary main_cst_19 main_v77 (broadcastInDim S100000x32 ![] bcast_S_S100000x32 : (⟨S_, .f32⟩ : BufTy).Contents (Elt F) → (⟨S100000x32, .f32⟩ : BufTy).Contents (Elt F)),
    binary main_v77 main_arg0 main_v78 (mulf : (⟨S100000x32, .f32⟩ : BufTy).Contents (Elt F) → (⟨S100000x32, .f32⟩ : BufTy).Contents (Elt F) → (⟨S100000x32, .f32⟩ : BufTy).Contents (Elt F)),
    binary main_v76 main_v78 main_v79 (addf : (⟨S100000x32, .f32⟩ : BufTy).Contents (Elt F) → (⟨S100000x32, .f32⟩ : BufTy).Contents (Elt F) → (⟨S100000x32, .f32⟩ : BufTy).Contents (Elt F)) ]

/-- Operations 102 … 124 of the program (the last writes `main_v97`). -/
abbrev ops3 : List (HloOp τ sig (Elt F)) :=
  [ nullary main_c_20 (constantI S_ 32 0#32),
    unary main_c_20 main_v80 (broadcastInDim S1600000 ![] bcast_S_S1600000 : (⟨S_, .i32⟩ : BufTy).Contents (Elt F) → (⟨S1600000, .i32⟩ : BufTy).Contents (Elt F)),
    binary main_v1 main_v80 main_v81 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v82 (broadcastInDim S1600000 ![] bcast_S_S1600000 : (⟨S_, .i32⟩ : BufTy).Contents (Elt F) → (⟨S1600000, .i32⟩ : BufTy).Contents (Elt F)),
    binary main_v1 main_v82 main_v83 (addi : (⟨S1600000, .i32⟩ : BufTy).Contents (Elt F) → (⟨S1600000, .i32⟩ : BufTy).Contents (Elt F) → (⟨S1600000, .i32⟩ : BufTy).Contents (Elt F)),
    ternary main_v81 main_v83 main_v1 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v84 main_v85 (broadcastInDim S1600000x1 ![0] bcast_S1600000_S1600000x1_0 : (⟨S1600000, .i32⟩ : BufTy).Contents (Elt F) → (⟨S1600000x1, .i32⟩ : BufTy).Contents (Elt F)),
    binary main_v79 main_v85 main_v86 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v87 (broadcastInDim S1600000x1 ![0] bcast_S1600000_S1600000x1_0 : (⟨S1600000, .f32⟩ : BufTy).Contents (Elt F) → (⟨S1600000x1, .f32⟩ : BufTy).Contents (Elt F)),
    unary main_v87 main_v88 (broadcastInDim S1600000x32 ![0, 1] bcast_S1600000x1_S1600000x32_0_1 : (⟨S1600000x1, .f32⟩ : BufTy).Contents (Elt F) → (⟨S1600000x32, .f32⟩ : BufTy).Contents (Elt F)),
    binary main_v86 main_v88 main_v89 (mulf : (⟨S1600000x32, .f32⟩ : BufTy).Contents (Elt F) → (⟨S1600000x32, .f32⟩ : BufTy).Contents (Elt F) → (⟨S1600000x32, .f32⟩ : BufTy).Contents (Elt F)),
    nullary main_cst_22 (constant S_ .f32 0x00000000#32),
    unary main_cst_22 main_v90 (broadcastInDim S100000x32 ![] bcast_S_S100000x32 : (⟨S_, .f32⟩ : BufTy).Contents (Elt F) → (⟨S100000x32, .f32⟩ : BufTy).Contents (Elt F)),
    unary main_v3 main_v91 (broadcastInDim S1600000x1 ![0] bcast_S1600000_S1600000x1_0 : (⟨S1600000, .i32⟩ : BufTy).Contents (Elt F) → (⟨S1600000x1, .i32⟩ : BufTy).Contents (Elt F)),
    ternary main_v90 main_v91 main_v89 main_v92 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_23 (constant S_ .f32 0x3F666666#32),
    unary main_cst_23 main_v93 (broadcastInDim S100000x32 ![] bcast_S_S100000x32 : (⟨S_, .f32⟩ : BufTy).Contents (Elt F) → (⟨S100000x32, .f32⟩ : BufTy).Contents (Elt F)),
    binary main_v92 main_v93 main_v94 (mulf : (⟨S100000x32, .f32⟩ : BufTy).Contents (Elt F) → (⟨S100000x32, .f32⟩ : BufTy).Contents (Elt F) → (⟨S100000x32, .f32⟩ : BufTy).Contents (Elt F)),
    nullary main_cst_24 (constant S_ .f32 0x3DCCCCCD#32),
    unary main_cst_24 main_v95 (broadcastInDim S100000x32 ![] bcast_S_S100000x32 : (⟨S_, .f32⟩ : BufTy).Contents (Elt F) → (⟨S100000x32, .f32⟩ : BufTy).Contents (Elt F)),
    binary main_v95 main_arg0 main_v96 (mulf : (⟨S100000x32, .f32⟩ : BufTy).Contents (Elt F) → (⟨S100000x32, .f32⟩ : BufTy).Contents (Elt F) → (⟨S100000x32, .f32⟩ : BufTy).Contents (Elt F)),
    binary main_v94 main_v96 main_v97 (addf : (⟨S100000x32, .f32⟩ : BufTy).Contents (Elt F) → (⟨S100000x32, .f32⟩ : BufTy).Contents (Elt F) → (⟨S100000x32, .f32⟩ : BufTy).Contents (Elt F)) ]

/-- Operations 125 … 147 of the program (the last writes `main_v115`). -/
abbrev ops4 : List (HloOp τ sig (Elt F)) :=
  [ nullary main_c_25 (constantI S_ 32 0#32),
    unary main_c_25 main_v98 (broadcastInDim S1600000 ![] bcast_S_S1600000 : (⟨S_, .i32⟩ : BufTy).Contents (Elt F) → (⟨S1600000, .i32⟩ : BufTy).Contents (Elt F)),
    binary main_v1 main_v98 main_v99 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v100 (broadcastInDim S1600000 ![] bcast_S_S1600000 : (⟨S_, .i32⟩ : BufTy).Contents (Elt F) → (⟨S1600000, .i32⟩ : BufTy).Contents (Elt F)),
    binary main_v1 main_v100 main_v101 (addi : (⟨S1600000, .i32⟩ : BufTy).Contents (Elt F) → (⟨S1600000, .i32⟩ : BufTy).Contents (Elt F) → (⟨S1600000, .i32⟩ : BufTy).Contents (Elt F)),
    ternary main_v99 main_v101 main_v1 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v102 main_v103 (broadcastInDim S1600000x1 ![0] bcast_S1600000_S1600000x1_0 : (⟨S1600000, .i32⟩ : BufTy).Contents (Elt F) → (⟨S1600000x1, .i32⟩ : BufTy).Contents (Elt F)),
    binary main_v97 main_v103 main_v104 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v105 (broadcastInDim S1600000x1 ![0] bcast_S1600000_S1600000x1_0 : (⟨S1600000, .f32⟩ : BufTy).Contents (Elt F) → (⟨S1600000x1, .f32⟩ : BufTy).Contents (Elt F)),
    unary main_v105 main_v106 (broadcastInDim S1600000x32 ![0, 1] bcast_S1600000x1_S1600000x32_0_1 : (⟨S1600000x1, .f32⟩ : BufTy).Contents (Elt F) → (⟨S1600000x32, .f32⟩ : BufTy).Contents (Elt F)),
    binary main_v104 main_v106 main_v107 (mulf : (⟨S1600000x32, .f32⟩ : BufTy).Contents (Elt F) → (⟨S1600000x32, .f32⟩ : BufTy).Contents (Elt F) → (⟨S1600000x32, .f32⟩ : BufTy).Contents (Elt F)),
    nullary main_cst_27 (constant S_ .f32 0x00000000#32),
    unary main_cst_27 main_v108 (broadcastInDim S100000x32 ![] bcast_S_S100000x32 : (⟨S_, .f32⟩ : BufTy).Contents (Elt F) → (⟨S100000x32, .f32⟩ : BufTy).Contents (Elt F)),
    unary main_v3 main_v109 (broadcastInDim S1600000x1 ![0] bcast_S1600000_S1600000x1_0 : (⟨S1600000, .i32⟩ : BufTy).Contents (Elt F) → (⟨S1600000x1, .i32⟩ : BufTy).Contents (Elt F)),
    ternary main_v108 main_v109 main_v107 main_v110 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_28 (constant S_ .f32 0x3F666666#32),
    unary main_cst_28 main_v111 (broadcastInDim S100000x32 ![] bcast_S_S100000x32 : (⟨S_, .f32⟩ : BufTy).Contents (Elt F) → (⟨S100000x32, .f32⟩ : BufTy).Contents (Elt F)),
    binary main_v110 main_v111 main_v112 (mulf : (⟨S100000x32, .f32⟩ : BufTy).Contents (Elt F) → (⟨S100000x32, .f32⟩ : BufTy).Contents (Elt F) → (⟨S100000x32, .f32⟩ : BufTy).Contents (Elt F)),
    nullary main_cst_29 (constant S_ .f32 0x3DCCCCCD#32),
    unary main_cst_29 main_v113 (broadcastInDim S100000x32 ![] bcast_S_S100000x32 : (⟨S_, .f32⟩ : BufTy).Contents (Elt F) → (⟨S100000x32, .f32⟩ : BufTy).Contents (Elt F)),
    binary main_v113 main_arg0 main_v114 (mulf : (⟨S100000x32, .f32⟩ : BufTy).Contents (Elt F) → (⟨S100000x32, .f32⟩ : BufTy).Contents (Elt F) → (⟨S100000x32, .f32⟩ : BufTy).Contents (Elt F)),
    binary main_v112 main_v114 main_v115 (addf : (⟨S100000x32, .f32⟩ : BufTy).Contents (Elt F) → (⟨S100000x32, .f32⟩ : BufTy).Contents (Elt F) → (⟨S100000x32, .f32⟩ : BufTy).Contents (Elt F)) ]

/-- Operations 148 … 170 of the program (the last writes `main_v133`). -/
abbrev ops5 : List (HloOp τ sig (Elt F)) :=
  [ nullary main_c_30 (constantI S_ 32 0#32),
    unary main_c_30 main_v116 (broadcastInDim S1600000 ![] bcast_S_S1600000 : (⟨S_, .i32⟩ : BufTy).Contents (Elt F) → (⟨S1600000, .i32⟩ : BufTy).Contents (Elt F)),
    binary main_v1 main_v116 main_v117 (cmpi .slt : (⟨S1600000, .i32⟩ : BufTy).Contents (Elt F) → (⟨S1600000, .i32⟩ : BufTy).Contents (Elt F) → (⟨S1600000, .i1⟩ : BufTy).Contents (Elt F)),
    nullary main_c_31 (constantI S_ 32 100000#32),
    unary main_c_31 main_v118 (broadcastInDim S1600000 ![] bcast_S_S1600000 : (⟨S_, .i32⟩ : BufTy).Contents (Elt F) → (⟨S1600000, .i32⟩ : BufTy).Contents (Elt F)),
    binary main_v1 main_v118 main_v119 (addi : (⟨S1600000, .i32⟩ : BufTy).Contents (Elt F) → (⟨S1600000, .i32⟩ : BufTy).Contents (Elt F) → (⟨S1600000, .i32⟩ : BufTy).Contents (Elt F)),
    ternary main_v117 main_v119 main_v1 main_v120 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v120 main_v121 (broadcastInDim S1600000x1 ![0] bcast_S1600000_S1600000x1_0 : (⟨S1600000, .i32⟩ : BufTy).Contents (Elt F) → (⟨S1600000x1, .i32⟩ : BufTy).Contents (Elt F)),
    binary main_v115 main_v121 main_v122 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v123 (broadcastInDim S1600000x1 ![0] bcast_S1600000_S1600000x1_0 : (⟨S1600000, .f32⟩ : BufTy).Contents (Elt F) → (⟨S1600000x1, .f32⟩ : BufTy).Contents (Elt F)),
    unary main_v123 main_v124 (broadcastInDim S1600000x32 ![0, 1] bcast_S1600000x1_S1600000x32_0_1 : (⟨S1600000x1, .f32⟩ : BufTy).Contents (Elt F) → (⟨S1600000x32, .f32⟩ : BufTy).Contents (Elt F)),
    binary main_v122 main_v124 main_v125 (mulf : (⟨S1600000x32, .f32⟩ : BufTy).Contents (Elt F) → (⟨S1600000x32, .f32⟩ : BufTy).Contents (Elt F) → (⟨S1600000x32, .f32⟩ : BufTy).Contents (Elt F)),
    nullary main_cst_32 (constant S_ .f32 0x00000000#32),
    unary main_cst_32 main_v126 (broadcastInDim S100000x32 ![] bcast_S_S100000x32 : (⟨S_, .f32⟩ : BufTy).Contents (Elt F) → (⟨S100000x32, .f32⟩ : BufTy).Contents (Elt F)),
    unary main_v3 main_v127 (broadcastInDim S1600000x1 ![0] bcast_S1600000_S1600000x1_0 : (⟨S1600000, .i32⟩ : BufTy).Contents (Elt F) → (⟨S1600000x1, .i32⟩ : BufTy).Contents (Elt F)),
    ternary main_v126 main_v127 main_v125 main_v128 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_33 (constant S_ .f32 0x3F666666#32),
    unary main_cst_33 main_v129 (broadcastInDim S100000x32 ![] bcast_S_S100000x32 : (⟨S_, .f32⟩ : BufTy).Contents (Elt F) → (⟨S100000x32, .f32⟩ : BufTy).Contents (Elt F)),
    binary main_v128 main_v129 main_v130 (mulf : (⟨S100000x32, .f32⟩ : BufTy).Contents (Elt F) → (⟨S100000x32, .f32⟩ : BufTy).Contents (Elt F) → (⟨S100000x32, .f32⟩ : BufTy).Contents (Elt F)),
    nullary main_cst_34 (constant S_ .f32 0x3DCCCCCD#32),
    unary main_cst_34 main_v131 (broadcastInDim S100000x32 ![] bcast_S_S100000x32 : (⟨S_, .f32⟩ : BufTy).Contents (Elt F) → (⟨S100000x32, .f32⟩ : BufTy).Contents (Elt F)),
    binary main_v131 main_arg0 main_v132 (mulf : (⟨S100000x32, .f32⟩ : BufTy).Contents (Elt F) → (⟨S100000x32, .f32⟩ : BufTy).Contents (Elt F) → (⟨S100000x32, .f32⟩ : BufTy).Contents (Elt F)),
    binary main_v130 main_v132 main_v133 (addf : (⟨S100000x32, .f32⟩ : BufTy).Contents (Elt F) → (⟨S100000x32, .f32⟩ : BufTy).Contents (Elt F) → (⟨S100000x32, .f32⟩ : BufTy).Contents (Elt F)) ]

/-- Operations 171 … 193 of the program (the last writes `main_v151`). -/
abbrev ops6 : List (HloOp τ sig (Elt F)) :=
  [ nullary main_c_35 (constantI S_ 32 0#32),
    unary main_c_35 main_v134 (broadcastInDim S1600000 ![] bcast_S_S1600000 : (⟨S_, .i32⟩ : BufTy).Contents (Elt F) → (⟨S1600000, .i32⟩ : BufTy).Contents (Elt F)),
    binary main_v1 main_v134 main_v135 (cmpi .slt : (⟨S1600000, .i32⟩ : BufTy).Contents (Elt F) → (⟨S1600000, .i32⟩ : BufTy).Contents (Elt F) → (⟨S1600000, .i1⟩ : BufTy).Contents (Elt F)),
    nullary main_c_36 (constantI S_ 32 100000#32),
    unary main_c_36 main_v136 (broadcastInDim S1600000 ![] bcast_S_S1600000 : (⟨S_, .i32⟩ : BufTy).Contents (Elt F) → (⟨S1600000, .i32⟩ : BufTy).Contents (Elt F)),
    binary main_v1 main_v136 main_v137 (addi : (⟨S1600000, .i32⟩ : BufTy).Contents (Elt F) → (⟨S1600000, .i32⟩ : BufTy).Contents (Elt F) → (⟨S1600000, .i32⟩ : BufTy).Contents (Elt F)),
    ternary main_v135 main_v137 main_v1 main_v138 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v138 main_v139 (broadcastInDim S1600000x1 ![0] bcast_S1600000_S1600000x1_0 : (⟨S1600000, .i32⟩ : BufTy).Contents (Elt F) → (⟨S1600000x1, .i32⟩ : BufTy).Contents (Elt F)),
    binary main_v133 main_v139 main_v140 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v141 (broadcastInDim S1600000x1 ![0] bcast_S1600000_S1600000x1_0 : (⟨S1600000, .f32⟩ : BufTy).Contents (Elt F) → (⟨S1600000x1, .f32⟩ : BufTy).Contents (Elt F)),
    unary main_v141 main_v142 (broadcastInDim S1600000x32 ![0, 1] bcast_S1600000x1_S1600000x32_0_1 : (⟨S1600000x1, .f32⟩ : BufTy).Contents (Elt F) → (⟨S1600000x32, .f32⟩ : BufTy).Contents (Elt F)),
    binary main_v140 main_v142 main_v143 (mulf : (⟨S1600000x32, .f32⟩ : BufTy).Contents (Elt F) → (⟨S1600000x32, .f32⟩ : BufTy).Contents (Elt F) → (⟨S1600000x32, .f32⟩ : BufTy).Contents (Elt F)),
    nullary main_cst_37 (constant S_ .f32 0x00000000#32),
    unary main_cst_37 main_v144 (broadcastInDim S100000x32 ![] bcast_S_S100000x32 : (⟨S_, .f32⟩ : BufTy).Contents (Elt F) → (⟨S100000x32, .f32⟩ : BufTy).Contents (Elt F)),
    unary main_v3 main_v145 (broadcastInDim S1600000x1 ![0] bcast_S1600000_S1600000x1_0 : (⟨S1600000, .i32⟩ : BufTy).Contents (Elt F) → (⟨S1600000x1, .i32⟩ : BufTy).Contents (Elt F)),
    ternary main_v144 main_v145 main_v143 main_v146 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_38 (constant S_ .f32 0x3F666666#32),
    unary main_cst_38 main_v147 (broadcastInDim S100000x32 ![] bcast_S_S100000x32 : (⟨S_, .f32⟩ : BufTy).Contents (Elt F) → (⟨S100000x32, .f32⟩ : BufTy).Contents (Elt F)),
    binary main_v146 main_v147 main_v148 (mulf : (⟨S100000x32, .f32⟩ : BufTy).Contents (Elt F) → (⟨S100000x32, .f32⟩ : BufTy).Contents (Elt F) → (⟨S100000x32, .f32⟩ : BufTy).Contents (Elt F)),
    nullary main_cst_39 (constant S_ .f32 0x3DCCCCCD#32),
    unary main_cst_39 main_v149 (broadcastInDim S100000x32 ![] bcast_S_S100000x32 : (⟨S_, .f32⟩ : BufTy).Contents (Elt F) → (⟨S100000x32, .f32⟩ : BufTy).Contents (Elt F)),
    binary main_v149 main_arg0 main_v150 (mulf : (⟨S100000x32, .f32⟩ : BufTy).Contents (Elt F) → (⟨S100000x32, .f32⟩ : BufTy).Contents (Elt F) → (⟨S100000x32, .f32⟩ : BufTy).Contents (Elt F)),
    binary main_v148 main_v150 main_v151 (addf : (⟨S100000x32, .f32⟩ : BufTy).Contents (Elt F) → (⟨S100000x32, .f32⟩ : BufTy).Contents (Elt F) → (⟨S100000x32, .f32⟩ : BufTy).Contents (Elt F)) ]

/-- Operations 194 … 216 of the program (the last writes `main_v169`). -/
abbrev ops7 : List (HloOp τ sig (Elt F)) :=
  [ nullary main_c_40 (constantI S_ 32 0#32),
    unary main_c_40 main_v152 (broadcastInDim S1600000 ![] bcast_S_S1600000 : (⟨S_, .i32⟩ : BufTy).Contents (Elt F) → (⟨S1600000, .i32⟩ : BufTy).Contents (Elt F)),
    binary main_v1 main_v152 main_v153 (cmpi .slt : (⟨S1600000, .i32⟩ : BufTy).Contents (Elt F) → (⟨S1600000, .i32⟩ : BufTy).Contents (Elt F) → (⟨S1600000, .i1⟩ : BufTy).Contents (Elt F)),
    nullary main_c_41 (constantI S_ 32 100000#32),
    unary main_c_41 main_v154 (broadcastInDim S1600000 ![] bcast_S_S1600000 : (⟨S_, .i32⟩ : BufTy).Contents (Elt F) → (⟨S1600000, .i32⟩ : BufTy).Contents (Elt F)),
    binary main_v1 main_v154 main_v155 (addi : (⟨S1600000, .i32⟩ : BufTy).Contents (Elt F) → (⟨S1600000, .i32⟩ : BufTy).Contents (Elt F) → (⟨S1600000, .i32⟩ : BufTy).Contents (Elt F)),
    ternary main_v153 main_v155 main_v1 main_v156 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v156 main_v157 (broadcastInDim S1600000x1 ![0] bcast_S1600000_S1600000x1_0 : (⟨S1600000, .i32⟩ : BufTy).Contents (Elt F) → (⟨S1600000x1, .i32⟩ : BufTy).Contents (Elt F)),
    binary main_v151 main_v157 main_v158 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v159 (broadcastInDim S1600000x1 ![0] bcast_S1600000_S1600000x1_0 : (⟨S1600000, .f32⟩ : BufTy).Contents (Elt F) → (⟨S1600000x1, .f32⟩ : BufTy).Contents (Elt F)),
    unary main_v159 main_v160 (broadcastInDim S1600000x32 ![0, 1] bcast_S1600000x1_S1600000x32_0_1 : (⟨S1600000x1, .f32⟩ : BufTy).Contents (Elt F) → (⟨S1600000x32, .f32⟩ : BufTy).Contents (Elt F)),
    binary main_v158 main_v160 main_v161 (mulf : (⟨S1600000x32, .f32⟩ : BufTy).Contents (Elt F) → (⟨S1600000x32, .f32⟩ : BufTy).Contents (Elt F) → (⟨S1600000x32, .f32⟩ : BufTy).Contents (Elt F)),
    nullary main_cst_42 (constant S_ .f32 0x00000000#32),
    unary main_cst_42 main_v162 (broadcastInDim S100000x32 ![] bcast_S_S100000x32 : (⟨S_, .f32⟩ : BufTy).Contents (Elt F) → (⟨S100000x32, .f32⟩ : BufTy).Contents (Elt F)),
    unary main_v3 main_v163 (broadcastInDim S1600000x1 ![0] bcast_S1600000_S1600000x1_0 : (⟨S1600000, .i32⟩ : BufTy).Contents (Elt F) → (⟨S1600000x1, .i32⟩ : BufTy).Contents (Elt F)),
    ternary main_v162 main_v163 main_v161 main_v164 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_43 (constant S_ .f32 0x3F666666#32),
    unary main_cst_43 main_v165 (broadcastInDim S100000x32 ![] bcast_S_S100000x32 : (⟨S_, .f32⟩ : BufTy).Contents (Elt F) → (⟨S100000x32, .f32⟩ : BufTy).Contents (Elt F)),
    binary main_v164 main_v165 main_v166 (mulf : (⟨S100000x32, .f32⟩ : BufTy).Contents (Elt F) → (⟨S100000x32, .f32⟩ : BufTy).Contents (Elt F) → (⟨S100000x32, .f32⟩ : BufTy).Contents (Elt F)),
    nullary main_cst_44 (constant S_ .f32 0x3DCCCCCD#32),
    unary main_cst_44 main_v167 (broadcastInDim S100000x32 ![] bcast_S_S100000x32 : (⟨S_, .f32⟩ : BufTy).Contents (Elt F) → (⟨S100000x32, .f32⟩ : BufTy).Contents (Elt F)),
    binary main_v167 main_arg0 main_v168 (mulf : (⟨S100000x32, .f32⟩ : BufTy).Contents (Elt F) → (⟨S100000x32, .f32⟩ : BufTy).Contents (Elt F) → (⟨S100000x32, .f32⟩ : BufTy).Contents (Elt F)),
    binary main_v166 main_v168 main_v169 (addf : (⟨S100000x32, .f32⟩ : BufTy).Contents (Elt F) → (⟨S100000x32, .f32⟩ : BufTy).Contents (Elt F) → (⟨S100000x32, .f32⟩ : BufTy).Contents (Elt F)) ]

/-- Operations 217 … 239 of the program (the last writes `main_v187`). -/
abbrev ops8 : List (HloOp τ sig (Elt F)) :=
  [ nullary main_c_45 (constantI S_ 32 0#32),
    unary main_c_45 main_v170 (broadcastInDim S1600000 ![] bcast_S_S1600000 : (⟨S_, .i32⟩ : BufTy).Contents (Elt F) → (⟨S1600000, .i32⟩ : BufTy).Contents (Elt F)),
    binary main_v1 main_v170 main_v171 (cmpi .slt : (⟨S1600000, .i32⟩ : BufTy).Contents (Elt F) → (⟨S1600000, .i32⟩ : BufTy).Contents (Elt F) → (⟨S1600000, .i1⟩ : BufTy).Contents (Elt F)),
    nullary main_c_46 (constantI S_ 32 100000#32),
    unary main_c_46 main_v172 (broadcastInDim S1600000 ![] bcast_S_S1600000 : (⟨S_, .i32⟩ : BufTy).Contents (Elt F) → (⟨S1600000, .i32⟩ : BufTy).Contents (Elt F)),
    binary main_v1 main_v172 main_v173 (addi : (⟨S1600000, .i32⟩ : BufTy).Contents (Elt F) → (⟨S1600000, .i32⟩ : BufTy).Contents (Elt F) → (⟨S1600000, .i32⟩ : BufTy).Contents (Elt F)),
    ternary main_v171 main_v173 main_v1 main_v174 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v174 main_v175 (broadcastInDim S1600000x1 ![0] bcast_S1600000_S1600000x1_0 : (⟨S1600000, .i32⟩ : BufTy).Contents (Elt F) → (⟨S1600000x1, .i32⟩ : BufTy).Contents (Elt F)),
    binary main_v169 main_v175 main_v176 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v177 (broadcastInDim S1600000x1 ![0] bcast_S1600000_S1600000x1_0 : (⟨S1600000, .f32⟩ : BufTy).Contents (Elt F) → (⟨S1600000x1, .f32⟩ : BufTy).Contents (Elt F)),
    unary main_v177 main_v178 (broadcastInDim S1600000x32 ![0, 1] bcast_S1600000x1_S1600000x32_0_1 : (⟨S1600000x1, .f32⟩ : BufTy).Contents (Elt F) → (⟨S1600000x32, .f32⟩ : BufTy).Contents (Elt F)),
    binary main_v176 main_v178 main_v179 (mulf : (⟨S1600000x32, .f32⟩ : BufTy).Contents (Elt F) → (⟨S1600000x32, .f32⟩ : BufTy).Contents (Elt F) → (⟨S1600000x32, .f32⟩ : BufTy).Contents (Elt F)),
    nullary main_cst_47 (constant S_ .f32 0x00000000#32),
    unary main_cst_47 main_v180 (broadcastInDim S100000x32 ![] bcast_S_S100000x32 : (⟨S_, .f32⟩ : BufTy).Contents (Elt F) → (⟨S100000x32, .f32⟩ : BufTy).Contents (Elt F)),
    unary main_v3 main_v181 (broadcastInDim S1600000x1 ![0] bcast_S1600000_S1600000x1_0 : (⟨S1600000, .i32⟩ : BufTy).Contents (Elt F) → (⟨S1600000x1, .i32⟩ : BufTy).Contents (Elt F)),
    ternary main_v180 main_v181 main_v179 main_v182 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_48 (constant S_ .f32 0x3F666666#32),
    unary main_cst_48 main_v183 (broadcastInDim S100000x32 ![] bcast_S_S100000x32 : (⟨S_, .f32⟩ : BufTy).Contents (Elt F) → (⟨S100000x32, .f32⟩ : BufTy).Contents (Elt F)),
    binary main_v182 main_v183 main_v184 (mulf : (⟨S100000x32, .f32⟩ : BufTy).Contents (Elt F) → (⟨S100000x32, .f32⟩ : BufTy).Contents (Elt F) → (⟨S100000x32, .f32⟩ : BufTy).Contents (Elt F)),
    nullary main_cst_49 (constant S_ .f32 0x3DCCCCCD#32),
    unary main_cst_49 main_v185 (broadcastInDim S100000x32 ![] bcast_S_S100000x32 : (⟨S_, .f32⟩ : BufTy).Contents (Elt F) → (⟨S100000x32, .f32⟩ : BufTy).Contents (Elt F)),
    binary main_v185 main_arg0 main_v186 (mulf : (⟨S100000x32, .f32⟩ : BufTy).Contents (Elt F) → (⟨S100000x32, .f32⟩ : BufTy).Contents (Elt F) → (⟨S100000x32, .f32⟩ : BufTy).Contents (Elt F)),
    binary main_v184 main_v186 main_v187 (addf : (⟨S100000x32, .f32⟩ : BufTy).Contents (Elt F) → (⟨S100000x32, .f32⟩ : BufTy).Contents (Elt F) → (⟨S100000x32, .f32⟩ : BufTy).Contents (Elt F)) ]

/-- Operations 240 … 262 of the program (the last writes `main_v205`). -/
abbrev ops9 : List (HloOp τ sig (Elt F)) :=
  [ nullary main_c_50 (constantI S_ 32 0#32),
    unary main_c_50 main_v188 (broadcastInDim S1600000 ![] bcast_S_S1600000 : (⟨S_, .i32⟩ : BufTy).Contents (Elt F) → (⟨S1600000, .i32⟩ : BufTy).Contents (Elt F)),
    binary main_v1 main_v188 main_v189 (cmpi .slt : (⟨S1600000, .i32⟩ : BufTy).Contents (Elt F) → (⟨S1600000, .i32⟩ : BufTy).Contents (Elt F) → (⟨S1600000, .i1⟩ : BufTy).Contents (Elt F)),
    nullary main_c_51 (constantI S_ 32 100000#32),
    unary main_c_51 main_v190 (broadcastInDim S1600000 ![] bcast_S_S1600000 : (⟨S_, .i32⟩ : BufTy).Contents (Elt F) → (⟨S1600000, .i32⟩ : BufTy).Contents (Elt F)),
    binary main_v1 main_v190 main_v191 (addi : (⟨S1600000, .i32⟩ : BufTy).Contents (Elt F) → (⟨S1600000, .i32⟩ : BufTy).Contents (Elt F) → (⟨S1600000, .i32⟩ : BufTy).Contents (Elt F)),
    ternary main_v189 main_v191 main_v1 main_v192 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v192 main_v193 (broadcastInDim S1600000x1 ![0] bcast_S1600000_S1600000x1_0 : (⟨S1600000, .i32⟩ : BufTy).Contents (Elt F) → (⟨S1600000x1, .i32⟩ : BufTy).Contents (Elt F)),
    binary main_v187 main_v193 main_v194 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v195 (broadcastInDim S1600000x1 ![0] bcast_S1600000_S1600000x1_0 : (⟨S1600000, .f32⟩ : BufTy).Contents (Elt F) → (⟨S1600000x1, .f32⟩ : BufTy).Contents (Elt F)),
    unary main_v195 main_v196 (broadcastInDim S1600000x32 ![0, 1] bcast_S1600000x1_S1600000x32_0_1 : (⟨S1600000x1, .f32⟩ : BufTy).Contents (Elt F) → (⟨S1600000x32, .f32⟩ : BufTy).Contents (Elt F)),
    binary main_v194 main_v196 main_v197 (mulf : (⟨S1600000x32, .f32⟩ : BufTy).Contents (Elt F) → (⟨S1600000x32, .f32⟩ : BufTy).Contents (Elt F) → (⟨S1600000x32, .f32⟩ : BufTy).Contents (Elt F)),
    nullary main_cst_52 (constant S_ .f32 0x00000000#32),
    unary main_cst_52 main_v198 (broadcastInDim S100000x32 ![] bcast_S_S100000x32 : (⟨S_, .f32⟩ : BufTy).Contents (Elt F) → (⟨S100000x32, .f32⟩ : BufTy).Contents (Elt F)),
    unary main_v3 main_v199 (broadcastInDim S1600000x1 ![0] bcast_S1600000_S1600000x1_0 : (⟨S1600000, .i32⟩ : BufTy).Contents (Elt F) → (⟨S1600000x1, .i32⟩ : BufTy).Contents (Elt F)),
    ternary main_v198 main_v199 main_v197 main_v200 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_53 (constant S_ .f32 0x3F666666#32),
    unary main_cst_53 main_v201 (broadcastInDim S100000x32 ![] bcast_S_S100000x32 : (⟨S_, .f32⟩ : BufTy).Contents (Elt F) → (⟨S100000x32, .f32⟩ : BufTy).Contents (Elt F)),
    binary main_v200 main_v201 main_v202 (mulf : (⟨S100000x32, .f32⟩ : BufTy).Contents (Elt F) → (⟨S100000x32, .f32⟩ : BufTy).Contents (Elt F) → (⟨S100000x32, .f32⟩ : BufTy).Contents (Elt F)),
    nullary main_cst_54 (constant S_ .f32 0x3DCCCCCD#32),
    unary main_cst_54 main_v203 (broadcastInDim S100000x32 ![] bcast_S_S100000x32 : (⟨S_, .f32⟩ : BufTy).Contents (Elt F) → (⟨S100000x32, .f32⟩ : BufTy).Contents (Elt F)),
    binary main_v203 main_arg0 main_v204 (mulf : (⟨S100000x32, .f32⟩ : BufTy).Contents (Elt F) → (⟨S100000x32, .f32⟩ : BufTy).Contents (Elt F) → (⟨S100000x32, .f32⟩ : BufTy).Contents (Elt F)),
    binary main_v202 main_v204 main_v205 (addf : (⟨S100000x32, .f32⟩ : BufTy).Contents (Elt F) → (⟨S100000x32, .f32⟩ : BufTy).Contents (Elt F) → (⟨S100000x32, .f32⟩ : BufTy).Contents (Elt F)) ]

/-- Operations 263 … 280 of the program (the last writes `main_v221`). -/
abbrev opsM : List (HloOp τ sig (Elt F)) :=
  [ unary main_v205 main_v206 ((transpose S32x100000 [1, 0] · transposes_S100000x32_S32x100000_1_0) : (⟨S100000x32, .f32⟩ : BufTy).Contents (Elt F) → (⟨S32x100000, .f32⟩ : BufTy).Contents (Elt F)),
    reshape main_v206 main_v207 rfl shapeCasts_S32x100000_S3200000x1,
    unary main_arg2 main_v208 (broadcastInDim S32x100000x6 ![0, 2] bcast_S32x6_S32x100000x6_0_2 : (⟨S32x6, .f32⟩ : BufTy).Contents (Elt F) → (⟨S32x100000x6, .f32⟩ : BufTy).Contents (Elt F)),
    reshape main_v208 main_v209 rfl shapeCasts_S32x100000x6_S3200000x6,
    binary main_v207 main_v209 main_v210 ((fun a b => concatenate S3200000x7 1 [⟨S3200000x1, a⟩, ⟨S3200000x6, b⟩] concatenates_S3200000x1_S3200000x6_S3200000x7_d1) : (⟨S3200000x1, .f32⟩ : BufTy).Contents (Elt F) → (⟨S3200000x6, .f32⟩ : BufTy).Contents (Elt F) → (⟨S3200000x7, .f32⟩ : BufTy).Contents (Elt F)),
    binary main_v210 main_arg3 main_v211 ((fun l r => Host.dotGeneral dot_S3200000x7_S7x9_S3200000x9_1_0_0_1_n_n none l r) : (⟨S3200000x7, .f32⟩ : BufTy).Contents (Elt F) → (⟨S7x9, .f32⟩ : BufTy).Contents (Elt F) → (⟨S3200000x9, .f32⟩ : BufTy).Contents (Elt F)),
    unary main_arg4 main_v212 (broadcastInDim S1x9 ![1] bcast_S9_S1x9_1 : (⟨S9, .f32⟩ : BufTy).Contents (Elt F) → (⟨S1x9, .f32⟩ : BufTy).Contents (Elt F)),
    unary main_v212 main_v213 (broadcastInDim S3200000x9 ![0, 1] bcast_S1x9_S3200000x9_0_1 : (⟨S1x9, .f32⟩ : BufTy).Contents (Elt F) → (⟨S3200000x9, .f32⟩ : BufTy).Contents (Elt F)),
    binary main_v211 main_v213 main_v214 (addf : (⟨S3200000x9, .f32⟩ : BufTy).Contents (Elt F) → (⟨S3200000x9, .f32⟩ : BufTy).Contents (Elt F) → (⟨S3200000x9, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S3200000x9, .f32⟩) main_call0_v0) (broadcastInDim S3200000x9 ![] bcast_S_S3200000x9),
    TRef.binary (TRef.of (T := ⟨S3200000x9, .f32⟩) main_v214) (TRef.of (T := ⟨S3200000x9, .f32⟩) main_call0_v0) (TRef.of (T := ⟨S3200000x9, .f32⟩) main_v215) maximumf,
    binary main_v215 main_arg5 main_v216 ((fun l r => Host.dotGeneral dot_S3200000x9_S9x1_S3200000x1_1_0_0_1_n_n none l r) : (⟨S3200000x9, .f32⟩ : BufTy).Contents (Elt F) → (⟨S9x1, .f32⟩ : BufTy).Contents (Elt F) → (⟨S3200000x1, .f32⟩ : BufTy).Contents (Elt F)),
    unary main_arg6 main_v217 (broadcastInDim S1x1 ![1] bcast_S1_S1x1_1 : (⟨S1, .f32⟩ : BufTy).Contents (Elt F) → (⟨S1x1, .f32⟩ : BufTy).Contents (Elt F)),
    unary main_v217 main_v218 (broadcastInDim S3200000x1 ![0, 1] bcast_S1x1_S3200000x1_0_1 : (⟨S1x1, .f32⟩ : BufTy).Contents (Elt F) → (⟨S3200000x1, .f32⟩ : BufTy).Contents (Elt F)),
    binary main_v216 main_v218 main_v219 (addf : (⟨S3200000x1, .f32⟩ : BufTy).Contents (Elt F) → (⟨S3200000x1, .f32⟩ : BufTy).Contents (Elt F) → (⟨S3200000x1, .f32⟩ : BufTy).Contents (Elt F)),
    reshape main_v219 main_v220 rfl shapeCasts_S3200000x1_S32x100000,
    unary main_v220 main_v221 ((transpose S100000x32 [1, 0] · transposes_S32x100000_S100000x32_1_0) : (⟨S32x100000, .f32⟩ : BufTy).Contents (Elt F) → (⟨S100000x32, .f32⟩ : BufTy).Contents (Elt F)) ]

/-- Operations 281 … 303 of the program (the last writes `main_v239`). -/
abbrev ops11 : List (HloOp τ sig (Elt F)) :=
  [ nullary main_c_55 (constantI S_ 32 0#32),
    unary main_c_55 main_v222 (broadcastInDim S1600000 ![] bcast_S_S1600000 : (⟨S_, .i32⟩ : BufTy).Contents (Elt F) → (⟨S1600000, .i32⟩ : BufTy).Contents (Elt F)),
    binary main_v1 main_v222 main_v223 (cmpi .slt : (⟨S1600000, .i32⟩ : BufTy).Contents (Elt F) → (⟨S1600000, .i32⟩ : BufTy).Contents (Elt F) → (⟨S1600000, .i1⟩ : BufTy).Contents (Elt F)),
    nullary main_c_56 (constantI S_ 32 100000#32),
    unary main_c_56 main_v224 (broadcastInDim S1600000 ![] bcast_S_S1600000 : (⟨S_, .i32⟩ : BufTy).Contents (Elt F) → (⟨S1600000, .i32⟩ : BufTy).Contents (Elt F)),
    binary main_v1 main_v224 main_v225 (addi : (⟨S1600000, .i32⟩ : BufTy).Contents (Elt F) → (⟨S1600000, .i32⟩ : BufTy).Contents (Elt F) → (⟨S1600000, .i32⟩ : BufTy).Contents (Elt F)),
    ternary main_v223 main_v225 main_v1 main_v226 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v226 main_v227 (broadcastInDim S1600000x1 ![0] bcast_S1600000_S1600000x1_0 : (⟨S1600000, .i32⟩ : BufTy).Contents (Elt F) → (⟨S1600000x1, .i32⟩ : BufTy).Contents (Elt F)),
    binary main_v221 main_v227 main_v228 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v229 (broadcastInDim S1600000x1 ![0] bcast_S1600000_S1600000x1_0 : (⟨S1600000, .f32⟩ : BufTy).Contents (Elt F) → (⟨S1600000x1, .f32⟩ : BufTy).Contents (Elt F)),
    unary main_v229 main_v230 (broadcastInDim S1600000x32 ![0, 1] bcast_S1600000x1_S1600000x32_0_1 : (⟨S1600000x1, .f32⟩ : BufTy).Contents (Elt F) → (⟨S1600000x32, .f32⟩ : BufTy).Contents (Elt F)),
    binary main_v228 main_v230 main_v231 (mulf : (⟨S1600000x32, .f32⟩ : BufTy).Contents (Elt F) → (⟨S1600000x32, .f32⟩ : BufTy).Contents (Elt F) → (⟨S1600000x32, .f32⟩ : BufTy).Contents (Elt F)),
    nullary main_cst_57 (constant S_ .f32 0x00000000#32),
    unary main_cst_57 main_v232 (broadcastInDim S100000x32 ![] bcast_S_S100000x32 : (⟨S_, .f32⟩ : BufTy).Contents (Elt F) → (⟨S100000x32, .f32⟩ : BufTy).Contents (Elt F)),
    unary main_v3 main_v233 (broadcastInDim S1600000x1 ![0] bcast_S1600000_S1600000x1_0 : (⟨S1600000, .i32⟩ : BufTy).Contents (Elt F) → (⟨S1600000x1, .i32⟩ : BufTy).Contents (Elt F)),
    ternary main_v232 main_v233 main_v231 main_v234 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_58 (constant S_ .f32 0x3F666666#32),
    unary main_cst_58 main_v235 (broadcastInDim S100000x32 ![] bcast_S_S100000x32 : (⟨S_, .f32⟩ : BufTy).Contents (Elt F) → (⟨S100000x32, .f32⟩ : BufTy).Contents (Elt F)),
    binary main_v234 main_v235 main_v236 (mulf : (⟨S100000x32, .f32⟩ : BufTy).Contents (Elt F) → (⟨S100000x32, .f32⟩ : BufTy).Contents (Elt F) → (⟨S100000x32, .f32⟩ : BufTy).Contents (Elt F)),
    nullary main_cst_59 (constant S_ .f32 0x3DCCCCCD#32),
    unary main_cst_59 main_v237 (broadcastInDim S100000x32 ![] bcast_S_S100000x32 : (⟨S_, .f32⟩ : BufTy).Contents (Elt F) → (⟨S100000x32, .f32⟩ : BufTy).Contents (Elt F)),
    binary main_v237 main_v221 main_v238 (mulf : (⟨S100000x32, .f32⟩ : BufTy).Contents (Elt F) → (⟨S100000x32, .f32⟩ : BufTy).Contents (Elt F) → (⟨S100000x32, .f32⟩ : BufTy).Contents (Elt F)),
    binary main_v236 main_v238 main_v239 (addf : (⟨S100000x32, .f32⟩ : BufTy).Contents (Elt F) → (⟨S100000x32, .f32⟩ : BufTy).Contents (Elt F) → (⟨S100000x32, .f32⟩ : BufTy).Contents (Elt F)) ]

/-- Operations 304 … 326 of the program (the last writes `main_v257`). -/
abbrev ops12 : List (HloOp τ sig (Elt F)) :=
  [ nullary main_c_60 (constantI S_ 32 0#32),
    unary main_c_60 main_v240 (broadcastInDim S1600000 ![] bcast_S_S1600000 : (⟨S_, .i32⟩ : BufTy).Contents (Elt F) → (⟨S1600000, .i32⟩ : BufTy).Contents (Elt F)),
    binary main_v1 main_v240 main_v241 (cmpi .slt : (⟨S1600000, .i32⟩ : BufTy).Contents (Elt F) → (⟨S1600000, .i32⟩ : BufTy).Contents (Elt F) → (⟨S1600000, .i1⟩ : BufTy).Contents (Elt F)),
    nullary main_c_61 (constantI S_ 32 100000#32),
    unary main_c_61 main_v242 (broadcastInDim S1600000 ![] bcast_S_S1600000 : (⟨S_, .i32⟩ : BufTy).Contents (Elt F) → (⟨S1600000, .i32⟩ : BufTy).Contents (Elt F)),
    binary main_v1 main_v242 main_v243 (addi : (⟨S1600000, .i32⟩ : BufTy).Contents (Elt F) → (⟨S1600000, .i32⟩ : BufTy).Contents (Elt F) → (⟨S1600000, .i32⟩ : BufTy).Contents (Elt F)),
    ternary main_v241 main_v243 main_v1 main_v244 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v244 main_v245 (broadcastInDim S1600000x1 ![0] bcast_S1600000_S1600000x1_0 : (⟨S1600000, .i32⟩ : BufTy).Contents (Elt F) → (⟨S1600000x1, .i32⟩ : BufTy).Contents (Elt F)),
    binary main_v239 main_v245 main_v246 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v247 (broadcastInDim S1600000x1 ![0] bcast_S1600000_S1600000x1_0 : (⟨S1600000, .f32⟩ : BufTy).Contents (Elt F) → (⟨S1600000x1, .f32⟩ : BufTy).Contents (Elt F)),
    unary main_v247 main_v248 (broadcastInDim S1600000x32 ![0, 1] bcast_S1600000x1_S1600000x32_0_1 : (⟨S1600000x1, .f32⟩ : BufTy).Contents (Elt F) → (⟨S1600000x32, .f32⟩ : BufTy).Contents (Elt F)),
    binary main_v246 main_v248 main_v249 (mulf : (⟨S1600000x32, .f32⟩ : BufTy).Contents (Elt F) → (⟨S1600000x32, .f32⟩ : BufTy).Contents (Elt F) → (⟨S1600000x32, .f32⟩ : BufTy).Contents (Elt F)),
    nullary main_cst_62 (constant S_ .f32 0x00000000#32),
    unary main_cst_62 main_v250 (broadcastInDim S100000x32 ![] bcast_S_S100000x32 : (⟨S_, .f32⟩ : BufTy).Contents (Elt F) → (⟨S100000x32, .f32⟩ : BufTy).Contents (Elt F)),
    unary main_v3 main_v251 (broadcastInDim S1600000x1 ![0] bcast_S1600000_S1600000x1_0 : (⟨S1600000, .i32⟩ : BufTy).Contents (Elt F) → (⟨S1600000x1, .i32⟩ : BufTy).Contents (Elt F)),
    ternary main_v250 main_v251 main_v249 main_v252 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_63 (constant S_ .f32 0x3F666666#32),
    unary main_cst_63 main_v253 (broadcastInDim S100000x32 ![] bcast_S_S100000x32 : (⟨S_, .f32⟩ : BufTy).Contents (Elt F) → (⟨S100000x32, .f32⟩ : BufTy).Contents (Elt F)),
    binary main_v252 main_v253 main_v254 (mulf : (⟨S100000x32, .f32⟩ : BufTy).Contents (Elt F) → (⟨S100000x32, .f32⟩ : BufTy).Contents (Elt F) → (⟨S100000x32, .f32⟩ : BufTy).Contents (Elt F)),
    nullary main_cst_64 (constant S_ .f32 0x3DCCCCCD#32),
    unary main_cst_64 main_v255 (broadcastInDim S100000x32 ![] bcast_S_S100000x32 : (⟨S_, .f32⟩ : BufTy).Contents (Elt F) → (⟨S100000x32, .f32⟩ : BufTy).Contents (Elt F)),
    binary main_v255 main_v221 main_v256 (mulf : (⟨S100000x32, .f32⟩ : BufTy).Contents (Elt F) → (⟨S100000x32, .f32⟩ : BufTy).Contents (Elt F) → (⟨S100000x32, .f32⟩ : BufTy).Contents (Elt F)),
    binary main_v254 main_v256 main_v257 (addf : (⟨S100000x32, .f32⟩ : BufTy).Contents (Elt F) → (⟨S100000x32, .f32⟩ : BufTy).Contents (Elt F) → (⟨S100000x32, .f32⟩ : BufTy).Contents (Elt F)) ]

/-- Operations 327 … 349 of the program (the last writes `main_v275`). -/
abbrev ops13 : List (HloOp τ sig (Elt F)) :=
  [ nullary main_c_65 (constantI S_ 32 0#32),
    unary main_c_65 main_v258 (broadcastInDim S1600000 ![] bcast_S_S1600000 : (⟨S_, .i32⟩ : BufTy).Contents (Elt F) → (⟨S1600000, .i32⟩ : BufTy).Contents (Elt F)),
    binary main_v1 main_v258 main_v259 (cmpi .slt : (⟨S1600000, .i32⟩ : BufTy).Contents (Elt F) → (⟨S1600000, .i32⟩ : BufTy).Contents (Elt F) → (⟨S1600000, .i1⟩ : BufTy).Contents (Elt F)),
    nullary main_c_66 (constantI S_ 32 100000#32),
    unary main_c_66 main_v260 (broadcastInDim S1600000 ![] bcast_S_S1600000 : (⟨S_, .i32⟩ : BufTy).Contents (Elt F) → (⟨S1600000, .i32⟩ : BufTy).Contents (Elt F)),
    binary main_v1 main_v260 main_v261 (addi : (⟨S1600000, .i32⟩ : BufTy).Contents (Elt F) → (⟨S1600000, .i32⟩ : BufTy).Contents (Elt F) → (⟨S1600000, .i32⟩ : BufTy).Contents (Elt F)),
    ternary main_v259 main_v261 main_v1 main_v262 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v262 main_v263 (broadcastInDim S1600000x1 ![0] bcast_S1600000_S1600000x1_0 : (⟨S1600000, .i32⟩ : BufTy).Contents (Elt F) → (⟨S1600000x1, .i32⟩ : BufTy).Contents (Elt F)),
    binary main_v257 main_v263 main_v264 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v265 (broadcastInDim S1600000x1 ![0] bcast_S1600000_S1600000x1_0 : (⟨S1600000, .f32⟩ : BufTy).Contents (Elt F) → (⟨S1600000x1, .f32⟩ : BufTy).Contents (Elt F)),
    unary main_v265 main_v266 (broadcastInDim S1600000x32 ![0, 1] bcast_S1600000x1_S1600000x32_0_1 : (⟨S1600000x1, .f32⟩ : BufTy).Contents (Elt F) → (⟨S1600000x32, .f32⟩ : BufTy).Contents (Elt F)),
    binary main_v264 main_v266 main_v267 (mulf : (⟨S1600000x32, .f32⟩ : BufTy).Contents (Elt F) → (⟨S1600000x32, .f32⟩ : BufTy).Contents (Elt F) → (⟨S1600000x32, .f32⟩ : BufTy).Contents (Elt F)),
    nullary main_cst_67 (constant S_ .f32 0x00000000#32),
    unary main_cst_67 main_v268 (broadcastInDim S100000x32 ![] bcast_S_S100000x32 : (⟨S_, .f32⟩ : BufTy).Contents (Elt F) → (⟨S100000x32, .f32⟩ : BufTy).Contents (Elt F)),
    unary main_v3 main_v269 (broadcastInDim S1600000x1 ![0] bcast_S1600000_S1600000x1_0 : (⟨S1600000, .i32⟩ : BufTy).Contents (Elt F) → (⟨S1600000x1, .i32⟩ : BufTy).Contents (Elt F)),
    ternary main_v268 main_v269 main_v267 main_v270 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_68 (constant S_ .f32 0x3F666666#32),
    unary main_cst_68 main_v271 (broadcastInDim S100000x32 ![] bcast_S_S100000x32 : (⟨S_, .f32⟩ : BufTy).Contents (Elt F) → (⟨S100000x32, .f32⟩ : BufTy).Contents (Elt F)),
    binary main_v270 main_v271 main_v272 (mulf : (⟨S100000x32, .f32⟩ : BufTy).Contents (Elt F) → (⟨S100000x32, .f32⟩ : BufTy).Contents (Elt F) → (⟨S100000x32, .f32⟩ : BufTy).Contents (Elt F)),
    nullary main_cst_69 (constant S_ .f32 0x3DCCCCCD#32),
    unary main_cst_69 main_v273 (broadcastInDim S100000x32 ![] bcast_S_S100000x32 : (⟨S_, .f32⟩ : BufTy).Contents (Elt F) → (⟨S100000x32, .f32⟩ : BufTy).Contents (Elt F)),
    binary main_v273 main_v221 main_v274 (mulf : (⟨S100000x32, .f32⟩ : BufTy).Contents (Elt F) → (⟨S100000x32, .f32⟩ : BufTy).Contents (Elt F) → (⟨S100000x32, .f32⟩ : BufTy).Contents (Elt F)),
    binary main_v272 main_v274 main_v275 (addf : (⟨S100000x32, .f32⟩ : BufTy).Contents (Elt F) → (⟨S100000x32, .f32⟩ : BufTy).Contents (Elt F) → (⟨S100000x32, .f32⟩ : BufTy).Contents (Elt F)) ]

/-- Operations 350 … 372 of the program (the last writes `main_v293`). -/
abbrev ops14 : List (HloOp τ sig (Elt F)) :=
  [ nullary main_c_70 (constantI S_ 32 0#32),
    unary main_c_70 main_v276 (broadcastInDim S1600000 ![] bcast_S_S1600000 : (⟨S_, .i32⟩ : BufTy).Contents (Elt F) → (⟨S1600000, .i32⟩ : BufTy).Contents (Elt F)),
    binary main_v1 main_v276 main_v277 (cmpi .slt : (⟨S1600000, .i32⟩ : BufTy).Contents (Elt F) → (⟨S1600000, .i32⟩ : BufTy).Contents (Elt F) → (⟨S1600000, .i1⟩ : BufTy).Contents (Elt F)),
    nullary main_c_71 (constantI S_ 32 100000#32),
    unary main_c_71 main_v278 (broadcastInDim S1600000 ![] bcast_S_S1600000 : (⟨S_, .i32⟩ : BufTy).Contents (Elt F) → (⟨S1600000, .i32⟩ : BufTy).Contents (Elt F)),
    binary main_v1 main_v278 main_v279 (addi : (⟨S1600000, .i32⟩ : BufTy).Contents (Elt F) → (⟨S1600000, .i32⟩ : BufTy).Contents (Elt F) → (⟨S1600000, .i32⟩ : BufTy).Contents (Elt F)),
    ternary main_v277 main_v279 main_v1 main_v280 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v280 main_v281 (broadcastInDim S1600000x1 ![0] bcast_S1600000_S1600000x1_0 : (⟨S1600000, .i32⟩ : BufTy).Contents (Elt F) → (⟨S1600000x1, .i32⟩ : BufTy).Contents (Elt F)),
    binary main_v275 main_v281 main_v282 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v283 (broadcastInDim S1600000x1 ![0] bcast_S1600000_S1600000x1_0 : (⟨S1600000, .f32⟩ : BufTy).Contents (Elt F) → (⟨S1600000x1, .f32⟩ : BufTy).Contents (Elt F)),
    unary main_v283 main_v284 (broadcastInDim S1600000x32 ![0, 1] bcast_S1600000x1_S1600000x32_0_1 : (⟨S1600000x1, .f32⟩ : BufTy).Contents (Elt F) → (⟨S1600000x32, .f32⟩ : BufTy).Contents (Elt F)),
    binary main_v282 main_v284 main_v285 (mulf : (⟨S1600000x32, .f32⟩ : BufTy).Contents (Elt F) → (⟨S1600000x32, .f32⟩ : BufTy).Contents (Elt F) → (⟨S1600000x32, .f32⟩ : BufTy).Contents (Elt F)),
    nullary main_cst_72 (constant S_ .f32 0x00000000#32),
    unary main_cst_72 main_v286 (broadcastInDim S100000x32 ![] bcast_S_S100000x32 : (⟨S_, .f32⟩ : BufTy).Contents (Elt F) → (⟨S100000x32, .f32⟩ : BufTy).Contents (Elt F)),
    unary main_v3 main_v287 (broadcastInDim S1600000x1 ![0] bcast_S1600000_S1600000x1_0 : (⟨S1600000, .i32⟩ : BufTy).Contents (Elt F) → (⟨S1600000x1, .i32⟩ : BufTy).Contents (Elt F)),
    ternary main_v286 main_v287 main_v285 main_v288 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_73 (constant S_ .f32 0x3F666666#32),
    unary main_cst_73 main_v289 (broadcastInDim S100000x32 ![] bcast_S_S100000x32 : (⟨S_, .f32⟩ : BufTy).Contents (Elt F) → (⟨S100000x32, .f32⟩ : BufTy).Contents (Elt F)),
    binary main_v288 main_v289 main_v290 (mulf : (⟨S100000x32, .f32⟩ : BufTy).Contents (Elt F) → (⟨S100000x32, .f32⟩ : BufTy).Contents (Elt F) → (⟨S100000x32, .f32⟩ : BufTy).Contents (Elt F)),
    nullary main_cst_74 (constant S_ .f32 0x3DCCCCCD#32),
    unary main_cst_74 main_v291 (broadcastInDim S100000x32 ![] bcast_S_S100000x32 : (⟨S_, .f32⟩ : BufTy).Contents (Elt F) → (⟨S100000x32, .f32⟩ : BufTy).Contents (Elt F)),
    binary main_v291 main_v221 main_v292 (mulf : (⟨S100000x32, .f32⟩ : BufTy).Contents (Elt F) → (⟨S100000x32, .f32⟩ : BufTy).Contents (Elt F) → (⟨S100000x32, .f32⟩ : BufTy).Contents (Elt F)),
    binary main_v290 main_v292 main_v293 (addf : (⟨S100000x32, .f32⟩ : BufTy).Contents (Elt F) → (⟨S100000x32, .f32⟩ : BufTy).Contents (Elt F) → (⟨S100000x32, .f32⟩ : BufTy).Contents (Elt F)) ]

/-- Operations 373 … 395 of the program (the last writes `main_v311`). -/
abbrev ops15 : List (HloOp τ sig (Elt F)) :=
  [ nullary main_c_75 (constantI S_ 32 0#32),
    unary main_c_75 main_v294 (broadcastInDim S1600000 ![] bcast_S_S1600000 : (⟨S_, .i32⟩ : BufTy).Contents (Elt F) → (⟨S1600000, .i32⟩ : BufTy).Contents (Elt F)),
    binary main_v1 main_v294 main_v295 (cmpi .slt : (⟨S1600000, .i32⟩ : BufTy).Contents (Elt F) → (⟨S1600000, .i32⟩ : BufTy).Contents (Elt F) → (⟨S1600000, .i1⟩ : BufTy).Contents (Elt F)),
    nullary main_c_76 (constantI S_ 32 100000#32),
    unary main_c_76 main_v296 (broadcastInDim S1600000 ![] bcast_S_S1600000 : (⟨S_, .i32⟩ : BufTy).Contents (Elt F) → (⟨S1600000, .i32⟩ : BufTy).Contents (Elt F)),
    binary main_v1 main_v296 main_v297 (addi : (⟨S1600000, .i32⟩ : BufTy).Contents (Elt F) → (⟨S1600000, .i32⟩ : BufTy).Contents (Elt F) → (⟨S1600000, .i32⟩ : BufTy).Contents (Elt F)),
    ternary main_v295 main_v297 main_v1 main_v298 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v298 main_v299 (broadcastInDim S1600000x1 ![0] bcast_S1600000_S1600000x1_0 : (⟨S1600000, .i32⟩ : BufTy).Contents (Elt F) → (⟨S1600000x1, .i32⟩ : BufTy).Contents (Elt F)),
    binary main_v293 main_v299 main_v300 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v301 (broadcastInDim S1600000x1 ![0] bcast_S1600000_S1600000x1_0 : (⟨S1600000, .f32⟩ : BufTy).Contents (Elt F) → (⟨S1600000x1, .f32⟩ : BufTy).Contents (Elt F)),
    unary main_v301 main_v302 (broadcastInDim S1600000x32 ![0, 1] bcast_S1600000x1_S1600000x32_0_1 : (⟨S1600000x1, .f32⟩ : BufTy).Contents (Elt F) → (⟨S1600000x32, .f32⟩ : BufTy).Contents (Elt F)),
    binary main_v300 main_v302 main_v303 (mulf : (⟨S1600000x32, .f32⟩ : BufTy).Contents (Elt F) → (⟨S1600000x32, .f32⟩ : BufTy).Contents (Elt F) → (⟨S1600000x32, .f32⟩ : BufTy).Contents (Elt F)),
    nullary main_cst_77 (constant S_ .f32 0x00000000#32),
    unary main_cst_77 main_v304 (broadcastInDim S100000x32 ![] bcast_S_S100000x32 : (⟨S_, .f32⟩ : BufTy).Contents (Elt F) → (⟨S100000x32, .f32⟩ : BufTy).Contents (Elt F)),
    unary main_v3 main_v305 (broadcastInDim S1600000x1 ![0] bcast_S1600000_S1600000x1_0 : (⟨S1600000, .i32⟩ : BufTy).Contents (Elt F) → (⟨S1600000x1, .i32⟩ : BufTy).Contents (Elt F)),
    ternary main_v304 main_v305 main_v303 main_v306 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_78 (constant S_ .f32 0x3F666666#32),
    unary main_cst_78 main_v307 (broadcastInDim S100000x32 ![] bcast_S_S100000x32 : (⟨S_, .f32⟩ : BufTy).Contents (Elt F) → (⟨S100000x32, .f32⟩ : BufTy).Contents (Elt F)),
    binary main_v306 main_v307 main_v308 (mulf : (⟨S100000x32, .f32⟩ : BufTy).Contents (Elt F) → (⟨S100000x32, .f32⟩ : BufTy).Contents (Elt F) → (⟨S100000x32, .f32⟩ : BufTy).Contents (Elt F)),
    nullary main_cst_79 (constant S_ .f32 0x3DCCCCCD#32),
    unary main_cst_79 main_v309 (broadcastInDim S100000x32 ![] bcast_S_S100000x32 : (⟨S_, .f32⟩ : BufTy).Contents (Elt F) → (⟨S100000x32, .f32⟩ : BufTy).Contents (Elt F)),
    binary main_v309 main_v221 main_v310 (mulf : (⟨S100000x32, .f32⟩ : BufTy).Contents (Elt F) → (⟨S100000x32, .f32⟩ : BufTy).Contents (Elt F) → (⟨S100000x32, .f32⟩ : BufTy).Contents (Elt F)),
    binary main_v308 main_v310 main_v311 (addf : (⟨S100000x32, .f32⟩ : BufTy).Contents (Elt F) → (⟨S100000x32, .f32⟩ : BufTy).Contents (Elt F) → (⟨S100000x32, .f32⟩ : BufTy).Contents (Elt F)) ]

/-- Operations 396 … 418 of the program (the last writes `main_v329`). -/
abbrev ops16 : List (HloOp τ sig (Elt F)) :=
  [ nullary main_c_80 (constantI S_ 32 0#32),
    unary main_c_80 main_v312 (broadcastInDim S1600000 ![] bcast_S_S1600000 : (⟨S_, .i32⟩ : BufTy).Contents (Elt F) → (⟨S1600000, .i32⟩ : BufTy).Contents (Elt F)),
    binary main_v1 main_v312 main_v313 (cmpi .slt : (⟨S1600000, .i32⟩ : BufTy).Contents (Elt F) → (⟨S1600000, .i32⟩ : BufTy).Contents (Elt F) → (⟨S1600000, .i1⟩ : BufTy).Contents (Elt F)),
    nullary main_c_81 (constantI S_ 32 100000#32),
    unary main_c_81 main_v314 (broadcastInDim S1600000 ![] bcast_S_S1600000 : (⟨S_, .i32⟩ : BufTy).Contents (Elt F) → (⟨S1600000, .i32⟩ : BufTy).Contents (Elt F)),
    binary main_v1 main_v314 main_v315 (addi : (⟨S1600000, .i32⟩ : BufTy).Contents (Elt F) → (⟨S1600000, .i32⟩ : BufTy).Contents (Elt F) → (⟨S1600000, .i32⟩ : BufTy).Contents (Elt F)),
    ternary main_v313 main_v315 main_v1 main_v316 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v316 main_v317 (broadcastInDim S1600000x1 ![0] bcast_S1600000_S1600000x1_0 : (⟨S1600000, .i32⟩ : BufTy).Contents (Elt F) → (⟨S1600000x1, .i32⟩ : BufTy).Contents (Elt F)),
    binary main_v311 main_v317 main_v318 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v319 (broadcastInDim S1600000x1 ![0] bcast_S1600000_S1600000x1_0 : (⟨S1600000, .f32⟩ : BufTy).Contents (Elt F) → (⟨S1600000x1, .f32⟩ : BufTy).Contents (Elt F)),
    unary main_v319 main_v320 (broadcastInDim S1600000x32 ![0, 1] bcast_S1600000x1_S1600000x32_0_1 : (⟨S1600000x1, .f32⟩ : BufTy).Contents (Elt F) → (⟨S1600000x32, .f32⟩ : BufTy).Contents (Elt F)),
    binary main_v318 main_v320 main_v321 (mulf : (⟨S1600000x32, .f32⟩ : BufTy).Contents (Elt F) → (⟨S1600000x32, .f32⟩ : BufTy).Contents (Elt F) → (⟨S1600000x32, .f32⟩ : BufTy).Contents (Elt F)),
    nullary main_cst_82 (constant S_ .f32 0x00000000#32),
    unary main_cst_82 main_v322 (broadcastInDim S100000x32 ![] bcast_S_S100000x32 : (⟨S_, .f32⟩ : BufTy).Contents (Elt F) → (⟨S100000x32, .f32⟩ : BufTy).Contents (Elt F)),
    unary main_v3 main_v323 (broadcastInDim S1600000x1 ![0] bcast_S1600000_S1600000x1_0 : (⟨S1600000, .i32⟩ : BufTy).Contents (Elt F) → (⟨S1600000x1, .i32⟩ : BufTy).Contents (Elt F)),
    ternary main_v322 main_v323 main_v321 main_v324 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_83 (constant S_ .f32 0x3F666666#32),
    unary main_cst_83 main_v325 (broadcastInDim S100000x32 ![] bcast_S_S100000x32 : (⟨S_, .f32⟩ : BufTy).Contents (Elt F) → (⟨S100000x32, .f32⟩ : BufTy).Contents (Elt F)),
    binary main_v324 main_v325 main_v326 (mulf : (⟨S100000x32, .f32⟩ : BufTy).Contents (Elt F) → (⟨S100000x32, .f32⟩ : BufTy).Contents (Elt F) → (⟨S100000x32, .f32⟩ : BufTy).Contents (Elt F)),
    nullary main_cst_84 (constant S_ .f32 0x3DCCCCCD#32),
    unary main_cst_84 main_v327 (broadcastInDim S100000x32 ![] bcast_S_S100000x32 : (⟨S_, .f32⟩ : BufTy).Contents (Elt F) → (⟨S100000x32, .f32⟩ : BufTy).Contents (Elt F)),
    binary main_v327 main_v221 main_v328 (mulf : (⟨S100000x32, .f32⟩ : BufTy).Contents (Elt F) → (⟨S100000x32, .f32⟩ : BufTy).Contents (Elt F) → (⟨S100000x32, .f32⟩ : BufTy).Contents (Elt F)),
    binary main_v326 main_v328 main_v329 (addf : (⟨S100000x32, .f32⟩ : BufTy).Contents (Elt F) → (⟨S100000x32, .f32⟩ : BufTy).Contents (Elt F) → (⟨S100000x32, .f32⟩ : BufTy).Contents (Elt F)) ]

/-- Operations 419 … 441 of the program (the last writes `main_v347`). -/
abbrev ops17 : List (HloOp τ sig (Elt F)) :=
  [ nullary main_c_85 (constantI S_ 32 0#32),
    unary main_c_85 main_v330 (broadcastInDim S1600000 ![] bcast_S_S1600000 : (⟨S_, .i32⟩ : BufTy).Contents (Elt F) → (⟨S1600000, .i32⟩ : BufTy).Contents (Elt F)),
    binary main_v1 main_v330 main_v331 (cmpi .slt : (⟨S1600000, .i32⟩ : BufTy).Contents (Elt F) → (⟨S1600000, .i32⟩ : BufTy).Contents (Elt F) → (⟨S1600000, .i1⟩ : BufTy).Contents (Elt F)),
    nullary main_c_86 (constantI S_ 32 100000#32),
    unary main_c_86 main_v332 (broadcastInDim S1600000 ![] bcast_S_S1600000 : (⟨S_, .i32⟩ : BufTy).Contents (Elt F) → (⟨S1600000, .i32⟩ : BufTy).Contents (Elt F)),
    binary main_v1 main_v332 main_v333 (addi : (⟨S1600000, .i32⟩ : BufTy).Contents (Elt F) → (⟨S1600000, .i32⟩ : BufTy).Contents (Elt F) → (⟨S1600000, .i32⟩ : BufTy).Contents (Elt F)),
    ternary main_v331 main_v333 main_v1 main_v334 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v334 main_v335 (broadcastInDim S1600000x1 ![0] bcast_S1600000_S1600000x1_0 : (⟨S1600000, .i32⟩ : BufTy).Contents (Elt F) → (⟨S1600000x1, .i32⟩ : BufTy).Contents (Elt F)),
    binary main_v329 main_v335 main_v336 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v337 (broadcastInDim S1600000x1 ![0] bcast_S1600000_S1600000x1_0 : (⟨S1600000, .f32⟩ : BufTy).Contents (Elt F) → (⟨S1600000x1, .f32⟩ : BufTy).Contents (Elt F)),
    unary main_v337 main_v338 (broadcastInDim S1600000x32 ![0, 1] bcast_S1600000x1_S1600000x32_0_1 : (⟨S1600000x1, .f32⟩ : BufTy).Contents (Elt F) → (⟨S1600000x32, .f32⟩ : BufTy).Contents (Elt F)),
    binary main_v336 main_v338 main_v339 (mulf : (⟨S1600000x32, .f32⟩ : BufTy).Contents (Elt F) → (⟨S1600000x32, .f32⟩ : BufTy).Contents (Elt F) → (⟨S1600000x32, .f32⟩ : BufTy).Contents (Elt F)),
    nullary main_cst_87 (constant S_ .f32 0x00000000#32),
    unary main_cst_87 main_v340 (broadcastInDim S100000x32 ![] bcast_S_S100000x32 : (⟨S_, .f32⟩ : BufTy).Contents (Elt F) → (⟨S100000x32, .f32⟩ : BufTy).Contents (Elt F)),
    unary main_v3 main_v341 (broadcastInDim S1600000x1 ![0] bcast_S1600000_S1600000x1_0 : (⟨S1600000, .i32⟩ : BufTy).Contents (Elt F) → (⟨S1600000x1, .i32⟩ : BufTy).Contents (Elt F)),
    ternary main_v340 main_v341 main_v339 main_v342 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_88 (constant S_ .f32 0x3F666666#32),
    unary main_cst_88 main_v343 (broadcastInDim S100000x32 ![] bcast_S_S100000x32 : (⟨S_, .f32⟩ : BufTy).Contents (Elt F) → (⟨S100000x32, .f32⟩ : BufTy).Contents (Elt F)),
    binary main_v342 main_v343 main_v344 (mulf : (⟨S100000x32, .f32⟩ : BufTy).Contents (Elt F) → (⟨S100000x32, .f32⟩ : BufTy).Contents (Elt F) → (⟨S100000x32, .f32⟩ : BufTy).Contents (Elt F)),
    nullary main_cst_89 (constant S_ .f32 0x3DCCCCCD#32),
    unary main_cst_89 main_v345 (broadcastInDim S100000x32 ![] bcast_S_S100000x32 : (⟨S_, .f32⟩ : BufTy).Contents (Elt F) → (⟨S100000x32, .f32⟩ : BufTy).Contents (Elt F)),
    binary main_v345 main_v221 main_v346 (mulf : (⟨S100000x32, .f32⟩ : BufTy).Contents (Elt F) → (⟨S100000x32, .f32⟩ : BufTy).Contents (Elt F) → (⟨S100000x32, .f32⟩ : BufTy).Contents (Elt F)),
    binary main_v344 main_v346 main_v347 (addf : (⟨S100000x32, .f32⟩ : BufTy).Contents (Elt F) → (⟨S100000x32, .f32⟩ : BufTy).Contents (Elt F) → (⟨S100000x32, .f32⟩ : BufTy).Contents (Elt F)) ]

/-- Operations 442 … 464 of the program (the last writes `main_v365`). -/
abbrev ops18 : List (HloOp τ sig (Elt F)) :=
  [ nullary main_c_90 (constantI S_ 32 0#32),
    unary main_c_90 main_v348 (broadcastInDim S1600000 ![] bcast_S_S1600000 : (⟨S_, .i32⟩ : BufTy).Contents (Elt F) → (⟨S1600000, .i32⟩ : BufTy).Contents (Elt F)),
    binary main_v1 main_v348 main_v349 (cmpi .slt : (⟨S1600000, .i32⟩ : BufTy).Contents (Elt F) → (⟨S1600000, .i32⟩ : BufTy).Contents (Elt F) → (⟨S1600000, .i1⟩ : BufTy).Contents (Elt F)),
    nullary main_c_91 (constantI S_ 32 100000#32),
    unary main_c_91 main_v350 (broadcastInDim S1600000 ![] bcast_S_S1600000 : (⟨S_, .i32⟩ : BufTy).Contents (Elt F) → (⟨S1600000, .i32⟩ : BufTy).Contents (Elt F)),
    binary main_v1 main_v350 main_v351 (addi : (⟨S1600000, .i32⟩ : BufTy).Contents (Elt F) → (⟨S1600000, .i32⟩ : BufTy).Contents (Elt F) → (⟨S1600000, .i32⟩ : BufTy).Contents (Elt F)),
    ternary main_v349 main_v351 main_v1 main_v352 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v352 main_v353 (broadcastInDim S1600000x1 ![0] bcast_S1600000_S1600000x1_0 : (⟨S1600000, .i32⟩ : BufTy).Contents (Elt F) → (⟨S1600000x1, .i32⟩ : BufTy).Contents (Elt F)),
    binary main_v347 main_v353 main_v354 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v355 (broadcastInDim S1600000x1 ![0] bcast_S1600000_S1600000x1_0 : (⟨S1600000, .f32⟩ : BufTy).Contents (Elt F) → (⟨S1600000x1, .f32⟩ : BufTy).Contents (Elt F)),
    unary main_v355 main_v356 (broadcastInDim S1600000x32 ![0, 1] bcast_S1600000x1_S1600000x32_0_1 : (⟨S1600000x1, .f32⟩ : BufTy).Contents (Elt F) → (⟨S1600000x32, .f32⟩ : BufTy).Contents (Elt F)),
    binary main_v354 main_v356 main_v357 (mulf : (⟨S1600000x32, .f32⟩ : BufTy).Contents (Elt F) → (⟨S1600000x32, .f32⟩ : BufTy).Contents (Elt F) → (⟨S1600000x32, .f32⟩ : BufTy).Contents (Elt F)),
    nullary main_cst_92 (constant S_ .f32 0x00000000#32),
    unary main_cst_92 main_v358 (broadcastInDim S100000x32 ![] bcast_S_S100000x32 : (⟨S_, .f32⟩ : BufTy).Contents (Elt F) → (⟨S100000x32, .f32⟩ : BufTy).Contents (Elt F)),
    unary main_v3 main_v359 (broadcastInDim S1600000x1 ![0] bcast_S1600000_S1600000x1_0 : (⟨S1600000, .i32⟩ : BufTy).Contents (Elt F) → (⟨S1600000x1, .i32⟩ : BufTy).Contents (Elt F)),
    ternary main_v358 main_v359 main_v357 main_v360 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_93 (constant S_ .f32 0x3F666666#32),
    unary main_cst_93 main_v361 (broadcastInDim S100000x32 ![] bcast_S_S100000x32 : (⟨S_, .f32⟩ : BufTy).Contents (Elt F) → (⟨S100000x32, .f32⟩ : BufTy).Contents (Elt F)),
    binary main_v360 main_v361 main_v362 (mulf : (⟨S100000x32, .f32⟩ : BufTy).Contents (Elt F) → (⟨S100000x32, .f32⟩ : BufTy).Contents (Elt F) → (⟨S100000x32, .f32⟩ : BufTy).Contents (Elt F)),
    nullary main_cst_94 (constant S_ .f32 0x3DCCCCCD#32),
    unary main_cst_94 main_v363 (broadcastInDim S100000x32 ![] bcast_S_S100000x32 : (⟨S_, .f32⟩ : BufTy).Contents (Elt F) → (⟨S100000x32, .f32⟩ : BufTy).Contents (Elt F)),
    binary main_v363 main_v221 main_v364 (mulf : (⟨S100000x32, .f32⟩ : BufTy).Contents (Elt F) → (⟨S100000x32, .f32⟩ : BufTy).Contents (Elt F) → (⟨S100000x32, .f32⟩ : BufTy).Contents (Elt F)),
    binary main_v362 main_v364 main_v365 (addf : (⟨S100000x32, .f32⟩ : BufTy).Contents (Elt F) → (⟨S100000x32, .f32⟩ : BufTy).Contents (Elt F) → (⟨S100000x32, .f32⟩ : BufTy).Contents (Elt F)) ]

/-- Operations 465 … 487 of the program (the last writes `main_v383`). -/
abbrev ops19 : List (HloOp τ sig (Elt F)) :=
  [ nullary main_c_95 (constantI S_ 32 0#32),
    unary main_c_95 main_v366 (broadcastInDim S1600000 ![] bcast_S_S1600000 : (⟨S_, .i32⟩ : BufTy).Contents (Elt F) → (⟨S1600000, .i32⟩ : BufTy).Contents (Elt F)),
    binary main_v1 main_v366 main_v367 (cmpi .slt : (⟨S1600000, .i32⟩ : BufTy).Contents (Elt F) → (⟨S1600000, .i32⟩ : BufTy).Contents (Elt F) → (⟨S1600000, .i1⟩ : BufTy).Contents (Elt F)),
    nullary main_c_96 (constantI S_ 32 100000#32),
    unary main_c_96 main_v368 (broadcastInDim S1600000 ![] bcast_S_S1600000 : (⟨S_, .i32⟩ : BufTy).Contents (Elt F) → (⟨S1600000, .i32⟩ : BufTy).Contents (Elt F)),
    binary main_v1 main_v368 main_v369 (addi : (⟨S1600000, .i32⟩ : BufTy).Contents (Elt F) → (⟨S1600000, .i32⟩ : BufTy).Contents (Elt F) → (⟨S1600000, .i32⟩ : BufTy).Contents (Elt F)),
    ternary main_v367 main_v369 main_v1 main_v370 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v370 main_v371 (broadcastInDim S1600000x1 ![0] bcast_S1600000_S1600000x1_0 : (⟨S1600000, .i32⟩ : BufTy).Contents (Elt F) → (⟨S1600000x1, .i32⟩ : BufTy).Contents (Elt F)),
    binary main_v365 main_v371 main_v372 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v373 (broadcastInDim S1600000x1 ![0] bcast_S1600000_S1600000x1_0 : (⟨S1600000, .f32⟩ : BufTy).Contents (Elt F) → (⟨S1600000x1, .f32⟩ : BufTy).Contents (Elt F)),
    unary main_v373 main_v374 (broadcastInDim S1600000x32 ![0, 1] bcast_S1600000x1_S1600000x32_0_1 : (⟨S1600000x1, .f32⟩ : BufTy).Contents (Elt F) → (⟨S1600000x32, .f32⟩ : BufTy).Contents (Elt F)),
    binary main_v372 main_v374 main_v375 (mulf : (⟨S1600000x32, .f32⟩ : BufTy).Contents (Elt F) → (⟨S1600000x32, .f32⟩ : BufTy).Contents (Elt F) → (⟨S1600000x32, .f32⟩ : BufTy).Contents (Elt F)),
    nullary main_cst_97 (constant S_ .f32 0x00000000#32),
    unary main_cst_97 main_v376 (broadcastInDim S100000x32 ![] bcast_S_S100000x32 : (⟨S_, .f32⟩ : BufTy).Contents (Elt F) → (⟨S100000x32, .f32⟩ : BufTy).Contents (Elt F)),
    unary main_v3 main_v377 (broadcastInDim S1600000x1 ![0] bcast_S1600000_S1600000x1_0 : (⟨S1600000, .i32⟩ : BufTy).Contents (Elt F) → (⟨S1600000x1, .i32⟩ : BufTy).Contents (Elt F)),
    ternary main_v376 main_v377 main_v375 main_v378 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_98 (constant S_ .f32 0x3F666666#32),
    unary main_cst_98 main_v379 (broadcastInDim S100000x32 ![] bcast_S_S100000x32 : (⟨S_, .f32⟩ : BufTy).Contents (Elt F) → (⟨S100000x32, .f32⟩ : BufTy).Contents (Elt F)),
    binary main_v378 main_v379 main_v380 (mulf : (⟨S100000x32, .f32⟩ : BufTy).Contents (Elt F) → (⟨S100000x32, .f32⟩ : BufTy).Contents (Elt F) → (⟨S100000x32, .f32⟩ : BufTy).Contents (Elt F)),
    nullary main_cst_99 (constant S_ .f32 0x3DCCCCCD#32),
    unary main_cst_99 main_v381 (broadcastInDim S100000x32 ![] bcast_S_S100000x32 : (⟨S_, .f32⟩ : BufTy).Contents (Elt F) → (⟨S100000x32, .f32⟩ : BufTy).Contents (Elt F)),
    binary main_v381 main_v221 main_v382 (mulf : (⟨S100000x32, .f32⟩ : BufTy).Contents (Elt F) → (⟨S100000x32, .f32⟩ : BufTy).Contents (Elt F) → (⟨S100000x32, .f32⟩ : BufTy).Contents (Elt F)),
    binary main_v380 main_v382 main_v383 (addf : (⟨S100000x32, .f32⟩ : BufTy).Contents (Elt F) → (⟨S100000x32, .f32⟩ : BufTy).Contents (Elt F) → (⟨S100000x32, .f32⟩ : BufTy).Contents (Elt F)) ]

/-- Operations 488 … 510 of the program (the last writes `main_v401`). -/
abbrev ops20 : List (HloOp τ sig (Elt F)) :=
  [ nullary main_c_100 (constantI S_ 32 0#32),
    unary main_c_100 main_v384 (broadcastInDim S1600000 ![] bcast_S_S1600000 : (⟨S_, .i32⟩ : BufTy).Contents (Elt F) → (⟨S1600000, .i32⟩ : BufTy).Contents (Elt F)),
    binary main_v1 main_v384 main_v385 (cmpi .slt : (⟨S1600000, .i32⟩ : BufTy).Contents (Elt F) → (⟨S1600000, .i32⟩ : BufTy).Contents (Elt F) → (⟨S1600000, .i1⟩ : BufTy).Contents (Elt F)),
    nullary main_c_101 (constantI S_ 32 100000#32),
    unary main_c_101 main_v386 (broadcastInDim S1600000 ![] bcast_S_S1600000 : (⟨S_, .i32⟩ : BufTy).Contents (Elt F) → (⟨S1600000, .i32⟩ : BufTy).Contents (Elt F)),
    binary main_v1 main_v386 main_v387 (addi : (⟨S1600000, .i32⟩ : BufTy).Contents (Elt F) → (⟨S1600000, .i32⟩ : BufTy).Contents (Elt F) → (⟨S1600000, .i32⟩ : BufTy).Contents (Elt F)),
    ternary main_v385 main_v387 main_v1 main_v388 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v388 main_v389 (broadcastInDim S1600000x1 ![0] bcast_S1600000_S1600000x1_0 : (⟨S1600000, .i32⟩ : BufTy).Contents (Elt F) → (⟨S1600000x1, .i32⟩ : BufTy).Contents (Elt F)),
    binary main_v383 main_v389 main_v390 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v25 main_v391 (broadcastInDim S1600000x1 ![0] bcast_S1600000_S1600000x1_0 : (⟨S1600000, .f32⟩ : BufTy).Contents (Elt F) → (⟨S1600000x1, .f32⟩ : BufTy).Contents (Elt F)),
    unary main_v391 main_v392 (broadcastInDim S1600000x32 ![0, 1] bcast_S1600000x1_S1600000x32_0_1 : (⟨S1600000x1, .f32⟩ : BufTy).Contents (Elt F) → (⟨S1600000x32, .f32⟩ : BufTy).Contents (Elt F)),
    binary main_v390 main_v392 main_v393 (mulf : (⟨S1600000x32, .f32⟩ : BufTy).Contents (Elt F) → (⟨S1600000x32, .f32⟩ : BufTy).Contents (Elt F) → (⟨S1600000x32, .f32⟩ : BufTy).Contents (Elt F)),
    nullary main_cst_102 (constant S_ .f32 0x00000000#32),
    unary main_cst_102 main_v394 (broadcastInDim S100000x32 ![] bcast_S_S100000x32 : (⟨S_, .f32⟩ : BufTy).Contents (Elt F) → (⟨S100000x32, .f32⟩ : BufTy).Contents (Elt F)),
    unary main_v3 main_v395 (broadcastInDim S1600000x1 ![0] bcast_S1600000_S1600000x1_0 : (⟨S1600000, .i32⟩ : BufTy).Contents (Elt F) → (⟨S1600000x1, .i32⟩ : BufTy).Contents (Elt F)),
    ternary main_v394 main_v395 main_v393 main_v396 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_103 (constant S_ .f32 0x3F666666#32),
    unary main_cst_103 main_v397 (broadcastInDim S100000x32 ![] bcast_S_S100000x32 : (⟨S_, .f32⟩ : BufTy).Contents (Elt F) → (⟨S100000x32, .f32⟩ : BufTy).Contents (Elt F)),
    binary main_v396 main_v397 main_v398 (mulf : (⟨S100000x32, .f32⟩ : BufTy).Contents (Elt F) → (⟨S100000x32, .f32⟩ : BufTy).Contents (Elt F) → (⟨S100000x32, .f32⟩ : BufTy).Contents (Elt F)),
    nullary main_cst_104 (constant S_ .f32 0x3DCCCCCD#32),
    unary main_cst_104 main_v399 (broadcastInDim S100000x32 ![] bcast_S_S100000x32 : (⟨S_, .f32⟩ : BufTy).Contents (Elt F) → (⟨S100000x32, .f32⟩ : BufTy).Contents (Elt F)),
    binary main_v399 main_v221 main_v400 (mulf : (⟨S100000x32, .f32⟩ : BufTy).Contents (Elt F) → (⟨S100000x32, .f32⟩ : BufTy).Contents (Elt F) → (⟨S100000x32, .f32⟩ : BufTy).Contents (Elt F)),
    binary main_v398 main_v400 main_v401 (addf : (⟨S100000x32, .f32⟩ : BufTy).Contents (Elt F) → (⟨S100000x32, .f32⟩ : BufTy).Contents (Elt F) → (⟨S100000x32, .f32⟩ : BufTy).Contents (Elt F)) ]

/-- Operations 511 … 514 of the program (the last writes `main_v405`). -/
abbrev opsF : List (HloOp τ sig (Elt F)) :=
  [ binary main_v401 main_arg7 main_v402 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    unary main_arg8 main_v403 (broadcastInDim S1x16 ![1] bcast_S16_S1x16_1 : (⟨S16, .f32⟩ : BufTy).Contents (Elt F) → (⟨S1x16, .f32⟩ : BufTy).Contents (Elt F)),
    unary main_v403 main_v404 (broadcastInDim S100000x16 ![0, 1] bcast_S1x16_S100000x16_0_1 : (⟨S1x16, .f32⟩ : BufTy).Contents (Elt F) → (⟨S100000x16, .f32⟩ : BufTy).Contents (Elt F)),
    binary main_v402 main_v404 main_v405 (addf : (⟨S100000x16, .f32⟩ : BufTy).Contents (Elt F) → (⟨S100000x16, .f32⟩ : BufTy).Contents (Elt F) → (⟨S100000x16, .f32⟩ : BufTy).Contents (Elt F)) ]

end Cert.ReferenceIdeal.RefRun

end
-- ==== Proof.RefSub.lean ====
/-
  The host program as the concatenation of its 22 operation lists, and the side conditions of running it as one
  straight line: the program IS the line, every operation touches only TensorCore references, none allocates.
-/
import proofs.«104874_j7885559956094_2_alg».proof.Proof.RefOps

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists is one of every element of their concatenation. -/
theorem forall_append {α : Type} {p : α → Prop} {l₁ l₂ : List α} (h₁ : l₁.Forall p) (h₂ : l₂.Forall p) : (l₁ ++ l₂).Forall p :=
  List.forall_iff_forall_mem.mpr fun a ha =>
    (List.mem_append.mp ha).elim (List.forall_iff_forall_mem.mp h₁ a) (List.forall_iff_forall_mem.mp h₂ a)

/-- The contents after two lines run one after the other are the second's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops0_fresh : (ops0 : List (HloOp τ sig (Elt F))).Forall fun op => op.fresh = ∅ := by
  simp only [List.Forall]; repeat' constructor

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops1_fresh : (ops1 : List (HloOp τ sig (Elt F))).Forall fun op => op.fresh = ∅ := by
  simp only [List.Forall]; repeat' constructor

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops2_fresh : (ops2 : List (HloOp τ sig (Elt F))).Forall fun op => op.fresh = ∅ := by
  simp only [List.Forall]; repeat' constructor

theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops3_fresh : (ops3 : List (HloOp τ sig (Elt F))).Forall fun op => op.fresh = ∅ := by
  simp only [List.Forall]; repeat' constructor

theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops4_fresh : (ops4 : List (HloOp τ sig (Elt F))).Forall fun op => op.fresh = ∅ := by
  simp only [List.Forall]; repeat' constructor

theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops5_fresh : (ops5 : List (HloOp τ sig (Elt F))).Forall fun op => op.fresh = ∅ := by
  simp only [List.Forall]; repeat' constructor

theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops6_fresh : (ops6 : List (HloOp τ sig (Elt F))).Forall fun op => op.fresh = ∅ := by
  simp only [List.Forall]; repeat' constructor

theorem ops7_sub : (ops7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops7_fresh : (ops7 : List (HloOp τ sig (Elt F))).Forall fun op => op.fresh = ∅ := by
  simp only [List.Forall]; repeat' constructor

theorem ops8_sub : (ops8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops8_fresh : (ops8 : List (HloOp τ sig (Elt F))).Forall fun op => op.fresh = ∅ := by
  simp only [List.Forall]; repeat' constructor

theorem ops9_sub : (ops9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops9_fresh : (ops9 : List (HloOp τ sig (Elt F))).Forall fun op => op.fresh = ∅ := by
  simp only [List.Forall]; repeat' constructor

theorem opsM_sub : (opsM : List (HloOp τ sig (Elt F))).Forall fun op => op.bufs ⊆ tcRefs τ sig :=
  ⟨unary_bufs_sub .., reshape_bufs_sub .., unary_bufs_sub .., reshape_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., unary_bufs_sub ..⟩
theorem opsM_fresh : (opsM : List (HloOp τ sig (Elt F))).Forall fun op => op.fresh = ∅ := by
  simp only [List.Forall]; repeat' constructor

theorem ops11_sub : (ops11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops11_fresh : (ops11 : List (HloOp τ sig (Elt F))).Forall fun op => op.fresh = ∅ := by
  simp only [List.Forall]; repeat' constructor

theorem ops12_sub : (ops12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops12_fresh : (ops12 : List (HloOp τ sig (Elt F))).Forall fun op => op.fresh = ∅ := by
  simp only [List.Forall]; repeat' constructor

theorem ops13_sub : (ops13 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops13_fresh : (ops13 : List (HloOp τ sig (Elt F))).Forall fun op => op.fresh = ∅ := by
  simp only [List.Forall]; repeat' constructor

theorem ops14_sub : (ops14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops14_fresh : (ops14 : List (HloOp τ sig (Elt F))).Forall fun op => op.fresh = ∅ := by
  simp only [List.Forall]; repeat' constructor

theorem ops15_sub : (ops15 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops15_fresh : (ops15 : List (HloOp τ sig (Elt F))).Forall fun op => op.fresh = ∅ := by
  simp only [List.Forall]; repeat' constructor

theorem ops16_sub : (ops16 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops16_fresh : (ops16 : List (HloOp τ sig (Elt F))).Forall fun op => op.fresh = ∅ := by
  simp only [List.Forall]; repeat' constructor

theorem ops17_sub : (ops17 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops17_fresh : (ops17 : List (HloOp τ sig (Elt F))).Forall fun op => op.fresh = ∅ := by
  simp only [List.Forall]; repeat' constructor

theorem ops18_sub : (ops18 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops18_fresh : (ops18 : List (HloOp τ sig (Elt F))).Forall fun op => op.fresh = ∅ := by
  simp only [List.Forall]; repeat' constructor

theorem ops19_sub : (ops19 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops19_fresh : (ops19 : List (HloOp τ sig (Elt F))).Forall fun op => op.fresh = ∅ := by
  simp only [List.Forall]; repeat' constructor

theorem ops20_sub : (ops20 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops20_fresh : (ops20 : List (HloOp τ sig (Elt F))).Forall fun op => op.fresh = ∅ := by
  simp only [List.Forall]; repeat' constructor

theorem opsF_sub : (opsF : List (HloOp τ sig (Elt F))).Forall fun op => op.bufs ⊆ tcRefs τ sig :=
  ⟨binary_bufs_sub .., unary_bufs_sub .., unary_bufs_sub .., binary_bufs_sub ..⟩
theorem opsF_fresh : (opsF : List (HloOp τ sig (Elt F))).Forall fun op => op.fresh = ∅ := by
  simp only [List.Forall]; repeat' constructor

/-- The program's 515 operations, in order. -/
def ops : List (HloOp τ sig (Elt F)) :=
  ops0 ++ (ops1 ++ (ops2 ++ (ops3 ++ (ops4 ++ (ops5 ++ (ops6 ++ (ops7 ++ (ops8 ++ (ops9 ++ (opsM ++ (ops11 ++ (ops12 ++ (ops13 ++ (ops14 ++ (ops15 ++ (ops16 ++ (ops17 ++ (ops18 ++ (ops19 ++ (ops20 ++ (opsF)))))))))))))))))))))

theorem ops_sub : (ops : List (HloOp τ sig (Elt F))).Forall fun op => op.bufs ⊆ tcRefs τ sig :=
  forall_append ops0_sub (forall_append ops1_sub (forall_append ops2_sub (forall_append ops3_sub (forall_append ops4_sub (forall_append ops5_sub (forall_append ops6_sub (forall_append ops7_sub (forall_append ops8_sub (forall_append ops9_sub (forall_append opsM_sub (forall_append ops11_sub (forall_append ops12_sub (forall_append ops13_sub (forall_append ops14_sub (forall_append ops15_sub (forall_append ops16_sub (forall_append ops17_sub (forall_append ops18_sub (forall_append ops19_sub (forall_append ops20_sub (opsF_sub)))))))))))))))))))))

theorem ops_fresh : ∀ op ∈ (ops : List (HloOp τ sig (Elt F))), op.fresh = ∅ :=
  List.forall_iff_forall_mem.mp (forall_append ops0_fresh (forall_append ops1_fresh (forall_append ops2_fresh (forall_append ops3_fresh (forall_append ops4_fresh (forall_append ops5_fresh (forall_append ops6_fresh (forall_append ops7_fresh (forall_append ops8_fresh (forall_append ops9_fresh (forall_append opsM_fresh (forall_append ops11_fresh (forall_append ops12_fresh (forall_append ops13_fresh (forall_append ops14_fresh (forall_append ops15_fresh (forall_append ops16_fresh (forall_append ops17_fresh (forall_append ops18_fresh (forall_append ops19_fresh (forall_append ops20_fresh (opsF_fresh))))))))))))))))))))))

/-- The contents after the whole line: the 22 lists' folds, nested in order. -/
theorem after_ops (V : Valuation τ sig (Elt F)) :
    after ops V = after opsF (after ops20 (after ops19 (after ops18 (after ops17 (after ops16 (after ops15 (after ops14 (after ops13 (after ops12 (after ops11 (after opsM (after ops9 (after ops8 (after ops7 (after ops6 (after ops5 (after ops4 (after ops3 (after ops2 (after ops1 (after ops0 (V)))))))))))))))))))))) := by
  unfold ops
  simp only [after_append]

theorem scopedRefs_eq : (Finset.univ.filter fun b : Ref sig .tc => b.isScoped) = ∅ := by decide
theorem scopedSems_eq : (Finset.univ.filter fun sm : SemLoc sig => sm.isScoped .tc) = ∅ := by decide

set_option maxRecDepth 1000000 in
/-- The program is that line. -/
theorem main_eq (c : Dev nD) : main (F := F) c = seq ops := rfl

end Cert.ReferenceIdeal.RefRun

end
-- ==== Proof.RefStage0.lean ====
/-
  The first 56 host operations read through the fold of buffer contents: they leave the edges' source and destination
  rows, the edge weights, and the first diffusion step of the input features, each as the named function of the
  buffers they read.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun.Stage0

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- The buffers the list writes. -/
abbrev written : List (Ref sig .tc) := [main_v0, main_v1, main_v2, main_v3, main_cst, main_v4, main_cst_0, main_v5, main_v6, main_v7, main_cst_1, main_v8, main_v9, main_c, main_v10, main_v11, main_c_2, main_v12, main_v13, main_v14, main_v15, main_v16, main_c_3, main_v17, main_v18, main_c_4, main_v19, main_v20, main_v21, main_v22, main_v23, main_v24, main_v25, main_c_5, main_v26, main_v27, main_c_6, main_v28, main_v29, main_v30, main_v31, main_v32, main_v33, main_v34, main_v35, main_cst_7, main_v36, main_v37, main_v38, main_cst_8, main_v39, main_v40, main_cst_9, main_v41, main_v42, main_v43]

/-- The edges' source row. -/
theorem src_eq (V : Valuation τ sig (Elt F)) :
    after ops0 V (Proc.devRef .tc main_v1) = Cert.Spec.srcOf (F := F) (V (Proc.devRef .tc main_arg1)) := by
  after_results_simp <;> rfl

/-- The edges' destination row. -/
theorem dst_eq (V : Valuation τ sig (Elt F)) :
    after ops0 V (Proc.devRef .tc main_v3) = Cert.Spec.dstOf (F := F) (V (Proc.devRef .tc main_arg1)) := by
  after_results_simp <;> rfl

/-- The edge weights. -/
theorem nrm_eq (V : Valuation τ sig (Elt F)) :
    after ops0 V (Proc.devRef .tc main_v25) = Cert.Spec.normOf (F := F) (Cert.Spec.srcOf (F := F) (V (Proc.devRef .tc main_arg1))) (Cert.Spec.dstOf (F := F) (V (Proc.devRef .tc main_arg1))) := by
  after_results_simp <;> rfl

/-- The first diffusion step, from and anchored at the input features. -/
theorem step_eq (V : Valuation τ sig (Elt F)) :
    after ops0 V (Proc.devRef .tc main_v43)
      = Cert.Spec.step (F := F) (Cert.Spec.srcOf (F := F) (V (Proc.devRef .tc main_arg1))) (Cert.Spec.dstOf (F := F) (V (Proc.devRef .tc main_arg1))) (Cert.Spec.normOf (F := F) (Cert.Spec.srcOf (F := F) (V (Proc.devRef .tc main_arg1))) (Cert.Spec.dstOf (F := F) (V (Proc.devRef .tc main_arg1)))) (V (Proc.devRef .tc main_arg0)) (V (Proc.devRef .tc main_arg0)) := by
  after_results_simp <;> rfl

/-- Each operation of the list writes one of the listed buffers. -/
theorem writes_sub : (ops0 : List (HloOp τ sig (Elt F))).Forall fun op => op.writes ⊆ (written.map (Proc.devRef (τ := τ) .tc)).toFinset := by
  simp only [ops0, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the list does not write is unchanged by it. -/
theorem keep (V : Valuation τ sig (Elt F)) (r : Ref sig .tc) (hr : r ∉ written) :
    after ops0 V (Proc.devRef .tc r) = V (Proc.devRef .tc r) :=
  after_of_writes_sub _ V writes_sub hr

end Cert.ReferenceIdeal.RefRun.Stage0

end
-- ==== Proof.RefStage1.lean ====
/-
  One diffusion step of the host program, number 2 of its first diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage1

/-- The buffers the 23 operations write. -/
abbrev written : List (Ref sig .tc) := [main_c_10, main_v44, main_v45, main_c_11, main_v46, main_v47, main_v48, main_v49, main_v50, main_v51, main_v52, main_v53, main_cst_12, main_v54, main_v55, main_v56, main_cst_13, main_v57, main_v58, main_cst_14, main_v59, main_v60, main_v61]

/-- The operations leave in their last buffer one diffusion step of the buffers they read. -/
theorem step_eq (V : Valuation τ sig (Elt F)) :
    StableHlo.after ops1 V (Proc.devRef .tc main_v61)
      = Cert.Spec.step (F := F) (V (Proc.devRef .tc main_v1)) (V (Proc.devRef .tc main_v3)) (V (Proc.devRef .tc main_v25))
          (V (Proc.devRef .tc main_arg0)) (V (Proc.devRef .tc main_v43)) := by
  after_results_simp <;> rfl

/-- Each operation writes one of the listed buffers. -/
theorem writes_sub : (ops1 : List (HloOp τ sig (Elt F))).Forall fun op => op.writes ⊆ (written.map (Proc.devRef (τ := τ) .tc)).toFinset := by
  simp only [ops1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops1 V (Proc.devRef .tc r) = V (Proc.devRef .tc r) :=
  StableHlo.after_of_writes_sub _ V writes_sub hr

end Stage1

end Cert.ReferenceIdeal.RefRun

end
-- ==== Proof.RefStage2.lean ====
/-
  One diffusion step of the host program, number 3 of its first diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage2

/-- The buffers the 23 operations write. -/
abbrev written : List (Ref sig .tc) := [main_c_15, main_v62, main_v63, main_c_16, main_v64, main_v65, main_v66, main_v67, main_v68, main_v69, main_v70, main_v71, main_cst_17, main_v72, main_v73, main_v74, main_cst_18, main_v75, main_v76, main_cst_19, main_v77, main_v78, main_v79]

/-- The operations leave in their last buffer one diffusion step of the buffers they read. -/
theorem step_eq (V : Valuation τ sig (Elt F)) :
    StableHlo.after ops2 V (Proc.devRef .tc main_v79)
      = Cert.Spec.step (F := F) (V (Proc.devRef .tc main_v1)) (V (Proc.devRef .tc main_v3)) (V (Proc.devRef .tc main_v25))
          (V (Proc.devRef .tc main_arg0)) (V (Proc.devRef .tc main_v61)) := by
  after_results_simp <;> rfl

/-- Each operation writes one of the listed buffers. -/
theorem writes_sub : (ops2 : List (HloOp τ sig (Elt F))).Forall fun op => op.writes ⊆ (written.map (Proc.devRef (τ := τ) .tc)).toFinset := by
  simp only [ops2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops2 V (Proc.devRef .tc r) = V (Proc.devRef .tc r) :=
  StableHlo.after_of_writes_sub _ V writes_sub hr

end Stage2

end Cert.ReferenceIdeal.RefRun

end
-- ==== Proof.RefStage3.lean ====
/-
  One diffusion step of the host program, number 4 of its first diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage3

/-- The buffers the 23 operations write. -/
abbrev written : List (Ref sig .tc) := [main_c_20, main_v80, main_v81, main_c_21, main_v82, main_v83, main_v84, main_v85, main_v86, main_v87, main_v88, main_v89, main_cst_22, main_v90, main_v91, main_v92, main_cst_23, main_v93, main_v94, main_cst_24, main_v95, main_v96, main_v97]

/-- The operations leave in their last buffer one diffusion step of the buffers they read. -/
theorem step_eq (V : Valuation τ sig (Elt F)) :
    StableHlo.after ops3 V (Proc.devRef .tc main_v97)
      = Cert.Spec.step (F := F) (V (Proc.devRef .tc main_v1)) (V (Proc.devRef .tc main_v3)) (V (Proc.devRef .tc main_v25))
          (V (Proc.devRef .tc main_arg0)) (V (Proc.devRef .tc main_v79)) := by
  after_results_simp <;> rfl

/-- Each operation writes one of the listed buffers. -/
theorem writes_sub : (ops3 : List (HloOp τ sig (Elt F))).Forall fun op => op.writes ⊆ (written.map (Proc.devRef (τ := τ) .tc)).toFinset := by
  simp only [ops3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops3 V (Proc.devRef .tc r) = V (Proc.devRef .tc r) :=
  StableHlo.after_of_writes_sub _ V writes_sub hr

end Stage3

end Cert.ReferenceIdeal.RefRun

end
-- ==== Proof.RefStage4.lean ====
/-
  One diffusion step of the host program, number 5 of its first diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage4

/-- The buffers the 23 operations write. -/
abbrev written : List (Ref sig .tc) := [main_c_25, main_v98, main_v99, main_c_26, main_v100, main_v101, main_v102, main_v103, main_v104, main_v105, main_v106, main_v107, main_cst_27, main_v108, main_v109, main_v110, main_cst_28, main_v111, main_v112, main_cst_29, main_v113, main_v114, main_v115]

/-- The operations leave in their last buffer one diffusion step of the buffers they read. -/
theorem step_eq (V : Valuation τ sig (Elt F)) :
    StableHlo.after ops4 V (Proc.devRef .tc main_v115)
      = Cert.Spec.step (F := F) (V (Proc.devRef .tc main_v1)) (V (Proc.devRef .tc main_v3)) (V (Proc.devRef .tc main_v25))
          (V (Proc.devRef .tc main_arg0)) (V (Proc.devRef .tc main_v97)) := by
  after_results_simp <;> rfl

/-- Each operation writes one of the listed buffers. -/
theorem writes_sub : (ops4 : List (HloOp τ sig (Elt F))).Forall fun op => op.writes ⊆ (written.map (Proc.devRef (τ := τ) .tc)).toFinset := by
  simp only [ops4, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops4 V (Proc.devRef .tc r) = V (Proc.devRef .tc r) :=
  StableHlo.after_of_writes_sub _ V writes_sub hr

end Stage4

end Cert.ReferenceIdeal.RefRun

end
-- ==== Proof.RefStage5.lean ====
/-
  One diffusion step of the host program, number 6 of its first diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage5

/-- The buffers the 23 operations write. -/
abbrev written : List (Ref sig .tc) := [main_c_30, main_v116, main_v117, main_c_31, main_v118, main_v119, main_v120, main_v121, main_v122, main_v123, main_v124, main_v125, main_cst_32, main_v126, main_v127, main_v128, main_cst_33, main_v129, main_v130, main_cst_34, main_v131, main_v132, main_v133]

/-- The operations leave in their last buffer one diffusion step of the buffers they read. -/
theorem step_eq (V : Valuation τ sig (Elt F)) :
    StableHlo.after ops5 V (Proc.devRef .tc main_v133)
      = Cert.Spec.step (F := F) (V (Proc.devRef .tc main_v1)) (V (Proc.devRef .tc main_v3)) (V (Proc.devRef .tc main_v25))
          (V (Proc.devRef .tc main_arg0)) (V (Proc.devRef .tc main_v115)) := by
  after_results_simp <;> rfl

/-- Each operation writes one of the listed buffers. -/
theorem writes_sub : (ops5 : List (HloOp τ sig (Elt F))).Forall fun op => op.writes ⊆ (written.map (Proc.devRef (τ := τ) .tc)).toFinset := by
  simp only [ops5, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops5 V (Proc.devRef .tc r) = V (Proc.devRef .tc r) :=
  StableHlo.after_of_writes_sub _ V writes_sub hr

end Stage5

end Cert.ReferenceIdeal.RefRun

end
-- ==== Proof.RefStage6.lean ====
/-
  One diffusion step of the host program, number 7 of its first diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage6

/-- The buffers the 23 operations write. -/
abbrev written : List (Ref sig .tc) := [main_c_35, main_v134, main_v135, main_c_36, main_v136, main_v137, main_v138, main_v139, main_v140, main_v141, main_v142, main_v143, main_cst_37, main_v144, main_v145, main_v146, main_cst_38, main_v147, main_v148, main_cst_39, main_v149, main_v150, main_v151]

/-- The operations leave in their last buffer one diffusion step of the buffers they read. -/
theorem step_eq (V : Valuation τ sig (Elt F)) :
    StableHlo.after ops6 V (Proc.devRef .tc main_v151)
      = Cert.Spec.step (F := F) (V (Proc.devRef .tc main_v1)) (V (Proc.devRef .tc main_v3)) (V (Proc.devRef .tc main_v25))
          (V (Proc.devRef .tc main_arg0)) (V (Proc.devRef .tc main_v133)) := by
  after_results_simp <;> rfl

/-- Each operation writes one of the listed buffers. -/
theorem writes_sub : (ops6 : List (HloOp τ sig (Elt F))).Forall fun op => op.writes ⊆ (written.map (Proc.devRef (τ := τ) .tc)).toFinset := by
  simp only [ops6, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops6 V (Proc.devRef .tc r) = V (Proc.devRef .tc r) :=
  StableHlo.after_of_writes_sub _ V writes_sub hr

end Stage6

end Cert.ReferenceIdeal.RefRun

end
-- ==== Proof.RefStage7.lean ====
/-
  One diffusion step of the host program, number 8 of its first diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage7

/-- The buffers the 23 operations write. -/
abbrev written : List (Ref sig .tc) := [main_c_40, main_v152, main_v153, main_c_41, main_v154, main_v155, main_v156, main_v157, main_v158, main_v159, main_v160, main_v161, main_cst_42, main_v162, main_v163, main_v164, main_cst_43, main_v165, main_v166, main_cst_44, main_v167, main_v168, main_v169]

/-- The operations leave in their last buffer one diffusion step of the buffers they read. -/
theorem step_eq (V : Valuation τ sig (Elt F)) :
    StableHlo.after ops7 V (Proc.devRef .tc main_v169)
      = Cert.Spec.step (F := F) (V (Proc.devRef .tc main_v1)) (V (Proc.devRef .tc main_v3)) (V (Proc.devRef .tc main_v25))
          (V (Proc.devRef .tc main_arg0)) (V (Proc.devRef .tc main_v151)) := by
  after_results_simp <;> rfl

/-- Each operation writes one of the listed buffers. -/
theorem writes_sub : (ops7 : List (HloOp τ sig (Elt F))).Forall fun op => op.writes ⊆ (written.map (Proc.devRef (τ := τ) .tc)).toFinset := by
  simp only [ops7, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops7 V (Proc.devRef .tc r) = V (Proc.devRef .tc r) :=
  StableHlo.after_of_writes_sub _ V writes_sub hr

end Stage7

end Cert.ReferenceIdeal.RefRun

end
-- ==== Proof.RefStage8.lean ====
/-
  One diffusion step of the host program, number 9 of its first diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage8

/-- The buffers the 23 operations write. -/
abbrev written : List (Ref sig .tc) := [main_c_45, main_v170, main_v171, main_c_46, main_v172, main_v173, main_v174, main_v175, main_v176, main_v177, main_v178, main_v179, main_cst_47, main_v180, main_v181, main_v182, main_cst_48, main_v183, main_v184, main_cst_49, main_v185, main_v186, main_v187]

/-- The operations leave in their last buffer one diffusion step of the buffers they read. -/
theorem step_eq (V : Valuation τ sig (Elt F)) :
    StableHlo.after ops8 V (Proc.devRef .tc main_v187)
      = Cert.Spec.step (F := F) (V (Proc.devRef .tc main_v1)) (V (Proc.devRef .tc main_v3)) (V (Proc.devRef .tc main_v25))
          (V (Proc.devRef .tc main_arg0)) (V (Proc.devRef .tc main_v169)) := by
  after_results_simp <;> rfl

/-- Each operation writes one of the listed buffers. -/
theorem writes_sub : (ops8 : List (HloOp τ sig (Elt F))).Forall fun op => op.writes ⊆ (written.map (Proc.devRef (τ := τ) .tc)).toFinset := by
  simp only [ops8, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops8 V (Proc.devRef .tc r) = V (Proc.devRef .tc r) :=
  StableHlo.after_of_writes_sub _ V writes_sub hr

end Stage8

end Cert.ReferenceIdeal.RefRun

end
-- ==== Proof.RefStage9.lean ====
/-
  One diffusion step of the host program, number 10 of its first diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage9

/-- The buffers the 23 operations write. -/
abbrev written : List (Ref sig .tc) := [main_c_50, main_v188, main_v189, main_c_51, main_v190, main_v191, main_v192, main_v193, main_v194, main_v195, main_v196, main_v197, main_cst_52, main_v198, main_v199, main_v200, main_cst_53, main_v201, main_v202, main_cst_54, main_v203, main_v204, main_v205]

/-- The operations leave in their last buffer one diffusion step of the buffers they read. -/
theorem step_eq (V : Valuation τ sig (Elt F)) :
    StableHlo.after ops9 V (Proc.devRef .tc main_v205)
      = Cert.Spec.step (F := F) (V (Proc.devRef .tc main_v1)) (V (Proc.devRef .tc main_v3)) (V (Proc.devRef .tc main_v25))
          (V (Proc.devRef .tc main_arg0)) (V (Proc.devRef .tc main_v187)) := by
  after_results_simp <;> rfl

/-- Each operation writes one of the listed buffers. -/
theorem writes_sub : (ops9 : List (HloOp τ sig (Elt F))).Forall fun op => op.writes ⊆ (written.map (Proc.devRef (τ := τ) .tc)).toFinset := by
  simp only [ops9, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops9 V (Proc.devRef .tc r) = V (Proc.devRef .tc r) :=
  StableHlo.after_of_writes_sub _ V writes_sub hr

end Stage9

end Cert.ReferenceIdeal.RefRun

end
-- ==== Proof.RefStageM.lean ====
/-
  The perceptron's 18 host operations read through the fold of buffer contents: they leave the per-entry perceptron
  of the buffers they read.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun.StageM

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- The buffers the list writes. -/
abbrev written : List (Ref sig .tc) := [main_v206, main_v207, main_v208, main_v209, main_v210, main_v211, main_v212, main_v213, main_v214, main_call0_cst, main_call0_v0, main_v215, main_v216, main_v217, main_v218, main_v219, main_v220, main_v221]

/-- The per-entry perceptron of the first diffusion's result. -/
theorem mlp_eq (V : Valuation τ sig (Elt F)) :
    after opsM V (Proc.devRef .tc main_v221)
      = Cert.Spec.mlp (F := F) (V (Proc.devRef .tc main_v205)) (V (Proc.devRef .tc main_arg2)) (V (Proc.devRef .tc main_arg3)) (V (Proc.devRef .tc main_arg4)) (V (Proc.devRef .tc main_arg5)) (V (Proc.devRef .tc main_arg6)) := by
  after_results_simp <;> rfl

/-- Each operation of the list writes one of the listed buffers. -/
theorem writes_sub : (opsM : List (HloOp τ sig (Elt F))).Forall fun op => op.writes ⊆ (written.map (Proc.devRef (τ := τ) .tc)).toFinset := by
  simp only [opsM, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the list does not write is unchanged by it. -/
theorem keep (V : Valuation τ sig (Elt F)) (r : Ref sig .tc) (hr : r ∉ written) :
    after opsM V (Proc.devRef .tc r) = V (Proc.devRef .tc r) :=
  after_of_writes_sub _ V writes_sub hr

end Cert.ReferenceIdeal.RefRun.StageM

end
-- ==== Proof.RefStage11.lean ====
/-
  One diffusion step of the host program, number 1 of its second diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage11

/-- The buffers the 23 operations write. -/
abbrev written : List (Ref sig .tc) := [main_c_55, main_v222, main_v223, main_c_56, main_v224, main_v225, main_v226, main_v227, main_v228, main_v229, main_v230, main_v231, main_cst_57, main_v232, main_v233, main_v234, main_cst_58, main_v235, main_v236, main_cst_59, main_v237, main_v238, main_v239]

/-- The operations leave in their last buffer one diffusion step of the buffers they read. -/
theorem step_eq (V : Valuation τ sig (Elt F)) :
    StableHlo.after ops11 V (Proc.devRef .tc main_v239)
      = Cert.Spec.step (F := F) (V (Proc.devRef .tc main_v1)) (V (Proc.devRef .tc main_v3)) (V (Proc.devRef .tc main_v25))
          (V (Proc.devRef .tc main_v221)) (V (Proc.devRef .tc main_v221)) := by
  after_results_simp <;> rfl

/-- Each operation writes one of the listed buffers. -/
theorem writes_sub : (ops11 : List (HloOp τ sig (Elt F))).Forall fun op => op.writes ⊆ (written.map (Proc.devRef (τ := τ) .tc)).toFinset := by
  simp only [ops11, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops11 V (Proc.devRef .tc r) = V (Proc.devRef .tc r) :=
  StableHlo.after_of_writes_sub _ V writes_sub hr

end Stage11

end Cert.ReferenceIdeal.RefRun

end
-- ==== Proof.RefStage12.lean ====
/-
  One diffusion step of the host program, number 2 of its second diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage12

/-- The buffers the 23 operations write. -/
abbrev written : List (Ref sig .tc) := [main_c_60, main_v240, main_v241, main_c_61, main_v242, main_v243, main_v244, main_v245, main_v246, main_v247, main_v248, main_v249, main_cst_62, main_v250, main_v251, main_v252, main_cst_63, main_v253, main_v254, main_cst_64, main_v255, main_v256, main_v257]

/-- The operations leave in their last buffer one diffusion step of the buffers they read. -/
theorem step_eq (V : Valuation τ sig (Elt F)) :
    StableHlo.after ops12 V (Proc.devRef .tc main_v257)
      = Cert.Spec.step (F := F) (V (Proc.devRef .tc main_v1)) (V (Proc.devRef .tc main_v3)) (V (Proc.devRef .tc main_v25))
          (V (Proc.devRef .tc main_v221)) (V (Proc.devRef .tc main_v239)) := by
  after_results_simp <;> rfl

/-- Each operation writes one of the listed buffers. -/
theorem writes_sub : (ops12 : List (HloOp τ sig (Elt F))).Forall fun op => op.writes ⊆ (written.map (Proc.devRef (τ := τ) .tc)).toFinset := by
  simp only [ops12, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops12 V (Proc.devRef .tc r) = V (Proc.devRef .tc r) :=
  StableHlo.after_of_writes_sub _ V writes_sub hr

end Stage12

end Cert.ReferenceIdeal.RefRun

end
-- ==== Proof.RefStage13.lean ====
/-
  One diffusion step of the host program, number 3 of its second diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage13

/-- The buffers the 23 operations write. -/
abbrev written : List (Ref sig .tc) := [main_c_65, main_v258, main_v259, main_c_66, main_v260, main_v261, main_v262, main_v263, main_v264, main_v265, main_v266, main_v267, main_cst_67, main_v268, main_v269, main_v270, main_cst_68, main_v271, main_v272, main_cst_69, main_v273, main_v274, main_v275]

/-- The operations leave in their last buffer one diffusion step of the buffers they read. -/
theorem step_eq (V : Valuation τ sig (Elt F)) :
    StableHlo.after ops13 V (Proc.devRef .tc main_v275)
      = Cert.Spec.step (F := F) (V (Proc.devRef .tc main_v1)) (V (Proc.devRef .tc main_v3)) (V (Proc.devRef .tc main_v25))
          (V (Proc.devRef .tc main_v221)) (V (Proc.devRef .tc main_v257)) := by
  after_results_simp <;> rfl

/-- Each operation writes one of the listed buffers. -/
theorem writes_sub : (ops13 : List (HloOp τ sig (Elt F))).Forall fun op => op.writes ⊆ (written.map (Proc.devRef (τ := τ) .tc)).toFinset := by
  simp only [ops13, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops13 V (Proc.devRef .tc r) = V (Proc.devRef .tc r) :=
  StableHlo.after_of_writes_sub _ V writes_sub hr

end Stage13

end Cert.ReferenceIdeal.RefRun

end
-- ==== Proof.RefStage14.lean ====
/-
  One diffusion step of the host program, number 4 of its second diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage14

/-- The buffers the 23 operations write. -/
abbrev written : List (Ref sig .tc) := [main_c_70, main_v276, main_v277, main_c_71, main_v278, main_v279, main_v280, main_v281, main_v282, main_v283, main_v284, main_v285, main_cst_72, main_v286, main_v287, main_v288, main_cst_73, main_v289, main_v290, main_cst_74, main_v291, main_v292, main_v293]

/-- The operations leave in their last buffer one diffusion step of the buffers they read. -/
theorem step_eq (V : Valuation τ sig (Elt F)) :
    StableHlo.after ops14 V (Proc.devRef .tc main_v293)
      = Cert.Spec.step (F := F) (V (Proc.devRef .tc main_v1)) (V (Proc.devRef .tc main_v3)) (V (Proc.devRef .tc main_v25))
          (V (Proc.devRef .tc main_v221)) (V (Proc.devRef .tc main_v275)) := by
  after_results_simp <;> rfl

/-- Each operation writes one of the listed buffers. -/
theorem writes_sub : (ops14 : List (HloOp τ sig (Elt F))).Forall fun op => op.writes ⊆ (written.map (Proc.devRef (τ := τ) .tc)).toFinset := by
  simp only [ops14, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops14 V (Proc.devRef .tc r) = V (Proc.devRef .tc r) :=
  StableHlo.after_of_writes_sub _ V writes_sub hr

end Stage14

end Cert.ReferenceIdeal.RefRun

end
-- ==== Proof.RefStage15.lean ====
/-
  One diffusion step of the host program, number 5 of its second diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage15

/-- The buffers the 23 operations write. -/
abbrev written : List (Ref sig .tc) := [main_c_75, main_v294, main_v295, main_c_76, main_v296, main_v297, main_v298, main_v299, main_v300, main_v301, main_v302, main_v303, main_cst_77, main_v304, main_v305, main_v306, main_cst_78, main_v307, main_v308, main_cst_79, main_v309, main_v310, main_v311]

/-- The operations leave in their last buffer one diffusion step of the buffers they read. -/
theorem step_eq (V : Valuation τ sig (Elt F)) :
    StableHlo.after ops15 V (Proc.devRef .tc main_v311)
      = Cert.Spec.step (F := F) (V (Proc.devRef .tc main_v1)) (V (Proc.devRef .tc main_v3)) (V (Proc.devRef .tc main_v25))
          (V (Proc.devRef .tc main_v221)) (V (Proc.devRef .tc main_v293)) := by
  after_results_simp <;> rfl

/-- Each operation writes one of the listed buffers. -/
theorem writes_sub : (ops15 : List (HloOp τ sig (Elt F))).Forall fun op => op.writes ⊆ (written.map (Proc.devRef (τ := τ) .tc)).toFinset := by
  simp only [ops15, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops15 V (Proc.devRef .tc r) = V (Proc.devRef .tc r) :=
  StableHlo.after_of_writes_sub _ V writes_sub hr

end Stage15

end Cert.ReferenceIdeal.RefRun

end
-- ==== Proof.RefStage16.lean ====
/-
  One diffusion step of the host program, number 6 of its second diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage16

/-- The buffers the 23 operations write. -/
abbrev written : List (Ref sig .tc) := [main_c_80, main_v312, main_v313, main_c_81, main_v314, main_v315, main_v316, main_v317, main_v318, main_v319, main_v320, main_v321, main_cst_82, main_v322, main_v323, main_v324, main_cst_83, main_v325, main_v326, main_cst_84, main_v327, main_v328, main_v329]

/-- The operations leave in their last buffer one diffusion step of the buffers they read. -/
theorem step_eq (V : Valuation τ sig (Elt F)) :
    StableHlo.after ops16 V (Proc.devRef .tc main_v329)
      = Cert.Spec.step (F := F) (V (Proc.devRef .tc main_v1)) (V (Proc.devRef .tc main_v3)) (V (Proc.devRef .tc main_v25))
          (V (Proc.devRef .tc main_v221)) (V (Proc.devRef .tc main_v311)) := by
  after_results_simp <;> rfl

/-- Each operation writes one of the listed buffers. -/
theorem writes_sub : (ops16 : List (HloOp τ sig (Elt F))).Forall fun op => op.writes ⊆ (written.map (Proc.devRef (τ := τ) .tc)).toFinset := by
  simp only [ops16, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops16 V (Proc.devRef .tc r) = V (Proc.devRef .tc r) :=
  StableHlo.after_of_writes_sub _ V writes_sub hr

end Stage16

end Cert.ReferenceIdeal.RefRun

end
-- ==== Proof.RefStage17.lean ====
/-
  One diffusion step of the host program, number 7 of its second diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage17

/-- The buffers the 23 operations write. -/
abbrev written : List (Ref sig .tc) := [main_c_85, main_v330, main_v331, main_c_86, main_v332, main_v333, main_v334, main_v335, main_v336, main_v337, main_v338, main_v339, main_cst_87, main_v340, main_v341, main_v342, main_cst_88, main_v343, main_v344, main_cst_89, main_v345, main_v346, main_v347]

/-- The operations leave in their last buffer one diffusion step of the buffers they read. -/
theorem step_eq (V : Valuation τ sig (Elt F)) :
    StableHlo.after ops17 V (Proc.devRef .tc main_v347)
      = Cert.Spec.step (F := F) (V (Proc.devRef .tc main_v1)) (V (Proc.devRef .tc main_v3)) (V (Proc.devRef .tc main_v25))
          (V (Proc.devRef .tc main_v221)) (V (Proc.devRef .tc main_v329)) := by
  after_results_simp <;> rfl

/-- Each operation writes one of the listed buffers. -/
theorem writes_sub : (ops17 : List (HloOp τ sig (Elt F))).Forall fun op => op.writes ⊆ (written.map (Proc.devRef (τ := τ) .tc)).toFinset := by
  simp only [ops17, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops17 V (Proc.devRef .tc r) = V (Proc.devRef .tc r) :=
  StableHlo.after_of_writes_sub _ V writes_sub hr

end Stage17

end Cert.ReferenceIdeal.RefRun

end
-- ==== Proof.RefStage18.lean ====
/-
  One diffusion step of the host program, number 8 of its second diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage18

/-- The buffers the 23 operations write. -/
abbrev written : List (Ref sig .tc) := [main_c_90, main_v348, main_v349, main_c_91, main_v350, main_v351, main_v352, main_v353, main_v354, main_v355, main_v356, main_v357, main_cst_92, main_v358, main_v359, main_v360, main_cst_93, main_v361, main_v362, main_cst_94, main_v363, main_v364, main_v365]

/-- The operations leave in their last buffer one diffusion step of the buffers they read. -/
theorem step_eq (V : Valuation τ sig (Elt F)) :
    StableHlo.after ops18 V (Proc.devRef .tc main_v365)
      = Cert.Spec.step (F := F) (V (Proc.devRef .tc main_v1)) (V (Proc.devRef .tc main_v3)) (V (Proc.devRef .tc main_v25))
          (V (Proc.devRef .tc main_v221)) (V (Proc.devRef .tc main_v347)) := by
  after_results_simp <;> rfl

/-- Each operation writes one of the listed buffers. -/
theorem writes_sub : (ops18 : List (HloOp τ sig (Elt F))).Forall fun op => op.writes ⊆ (written.map (Proc.devRef (τ := τ) .tc)).toFinset := by
  simp only [ops18, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops18 V (Proc.devRef .tc r) = V (Proc.devRef .tc r) :=
  StableHlo.after_of_writes_sub _ V writes_sub hr

end Stage18

end Cert.ReferenceIdeal.RefRun

end
-- ==== Proof.RefStage19.lean ====
/-
  One diffusion step of the host program, number 9 of its second diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage19

/-- The buffers the 23 operations write. -/
abbrev written : List (Ref sig .tc) := [main_c_95, main_v366, main_v367, main_c_96, main_v368, main_v369, main_v370, main_v371, main_v372, main_v373, main_v374, main_v375, main_cst_97, main_v376, main_v377, main_v378, main_cst_98, main_v379, main_v380, main_cst_99, main_v381, main_v382, main_v383]

/-- The operations leave in their last buffer one diffusion step of the buffers they read. -/
theorem step_eq (V : Valuation τ sig (Elt F)) :
    StableHlo.after ops19 V (Proc.devRef .tc main_v383)
      = Cert.Spec.step (F := F) (V (Proc.devRef .tc main_v1)) (V (Proc.devRef .tc main_v3)) (V (Proc.devRef .tc main_v25))
          (V (Proc.devRef .tc main_v221)) (V (Proc.devRef .tc main_v365)) := by
  after_results_simp <;> rfl

/-- Each operation writes one of the listed buffers. -/
theorem writes_sub : (ops19 : List (HloOp τ sig (Elt F))).Forall fun op => op.writes ⊆ (written.map (Proc.devRef (τ := τ) .tc)).toFinset := by
  simp only [ops19, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops19 V (Proc.devRef .tc r) = V (Proc.devRef .tc r) :=
  StableHlo.after_of_writes_sub _ V writes_sub hr

end Stage19

end Cert.ReferenceIdeal.RefRun

end
-- ==== Proof.RefStage20.lean ====
/-
  One diffusion step of the host program, number 10 of its second diffusion: the 23 operations that gather the current
  features along the edges, scale them by the edge weights, scatter-add them at the destination nodes (the
  convolution) and mix the result with the features the diffusion started from.  Read through the fold of buffer
  contents: the last buffer written holds one `Spec.step` of the buffers as they were before the operations, and every
  buffer the operations do not write is as it was.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Stage20

/-- The buffers the 23 operations write. -/
abbrev written : List (Ref sig .tc) := [main_c_100, main_v384, main_v385, main_c_101, main_v386, main_v387, main_v388, main_v389, main_v390, main_v391, main_v392, main_v393, main_cst_102, main_v394, main_v395, main_v396, main_cst_103, main_v397, main_v398, main_cst_104, main_v399, main_v400, main_v401]

/-- The operations leave in their last buffer one diffusion step of the buffers they read. -/
theorem step_eq (V : Valuation τ sig (Elt F)) :
    StableHlo.after ops20 V (Proc.devRef .tc main_v401)
      = Cert.Spec.step (F := F) (V (Proc.devRef .tc main_v1)) (V (Proc.devRef .tc main_v3)) (V (Proc.devRef .tc main_v25))
          (V (Proc.devRef .tc main_v221)) (V (Proc.devRef .tc main_v383)) := by
  after_results_simp <;> rfl

/-- Each operation writes one of the listed buffers. -/
theorem writes_sub : (ops20 : List (HloOp τ sig (Elt F))).Forall fun op => op.writes ⊆ (written.map (Proc.devRef (τ := τ) .tc)).toFinset := by
  simp only [ops20, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the operations do not write is unchanged by them. -/
theorem keep (V : Valuation τ sig (Elt F)) (r : Ref sig .tc) (hr : r ∉ written) :
    StableHlo.after ops20 V (Proc.devRef .tc r) = V (Proc.devRef .tc r) :=
  StableHlo.after_of_writes_sub _ V writes_sub hr

end Stage20

end Cert.ReferenceIdeal.RefRun

end
-- ==== Proof.RefStageF.lean ====
/-
  The last 4 host operations read through the fold of buffer contents: they leave the last dense layer of the
  buffers they read.
-/
import proofs.«104874_j7885559956094_2_alg».proof.Proof.Spec
import proofs.«104874_j7885559956094_2_alg».proof.Proof.RefOps
import Idealize.ShloMosaic.Lib.StableHlo.Run

set_option maxRecDepth 16384

noncomputable section

namespace Cert.ReferenceIdeal.RefRun.StageF

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- The buffers the list writes. -/
abbrev written : List (Ref sig .tc) := [main_v402, main_v403, main_v404, main_v405]

/-- The last dense layer of the second diffusion's result. -/
theorem fin_eq (V : Valuation τ sig (Elt F)) :
    after opsF V (Proc.devRef .tc main_v405)
      = Cert.Spec.fin (F := F) (V (Proc.devRef .tc main_v401)) (V (Proc.devRef .tc main_arg7)) (V (Proc.devRef .tc main_arg8)) := by
  after_results_simp <;> rfl

/-- Each operation of the list writes one of the listed buffers. -/
theorem writes_sub : (opsF : List (HloOp τ sig (Elt F))).Forall fun op => op.writes ⊆ (written.map (Proc.devRef (τ := τ) .tc)).toFinset := by
  simp only [opsF, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the list does not write is unchanged by it. -/
theorem keep (V : Valuation τ sig (Elt F)) (r : Ref sig .tc) (hr : r ∉ written) :
    after opsF V (Proc.devRef .tc r) = V (Proc.devRef .tc r) :=
  after_of_writes_sub _ V writes_sub hr

end Cert.ReferenceIdeal.RefRun.StageF

end
-- ==== Proof.RefRun.lean ====
/-
  The host program's run, read: every weakly fair execution ends with the result buffer at the whole computation of
  the launch arguments — ten diffusion steps, the per-entry perceptron, ten diffusion steps, the last dense layer —
  and the arguments unchanged.  The 515 operations are folded list by list; at each boundary the live buffers (the
  edge rows, the edge weights, the arguments, and after the perceptron its result) hold what they held, and the
  current features are the iterated diffusion step.
-/
import proofs.«104874_j7885559956094_2_alg».proof.Proof.Spec
import proofs.«104874_j7885559956094_2_alg».proof.Proof.RefSub
import proofs.«104874_j7885559956094_2_alg».proof.Proof.RefStage0
import proofs.«104874_j7885559956094_2_alg».proof.Proof.RefStage1
import proofs.«104874_j7885559956094_2_alg».proof.Proof.RefStage2
import proofs.«104874_j7885559956094_2_alg».proof.Proof.RefStage3
import proofs.«104874_j7885559956094_2_alg».proof.Proof.RefStage4
import proofs.«104874_j7885559956094_2_alg».proof.Proof.RefStage5
import proofs.«104874_j7885559956094_2_alg».proof.Proof.RefStage6
import proofs.«104874_j7885559956094_2_alg».proof.Proof.RefStage7
import proofs.«104874_j7885559956094_2_alg».proof.Proof.RefStage8
import proofs.«104874_j7885559956094_2_alg».proof.Proof.RefStage9
import proofs.«104874_j7885559956094_2_alg».proof.Proof.RefStageM
import proofs.«104874_j7885559956094_2_alg».proof.Proof.RefStage11
import proofs.«104874_j7885559956094_2_alg».proof.Proof.RefStage12
import proofs.«104874_j7885559956094_2_alg».proof.Proof.RefStage13
import proofs.«104874_j7885559956094_2_alg».proof.Proof.RefStage14
import proofs.«104874_j7885559956094_2_alg».proof.Proof.RefStage15
import proofs.«104874_j7885559956094_2_alg».proof.Proof.RefStage16
import proofs.«104874_j7885559956094_2_alg».proof.Proof.RefStage17
import proofs.«104874_j7885559956094_2_alg».proof.Proof.RefStage18
import proofs.«104874_j7885559956094_2_alg».proof.Proof.RefStage19
import proofs.«104874_j7885559956094_2_alg».proof.Proof.RefStage20
import proofs.«104874_j7885559956094_2_alg».proof.Proof.RefStageF

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Spec (Nodes EdgeIx EdgeW)

variable {F : FTy → Type} [FloatOps F]

/-- `n` diffusion steps starting from, and anchored at, `h0`. -/
def iter (s d : EdgeIx F) (w : EdgeW F) (h0 : Nodes F) : Nat → Nodes F
  | 0 => h0
  | n + 1 => Cert.Spec.step s d w h0 (iter s d w h0 n)

/-- A diffusion is ten steps. -/
theorem diffuse_eq_iter (s d : EdgeIx F) (w : EdgeW F) (h0 : Nodes F) : Cert.Spec.diffuse s d w h0 = iter s d w h0 10 := rfl

/-- The argument buffers. -/
abbrev argRefs : List (Ref sig .tc) := [main_arg0, main_arg1, main_arg2, main_arg3, main_arg4, main_arg5, main_arg6, main_arg7, main_arg8]
/-- The buffers every later list reads: the edge rows, the edge weights, the arguments. -/
abbrev liveRefs : List (Ref sig .tc) := main_v1 :: main_v3 :: main_v25 :: argRefs

section Chain
variable (V0 : Valuation τ sig (Elt F))

/-- The edges' source row, destination row and weights, of the launch contents. -/
abbrev eS : EdgeIx F := Cert.Spec.srcOf (F := F) (V0 (Proc.devRef .tc main_arg1))
abbrev eD : EdgeIx F := Cert.Spec.dstOf (F := F) (V0 (Proc.devRef .tc main_arg1))
abbrev eW : EdgeW F := Cert.Spec.normOf (F := F) (eS V0) (eD V0)
/-- The input features at launch. -/
abbrev x0 : Nodes F := V0 (Proc.devRef .tc main_arg0)

/-- The live buffers of contents `W` hold what the first list left / the launch contents. -/
structure Live (W : Valuation τ sig (Elt F)) : Prop where
  src : W (Proc.devRef .tc main_v1) = eS V0
  dst : W (Proc.devRef .tc main_v3) = eD V0
  nrm : W (Proc.devRef .tc main_v25) = eW V0
  args : ∀ r ∈ argRefs, W (Proc.devRef .tc r) = V0 (Proc.devRef .tc r)

/-- A list that writes none of the live buffers keeps them. -/
theorem Live.next {W : Valuation τ sig (Elt F)} (h : Live V0 W) (l : List (HloOp τ sig (Elt F))) (written : List (Ref sig .tc))
    (keep : ∀ r, r ∉ written → after l W (Proc.devRef .tc r) = W (Proc.devRef .tc r))
    (hd : ∀ r ∈ liveRefs, r ∉ written) : Live V0 (after l W) where
  src := (keep main_v1 (hd _ (by decide))).trans h.src
  dst := (keep main_v3 (hd _ (by decide))).trans h.dst
  nrm := (keep main_v25 (hd _ (by decide))).trans h.nrm
  args := fun r hr => (keep r (hd r (List.mem_cons_of_mem _ (List.mem_cons_of_mem _ (List.mem_cons_of_mem _ hr))))).trans (h.args r hr)

/-! ## The contents at each boundary -/
def W0 : Valuation τ sig (Elt F) := after ops0 (V0)
def W1 : Valuation τ sig (Elt F) := after ops1 (W0 V0)
def W2 : Valuation τ sig (Elt F) := after ops2 (W1 V0)
def W3 : Valuation τ sig (Elt F) := after ops3 (W2 V0)
def W4 : Valuation τ sig (Elt F) := after ops4 (W3 V0)
def W5 : Valuation τ sig (Elt F) := after ops5 (W4 V0)
def W6 : Valuation τ sig (Elt F) := after ops6 (W5 V0)
def W7 : Valuation τ sig (Elt F) := after ops7 (W6 V0)
def W8 : Valuation τ sig (Elt F) := after ops8 (W7 V0)
def W9 : Valuation τ sig (Elt F) := after ops9 (W8 V0)
def WM : Valuation τ sig (Elt F) := after opsM (W9 V0)
def W11 : Valuation τ sig (Elt F) := after ops11 (WM V0)
def W12 : Valuation τ sig (Elt F) := after ops12 (W11 V0)
def W13 : Valuation τ sig (Elt F) := after ops13 (W12 V0)
def W14 : Valuation τ sig (Elt F) := after ops14 (W13 V0)
def W15 : Valuation τ sig (Elt F) := after ops15 (W14 V0)
def W16 : Valuation τ sig (Elt F) := after ops16 (W15 V0)
def W17 : Valuation τ sig (Elt F) := after ops17 (W16 V0)
def W18 : Valuation τ sig (Elt F) := after ops18 (W17 V0)
def W19 : Valuation τ sig (Elt F) := after ops19 (W18 V0)
def W20 : Valuation τ sig (Elt F) := after ops20 (W19 V0)
def WF : Valuation τ sig (Elt F) := after opsF (W20 V0)

/-- The whole line's fold is the last boundary's contents. -/
theorem after_ops_W : after ops V0 = WF V0 := after_ops V0

/-! ## The first diffusion -/

theorem live0 : Live V0 (W0 V0) where
  src := Stage0.src_eq V0
  dst := Stage0.dst_eq V0
  nrm := Stage0.nrm_eq V0
  args := fun r hr => Stage0.keep V0 r ((by decide : ∀ r ∈ argRefs, r ∉ Stage0.written) r hr)

theorem out0 : W0 V0 (Proc.devRef .tc main_v43) = iter (eS V0) (eD V0) (eW V0) (x0 V0) 1 := Stage0.step_eq V0

theorem live1 : Live V0 (W1 V0) :=
  (live0 V0).next V0 ops1 Stage1.written (fun r hr => Stage1.keep (W0 V0) r hr) (by decide)
theorem out1 : W1 V0 (Proc.devRef .tc main_v61) = iter (eS V0) (eD V0) (eW V0) (x0 V0) 2 :=
  (Stage1.step_eq (W0 V0)).trans (by
    rw [(live0 V0).src, (live0 V0).dst, (live0 V0).nrm, (live0 V0).args main_arg0 (by decide), out0 V0]; rfl)

theorem live2 : Live V0 (W2 V0) :=
  (live1 V0).next V0 ops2 Stage2.written (fun r hr => Stage2.keep (W1 V0) r hr) (by decide)
theorem out2 : W2 V0 (Proc.devRef .tc main_v79) = iter (eS V0) (eD V0) (eW V0) (x0 V0) 3 :=
  (Stage2.step_eq (W1 V0)).trans (by
    rw [(live1 V0).src, (live1 V0).dst, (live1 V0).nrm, (live1 V0).args main_arg0 (by decide), out1 V0]; rfl)

theorem live3 : Live V0 (W3 V0) :=
  (live2 V0).next V0 ops3 Stage3.written (fun r hr => Stage3.keep (W2 V0) r hr) (by decide)
theorem out3 : W3 V0 (Proc.devRef .tc main_v97) = iter (eS V0) (eD V0) (eW V0) (x0 V0) 4 :=
  (Stage3.step_eq (W2 V0)).trans (by
    rw [(live2 V0).src, (live2 V0).dst, (live2 V0).nrm, (live2 V0).args main_arg0 (by decide), out2 V0]; rfl)

theorem live4 : Live V0 (W4 V0) :=
  (live3 V0).next V0 ops4 Stage4.written (fun r hr => Stage4.keep (W3 V0) r hr) (by decide)
theorem out4 : W4 V0 (Proc.devRef .tc main_v115) = iter (eS V0) (eD V0) (eW V0) (x0 V0) 5 :=
  (Stage4.step_eq (W3 V0)).trans (by
    rw [(live3 V0).src, (live3 V0).dst, (live3 V0).nrm, (live3 V0).args main_arg0 (by decide), out3 V0]; rfl)

theorem live5 : Live V0 (W5 V0) :=
  (live4 V0).next V0 ops5 Stage5.written (fun r hr => Stage5.keep (W4 V0) r hr) (by decide)
theorem out5 : W5 V0 (Proc.devRef .tc main_v133) = iter (eS V0) (eD V0) (eW V0) (x0 V0) 6 :=
  (Stage5.step_eq (W4 V0)).trans (by
    rw [(live4 V0).src, (live4 V0).dst, (live4 V0).nrm, (live4 V0).args main_arg0 (by decide), out4 V0]; rfl)

theorem live6 : Live V0 (W6 V0) :=
  (live5 V0).next V0 ops6 Stage6.written (fun r hr => Stage6.keep (W5 V0) r hr) (by decide)
theorem out6 : W6 V0 (Proc.devRef .tc main_v151) = iter (eS V0) (eD V0) (eW V0) (x0 V0) 7 :=
  (Stage6.step_eq (W5 V0)).trans (by
    rw [(live5 V0).src, (live5 V0).dst, (live5 V0).nrm, (live5 V0).args main_arg0 (by decide), out5 V0]; rfl)

theorem live7 : Live V0 (W7 V0) :=
  (live6 V0).next V0 ops7 Stage7.written (fun r hr => Stage7.keep (W6 V0) r hr) (by decide)
theorem out7 : W7 V0 (Proc.devRef .tc main_v169) = iter (eS V0) (eD V0) (eW V0) (x0 V0) 8 :=
  (Stage7.step_eq (W6 V0)).trans (by
    rw [(live6 V0).src, (live6 V0).dst, (live6 V0).nrm, (live6 V0).args main_arg0 (by decide), out6 V0]; rfl)

theorem live8 : Live V0 (W8 V0) :=
  (live7 V0).next V0 ops8 Stage8.written (fun r hr => Stage8.keep (W7 V0) r hr) (by decide)
theorem out8 : W8 V0 (Proc.devRef .tc main_v187) = iter (eS V0) (eD V0) (eW V0) (x0 V0) 9 :=
  (Stage8.step_eq (W7 V0)).trans (by
    rw [(live7 V0).src, (live7 V0).dst, (live7 V0).nrm, (live7 V0).args main_arg0 (by decide), out7 V0]; rfl)

theorem live9 : Live V0 (W9 V0) :=
  (live8 V0).next V0 ops9 Stage9.written (fun r hr => Stage9.keep (W8 V0) r hr) (by decide)
theorem out9 : W9 V0 (Proc.devRef .tc main_v205) = iter (eS V0) (eD V0) (eW V0) (x0 V0) 10 :=
  (Stage9.step_eq (W8 V0)).trans (by
    rw [(live8 V0).src, (live8 V0).dst, (live8 V0).nrm, (live8 V0).args main_arg0 (by decide), out8 V0]; rfl)

/-! ## The perceptron -/

/-- The features between the two diffusions. -/
abbrev mid : Nodes F :=
  Cert.Spec.mlp (F := F) (iter (eS V0) (eD V0) (eW V0) (x0 V0) 10) (V0 (Proc.devRef .tc main_arg2)) (V0 (Proc.devRef .tc main_arg3))
    (V0 (Proc.devRef .tc main_arg4)) (V0 (Proc.devRef .tc main_arg5)) (V0 (Proc.devRef .tc main_arg6))

theorem liveM : Live V0 (WM V0) :=
  (live9 V0).next V0 opsM StageM.written (fun r hr => StageM.keep (W9 V0) r hr) (by decide)
theorem midM : WM V0 (Proc.devRef .tc main_v221) = mid V0 :=
  (StageM.mlp_eq (W9 V0)).trans (by
    rw [out9 V0, (live9 V0).args main_arg2 (by decide), (live9 V0).args main_arg3 (by decide), (live9 V0).args main_arg4 (by decide),
      (live9 V0).args main_arg5 (by decide), (live9 V0).args main_arg6 (by decide)])

/-! ## The second diffusion -/

theorem live11 : Live V0 (W11 V0) :=
  (liveM V0).next V0 ops11 Stage11.written (fun r hr => Stage11.keep (WM V0) r hr) (by decide)
theorem mid11 : W11 V0 (Proc.devRef .tc main_v221) = mid V0 :=
  (Stage11.keep (WM V0) main_v221 (by decide)).trans (midM V0)
theorem out11 : W11 V0 (Proc.devRef .tc main_v239) = iter (eS V0) (eD V0) (eW V0) (mid V0) 1 :=
  (Stage11.step_eq (WM V0)).trans (by
    rw [(liveM V0).src, (liveM V0).dst, (liveM V0).nrm, midM V0]; rfl)

theorem live12 : Live V0 (W12 V0) :=
  (live11 V0).next V0 ops12 Stage12.written (fun r hr => Stage12.keep (W11 V0) r hr) (by decide)
theorem mid12 : W12 V0 (Proc.devRef .tc main_v221) = mid V0 :=
  (Stage12.keep (W11 V0) main_v221 (by decide)).trans (mid11 V0)
theorem out12 : W12 V0 (Proc.devRef .tc main_v257) = iter (eS V0) (eD V0) (eW V0) (mid V0) 2 :=
  (Stage12.step_eq (W11 V0)).trans (by
    rw [(live11 V0).src, (live11 V0).dst, (live11 V0).nrm, mid11 V0, out11 V0]; rfl)

theorem live13 : Live V0 (W13 V0) :=
  (live12 V0).next V0 ops13 Stage13.written (fun r hr => Stage13.keep (W12 V0) r hr) (by decide)
theorem mid13 : W13 V0 (Proc.devRef .tc main_v221) = mid V0 :=
  (Stage13.keep (W12 V0) main_v221 (by decide)).trans (mid12 V0)
theorem out13 : W13 V0 (Proc.devRef .tc main_v275) = iter (eS V0) (eD V0) (eW V0) (mid V0) 3 :=
  (Stage13.step_eq (W12 V0)).trans (by
    rw [(live12 V0).src, (live12 V0).dst, (live12 V0).nrm, mid12 V0, out12 V0]; rfl)

theorem live14 : Live V0 (W14 V0) :=
  (live13 V0).next V0 ops14 Stage14.written (fun r hr => Stage14.keep (W13 V0) r hr) (by decide)
theorem mid14 : W14 V0 (Proc.devRef .tc main_v221) = mid V0 :=
  (Stage14.keep (W13 V0) main_v221 (by decide)).trans (mid13 V0)
theorem out14 : W14 V0 (Proc.devRef .tc main_v293) = iter (eS V0) (eD V0) (eW V0) (mid V0) 4 :=
  (Stage14.step_eq (W13 V0)).trans (by
    rw [(live13 V0).src, (live13 V0).dst, (live13 V0).nrm, mid13 V0, out13 V0]; rfl)

theorem live15 : Live V0 (W15 V0) :=
  (live14 V0).next V0 ops15 Stage15.written (fun r hr => Stage15.keep (W14 V0) r hr) (by decide)
theorem mid15 : W15 V0 (Proc.devRef .tc main_v221) = mid V0 :=
  (Stage15.keep (W14 V0) main_v221 (by decide)).trans (mid14 V0)
theorem out15 : W15 V0 (Proc.devRef .tc main_v311) = iter (eS V0) (eD V0) (eW V0) (mid V0) 5 :=
  (Stage15.step_eq (W14 V0)).trans (by
    rw [(live14 V0).src, (live14 V0).dst, (live14 V0).nrm, mid14 V0, out14 V0]; rfl)

theorem live16 : Live V0 (W16 V0) :=
  (live15 V0).next V0 ops16 Stage16.written (fun r hr => Stage16.keep (W15 V0) r hr) (by decide)
theorem mid16 : W16 V0 (Proc.devRef .tc main_v221) = mid V0 :=
  (Stage16.keep (W15 V0) main_v221 (by decide)).trans (mid15 V0)
theorem out16 : W16 V0 (Proc.devRef .tc main_v329) = iter (eS V0) (eD V0) (eW V0) (mid V0) 6 :=
  (Stage16.step_eq (W15 V0)).trans (by
    rw [(live15 V0).src, (live15 V0).dst, (live15 V0).nrm, mid15 V0, out15 V0]; rfl)

theorem live17 : Live V0 (W17 V0) :=
  (live16 V0).next V0 ops17 Stage17.written (fun r hr => Stage17.keep (W16 V0) r hr) (by decide)
theorem mid17 : W17 V0 (Proc.devRef .tc main_v221) = mid V0 :=
  (Stage17.keep (W16 V0) main_v221 (by decide)).trans (mid16 V0)
theorem out17 : W17 V0 (Proc.devRef .tc main_v347) = iter (eS V0) (eD V0) (eW V0) (mid V0) 7 :=
  (Stage17.step_eq (W16 V0)).trans (by
    rw [(live16 V0).src, (live16 V0).dst, (live16 V0).nrm, mid16 V0, out16 V0]; rfl)

theorem live18 : Live V0 (W18 V0) :=
  (live17 V0).next V0 ops18 Stage18.written (fun r hr => Stage18.keep (W17 V0) r hr) (by decide)
theorem mid18 : W18 V0 (Proc.devRef .tc main_v221) = mid V0 :=
  (Stage18.keep (W17 V0) main_v221 (by decide)).trans (mid17 V0)
theorem out18 : W18 V0 (Proc.devRef .tc main_v365) = iter (eS V0) (eD V0) (eW V0) (mid V0) 8 :=
  (Stage18.step_eq (W17 V0)).trans (by
    rw [(live17 V0).src, (live17 V0).dst, (live17 V0).nrm, mid17 V0, out17 V0]; rfl)

theorem live19 : Live V0 (W19 V0) :=
  (live18 V0).next V0 ops19 Stage19.written (fun r hr => Stage19.keep (W18 V0) r hr) (by decide)
theorem mid19 : W19 V0 (Proc.devRef .tc main_v221) = mid V0 :=
  (Stage19.keep (W18 V0) main_v221 (by decide)).trans (mid18 V0)
theorem out19 : W19 V0 (Proc.devRef .tc main_v383) = iter (eS V0) (eD V0) (eW V0) (mid V0) 9 :=
  (Stage19.step_eq (W18 V0)).trans (by
    rw [(live18 V0).src, (live18 V0).dst, (live18 V0).nrm, mid18 V0, out18 V0]; rfl)

theorem live20 : Live V0 (W20 V0) :=
  (live19 V0).next V0 ops20 Stage20.written (fun r hr => Stage20.keep (W19 V0) r hr) (by decide)
theorem mid20 : W20 V0 (Proc.devRef .tc main_v221) = mid V0 :=
  (Stage20.keep (W19 V0) main_v221 (by decide)).trans (mid19 V0)
theorem out20 : W20 V0 (Proc.devRef .tc main_v401) = iter (eS V0) (eD V0) (eW V0) (mid V0) 10 :=
  (Stage20.step_eq (W19 V0)).trans (by
    rw [(live19 V0).src, (live19 V0).dst, (live19 V0).nrm, mid19 V0, out19 V0]; rfl)

/-! ## The last layer -/

theorem liveF : Live V0 (WF V0) :=
  (live20 V0).next V0 opsF StageF.written (fun r hr => StageF.keep (W20 V0) r hr) (by decide)

/-- The result buffer holds the whole computation of the launch arguments. -/
theorem outF : WF V0 (Proc.devRef .tc main_v405)
    = Cert.Spec.whole (F := F) (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) (V0 (Proc.devRef .tc main_arg6)) (V0 (Proc.devRef .tc main_arg7)) (V0 (Proc.devRef .tc main_arg8)) :=
  (StageF.fin_eq (W20 V0)).trans (by
    rw [out20 V0, (live20 V0).args main_arg7 (by decide), (live20 V0).args main_arg8 (by decide)]
    unfold Cert.Spec.whole
    rw [diffuse_eq_iter, diffuse_eq_iter])

end Chain

/-- On every device, from any memory with zero counters: every weakly fair execution of the host program terminates
    with the result at the whole computation of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v405) = Cert.Spec.whole (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(h c main_v405).trans ((congrFun (after_ops_W (launchContents m c)) _).trans (outF (launchContents m c))),
      (h c main_arg0).trans ((congrFun (after_ops_W (launchContents m c)) _).trans ((liveF (launchContents m c)).args main_arg0 (by decide))),
      (h c main_arg1).trans ((congrFun (after_ops_W (launchContents m c)) _).trans ((liveF (launchContents m c)).args main_arg1 (by decide))),
      (h c main_arg2).trans ((congrFun (after_ops_W (launchContents m c)) _).trans ((liveF (launchContents m c)).args main_arg2 (by decide))),
      (h c main_arg3).trans ((congrFun (after_ops_W (launchContents m c)) _).trans ((liveF (launchContents m c)).args main_arg3 (by decide))),
      (h c main_arg4).trans ((congrFun (after_ops_W (launchContents m c)) _).trans ((liveF (launchContents m c)).args main_arg4 (by decide))),
      (h c main_arg5).trans ((congrFun (after_ops_W (launchContents m c)) _).trans ((liveF (launchContents m c)).args main_arg5 (by decide))),
      (h c main_arg6).trans ((congrFun (after_ops_W (launchContents m c)) _).trans ((liveF (launchContents m c)).args main_arg6 (by decide))),
      (h c main_arg7).trans ((congrFun (after_ops_W (launchContents m c)) _).trans ((liveF (launchContents m c)).args main_arg7 (by decide))),
      (h c main_arg8).trans ((congrFun (after_ops_W (launchContents m c)) _).trans ((liveF (launchContents m c)).args main_arg8 (by decide)))⟩)
    (run_seq scopedRefs_eq scopedSems_eq defs main (fun _ => ops) main_eq (fun _ => ops_sub) m ρ (fun _ => ops_fresh))

end Cert.ReferenceIdeal.RefRun

end
-- ==== Proof.KRun.lean ====
/-
  The idealized kernel program's run with its RESULT named.

  The program is 22 kernel regions among stretches of host operations; the contents of every buffer at each of the
  42 boundaries is the fold `W0, W1, …, W42` from the launch memory (a host stretch applies its operations, a region
  leaves its output array at what its blocks' write-backs add up to).  Every weakly fair execution terminates with
  every unscoped buffer at `W42`; read at the result buffer this names the result, and at the argument buffers it
  gives back the launch contents.
-/
import proofs.«104874_j7885559956094_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v307) = W42 m ρ c (Proc.devRef .tc main_v307)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W42 m ρ c b)
    (hfin := fun c s' => by
      iintro ⟨⟨Hh, -⟩, HSI⟩
      unfold StableHlo.held
      imodintro
      iapply (pointsTo_read_all (Pipeline.ucRefs τ sig) (fun b => (((c : Thread nD τ)).1, b)) (W42 m ρ c) s')
      isplitl [Hh] <;> iassumption)
    (hQ := fun s h c =>
      ⟨h c _ (mem_uc main_v307 (by decide)),
       (h c _ (mem_uc main_arg0 (by decide))).trans (W42_main_arg0 m ρ c),
       (h c _ (mem_uc main_arg1 (by decide))).trans (W42_main_arg1 m ρ c),
       (h c _ (mem_uc main_arg2 (by decide))).trans (W42_main_arg2 m ρ c),
       (h c _ (mem_uc main_arg3 (by decide))).trans (W42_main_arg3 m ρ c),
       (h c _ (mem_uc main_arg4 (by decide))).trans (W42_main_arg4 m ρ c),
       (h c _ (mem_uc main_arg5 (by decide))).trans (W42_main_arg5 m ρ c),
       (h c _ (mem_uc main_arg6 (by decide))).trans (W42_main_arg6 m ρ c),
       (h c _ (mem_uc main_arg7 (by decide))).trans (W42_main_arg7 m ρ c),
       (h c _ (mem_uc main_arg8 (by decide))).trans (W42_main_arg8 m ρ c)⟩)

end Cert.KernelIdeal.KRun

end
-- ==== Proof.Mix0.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix0

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k0_pay1 x0 x1 j
      = FloatOps.addf (FloatOps.mulf (x0 j) (FloatOps.ofBits .f32 0x3F666666#32))
          (FloatOps.mulf (FloatOps.ofBits .f32 0x3DCCCCCD#32) (x1 j)) := by
  unfold k0_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg0.N) :
    (dat0 V c).flushed 2 t = ((cfg0.win 2).blk t).view.read (Elt F)
      (Cert.Spec.mix (F := F) (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x32) hz]
  obtain ⟨e0, e1, e2, e3, e4, e5⟩ := idx_facts t
  funext j
  show k0_pay1 (iblk0 V c 0 t) (iblk0 V c 1 t) j
    = Cert.Spec.mix (F := F) (V c (Pipeline.arrRef spec0 0)) (V c (Pipeline.arrRef spec0 1)) (((cfg0.win 2).blk t).view.emb j)
  rw [pay_apply, mix_apply]
  have h0 : ((cfg0.win 0).blk t).view.emb j = ((cfg0.win 2).blk t).view.emb j := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 32 + 1 * (j 1).val = win0_2.index t (1 : Fin 2) * 32 + 1 * (j 1).val; omega
  have h1 : ((cfg0.win 1).blk t).view.emb j = ((cfg0.win 2).blk t).view.emb j := by
    funext a; apply Fin.ext
    match a with
    | ⟨0, _⟩ => show win0_1.index t (0 : Fin 2) * 2000 + 1 * (j 0).val = win0_2.index t (0 : Fin 2) * 2000 + 1 * (j 0).val; omega
    | ⟨1, _⟩ => show win0_1.index t (1 : Fin 2) * 32 + 1 * (j 1).val = win0_2.index t (1 : Fin 2) * 32 + 1 * (j 1).val; omega
  show FloatOps.addf (FloatOps.mulf (V c (Pipeline.arrRef spec0 0) (((cfg0.win 0).blk t).view.emb j)) _)
      (FloatOps.mulf _ (V c (Pipeline.arrRef spec0 1) (((cfg0.win 1).blk t).view.emb j))) = _
  rw [h0, h1]

/-- An index of the array is in point `t`'s block iff each coordinate is in the block's range on its axis. -/
theorem mem_blk (t : Fin cfg0.N) (i : S100000x32.Idx) :
    i ∈ ((cfg0.win 2).blk t).view.set ↔ ∀ a : Fin 2, win0_2.index t a * S2000x32.size a ≤ (i a).val
      ∧ (i a).val < win0_2.index t a * S2000x32.size a + S2000x32.size a := by
  show i ∈ ((View.whole (Pipeline.arrRef spec0 2)).slice (win0_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have ht : (i 0).val / 2000 < cfg0.N := by
    show (i 0).val / 2000 < 50
    omega
  obtain ⟨e0, e1, e2, e3, e4, e5⟩ := idx_facts ⟨(i 0).val / 2000, ht⟩
  have q0 : win0_2.index ⟨(i 0).val / 2000, ht⟩ (0 : Fin 2) = (i 0).val / 2000 := e4
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    omega
  | ⟨1, _⟩ =>
    show win0_2.index ⟨(i 0).val / 2000, ht⟩ (1 : Fin 2) * 32 ≤ (i 1).val
      ∧ (i 1).val < win0_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat0 V c).arrAt 2 cfg0.N = Cert.Spec.mix (F := F) (V c (Pipeline.arrRef spec0 0)) (V c (Pipeline.arrRef spec0 1)) :=
  (dat0 V c).arrAt_eq_of_cover 2 _ (fun t _ => flushed_eq V c t) cover

end Cert.KernelIdeal.Mix0

end
-- ==== Proof.Walk0.lean ====
/-
  The start of the kernel program: host stretch 0 cuts the edge list into its source and destination rows, counts
  the edges arriving at each node, forms the edge weights and computes the first convolution of the input features;
  region 0 mixes it with the input features.  Read through the fold of buffer contents from the launch memory.
-/
import proofs.«104874_j7885559956094_2_alg».proof.Proof.Spec
import proofs.«104874_j7885559956094_2_alg».proof.Proof.Gen.KernelIdeal.Frame
import proofs.«104874_j7885559956094_2_alg».proof.Proof.Mix0
import Idealize.ShloMosaic.Lib.StableHlo.Run

set_option maxRecDepth 16384

noncomputable section

namespace Cert.KernelIdeal.Walk0

open Cert.KernelIdeal Cert.KernelIdeal.Gen Idealize.ShloMosaic Idealize.ShloMosaic.TcCoe Idealize.SL.Sem Idealize.ShloMosaic.StableHlo

variable {F : FTy → Type} [FloatOps F]

/-- The buffers host stretch 0 writes. -/
abbrev written : List (Ref sig .tc) := [main_v0, main_v1, main_v2, main_v3, main_cst, main_v4, main_cst_0, main_v5, main_v6, main_v7, main_cst_1, main_v8, main_v9, main_c, main_v10, main_v11, main_c_2, main_v12, main_v13, main_v14, main_v15, main_v16, main_c_3, main_v17, main_v18, main_c_4, main_v19, main_v20, main_v21, main_v22, main_v23, main_v24, main_v25, main_c_5, main_v26, main_v27, main_c_6, main_v28, main_v29, main_v30, main_v31, main_v32, main_v33, main_v34, main_v35, main_cst_7, main_v36, main_v37, main_v38]

/-- The source row of the edge list. -/
theorem src_eq (V : Valuation τ sig (Elt F)) :
    StableHlo.after hostOps0 V (Proc.devRef .tc main_v1) = Cert.Spec.srcOf (F := F) (V (Proc.devRef .tc main_arg1)) := by
  after_results_simp <;> rfl

/-- The destination row of the edge list. -/
theorem dst_eq (V : Valuation τ sig (Elt F)) :
    StableHlo.after hostOps0 V (Proc.devRef .tc main_v3) = Cert.Spec.dstOf (F := F) (V (Proc.devRef .tc main_arg1)) := by
  after_results_simp <;> rfl

/-- The edge weights. -/
theorem nrm_eq (V : Valuation τ sig (Elt F)) :
    StableHlo.after hostOps0 V (Proc.devRef .tc main_v25)
      = Cert.Spec.normOf (F := F) (Cert.Spec.srcOf (V (Proc.devRef .tc main_arg1))) (Cert.Spec.dstOf (V (Proc.devRef .tc main_arg1))) := by
  after_results_simp <;> rfl

/-- The first convolution, of the input features. -/
theorem conv_eq (V : Valuation τ sig (Elt F)) :
    StableHlo.after hostOps0 V (Proc.devRef .tc main_v38)
      = Cert.Spec.conv (F := F) (Cert.Spec.srcOf (V (Proc.devRef .tc main_arg1))) (Cert.Spec.dstOf (V (Proc.devRef .tc main_arg1)))
          (Cert.Spec.normOf (Cert.Spec.srcOf (V (Proc.devRef .tc main_arg1))) (Cert.Spec.dstOf (V (Proc.devRef .tc main_arg1))))
          (V (Proc.devRef .tc main_arg0)) := by
  after_results_simp <;> rfl

/-- Each operation of the stretch writes one of the listed buffers. -/
theorem writes_sub : (hostOps0 : List (HloOp τ sig (Elt F))).Forall fun op => op.writes ⊆ (written.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps0 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as
    launched. -/
theorem keep (c : Dev nD) (r : Ref sig .tc) (hr : r ∉ written) (hne : ∀ w, Pipeline.arrRef spec0 w ≠ r) :
    W2 m ρ c (Proc.devRef .tc r) = W0 m ρ c (Proc.devRef .tc r) :=
  (W2_of_ne m ρ c r hne).trans (keep_host (W0 m ρ c) r hr)

/-- The input features, the region's second input, are left as launched. -/
theorem keep_anchor (c : Dev nD) :
    W2 m ρ c (Proc.devRef .tc main_arg0) = W0 m ρ c (Proc.devRef .tc main_arg0) :=
  ((W2_arr m ρ c 1).trans (((dat0 (V1 m ρ) c).arrAt_in 1 rfl _).trans (A_eq0 (V1 m ρ) c 1))).trans
    (keep_host (W0 m ρ c) main_arg0 (by decide))

/-- The edge rows and weights when region 0 is left. -/
theorem src_at (c : Dev nD) :
    W2 m ρ c (Proc.devRef .tc main_v1) = Cert.Spec.srcOf (F := F) (W0 m ρ c (Proc.devRef .tc main_arg1)) :=
  (W2_of_ne m ρ c main_v1 (by decide)).trans (src_eq (W0 m ρ c))
theorem dst_at (c : Dev nD) :
    W2 m ρ c (Proc.devRef .tc main_v3) = Cert.Spec.dstOf (F := F) (W0 m ρ c (Proc.devRef .tc main_arg1)) :=
  (W2_of_ne m ρ c main_v3 (by decide)).trans (dst_eq (W0 m ρ c))
theorem nrm_at (c : Dev nD) :
    W2 m ρ c (Proc.devRef .tc main_v25)
      = Cert.Spec.normOf (F := F) (Cert.Spec.srcOf (W0 m ρ c (Proc.devRef .tc main_arg1))) (Cert.Spec.dstOf (W0 m ρ c (Proc.devRef .tc main_arg1))) :=
  (W2_of_ne m ρ c main_v25 (by decide)).trans (nrm_eq (W0 m ρ c))

/-- Region 0's output array when it is left: the first diffusion step of the input features. -/
theorem out (c : Dev nD) :
    W2 m ρ c (Proc.devRef .tc main_v39)
      = Cert.Spec.step (F := F) (Cert.Spec.srcOf (W0 m ρ c (Proc.devRef .tc main_arg1))) (Cert.Spec.dstOf (W0 m ρ c (Proc.devRef .tc main_arg1)))
          (Cert.Spec.normOf (Cert.Spec.srcOf (W0 m ρ c (Proc.devRef .tc main_arg1))) (Cert.Spec.dstOf (W0 m ρ c (Proc.devRef .tc main_arg1))))
          (W0 m ρ c (Proc.devRef .tc main_arg0)) (W0 m ρ c (Proc.devRef .tc main_arg0)) :=
  (W2_arr m ρ c 2).trans ((Cert.KernelIdeal.Mix0.final (V1 m ρ) c).trans
    (mix_is_step (conv_eq (W0 m ρ c)) (keep_host (W0 m ρ c) main_arg0 (by decide))))

end Cert.KernelIdeal.Walk0

end
-- ==== Proof.Mix1.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix1

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k1_pay1 x0 x1 j
      = FloatOps.addf (FloatOps.mulf (x0 j) (FloatOps.ofBits .f32 0x3F666666#32))
          (FloatOps.mulf (FloatOps.ofBits .f32 0x3DCCCCCD#32) (x1 j)) := by
  unfold k1_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val
    ∧ win1_2.index t (1 : Fin 2) = 0 :=
  (by decide +kernel : ∀ t : Fin grid1.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg1.N) :
    (dat1 V c).flushed 2 t = ((cfg1.win 2).blk t).view.read (Elt F)
      (Cert.Spec.mix (F := F) (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S2000x32) hz]
  obtain ⟨e0, e1, e2, e3, e4, e5⟩ := idx_facts t
  funext j
  show k1_pay1 (iblk1 V c 0 t) (iblk1 V c 1 t) j
    = Cert.Spec.mix (F := F) (V c (Pipeline.arrRef spec1 0)) (V c (Pipeline.arrRef spec1 1)) (((cfg1.win 2).blk t).view.emb j)
  rw [pay_apply, mix_apply]
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 32 + 1 * (j 1).val = win1_2.index t (1 : Fin 2) * 32 + 1 * (j 1).val; omega
  have h1 : ((cfg1.win 1).blk t).view.emb j = ((cfg1.win 2).blk t).view.emb j := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 32 + 1 * (j 1).val = win1_2.index t (1 : Fin 2) * 32 + 1 * (j 1).val; omega
  show FloatOps.addf (FloatOps.mulf (V c (Pipeline.arrRef spec1 0) (((cfg1.win 0).blk t).view.emb j)) _)
      (FloatOps.mulf _ (V c (Pipeline.arrRef spec1 1) (((cfg1.win 1).blk t).view.emb j))) = _
  rw [h0, h1]

/-- An index of the array is in point `t`'s block iff each coordinate is in the block's range on its axis. -/
theorem mem_blk (t : Fin cfg1.N) (i : S100000x32.Idx) :
    i ∈ ((cfg1.win 2).blk t).view.set ↔ ∀ a : Fin 2, win1_2.index t a * S2000x32.size a ≤ (i a).val
      ∧ (i a).val < win1_2.index t a * S2000x32.size a + S2000x32.size a := by
  show i ∈ ((View.whole (Pipeline.arrRef spec1 2)).slice (win1_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have ht : (i 0).val / 2000 < cfg1.N := by
    show (i 0).val / 2000 < 50
    omega
  obtain ⟨e0, e1, e2, e3, e4, e5⟩ := idx_facts ⟨(i 0).val / 2000, ht⟩
  have q0 : win1_2.index ⟨(i 0).val / 2000, ht⟩ (0 : Fin 2) = (i 0).val / 2000 := e4
  refine ⟨⟨(i 0).val / 2000, ht⟩, flush1_2 _, ?_⟩
  rw [mem_blk]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    omega
  | ⟨1, _⟩ =>
    show win1_2.index ⟨(i 0).val / 2000, ht⟩ (1 : Fin 2) * 32 ≤ (i 1).val
      ∧ (i 1).val < win1_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat1 V c).arrAt 2 cfg1.N = Cert.Spec.mix (F := F) (V c (Pipeline.arrRef spec1 0)) (V c (Pipeline.arrRef spec1 1)) :=
  (dat1 V c).arrAt_eq_of_cover 2 _ (fun t _ => flushed_eq V c t) cover

end Cert.KernelIdeal.Mix1

end
-- ==== Proof.Walk1.lean ====
/-
  One diffusion step of the kernel program, number 2 of its first diffusion: host stretch 1 gathers the current
  features along the edges, scales them by the edge weights and scatter-adds them at the destination nodes (the
  convolution), and region 1 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix1
import Idealize.ShloMosaic.Lib.StableHlo.Run

set_option maxRecDepth 16384

noncomputable section

namespace Cert.KernelIdeal.Walk1

open Cert.KernelIdeal Cert.KernelIdeal.Gen Idealize.ShloMosaic Idealize.ShloMosaic.TcCoe Idealize.SL.Sem Idealize.ShloMosaic.StableHlo

variable {F : FTy → Type} [FloatOps F]

/-- The buffers host stretch 1 writes. -/
abbrev written : List (Ref sig .tc) := [main_c_8, main_v40, main_v41, main_c_9, main_v42, main_v43, main_v44, main_v45, main_v46, main_v47, main_v48, main_v49, main_cst_10, main_v50, main_v51, main_v52]

/-- Stretch 1 leaves in its last buffer the convolution of the buffers it reads. -/
theorem conv_eq (V : Valuation τ sig (Elt F)) :
    StableHlo.after hostOps1 V (Proc.devRef .tc main_v52)
      = Cert.Spec.conv (F := F) (V (Proc.devRef .tc main_v1)) (V (Proc.devRef .tc main_v3)) (V (Proc.devRef .tc main_v25)) (V (Proc.devRef .tc main_v39)) := by
  after_results_simp <;> rfl

/-- Each operation of the stretch writes one of the listed buffers. -/
theorem writes_sub : (hostOps1 : List (HloOp τ sig (Elt F))).Forall fun op => op.writes ⊆ (written.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps1 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec1 w ≠ r) :
    W4 m ρ c (Proc.devRef .tc r) = W2 m ρ c (Proc.devRef .tc r) :=
  (W4_of_ne m ρ c r hne).trans (keep_host (W2 m ρ c) r hr)

/-- The anchor of the diffusion, the region's second input, is left as entered. -/
theorem keep_anchor (c : Dev nD) :
    W4 m ρ c (Proc.devRef .tc main_arg0) = W2 m ρ c (Proc.devRef .tc main_arg0) :=
  ((W4_arr m ρ c 1).trans (((dat1 (V3 m ρ) c).arrAt_in 1 rfl _).trans (A_eq1 (V3 m ρ) c 1))).trans
    (keep_host (W2 m ρ c) main_arg0 (by decide))

/-- The region's output array when it is left: one diffusion step of the buffers as they were before the stretch. -/
theorem out (c : Dev nD) :
    W4 m ρ c (Proc.devRef .tc main_v53)
      = Cert.Spec.step (F := F) (W2 m ρ c (Proc.devRef .tc main_v1)) (W2 m ρ c (Proc.devRef .tc main_v3)) (W2 m ρ c (Proc.devRef .tc main_v25))
          (W2 m ρ c (Proc.devRef .tc main_arg0)) (W2 m ρ c (Proc.devRef .tc main_v39)) :=
  (W4_arr m ρ c 2).trans ((Cert.KernelIdeal.Mix1.final (V3 m ρ) c).trans
    (mix_is_step (conv_eq (W2 m ρ c)) (keep_host (W2 m ρ c) main_arg0 (by decide))))

end Cert.KernelIdeal.Walk1

end
-- ==== Proof.Mix2.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix2

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k2_pay1 x0 x1 j
      = FloatOps.addf (FloatOps.mulf (x0 j) (FloatOps.ofBits .f32 0x3F666666#32))
          (FloatOps.mulf (FloatOps.ofBits .f32 0x3DCCCCCD#32) (x1 j)) := by
  unfold k2_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val
    ∧ win2_2.index t (1 : Fin 2) = 0 :=
  (by decide +kernel : ∀ t : Fin grid2.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg2.N) :
    (dat2 V c).flushed 2 t = ((cfg2.win 2).blk t).view.read (Elt F)
      (Cert.Spec.mix (F := F) (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S2000x32) hz]
  obtain ⟨e0, e1, e2, e3, e4, e5⟩ := idx_facts t
  funext j
  show k2_pay1 (iblk2 V c 0 t) (iblk2 V c 1 t) j
    = Cert.Spec.mix (F := F) (V c (Pipeline.arrRef spec2 0)) (V c (Pipeline.arrRef spec2 1)) (((cfg2.win 2).blk t).view.emb j)
  rw [pay_apply, mix_apply]
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 32 + 1 * (j 1).val = win2_2.index t (1 : Fin 2) * 32 + 1 * (j 1).val; omega
  have h1 : ((cfg2.win 1).blk t).view.emb j = ((cfg2.win 2).blk t).view.emb j := by
    funext a; apply Fin.ext
    match a with
    | ⟨0, _⟩ => show win2_1.index t (0 : Fin 2) * 2000 + 1 * (j 0).val = win2_2.index t (0 : Fin 2) * 2000 + 1 * (j 0).val; omega
    | ⟨1, _⟩ => show win2_1.index t (1 : Fin 2) * 32 + 1 * (j 1).val = win2_2.index t (1 : Fin 2) * 32 + 1 * (j 1).val; omega
  show FloatOps.addf (FloatOps.mulf (V c (Pipeline.arrRef spec2 0) (((cfg2.win 0).blk t).view.emb j)) _)
      (FloatOps.mulf _ (V c (Pipeline.arrRef spec2 1) (((cfg2.win 1).blk t).view.emb j))) = _
  rw [h0, h1]

/-- An index of the array is in point `t`'s block iff each coordinate is in the block's range on its axis. -/
theorem mem_blk (t : Fin cfg2.N) (i : S100000x32.Idx) :
    i ∈ ((cfg2.win 2).blk t).view.set ↔ ∀ a : Fin 2, win2_2.index t a * S2000x32.size a ≤ (i a).val
      ∧ (i a).val < win2_2.index t a * S2000x32.size a + S2000x32.size a := by
  show i ∈ ((View.whole (Pipeline.arrRef spec2 2)).slice (win2_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have ht : (i 0).val / 2000 < cfg2.N := by
    show (i 0).val / 2000 < 50
    omega
  obtain ⟨e0, e1, e2, e3, e4, e5⟩ := idx_facts ⟨(i 0).val / 2000, ht⟩
  have q0 : win2_2.index ⟨(i 0).val / 2000, ht⟩ (0 : Fin 2) = (i 0).val / 2000 := e4
  refine ⟨⟨(i 0).val / 2000, ht⟩, flush2_2 _, ?_⟩
  rw [mem_blk]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    omega
  | ⟨1, _⟩ =>
    show win2_2.index ⟨(i 0).val / 2000, ht⟩ (1 : Fin 2) * 32 ≤ (i 1).val
      ∧ (i 1).val < win2_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat2 V c).arrAt 2 cfg2.N = Cert.Spec.mix (F := F) (V c (Pipeline.arrRef spec2 0)) (V c (Pipeline.arrRef spec2 1)) :=
  (dat2 V c).arrAt_eq_of_cover 2 _ (fun t _ => flushed_eq V c t) cover

end Cert.KernelIdeal.Mix2

end
-- ==== Proof.Walk2.lean ====
/-
  One diffusion step of the kernel program, number 3 of its first diffusion: host stretch 2 gathers the current
  features along the edges, scales them by the edge weights and scatter-adds them at the destination nodes (the
  convolution), and region 2 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix2
import Idealize.ShloMosaic.Lib.StableHlo.Run

set_option maxRecDepth 16384

noncomputable section

namespace Cert.KernelIdeal.Walk2

open Cert.KernelIdeal Cert.KernelIdeal.Gen Idealize.ShloMosaic Idealize.ShloMosaic.TcCoe Idealize.SL.Sem Idealize.ShloMosaic.StableHlo

variable {F : FTy → Type} [FloatOps F]

/-- The buffers host stretch 2 writes. -/
abbrev written : List (Ref sig .tc) := [main_c_11, main_v54, main_v55, main_c_12, main_v56, main_v57, main_v58, main_v59, main_v60, main_v61, main_v62, main_v63, main_cst_13, main_v64, main_v65, main_v66]

/-- Stretch 2 leaves in its last buffer the convolution of the buffers it reads. -/
theorem conv_eq (V : Valuation τ sig (Elt F)) :
    StableHlo.after hostOps2 V (Proc.devRef .tc main_v66)
      = Cert.Spec.conv (F := F) (V (Proc.devRef .tc main_v1)) (V (Proc.devRef .tc main_v3)) (V (Proc.devRef .tc main_v25)) (V (Proc.devRef .tc main_v53)) := by
  after_results_simp <;> rfl

/-- Each operation of the stretch writes one of the listed buffers. -/
theorem writes_sub : (hostOps2 : List (HloOp τ sig (Elt F))).Forall fun op => op.writes ⊆ (written.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps2 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec2 w ≠ r) :
    W6 m ρ c (Proc.devRef .tc r) = W4 m ρ c (Proc.devRef .tc r) :=
  (W6_of_ne m ρ c r hne).trans (keep_host (W4 m ρ c) r hr)

/-- The anchor of the diffusion, the region's second input, is left as entered. -/
theorem keep_anchor (c : Dev nD) :
    W6 m ρ c (Proc.devRef .tc main_arg0) = W4 m ρ c (Proc.devRef .tc main_arg0) :=
  ((W6_arr m ρ c 1).trans (((dat2 (V5 m ρ) c).arrAt_in 1 rfl _).trans (A_eq2 (V5 m ρ) c 1))).trans
    (keep_host (W4 m ρ c) main_arg0 (by decide))

/-- The region's output array when it is left: one diffusion step of the buffers as they were before the stretch. -/
theorem out (c : Dev nD) :
    W6 m ρ c (Proc.devRef .tc main_v67)
      = Cert.Spec.step (F := F) (W4 m ρ c (Proc.devRef .tc main_v1)) (W4 m ρ c (Proc.devRef .tc main_v3)) (W4 m ρ c (Proc.devRef .tc main_v25))
          (W4 m ρ c (Proc.devRef .tc main_arg0)) (W4 m ρ c (Proc.devRef .tc main_v53)) :=
  (W6_arr m ρ c 2).trans ((Cert.KernelIdeal.Mix2.final (V5 m ρ) c).trans
    (mix_is_step (conv_eq (W4 m ρ c)) (keep_host (W4 m ρ c) main_arg0 (by decide))))

end Cert.KernelIdeal.Walk2

end
-- ==== Proof.Mix3.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix3

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k3_pay1 x0 x1 j
      = FloatOps.addf (FloatOps.mulf (x0 j) (FloatOps.ofBits .f32 0x3F666666#32))
          (FloatOps.mulf (FloatOps.ofBits .f32 0x3DCCCCCD#32) (x1 j)) := by
  unfold k3_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) = t.val
    ∧ win3_2.index t (1 : Fin 2) = 0 :=
  (by decide +kernel : ∀ t : Fin grid3.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg3.N) :
    (dat3 V c).flushed 2 t = ((cfg3.win 2).blk t).view.read (Elt F)
      (Cert.Spec.mix (F := F) (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S2000x32) hz]
  obtain ⟨e0, e1, e2, e3, e4, e5⟩ := idx_facts t
  funext j
  show k3_pay1 (iblk3 V c 0 t) (iblk3 V c 1 t) j
    = Cert.Spec.mix (F := F) (V c (Pipeline.arrRef spec3 0)) (V c (Pipeline.arrRef spec3 1)) (((cfg3.win 2).blk t).view.emb j)
  rw [pay_apply, mix_apply]
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 32 + 1 * (j 1).val = win3_2.index t (1 : Fin 2) * 32 + 1 * (j 1).val; omega
  have h1 : ((cfg3.win 1).blk t).view.emb j = ((cfg3.win 2).blk t).view.emb j := by
    funext a; apply Fin.ext
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 32 + 1 * (j 1).val = win3_2.index t (1 : Fin 2) * 32 + 1 * (j 1).val; omega
  show FloatOps.addf (FloatOps.mulf (V c (Pipeline.arrRef spec3 0) (((cfg3.win 0).blk t).view.emb j)) _)
      (FloatOps.mulf _ (V c (Pipeline.arrRef spec3 1) (((cfg3.win 1).blk t).view.emb j))) = _
  rw [h0, h1]

/-- An index of the array is in point `t`'s block iff each coordinate is in the block's range on its axis. -/
theorem mem_blk (t : Fin cfg3.N) (i : S100000x32.Idx) :
    i ∈ ((cfg3.win 2).blk t).view.set ↔ ∀ a : Fin 2, win3_2.index t a * S2000x32.size a ≤ (i a).val
      ∧ (i a).val < win3_2.index t a * S2000x32.size a + S2000x32.size a := by
  show i ∈ ((View.whole (Pipeline.arrRef spec3 2)).slice (win3_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have ht : (i 0).val / 2000 < cfg3.N := by
    show (i 0).val / 2000 < 50
    omega
  obtain ⟨e0, e1, e2, e3, e4, e5⟩ := idx_facts ⟨(i 0).val / 2000, ht⟩
  have q0 : win3_2.index ⟨(i 0).val / 2000, ht⟩ (0 : Fin 2) = (i 0).val / 2000 := e4
  refine ⟨⟨(i 0).val / 2000, ht⟩, flush3_2 _, ?_⟩
  rw [mem_blk]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    omega
  | ⟨1, _⟩ =>
    show win3_2.index ⟨(i 0).val / 2000, ht⟩ (1 : Fin 2) * 32 ≤ (i 1).val
      ∧ (i 1).val < win3_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat3 V c).arrAt 2 cfg3.N = Cert.Spec.mix (F := F) (V c (Pipeline.arrRef spec3 0)) (V c (Pipeline.arrRef spec3 1)) :=
  (dat3 V c).arrAt_eq_of_cover 2 _ (fun t _ => flushed_eq V c t) cover

end Cert.KernelIdeal.Mix3

end
-- ==== Proof.Walk3.lean ====
/-
  One diffusion step of the kernel program, number 4 of its first diffusion: host stretch 3 gathers the current
  features along the edges, scales them by the edge weights and scatter-adds them at the destination nodes (the
  convolution), and region 3 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix3
import Idealize.ShloMosaic.Lib.StableHlo.Run

set_option maxRecDepth 16384

noncomputable section

namespace Cert.KernelIdeal.Walk3

open Cert.KernelIdeal Cert.KernelIdeal.Gen Idealize.ShloMosaic Idealize.ShloMosaic.TcCoe Idealize.SL.Sem Idealize.ShloMosaic.StableHlo

variable {F : FTy → Type} [FloatOps F]

/-- The buffers host stretch 3 writes. -/
abbrev written : List (Ref sig .tc) := [main_c_14, main_v68, main_v69, main_c_15, main_v70, main_v71, main_v72, main_v73, main_v74, main_v75, main_v76, main_v77, main_cst_16, main_v78, main_v79, main_v80]

/-- Stretch 3 leaves in its last buffer the convolution of the buffers it reads. -/
theorem conv_eq (V : Valuation τ sig (Elt F)) :
    StableHlo.after hostOps3 V (Proc.devRef .tc main_v80)
      = Cert.Spec.conv (F := F) (V (Proc.devRef .tc main_v1)) (V (Proc.devRef .tc main_v3)) (V (Proc.devRef .tc main_v25)) (V (Proc.devRef .tc main_v67)) := by
  after_results_simp <;> rfl

/-- Each operation of the stretch writes one of the listed buffers. -/
theorem writes_sub : (hostOps3 : List (HloOp τ sig (Elt F))).Forall fun op => op.writes ⊆ (written.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps3 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec3 w ≠ r) :
    W8 m ρ c (Proc.devRef .tc r) = W6 m ρ c (Proc.devRef .tc r) :=
  (W8_of_ne m ρ c r hne).trans (keep_host (W6 m ρ c) r hr)

/-- The anchor of the diffusion, the region's second input, is left as entered. -/
theorem keep_anchor (c : Dev nD) :
    W8 m ρ c (Proc.devRef .tc main_arg0) = W6 m ρ c (Proc.devRef .tc main_arg0) :=
  ((W8_arr m ρ c 1).trans (((dat3 (V7 m ρ) c).arrAt_in 1 rfl _).trans (A_eq3 (V7 m ρ) c 1))).trans
    (keep_host (W6 m ρ c) main_arg0 (by decide))

/-- The region's output array when it is left: one diffusion step of the buffers as they were before the stretch. -/
theorem out (c : Dev nD) :
    W8 m ρ c (Proc.devRef .tc main_v81)
      = Cert.Spec.step (F := F) (W6 m ρ c (Proc.devRef .tc main_v1)) (W6 m ρ c (Proc.devRef .tc main_v3)) (W6 m ρ c (Proc.devRef .tc main_v25))
          (W6 m ρ c (Proc.devRef .tc main_arg0)) (W6 m ρ c (Proc.devRef .tc main_v67)) :=
  (W8_arr m ρ c 2).trans ((Cert.KernelIdeal.Mix3.final (V7 m ρ) c).trans
    (mix_is_step (conv_eq (W6 m ρ c)) (keep_host (W6 m ρ c) main_arg0 (by decide))))

end Cert.KernelIdeal.Walk3

end
-- ==== Proof.Mix4.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix4

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k4_pay1 x0 x1 j
      = FloatOps.addf (FloatOps.mulf (x0 j) (FloatOps.ofBits .f32 0x3F666666#32))
          (FloatOps.mulf (FloatOps.ofBits .f32 0x3DCCCCCD#32) (x1 j)) := by
  unfold k4_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) = t.val
    ∧ win4_2.index t (1 : Fin 2) = 0 :=
  (by decide +kernel : ∀ t : Fin grid4.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg4.N) :
    (dat4 V c).flushed 2 t = ((cfg4.win 2).blk t).view.read (Elt F)
      (Cert.Spec.mix (F := F) (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S2000x32) hz]
  obtain ⟨e0, e1, e2, e3, e4, e5⟩ := idx_facts t
  funext j
  show k4_pay1 (iblk4 V c 0 t) (iblk4 V c 1 t) j
    = Cert.Spec.mix (F := F) (V c (Pipeline.arrRef spec4 0)) (V c (Pipeline.arrRef spec4 1)) (((cfg4.win 2).blk t).view.emb j)
  rw [pay_apply, mix_apply]
  have h0 : ((cfg4.win 0).blk t).view.emb j = ((cfg4.win 2).blk t).view.emb j := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 32 + 1 * (j 1).val = win4_2.index t (1 : Fin 2) * 32 + 1 * (j 1).val; omega
  have h1 : ((cfg4.win 1).blk t).view.emb j = ((cfg4.win 2).blk t).view.emb j := by
    funext a; apply Fin.ext
    match a with
    | ⟨0, _⟩ => show win4_1.index t (0 : Fin 2) * 2000 + 1 * (j 0).val = win4_2.index t (0 : Fin 2) * 2000 + 1 * (j 0).val; omega
    | ⟨1, _⟩ => show win4_1.index t (1 : Fin 2) * 32 + 1 * (j 1).val = win4_2.index t (1 : Fin 2) * 32 + 1 * (j 1).val; omega
  show FloatOps.addf (FloatOps.mulf (V c (Pipeline.arrRef spec4 0) (((cfg4.win 0).blk t).view.emb j)) _)
      (FloatOps.mulf _ (V c (Pipeline.arrRef spec4 1) (((cfg4.win 1).blk t).view.emb j))) = _
  rw [h0, h1]

/-- An index of the array is in point `t`'s block iff each coordinate is in the block's range on its axis. -/
theorem mem_blk (t : Fin cfg4.N) (i : S100000x32.Idx) :
    i ∈ ((cfg4.win 2).blk t).view.set ↔ ∀ a : Fin 2, win4_2.index t a * S2000x32.size a ≤ (i a).val
      ∧ (i a).val < win4_2.index t a * S2000x32.size a + S2000x32.size a := by
  show i ∈ ((View.whole (Pipeline.arrRef spec4 2)).slice (win4_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg4.N, (cfg4.win 2).flush t = true ∧ i ∈ ((cfg4.win 2).blk t).view.set := by
  have hi0 : (i 0).val < 100000 := (i 0).isLt
  have hi1 : (i 1).val < 32 := (i 1).isLt
  have ht : (i 0).val / 2000 < cfg4.N := by
    show (i 0).val / 2000 < 50
    omega
  obtain ⟨e0, e1, e2, e3, e4, e5⟩ := idx_facts ⟨(i 0).val / 2000, ht⟩
  have q0 : win4_2.index ⟨(i 0).val / 2000, ht⟩ (0 : Fin 2) = (i 0).val / 2000 := e4
  refine ⟨⟨(i 0).val / 2000, ht⟩, flush4_2 _, ?_⟩
  rw [mem_blk]
  intro a
  match a with
  | ⟨0, _⟩ =>
    show win4_2.index ⟨(i 0).val / 2000, ht⟩ (0 : Fin 2) * 2000 ≤ (i 0).val
      ∧ (i 0).val < win4_2.index ⟨(i 0).val / 2000, ht⟩ (0 : Fin 2) * 2000 + 2000
    omega
  | ⟨1, _⟩ =>
    show win4_2.index ⟨(i 0).val / 2000, ht⟩ (1 : Fin 2) * 32 ≤ (i 1).val
      ∧ (i 1).val < win4_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat4 V c).arrAt 2 cfg4.N = Cert.Spec.mix (F := F) (V c (Pipeline.arrRef spec4 0)) (V c (Pipeline.arrRef spec4 1)) :=
  (dat4 V c).arrAt_eq_of_cover 2 _ (fun t _ => flushed_eq V c t) cover

end Cert.KernelIdeal.Mix4

end
-- ==== Proof.Walk4.lean ====
/-
  One diffusion step of the kernel program, number 5 of its first diffusion: host stretch 4 gathers the current
  features along the edges, scales them by the edge weights and scatter-adds them at the destination nodes (the
  convolution), and region 4 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix4
import Idealize.ShloMosaic.Lib.StableHlo.Run

set_option maxRecDepth 16384

noncomputable section

namespace Cert.KernelIdeal.Walk4

open Cert.KernelIdeal Cert.KernelIdeal.Gen Idealize.ShloMosaic Idealize.ShloMosaic.TcCoe Idealize.SL.Sem Idealize.ShloMosaic.StableHlo

variable {F : FTy → Type} [FloatOps F]

/-- The buffers host stretch 4 writes. -/
abbrev written : List (Ref sig .tc) := [main_c_17, main_v82, main_v83, main_c_18, main_v84, main_v85, main_v86, main_v87, main_v88, main_v89, main_v90, main_v91, main_cst_19, main_v92, main_v93, main_v94]

/-- Stretch 4 leaves in its last buffer the convolution of the buffers it reads. -/
theorem conv_eq (V : Valuation τ sig (Elt F)) :
    StableHlo.after hostOps4 V (Proc.devRef .tc main_v94)
      = Cert.Spec.conv (F := F) (V (Proc.devRef .tc main_v1)) (V (Proc.devRef .tc main_v3)) (V (Proc.devRef .tc main_v25)) (V (Proc.devRef .tc main_v81)) := by
  after_results_simp <;> rfl

/-- Each operation of the stretch writes one of the listed buffers. -/
theorem writes_sub : (hostOps4 : List (HloOp τ sig (Elt F))).Forall fun op => op.writes ⊆ (written.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps4 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec4 w ≠ r) :
    W10 m ρ c (Proc.devRef .tc r) = W8 m ρ c (Proc.devRef .tc r) :=
  (W10_of_ne m ρ c r hne).trans (keep_host (W8 m ρ c) r hr)

/-- The anchor of the diffusion, the region's second input, is left as entered. -/
theorem keep_anchor (c : Dev nD) :
    W10 m ρ c (Proc.devRef .tc main_arg0) = W8 m ρ c (Proc.devRef .tc main_arg0) :=
  ((W10_arr m ρ c 1).trans (((dat4 (V9 m ρ) c).arrAt_in 1 rfl _).trans (A_eq4 (V9 m ρ) c 1))).trans
    (keep_host (W8 m ρ c) main_arg0 (by decide))

/-- The region's output array when it is left: one diffusion step of the buffers as they were before the stretch. -/
theorem out (c : Dev nD) :
    W10 m ρ c (Proc.devRef .tc main_v95)
      = Cert.Spec.step (F := F) (W8 m ρ c (Proc.devRef .tc main_v1)) (W8 m ρ c (Proc.devRef .tc main_v3)) (W8 m ρ c (Proc.devRef .tc main_v25))
          (W8 m ρ c (Proc.devRef .tc main_arg0)) (W8 m ρ c (Proc.devRef .tc main_v81)) :=
  (W10_arr m ρ c 2).trans ((Cert.KernelIdeal.Mix4.final (V9 m ρ) c).trans
    (mix_is_step (conv_eq (W8 m ρ c)) (keep_host (W8 m ρ c) main_arg0 (by decide))))

end Cert.KernelIdeal.Walk4

end
-- ==== Proof.Mix5.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix5

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k5_pay1 x0 x1 j
      = FloatOps.addf (FloatOps.mulf (x0 j) (FloatOps.ofBits .f32 0x3F666666#32))
          (FloatOps.mulf (FloatOps.ofBits .f32 0x3DCCCCCD#32) (x1 j)) := by
  unfold k5_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) = t.val
    ∧ win5_2.index t (1 : Fin 2) = 0 :=
  (by decide +kernel : ∀ t : Fin grid5.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg5.N) :
    (dat5 V c).flushed 2 t = ((cfg5.win 2).blk t).view.read (Elt F)
      (Cert.Spec.mix (F := F) (V c (Pipeline.arrRef spec5 0)) (V c (Pipeline.arrRef spec5 1))) := by
  show (cfg5.win 2).cut (grid5.coords t) ((dat5 V c).after 2 t) = _
  rw [after5_2]
  unfold out5_2
  rw [View.canon_unit_zero hz]
  simp only [View.ld_unit_zero (S := S2000x32) hz]
  obtain ⟨e0, e1, e2, e3, e4, e5⟩ := idx_facts t
  funext j
  show k5_pay1 (iblk5 V c 0 t) (iblk5 V c 1 t) j
    = Cert.Spec.mix (F := F) (V c (Pipeline.arrRef spec5 0)) (V c (Pipeline.arrRef spec5 1)) (((cfg5.win 2).blk t).view.emb j)
  rw [pay_apply, mix_apply]
  have h0 : ((cfg5.win 0).blk t).view.emb j = ((cfg5.win 2).blk t).view.emb j := by
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 32 + 1 * (j 1).val = win5_2.index t (1 : Fin 2) * 32 + 1 * (j 1).val; omega
  have h1 : ((cfg5.win 1).blk t).view.emb j = ((cfg5.win 2).blk t).view.emb j := by
    funext a; apply Fin.ext
    match a with
    | ⟨0, _⟩ => show win5_1.index t (0 : Fin 2) * 2000 + 1 * (j 0).val = win5_2.index t (0 : Fin 2) * 2000 + 1 * (j 0).val; omega
    | ⟨1, _⟩ => show win5_1.index t (1 : Fin 2) * 32 + 1 * (j 1).val = win5_2.index t (1 : Fin 2) * 32 + 1 * (j 1).val; omega
  show FloatOps.addf (FloatOps.mulf (V c (Pipeline.arrRef spec5 0) (((cfg5.win 0).blk t).view.emb j)) _)
      (FloatOps.mulf _ (V c (Pipeline.arrRef spec5 1) (((cfg5.win 1).blk t).view.emb j))) = _
  rw [h0, h1]

/-- An index of the array is in point `t`'s block iff each coordinate is in the block's range on its axis. -/
theorem mem_blk (t : Fin cfg5.N) (i : S100000x32.Idx) :
    i ∈ ((cfg5.win 2).blk t).view.set ↔ ∀ a : Fin 2, win5_2.index t a * S2000x32.size a ≤ (i a).val
      ∧ (i a).val < win5_2.index t a * S2000x32.size a + S2000x32.size a := by
  show i ∈ ((View.whole (Pipeline.arrRef spec5 2)).slice (win5_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg5.N, (cfg5.win 2).flush t = true ∧ i ∈ ((cfg5.win 2).blk t).view.set := by
  have hi0 : (i 0).val < 100000 := (i 0).isLt
  have hi1 : (i 1).val < 32 := (i 1).isLt
  have ht : (i 0).val / 2000 < cfg5.N := by
    show (i 0).val / 2000 < 50
    omega
  obtain ⟨e0, e1, e2, e3, e4, e5⟩ := idx_facts ⟨(i 0).val / 2000, ht⟩
  have q0 : win5_2.index ⟨(i 0).val / 2000, ht⟩ (0 : Fin 2) = (i 0).val / 2000 := e4
  refine ⟨⟨(i 0).val / 2000, ht⟩, flush5_2 _, ?_⟩
  rw [mem_blk]
  intro a
  match a with
  | ⟨0, _⟩ =>
    show win5_2.index ⟨(i 0).val / 2000, ht⟩ (0 : Fin 2) * 2000 ≤ (i 0).val
      ∧ (i 0).val < win5_2.index ⟨(i 0).val / 2000, ht⟩ (0 : Fin 2) * 2000 + 2000
    omega
  | ⟨1, _⟩ =>
    show win5_2.index ⟨(i 0).val / 2000, ht⟩ (1 : Fin 2) * 32 ≤ (i 1).val
      ∧ (i 1).val < win5_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat5 V c).arrAt 2 cfg5.N = Cert.Spec.mix (F := F) (V c (Pipeline.arrRef spec5 0)) (V c (Pipeline.arrRef spec5 1)) :=
  (dat5 V c).arrAt_eq_of_cover 2 _ (fun t _ => flushed_eq V c t) cover

end Cert.KernelIdeal.Mix5

end
-- ==== Proof.Walk5.lean ====
/-
  One diffusion step of the kernel program, number 6 of its first diffusion: host stretch 5 gathers the current
  features along the edges, scales them by the edge weights and scatter-adds them at the destination nodes (the
  convolution), and region 5 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix5
import Idealize.ShloMosaic.Lib.StableHlo.Run

set_option maxRecDepth 16384

noncomputable section

namespace Cert.KernelIdeal.Walk5

open Cert.KernelIdeal Cert.KernelIdeal.Gen Idealize.ShloMosaic Idealize.ShloMosaic.TcCoe Idealize.SL.Sem Idealize.ShloMosaic.StableHlo

variable {F : FTy → Type} [FloatOps F]

/-- The buffers host stretch 5 writes. -/
abbrev written : List (Ref sig .tc) := [main_c_20, main_v96, main_v97, main_c_21, main_v98, main_v99, main_v100, main_v101, main_v102, main_v103, main_v104, main_v105, main_cst_22, main_v106, main_v107, main_v108]

/-- Stretch 5 leaves in its last buffer the convolution of the buffers it reads. -/
theorem conv_eq (V : Valuation τ sig (Elt F)) :
    StableHlo.after hostOps5 V (Proc.devRef .tc main_v108)
      = Cert.Spec.conv (F := F) (V (Proc.devRef .tc main_v1)) (V (Proc.devRef .tc main_v3)) (V (Proc.devRef .tc main_v25)) (V (Proc.devRef .tc main_v95)) := by
  after_results_simp <;> rfl

/-- Each operation of the stretch writes one of the listed buffers. -/
theorem writes_sub : (hostOps5 : List (HloOp τ sig (Elt F))).Forall fun op => op.writes ⊆ (written.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps5 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec5 w ≠ r) :
    W12 m ρ c (Proc.devRef .tc r) = W10 m ρ c (Proc.devRef .tc r) :=
  (W12_of_ne m ρ c r hne).trans (keep_host (W10 m ρ c) r hr)

/-- The anchor of the diffusion, the region's second input, is left as entered. -/
theorem keep_anchor (c : Dev nD) :
    W12 m ρ c (Proc.devRef .tc main_arg0) = W10 m ρ c (Proc.devRef .tc main_arg0) :=
  ((W12_arr m ρ c 1).trans (((dat5 (V11 m ρ) c).arrAt_in 1 rfl _).trans (A_eq5 (V11 m ρ) c 1))).trans
    (keep_host (W10 m ρ c) main_arg0 (by decide))

/-- The region's output array when it is left: one diffusion step of the buffers as they were before the stretch. -/
theorem out (c : Dev nD) :
    W12 m ρ c (Proc.devRef .tc main_v109)
      = Cert.Spec.step (F := F) (W10 m ρ c (Proc.devRef .tc main_v1)) (W10 m ρ c (Proc.devRef .tc main_v3)) (W10 m ρ c (Proc.devRef .tc main_v25))
          (W10 m ρ c (Proc.devRef .tc main_arg0)) (W10 m ρ c (Proc.devRef .tc main_v95)) :=
  (W12_arr m ρ c 2).trans ((Cert.KernelIdeal.Mix5.final (V11 m ρ) c).trans
    (mix_is_step (conv_eq (W10 m ρ c)) (keep_host (W10 m ρ c) main_arg0 (by decide))))

end Cert.KernelIdeal.Walk5

end
-- ==== Proof.Mix6.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix6

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k6_pay1 x0 x1 j
      = FloatOps.addf (FloatOps.mulf (x0 j) (FloatOps.ofBits .f32 0x3F666666#32))
          (FloatOps.mulf (FloatOps.ofBits .f32 0x3DCCCCCD#32) (x1 j)) := by
  unfold k6_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg6.N, win6_0.index t (0 : Fin 2) = win6_2.index t (0 : Fin 2)
    ∧ win6_0.index t (1 : Fin 2) = win6_2.index t (1 : Fin 2)
    ∧ win6_1.index t (0 : Fin 2) = win6_2.index t (0 : Fin 2)
    ∧ win6_1.index t (1 : Fin 2) = win6_2.index t (1 : Fin 2)
    ∧ win6_2.index t (0 : Fin 2) = t.val
    ∧ win6_2.index t (1 : Fin 2) = 0 :=
  (by decide +kernel : ∀ t : Fin grid6.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg6.N) :
    (dat6 V c).flushed 2 t = ((cfg6.win 2).blk t).view.read (Elt F)
      (Cert.Spec.mix (F := F) (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S2000x32) hz]
  obtain ⟨e0, e1, e2, e3, e4, e5⟩ := idx_facts t
  funext j
  show k6_pay1 (iblk6 V c 0 t) (iblk6 V c 1 t) j
    = Cert.Spec.mix (F := F) (V c (Pipeline.arrRef spec6 0)) (V c (Pipeline.arrRef spec6 1)) (((cfg6.win 2).blk t).view.emb j)
  rw [pay_apply, mix_apply]
  have h0 : ((cfg6.win 0).blk t).view.emb j = ((cfg6.win 2).blk t).view.emb j := by
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 32 + 1 * (j 1).val = win6_2.index t (1 : Fin 2) * 32 + 1 * (j 1).val; omega
  have h1 : ((cfg6.win 1).blk t).view.emb j = ((cfg6.win 2).blk t).view.emb j := by
    funext a; apply Fin.ext
    match a with
    | ⟨0, _⟩ => show win6_1.index t (0 : Fin 2) * 2000 + 1 * (j 0).val = win6_2.index t (0 : Fin 2) * 2000 + 1 * (j 0).val; omega
    | ⟨1, _⟩ => show win6_1.index t (1 : Fin 2) * 32 + 1 * (j 1).val = win6_2.index t (1 : Fin 2) * 32 + 1 * (j 1).val; omega
  show FloatOps.addf (FloatOps.mulf (V c (Pipeline.arrRef spec6 0) (((cfg6.win 0).blk t).view.emb j)) _)
      (FloatOps.mulf _ (V c (Pipeline.arrRef spec6 1) (((cfg6.win 1).blk t).view.emb j))) = _
  rw [h0, h1]

/-- An index of the array is in point `t`'s block iff each coordinate is in the block's range on its axis. -/
theorem mem_blk (t : Fin cfg6.N) (i : S100000x32.Idx) :
    i ∈ ((cfg6.win 2).blk t).view.set ↔ ∀ a : Fin 2, win6_2.index t a * S2000x32.size a ≤ (i a).val
      ∧ (i a).val < win6_2.index t a * S2000x32.size a + S2000x32.size a := by
  show i ∈ ((View.whole (Pipeline.arrRef spec6 2)).slice (win6_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg6.N, (cfg6.win 2).flush t = true ∧ i ∈ ((cfg6.win 2).blk t).view.set := by
  have hi0 : (i 0).val < 100000 := (i 0).isLt
  have hi1 : (i 1).val < 32 := (i 1).isLt
  have ht : (i 0).val / 2000 < cfg6.N := by
    show (i 0).val / 2000 < 50
    omega
  obtain ⟨e0, e1, e2, e3, e4, e5⟩ := idx_facts ⟨(i 0).val / 2000, ht⟩
  have q0 : win6_2.index ⟨(i 0).val / 2000, ht⟩ (0 : Fin 2) = (i 0).val / 2000 := e4
  refine ⟨⟨(i 0).val / 2000, ht⟩, flush6_2 _, ?_⟩
  rw [mem_blk]
  intro a
  match a with
  | ⟨0, _⟩ =>
    show win6_2.index ⟨(i 0).val / 2000, ht⟩ (0 : Fin 2) * 2000 ≤ (i 0).val
      ∧ (i 0).val < win6_2.index ⟨(i 0).val / 2000, ht⟩ (0 : Fin 2) * 2000 + 2000
    omega
  | ⟨1, _⟩ =>
    show win6_2.index ⟨(i 0).val / 2000, ht⟩ (1 : Fin 2) * 32 ≤ (i 1).val
      ∧ (i 1).val < win6_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat6 V c).arrAt 2 cfg6.N = Cert.Spec.mix (F := F) (V c (Pipeline.arrRef spec6 0)) (V c (Pipeline.arrRef spec6 1)) :=
  (dat6 V c).arrAt_eq_of_cover 2 _ (fun t _ => flushed_eq V c t) cover

end Cert.KernelIdeal.Mix6

end
-- ==== Proof.Walk6.lean ====
/-
  One diffusion step of the kernel program, number 7 of its first diffusion: host stretch 6 gathers the current
  features along the edges, scales them by the edge weights and scatter-adds them at the destination nodes (the
  convolution), and region 6 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix6
import Idealize.ShloMosaic.Lib.StableHlo.Run

set_option maxRecDepth 16384

noncomputable section

namespace Cert.KernelIdeal.Walk6

open Cert.KernelIdeal Cert.KernelIdeal.Gen Idealize.ShloMosaic Idealize.ShloMosaic.TcCoe Idealize.SL.Sem Idealize.ShloMosaic.StableHlo

variable {F : FTy → Type} [FloatOps F]

/-- The buffers host stretch 6 writes. -/
abbrev written : List (Ref sig .tc) := [main_c_23, main_v110, main_v111, main_c_24, main_v112, main_v113, main_v114, main_v115, main_v116, main_v117, main_v118, main_v119, main_cst_25, main_v120, main_v121, main_v122]

/-- Stretch 6 leaves in its last buffer the convolution of the buffers it reads. -/
theorem conv_eq (V : Valuation τ sig (Elt F)) :
    StableHlo.after hostOps6 V (Proc.devRef .tc main_v122)
      = Cert.Spec.conv (F := F) (V (Proc.devRef .tc main_v1)) (V (Proc.devRef .tc main_v3)) (V (Proc.devRef .tc main_v25)) (V (Proc.devRef .tc main_v109)) := by
  after_results_simp <;> rfl

/-- Each operation of the stretch writes one of the listed buffers. -/
theorem writes_sub : (hostOps6 : List (HloOp τ sig (Elt F))).Forall fun op => op.writes ⊆ (written.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps6 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec6 w ≠ r) :
    W14 m ρ c (Proc.devRef .tc r) = W12 m ρ c (Proc.devRef .tc r) :=
  (W14_of_ne m ρ c r hne).trans (keep_host (W12 m ρ c) r hr)

/-- The anchor of the diffusion, the region's second input, is left as entered. -/
theorem keep_anchor (c : Dev nD) :
    W14 m ρ c (Proc.devRef .tc main_arg0) = W12 m ρ c (Proc.devRef .tc main_arg0) :=
  ((W14_arr m ρ c 1).trans (((dat6 (V13 m ρ) c).arrAt_in 1 rfl _).trans (A_eq6 (V13 m ρ) c 1))).trans
    (keep_host (W12 m ρ c) main_arg0 (by decide))

/-- The region's output array when it is left: one diffusion step of the buffers as they were before the stretch. -/
theorem out (c : Dev nD) :
    W14 m ρ c (Proc.devRef .tc main_v123)
      = Cert.Spec.step (F := F) (W12 m ρ c (Proc.devRef .tc main_v1)) (W12 m ρ c (Proc.devRef .tc main_v3)) (W12 m ρ c (Proc.devRef .tc main_v25))
          (W12 m ρ c (Proc.devRef .tc main_arg0)) (W12 m ρ c (Proc.devRef .tc main_v109)) :=
  (W14_arr m ρ c 2).trans ((Cert.KernelIdeal.Mix6.final (V13 m ρ) c).trans
    (mix_is_step (conv_eq (W12 m ρ c)) (keep_host (W12 m ρ c) main_arg0 (by decide))))

end Cert.KernelIdeal.Walk6

end
-- ==== Proof.Mix7.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix7

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k7_pay1 x0 x1 j
      = FloatOps.addf (FloatOps.mulf (x0 j) (FloatOps.ofBits .f32 0x3F666666#32))
          (FloatOps.mulf (FloatOps.ofBits .f32 0x3DCCCCCD#32) (x1 j)) := by
  unfold k7_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg7.N, win7_0.index t (0 : Fin 2) = win7_2.index t (0 : Fin 2)
    ∧ win7_0.index t (1 : Fin 2) = win7_2.index t (1 : Fin 2)
    ∧ win7_1.index t (0 : Fin 2) = win7_2.index t (0 : Fin 2)
    ∧ win7_1.index t (1 : Fin 2) = win7_2.index t (1 : Fin 2)
    ∧ win7_2.index t (0 : Fin 2) = t.val
    ∧ win7_2.index t (1 : Fin 2) = 0 :=
  (by decide +kernel : ∀ t : Fin grid7.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg7.N) :
    (dat7 V c).flushed 2 t = ((cfg7.win 2).blk t).view.read (Elt F)
      (Cert.Spec.mix (F := F) (V c (Pipeline.arrRef spec7 0)) (V c (Pipeline.arrRef spec7 1))) := by
  show (cfg7.win 2).cut (grid7.coords t) ((dat7 V c).after 2 t) = _
  rw [after7_2]
  unfold out7_2
  rw [View.canon_unit_zero hz]
  simp only [View.ld_unit_zero (S := S2000x32) hz]
  obtain ⟨e0, e1, e2, e3, e4, e5⟩ := idx_facts t
  funext j
  show k7_pay1 (iblk7 V c 0 t) (iblk7 V c 1 t) j
    = Cert.Spec.mix (F := F) (V c (Pipeline.arrRef spec7 0)) (V c (Pipeline.arrRef spec7 1)) (((cfg7.win 2).blk t).view.emb j)
  rw [pay_apply, mix_apply]
  have h0 : ((cfg7.win 0).blk t).view.emb j = ((cfg7.win 2).blk t).view.emb j := by
    funext a; apply Fin.ext
    match a with
    | ⟨0, _⟩ => show win7_0.index t (0 : Fin 2) * 2000 + 1 * (j 0).val = win7_2.index t (0 : Fin 2) * 2000 + 1 * (j 0).val; omega
    | ⟨1, _⟩ => show win7_0.index t (1 : Fin 2) * 32 + 1 * (j 1).val = win7_2.index t (1 : Fin 2) * 32 + 1 * (j 1).val; omega
  have h1 : ((cfg7.win 1).blk t).view.emb j = ((cfg7.win 2).blk t).view.emb j := by
    funext a; apply Fin.ext
    match a with
    | ⟨0, _⟩ => show win7_1.index t (0 : Fin 2) * 2000 + 1 * (j 0).val = win7_2.index t (0 : Fin 2) * 2000 + 1 * (j 0).val; omega
    | ⟨1, _⟩ => show win7_1.index t (1 : Fin 2) * 32 + 1 * (j 1).val = win7_2.index t (1 : Fin 2) * 32 + 1 * (j 1).val; omega
  show FloatOps.addf (FloatOps.mulf (V c (Pipeline.arrRef spec7 0) (((cfg7.win 0).blk t).view.emb j)) _)
      (FloatOps.mulf _ (V c (Pipeline.arrRef spec7 1) (((cfg7.win 1).blk t).view.emb j))) = _
  rw [h0, h1]

/-- An index of the array is in point `t`'s block iff each coordinate is in the block's range on its axis. -/
theorem mem_blk (t : Fin cfg7.N) (i : S100000x32.Idx) :
    i ∈ ((cfg7.win 2).blk t).view.set ↔ ∀ a : Fin 2, win7_2.index t a * S2000x32.size a ≤ (i a).val
      ∧ (i a).val < win7_2.index t a * S2000x32.size a + S2000x32.size a := by
  show i ∈ ((View.whole (Pipeline.arrRef spec7 2)).slice (win7_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg7.N, (cfg7.win 2).flush t = true ∧ i ∈ ((cfg7.win 2).blk t).view.set := by
  have hi0 : (i 0).val < 100000 := (i 0).isLt
  have hi1 : (i 1).val < 32 := (i 1).isLt
  have ht : (i 0).val / 2000 < cfg7.N := by
    show (i 0).val / 2000 < 50
    omega
  obtain ⟨e0, e1, e2, e3, e4, e5⟩ := idx_facts ⟨(i 0).val / 2000, ht⟩
  have q0 : win7_2.index ⟨(i 0).val / 2000, ht⟩ (0 : Fin 2) = (i 0).val / 2000 := e4
  refine ⟨⟨(i 0).val / 2000, ht⟩, flush7_2 _, ?_⟩
  rw [mem_blk]
  intro a
  match a with
  | ⟨0, _⟩ =>
    show win7_2.index ⟨(i 0).val / 2000, ht⟩ (0 : Fin 2) * 2000 ≤ (i 0).val
      ∧ (i 0).val < win7_2.index ⟨(i 0).val / 2000, ht⟩ (0 : Fin 2) * 2000 + 2000
    omega
  | ⟨1, _⟩ =>
    show win7_2.index ⟨(i 0).val / 2000, ht⟩ (1 : Fin 2) * 32 ≤ (i 1).val
      ∧ (i 1).val < win7_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat7 V c).arrAt 2 cfg7.N = Cert.Spec.mix (F := F) (V c (Pipeline.arrRef spec7 0)) (V c (Pipeline.arrRef spec7 1)) :=
  (dat7 V c).arrAt_eq_of_cover 2 _ (fun t _ => flushed_eq V c t) cover

end Cert.KernelIdeal.Mix7

end
-- ==== Proof.Walk7.lean ====
/-
  One diffusion step of the kernel program, number 8 of its first diffusion: host stretch 7 gathers the current
  features along the edges, scales them by the edge weights and scatter-adds them at the destination nodes (the
  convolution), and region 7 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix7
import Idealize.ShloMosaic.Lib.StableHlo.Run

set_option maxRecDepth 16384

noncomputable section

namespace Cert.KernelIdeal.Walk7

open Cert.KernelIdeal Cert.KernelIdeal.Gen Idealize.ShloMosaic Idealize.ShloMosaic.TcCoe Idealize.SL.Sem Idealize.ShloMosaic.StableHlo

variable {F : FTy → Type} [FloatOps F]

/-- The buffers host stretch 7 writes. -/
abbrev written : List (Ref sig .tc) := [main_c_26, main_v124, main_v125, main_c_27, main_v126, main_v127, main_v128, main_v129, main_v130, main_v131, main_v132, main_v133, main_cst_28, main_v134, main_v135, main_v136]

/-- Stretch 7 leaves in its last buffer the convolution of the buffers it reads. -/
theorem conv_eq (V : Valuation τ sig (Elt F)) :
    StableHlo.after hostOps7 V (Proc.devRef .tc main_v136)
      = Cert.Spec.conv (F := F) (V (Proc.devRef .tc main_v1)) (V (Proc.devRef .tc main_v3)) (V (Proc.devRef .tc main_v25)) (V (Proc.devRef .tc main_v123)) := by
  after_results_simp <;> rfl

/-- Each operation of the stretch writes one of the listed buffers. -/
theorem writes_sub : (hostOps7 : List (HloOp τ sig (Elt F))).Forall fun op => op.writes ⊆ (written.map (Proc.devRef (τ := τ) .tc)).toFinset := by
  simp only [hostOps7, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps7 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec7 w ≠ r) :
    W16 m ρ c (Proc.devRef .tc r) = W14 m ρ c (Proc.devRef .tc r) :=
  (W16_of_ne m ρ c r hne).trans (keep_host (W14 m ρ c) r hr)

/-- The anchor of the diffusion, the region's second input, is left as entered. -/
theorem keep_anchor (c : Dev nD) :
    W16 m ρ c (Proc.devRef .tc main_arg0) = W14 m ρ c (Proc.devRef .tc main_arg0) :=
  ((W16_arr m ρ c 1).trans (((dat7 (V15 m ρ) c).arrAt_in 1 rfl _).trans (A_eq7 (V15 m ρ) c 1))).trans
    (keep_host (W14 m ρ c) main_arg0 (by decide))

/-- The region's output array when it is left: one diffusion step of the buffers as they were before the stretch. -/
theorem out (c : Dev nD) :
    W16 m ρ c (Proc.devRef .tc main_v137)
      = Cert.Spec.step (F := F) (W14 m ρ c (Proc.devRef .tc main_v1)) (W14 m ρ c (Proc.devRef .tc main_v3)) (W14 m ρ c (Proc.devRef .tc main_v25))
          (W14 m ρ c (Proc.devRef .tc main_arg0)) (W14 m ρ c (Proc.devRef .tc main_v123)) :=
  (W16_arr m ρ c 2).trans ((Cert.KernelIdeal.Mix7.final (V15 m ρ) c).trans
    (mix_is_step (conv_eq (W14 m ρ c)) (keep_host (W14 m ρ c) main_arg0 (by decide))))

end Cert.KernelIdeal.Walk7

end
-- ==== Proof.Mix8.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix8

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k8_pay1 x0 x1 j
      = FloatOps.addf (FloatOps.mulf (x0 j) (FloatOps.ofBits .f32 0x3F666666#32))
          (FloatOps.mulf (FloatOps.ofBits .f32 0x3DCCCCCD#32) (x1 j)) := by
  unfold k8_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg8.N, win8_0.index t (0 : Fin 2) = win8_2.index t (0 : Fin 2)
    ∧ win8_0.index t (1 : Fin 2) = win8_2.index t (1 : Fin 2)
    ∧ win8_1.index t (0 : Fin 2) = win8_2.index t (0 : Fin 2)
    ∧ win8_1.index t (1 : Fin 2) = win8_2.index t (1 : Fin 2)
    ∧ win8_2.index t (0 : Fin 2) = t.val
    ∧ win8_2.index t (1 : Fin 2) = 0 :=
  (by decide +kernel : ∀ t : Fin grid8.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg8.N) :
    (dat8 V c).flushed 2 t = ((cfg8.win 2).blk t).view.read (Elt F)
      (Cert.Spec.mix (F := F) (V c (Pipeline.arrRef spec8 0)) (V c (Pipeline.arrRef spec8 1))) := by
  show (cfg8.win 2).cut (grid8.coords t) ((dat8 V c).after 2 t) = _
  rw [after8_2]
  unfold out8_2
  rw [View.canon_unit_zero hz]
  simp only [View.ld_unit_zero (S := S2000x32) hz]
  obtain ⟨e0, e1, e2, e3, e4, e5⟩ := idx_facts t
  funext j
  show k8_pay1 (iblk8 V c 0 t) (iblk8 V c 1 t) j
    = Cert.Spec.mix (F := F) (V c (Pipeline.arrRef spec8 0)) (V c (Pipeline.arrRef spec8 1)) (((cfg8.win 2).blk t).view.emb j)
  rw [pay_apply, mix_apply]
  have h0 : ((cfg8.win 0).blk t).view.emb j = ((cfg8.win 2).blk t).view.emb j := by
    funext a; apply Fin.ext
    match a with
    | ⟨0, _⟩ => show win8_0.index t (0 : Fin 2) * 2000 + 1 * (j 0).val = win8_2.index t (0 : Fin 2) * 2000 + 1 * (j 0).val; omega
    | ⟨1, _⟩ => show win8_0.index t (1 : Fin 2) * 32 + 1 * (j 1).val = win8_2.index t (1 : Fin 2) * 32 + 1 * (j 1).val; omega
  have h1 : ((cfg8.win 1).blk t).view.emb j = ((cfg8.win 2).blk t).view.emb j := by
    funext a; apply Fin.ext
    match a with
    | ⟨0, _⟩ => show win8_1.index t (0 : Fin 2) * 2000 + 1 * (j 0).val = win8_2.index t (0 : Fin 2) * 2000 + 1 * (j 0).val; omega
    | ⟨1, _⟩ => show win8_1.index t (1 : Fin 2) * 32 + 1 * (j 1).val = win8_2.index t (1 : Fin 2) * 32 + 1 * (j 1).val; omega
  show FloatOps.addf (FloatOps.mulf (V c (Pipeline.arrRef spec8 0) (((cfg8.win 0).blk t).view.emb j)) _)
      (FloatOps.mulf _ (V c (Pipeline.arrRef spec8 1) (((cfg8.win 1).blk t).view.emb j))) = _
  rw [h0, h1]

/-- An index of the array is in point `t`'s block iff each coordinate is in the block's range on its axis. -/
theorem mem_blk (t : Fin cfg8.N) (i : S100000x32.Idx) :
    i ∈ ((cfg8.win 2).blk t).view.set ↔ ∀ a : Fin 2, win8_2.index t a * S2000x32.size a ≤ (i a).val
      ∧ (i a).val < win8_2.index t a * S2000x32.size a + S2000x32.size a := by
  show i ∈ ((View.whole (Pipeline.arrRef spec8 2)).slice (win8_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg8.N, (cfg8.win 2).flush t = true ∧ i ∈ ((cfg8.win 2).blk t).view.set := by
  have hi0 : (i 0).val < 100000 := (i 0).isLt
  have hi1 : (i 1).val < 32 := (i 1).isLt
  have ht : (i 0).val / 2000 < cfg8.N := by
    show (i 0).val / 2000 < 50
    omega
  obtain ⟨e0, e1, e2, e3, e4, e5⟩ := idx_facts ⟨(i 0).val / 2000, ht⟩
  have q0 : win8_2.index ⟨(i 0).val / 2000, ht⟩ (0 : Fin 2) = (i 0).val / 2000 := e4
  refine ⟨⟨(i 0).val / 2000, ht⟩, flush8_2 _, ?_⟩
  rw [mem_blk]
  intro a
  match a with
  | ⟨0, _⟩ =>
    show win8_2.index ⟨(i 0).val / 2000, ht⟩ (0 : Fin 2) * 2000 ≤ (i 0).val
      ∧ (i 0).val < win8_2.index ⟨(i 0).val / 2000, ht⟩ (0 : Fin 2) * 2000 + 2000
    omega
  | ⟨1, _⟩ =>
    show win8_2.index ⟨(i 0).val / 2000, ht⟩ (1 : Fin 2) * 32 ≤ (i 1).val
      ∧ (i 1).val < win8_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat8 V c).arrAt 2 cfg8.N = Cert.Spec.mix (F := F) (V c (Pipeline.arrRef spec8 0)) (V c (Pipeline.arrRef spec8 1)) :=
  (dat8 V c).arrAt_eq_of_cover 2 _ (fun t _ => flushed_eq V c t) cover

end Cert.KernelIdeal.Mix8

end
-- ==== Proof.Walk8.lean ====
/-
  One diffusion step of the kernel program, number 9 of its first diffusion: host stretch 8 gathers the current
  features along the edges, scales them by the edge weights and scatter-adds them at the destination nodes (the
  convolution), and region 8 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix8
import Idealize.ShloMosaic.Lib.StableHlo.Run

set_option maxRecDepth 16384

noncomputable section

namespace Cert.KernelIdeal.Walk8

open Cert.KernelIdeal Cert.KernelIdeal.Gen Idealize.ShloMosaic Idealize.ShloMosaic.TcCoe Idealize.SL.Sem Idealize.ShloMosaic.StableHlo

variable {F : FTy → Type} [FloatOps F]

/-- The buffers host stretch 8 writes. -/
abbrev written : List (Ref sig .tc) := [main_c_29, main_v138, main_v139, main_c_30, main_v140, main_v141, main_v142, main_v143, main_v144, main_v145, main_v146, main_v147, main_cst_31, main_v148, main_v149, main_v150]

/-- Stretch 8 leaves in its last buffer the convolution of the buffers it reads. -/
theorem conv_eq (V : Valuation τ sig (Elt F)) :
    StableHlo.after hostOps8 V (Proc.devRef .tc main_v150)
      = Cert.Spec.conv (F := F) (V (Proc.devRef .tc main_v1)) (V (Proc.devRef .tc main_v3)) (V (Proc.devRef .tc main_v25)) (V (Proc.devRef .tc main_v137)) := by
  after_results_simp <;> rfl

/-- Each operation of the stretch writes one of the listed buffers. -/
theorem writes_sub : (hostOps8 : List (HloOp τ sig (Elt F))).Forall fun op => op.writes ⊆ (written.map (Proc.devRef (τ := τ) .tc)).toFinset := by
  simp only [hostOps8, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps8 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec8 w ≠ r) :
    W18 m ρ c (Proc.devRef .tc r) = W16 m ρ c (Proc.devRef .tc r) :=
  (W18_of_ne m ρ c r hne).trans (keep_host (W16 m ρ c) r hr)

/-- The anchor of the diffusion, the region's second input, is left as entered. -/
theorem keep_anchor (c : Dev nD) :
    W18 m ρ c (Proc.devRef .tc main_arg0) = W16 m ρ c (Proc.devRef .tc main_arg0) :=
  ((W18_arr m ρ c 1).trans (((dat8 (V17 m ρ) c).arrAt_in 1 rfl _).trans (A_eq8 (V17 m ρ) c 1))).trans
    (keep_host (W16 m ρ c) main_arg0 (by decide))

/-- The region's output array when it is left: one diffusion step of the buffers as they were before the stretch. -/
theorem out (c : Dev nD) :
    W18 m ρ c (Proc.devRef .tc main_v151)
      = Cert.Spec.step (F := F) (W16 m ρ c (Proc.devRef .tc main_v1)) (W16 m ρ c (Proc.devRef .tc main_v3)) (W16 m ρ c (Proc.devRef .tc main_v25))
          (W16 m ρ c (Proc.devRef .tc main_arg0)) (W16 m ρ c (Proc.devRef .tc main_v137)) :=
  (W18_arr m ρ c 2).trans ((Cert.KernelIdeal.Mix8.final (V17 m ρ) c).trans
    (mix_is_step (conv_eq (W16 m ρ c)) (keep_host (W16 m ρ c) main_arg0 (by decide))))

end Cert.KernelIdeal.Walk8

end
-- ==== Proof.Mix9.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix9

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k9_pay1 x0 x1 j
      = FloatOps.addf (FloatOps.mulf (x0 j) (FloatOps.ofBits .f32 0x3F666666#32))
          (FloatOps.mulf (FloatOps.ofBits .f32 0x3DCCCCCD#32) (x1 j)) := by
  unfold k9_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg9.N, win9_0.index t (0 : Fin 2) = win9_2.index t (0 : Fin 2)
    ∧ win9_0.index t (1 : Fin 2) = win9_2.index t (1 : Fin 2)
    ∧ win9_1.index t (0 : Fin 2) = win9_2.index t (0 : Fin 2)
    ∧ win9_1.index t (1 : Fin 2) = win9_2.index t (1 : Fin 2)
    ∧ win9_2.index t (0 : Fin 2) = t.val
    ∧ win9_2.index t (1 : Fin 2) = 0 :=
  (by decide +kernel : ∀ t : Fin grid9.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg9.N) :
    (dat9 V c).flushed 2 t = ((cfg9.win 2).blk t).view.read (Elt F)
      (Cert.Spec.mix (F := F) (V c (Pipeline.arrRef spec9 0)) (V c (Pipeline.arrRef spec9 1))) := by
  show (cfg9.win 2).cut (grid9.coords t) ((dat9 V c).after 2 t) = _
  rw [after9_2]
  unfold out9_2
  rw [View.canon_unit_zero hz]
  simp only [View.ld_unit_zero (S := S2000x32) hz]
  obtain ⟨e0, e1, e2, e3, e4, e5⟩ := idx_facts t
  funext j
  show k9_pay1 (iblk9 V c 0 t) (iblk9 V c 1 t) j
    = Cert.Spec.mix (F := F) (V c (Pipeline.arrRef spec9 0)) (V c (Pipeline.arrRef spec9 1)) (((cfg9.win 2).blk t).view.emb j)
  rw [pay_apply, mix_apply]
  have h0 : ((cfg9.win 0).blk t).view.emb j = ((cfg9.win 2).blk t).view.emb j := by
    funext a; apply Fin.ext
    match a with
    | ⟨0, _⟩ => show win9_0.index t (0 : Fin 2) * 2000 + 1 * (j 0).val = win9_2.index t (0 : Fin 2) * 2000 + 1 * (j 0).val; omega
    | ⟨1, _⟩ => show win9_0.index t (1 : Fin 2) * 32 + 1 * (j 1).val = win9_2.index t (1 : Fin 2) * 32 + 1 * (j 1).val; omega
  have h1 : ((cfg9.win 1).blk t).view.emb j = ((cfg9.win 2).blk t).view.emb j := by
    funext a; apply Fin.ext
    match a with
    | ⟨0, _⟩ => show win9_1.index t (0 : Fin 2) * 2000 + 1 * (j 0).val = win9_2.index t (0 : Fin 2) * 2000 + 1 * (j 0).val; omega
    | ⟨1, _⟩ => show win9_1.index t (1 : Fin 2) * 32 + 1 * (j 1).val = win9_2.index t (1 : Fin 2) * 32 + 1 * (j 1).val; omega
  show FloatOps.addf (FloatOps.mulf (V c (Pipeline.arrRef spec9 0) (((cfg9.win 0).blk t).view.emb j)) _)
      (FloatOps.mulf _ (V c (Pipeline.arrRef spec9 1) (((cfg9.win 1).blk t).view.emb j))) = _
  rw [h0, h1]

/-- An index of the array is in point `t`'s block iff each coordinate is in the block's range on its axis. -/
theorem mem_blk (t : Fin cfg9.N) (i : S100000x32.Idx) :
    i ∈ ((cfg9.win 2).blk t).view.set ↔ ∀ a : Fin 2, win9_2.index t a * S2000x32.size a ≤ (i a).val
      ∧ (i a).val < win9_2.index t a * S2000x32.size a + S2000x32.size a := by
  show i ∈ ((View.whole (Pipeline.arrRef spec9 2)).slice (win9_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg9.N, (cfg9.win 2).flush t = true ∧ i ∈ ((cfg9.win 2).blk t).view.set := by
  have hi0 : (i 0).val < 100000 := (i 0).isLt
  have hi1 : (i 1).val < 32 := (i 1).isLt
  have ht : (i 0).val / 2000 < cfg9.N := by
    show (i 0).val / 2000 < 50
    omega
  obtain ⟨e0, e1, e2, e3, e4, e5⟩ := idx_facts ⟨(i 0).val / 2000, ht⟩
  have q0 : win9_2.index ⟨(i 0).val / 2000, ht⟩ (0 : Fin 2) = (i 0).val / 2000 := e4
  refine ⟨⟨(i 0).val / 2000, ht⟩, flush9_2 _, ?_⟩
  rw [mem_blk]
  intro a
  match a with
  | ⟨0, _⟩ =>
    show win9_2.index ⟨(i 0).val / 2000, ht⟩ (0 : Fin 2) * 2000 ≤ (i 0).val
      ∧ (i 0).val < win9_2.index ⟨(i 0).val / 2000, ht⟩ (0 : Fin 2) * 2000 + 2000
    omega
  | ⟨1, _⟩ =>
    show win9_2.index ⟨(i 0).val / 2000, ht⟩ (1 : Fin 2) * 32 ≤ (i 1).val
      ∧ (i 1).val < win9_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat9 V c).arrAt 2 cfg9.N = Cert.Spec.mix (F := F) (V c (Pipeline.arrRef spec9 0)) (V c (Pipeline.arrRef spec9 1)) :=
  (dat9 V c).arrAt_eq_of_cover 2 _ (fun t _ => flushed_eq V c t) cover

end Cert.KernelIdeal.Mix9

end
-- ==== Proof.Walk9.lean ====
/-
  One diffusion step of the kernel program, number 10 of its first diffusion: host stretch 9 gathers the current
  features along the edges, scales them by the edge weights and scatter-adds them at the destination nodes (the
  convolution), and region 9 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix9
import Idealize.ShloMosaic.Lib.StableHlo.Run

set_option maxRecDepth 16384

noncomputable section

namespace Cert.KernelIdeal.Walk9

open Cert.KernelIdeal Cert.KernelIdeal.Gen Idealize.ShloMosaic Idealize.ShloMosaic.TcCoe Idealize.SL.Sem Idealize.ShloMosaic.StableHlo

variable {F : FTy → Type} [FloatOps F]

/-- The buffers host stretch 9 writes. -/
abbrev written : List (Ref sig .tc) := [main_c_32, main_v152, main_v153, main_c_33, main_v154, main_v155, main_v156, main_v157, main_v158, main_v159, main_v160, main_v161, main_cst_34, main_v162, main_v163, main_v164]

/-- Stretch 9 leaves in its last buffer the convolution of the buffers it reads. -/
theorem conv_eq (V : Valuation τ sig (Elt F)) :
    StableHlo.after hostOps9 V (Proc.devRef .tc main_v164)
      = Cert.Spec.conv (F := F) (V (Proc.devRef .tc main_v1)) (V (Proc.devRef .tc main_v3)) (V (Proc.devRef .tc main_v25)) (V (Proc.devRef .tc main_v151)) := by
  after_results_simp <;> rfl

/-- Each operation of the stretch writes one of the listed buffers. -/
theorem writes_sub : (hostOps9 : List (HloOp τ sig (Elt F))).Forall fun op => op.writes ⊆ (written.map (Proc.devRef (τ := τ) .tc)).toFinset := by
  simp only [hostOps9, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps9 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec9 w ≠ r) :
    W20 m ρ c (Proc.devRef .tc r) = W18 m ρ c (Proc.devRef .tc r) :=
  (W20_of_ne m ρ c r hne).trans (keep_host (W18 m ρ c) r hr)

/-- The anchor of the diffusion, the region's second input, is left as entered. -/
theorem keep_anchor (c : Dev nD) :
    W20 m ρ c (Proc.devRef .tc main_arg0) = W18 m ρ c (Proc.devRef .tc main_arg0) :=
  ((W20_arr m ρ c 1).trans (((dat9 (V19 m ρ) c).arrAt_in 1 rfl _).trans (A_eq9 (V19 m ρ) c 1))).trans
    (keep_host (W18 m ρ c) main_arg0 (by decide))

/-- The region's output array when it is left: one diffusion step of the buffers as they were before the stretch. -/
theorem out (c : Dev nD) :
    W20 m ρ c (Proc.devRef .tc main_v165)
      = Cert.Spec.step (F := F) (W18 m ρ c (Proc.devRef .tc main_v1)) (W18 m ρ c (Proc.devRef .tc main_v3)) (W18 m ρ c (Proc.devRef .tc main_v25))
          (W18 m ρ c (Proc.devRef .tc main_arg0)) (W18 m ρ c (Proc.devRef .tc main_v151)) :=
  (W20_arr m ρ c 2).trans ((Cert.KernelIdeal.Mix9.final (V19 m ρ) c).trans
    (mix_is_step (conv_eq (W18 m ρ c)) (keep_host (W18 m ρ c) main_arg0 (by decide))))

end Cert.KernelIdeal.Walk9

end
-- ==== Proof.Mix11.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix11

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k11_pay1 x0 x1 j
      = FloatOps.addf (FloatOps.mulf (x0 j) (FloatOps.ofBits .f32 0x3F666666#32))
          (FloatOps.mulf (FloatOps.ofBits .f32 0x3DCCCCCD#32) (x1 j)) := by
  unfold k11_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg11.N, win11_0.index t (0 : Fin 2) = win11_2.index t (0 : Fin 2)
    ∧ win11_0.index t (1 : Fin 2) = win11_2.index t (1 : Fin 2)
    ∧ win11_1.index t (0 : Fin 2) = win11_2.index t (0 : Fin 2)
    ∧ win11_1.index t (1 : Fin 2) = win11_2.index t (1 : Fin 2)
    ∧ win11_2.index t (0 : Fin 2) = t.val
    ∧ win11_2.index t (1 : Fin 2) = 0 :=
  (by decide +kernel : ∀ t : Fin grid11.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg11.N) :
    (dat11 V c).flushed 2 t = ((cfg11.win 2).blk t).view.read (Elt F)
      (Cert.Spec.mix (F := F) (V c (Pipeline.arrRef spec11 0)) (V c (Pipeline.arrRef spec11 1))) := by
  show (cfg11.win 2).cut (grid11.coords t) ((dat11 V c).after 2 t) = _
  rw [after11_2]
  unfold out11_2
  rw [View.canon_unit_zero hz]
  simp only [View.ld_unit_zero (S := S2000x32) hz]
  obtain ⟨e0, e1, e2, e3, e4, e5⟩ := idx_facts t
  funext j
  show k11_pay1 (iblk11 V c 0 t) (iblk11 V c 1 t) j
    = Cert.Spec.mix (F := F) (V c (Pipeline.arrRef spec11 0)) (V c (Pipeline.arrRef spec11 1)) (((cfg11.win 2).blk t).view.emb j)
  rw [pay_apply, mix_apply]
  have h0 : ((cfg11.win 0).blk t).view.emb j = ((cfg11.win 2).blk t).view.emb j := by
    funext a; apply Fin.ext
    match a with
    | ⟨0, _⟩ => show win11_0.index t (0 : Fin 2) * 2000 + 1 * (j 0).val = win11_2.index t (0 : Fin 2) * 2000 + 1 * (j 0).val; omega
    | ⟨1, _⟩ => show win11_0.index t (1 : Fin 2) * 32 + 1 * (j 1).val = win11_2.index t (1 : Fin 2) * 32 + 1 * (j 1).val; omega
  have h1 : ((cfg11.win 1).blk t).view.emb j = ((cfg11.win 2).blk t).view.emb j := by
    funext a; apply Fin.ext
    match a with
    | ⟨0, _⟩ => show win11_1.index t (0 : Fin 2) * 2000 + 1 * (j 0).val = win11_2.index t (0 : Fin 2) * 2000 + 1 * (j 0).val; omega
    | ⟨1, _⟩ => show win11_1.index t (1 : Fin 2) * 32 + 1 * (j 1).val = win11_2.index t (1 : Fin 2) * 32 + 1 * (j 1).val; omega
  show FloatOps.addf (FloatOps.mulf (V c (Pipeline.arrRef spec11 0) (((cfg11.win 0).blk t).view.emb j)) _)
      (FloatOps.mulf _ (V c (Pipeline.arrRef spec11 1) (((cfg11.win 1).blk t).view.emb j))) = _
  rw [h0, h1]

/-- An index of the array is in point `t`'s block iff each coordinate is in the block's range on its axis. -/
theorem mem_blk (t : Fin cfg11.N) (i : S100000x32.Idx) :
    i ∈ ((cfg11.win 2).blk t).view.set ↔ ∀ a : Fin 2, win11_2.index t a * S2000x32.size a ≤ (i a).val
      ∧ (i a).val < win11_2.index t a * S2000x32.size a + S2000x32.size a := by
  show i ∈ ((View.whole (Pipeline.arrRef spec11 2)).slice (win11_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg11.N, (cfg11.win 2).flush t = true ∧ i ∈ ((cfg11.win 2).blk t).view.set := by
  have hi0 : (i 0).val < 100000 := (i 0).isLt
  have hi1 : (i 1).val < 32 := (i 1).isLt
  have ht : (i 0).val / 2000 < cfg11.N := by
    show (i 0).val / 2000 < 50
    omega
  obtain ⟨e0, e1, e2, e3, e4, e5⟩ := idx_facts ⟨(i 0).val / 2000, ht⟩
  have q0 : win11_2.index ⟨(i 0).val / 2000, ht⟩ (0 : Fin 2) = (i 0).val / 2000 := e4
  refine ⟨⟨(i 0).val / 2000, ht⟩, flush11_2 _, ?_⟩
  rw [mem_blk]
  intro a
  match a with
  | ⟨0, _⟩ =>
    show win11_2.index ⟨(i 0).val / 2000, ht⟩ (0 : Fin 2) * 2000 ≤ (i 0).val
      ∧ (i 0).val < win11_2.index ⟨(i 0).val / 2000, ht⟩ (0 : Fin 2) * 2000 + 2000
    omega
  | ⟨1, _⟩ =>
    show win11_2.index ⟨(i 0).val / 2000, ht⟩ (1 : Fin 2) * 32 ≤ (i 1).val
      ∧ (i 1).val < win11_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat11 V c).arrAt 2 cfg11.N = Cert.Spec.mix (F := F) (V c (Pipeline.arrRef spec11 0)) (V c (Pipeline.arrRef spec11 1)) :=
  (dat11 V c).arrAt_eq_of_cover 2 _ (fun t _ => flushed_eq V c t) cover

end Cert.KernelIdeal.Mix11

end
-- ==== Proof.Walk11.lean ====
/-
  One diffusion step of the kernel program, number 1 of its second diffusion: host stretch 11 gathers the current
  features along the edges, scales them by the edge weights and scatter-adds them at the destination nodes (the
  convolution), and region 11 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix11
import Idealize.ShloMosaic.Lib.StableHlo.Run

set_option maxRecDepth 16384

noncomputable section

namespace Cert.KernelIdeal.Walk11

open Cert.KernelIdeal Cert.KernelIdeal.Gen Idealize.ShloMosaic Idealize.ShloMosaic.TcCoe Idealize.SL.Sem Idealize.ShloMosaic.StableHlo

variable {F : FTy → Type} [FloatOps F]

/-- The buffers host stretch 11 writes. -/
abbrev written : List (Ref sig .tc) := [main_c_35, main_v167, main_v168, main_c_36, main_v169, main_v170, main_v171, main_v172, main_v173, main_v174, main_v175, main_v176, main_cst_37, main_v177, main_v178, main_v179]

/-- Stretch 11 leaves in its last buffer the convolution of the buffers it reads. -/
theorem conv_eq (V : Valuation τ sig (Elt F)) :
    StableHlo.after hostOps11 V (Proc.devRef .tc main_v179)
      = Cert.Spec.conv (F := F) (V (Proc.devRef .tc main_v1)) (V (Proc.devRef .tc main_v3)) (V (Proc.devRef .tc main_v25)) (V (Proc.devRef .tc main_v166)) := by
  after_results_simp <;> rfl

/-- Each operation of the stretch writes one of the listed buffers. -/
theorem writes_sub : (hostOps11 : List (HloOp τ sig (Elt F))).Forall fun op => op.writes ⊆ (written.map (Proc.devRef (τ := τ) .tc)).toFinset := by
  simp only [hostOps11, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps11 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec11 w ≠ r) :
    W23 m ρ c (Proc.devRef .tc r) = W21 m ρ c (Proc.devRef .tc r) :=
  (W23_of_ne m ρ c r hne).trans (keep_host (W21 m ρ c) r hr)

/-- The anchor of the diffusion, the region's second input, is left as entered. -/
theorem keep_anchor (c : Dev nD) :
    W23 m ρ c (Proc.devRef .tc main_v166) = W21 m ρ c (Proc.devRef .tc main_v166) :=
  ((W23_arr m ρ c 1).trans (((dat11 (V22 m ρ) c).arrAt_in 1 rfl _).trans (A_eq11 (V22 m ρ) c 1))).trans
    (keep_host (W21 m ρ c) main_v166 (by decide))

/-- The region's output array when it is left: one diffusion step of the buffers as they were before the stretch. -/
theorem out (c : Dev nD) :
    W23 m ρ c (Proc.devRef .tc main_v180)
      = Cert.Spec.step (F := F) (W21 m ρ c (Proc.devRef .tc main_v1)) (W21 m ρ c (Proc.devRef .tc main_v3)) (W21 m ρ c (Proc.devRef .tc main_v25))
          (W21 m ρ c (Proc.devRef .tc main_v166)) (W21 m ρ c (Proc.devRef .tc main_v166)) :=
  (W23_arr m ρ c 2).trans ((Cert.KernelIdeal.Mix11.final (V22 m ρ) c).trans
    (mix_is_step (conv_eq (W21 m ρ c)) (keep_host (W21 m ρ c) main_v166 (by decide))))

end Cert.KernelIdeal.Walk11

end
-- ==== Proof.Mix12.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix12

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k12_pay1 x0 x1 j
      = FloatOps.addf (FloatOps.mulf (x0 j) (FloatOps.ofBits .f32 0x3F666666#32))
          (FloatOps.mulf (FloatOps.ofBits .f32 0x3DCCCCCD#32) (x1 j)) := by
  unfold k12_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg12.N, win12_0.index t (0 : Fin 2) = win12_2.index t (0 : Fin 2)
    ∧ win12_0.index t (1 : Fin 2) = win12_2.index t (1 : Fin 2)
    ∧ win12_1.index t (0 : Fin 2) = win12_2.index t (0 : Fin 2)
    ∧ win12_1.index t (1 : Fin 2) = win12_2.index t (1 : Fin 2)
    ∧ win12_2.index t (0 : Fin 2) = t.val
    ∧ win12_2.index t (1 : Fin 2) = 0 :=
  (by decide +kernel : ∀ t : Fin grid12.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg12.N) :
    (dat12 V c).flushed 2 t = ((cfg12.win 2).blk t).view.read (Elt F)
      (Cert.Spec.mix (F := F) (V c (Pipeline.arrRef spec12 0)) (V c (Pipeline.arrRef spec12 1))) := by
  show (cfg12.win 2).cut (grid12.coords t) ((dat12 V c).after 2 t) = _
  rw [after12_2]
  unfold out12_2
  rw [View.canon_unit_zero hz]
  simp only [View.ld_unit_zero (S := S2000x32) hz]
  obtain ⟨e0, e1, e2, e3, e4, e5⟩ := idx_facts t
  funext j
  show k12_pay1 (iblk12 V c 0 t) (iblk12 V c 1 t) j
    = Cert.Spec.mix (F := F) (V c (Pipeline.arrRef spec12 0)) (V c (Pipeline.arrRef spec12 1)) (((cfg12.win 2).blk t).view.emb j)
  rw [pay_apply, mix_apply]
  have h0 : ((cfg12.win 0).blk t).view.emb j = ((cfg12.win 2).blk t).view.emb j := by
    funext a; apply Fin.ext
    match a with
    | ⟨0, _⟩ => show win12_0.index t (0 : Fin 2) * 2000 + 1 * (j 0).val = win12_2.index t (0 : Fin 2) * 2000 + 1 * (j 0).val; omega
    | ⟨1, _⟩ => show win12_0.index t (1 : Fin 2) * 32 + 1 * (j 1).val = win12_2.index t (1 : Fin 2) * 32 + 1 * (j 1).val; omega
  have h1 : ((cfg12.win 1).blk t).view.emb j = ((cfg12.win 2).blk t).view.emb j := by
    funext a; apply Fin.ext
    match a with
    | ⟨0, _⟩ => show win12_1.index t (0 : Fin 2) * 2000 + 1 * (j 0).val = win12_2.index t (0 : Fin 2) * 2000 + 1 * (j 0).val; omega
    | ⟨1, _⟩ => show win12_1.index t (1 : Fin 2) * 32 + 1 * (j 1).val = win12_2.index t (1 : Fin 2) * 32 + 1 * (j 1).val; omega
  show FloatOps.addf (FloatOps.mulf (V c (Pipeline.arrRef spec12 0) (((cfg12.win 0).blk t).view.emb j)) _)
      (FloatOps.mulf _ (V c (Pipeline.arrRef spec12 1) (((cfg12.win 1).blk t).view.emb j))) = _
  rw [h0, h1]

/-- An index of the array is in point `t`'s block iff each coordinate is in the block's range on its axis. -/
theorem mem_blk (t : Fin cfg12.N) (i : S100000x32.Idx) :
    i ∈ ((cfg12.win 2).blk t).view.set ↔ ∀ a : Fin 2, win12_2.index t a * S2000x32.size a ≤ (i a).val
      ∧ (i a).val < win12_2.index t a * S2000x32.size a + S2000x32.size a := by
  show i ∈ ((View.whole (Pipeline.arrRef spec12 2)).slice (win12_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg12.N, (cfg12.win 2).flush t = true ∧ i ∈ ((cfg12.win 2).blk t).view.set := by
  have hi0 : (i 0).val < 100000 := (i 0).isLt
  have hi1 : (i 1).val < 32 := (i 1).isLt
  have ht : (i 0).val / 2000 < cfg12.N := by
    show (i 0).val / 2000 < 50
    omega
  obtain ⟨e0, e1, e2, e3, e4, e5⟩ := idx_facts ⟨(i 0).val / 2000, ht⟩
  have q0 : win12_2.index ⟨(i 0).val / 2000, ht⟩ (0 : Fin 2) = (i 0).val / 2000 := e4
  refine ⟨⟨(i 0).val / 2000, ht⟩, flush12_2 _, ?_⟩
  rw [mem_blk]
  intro a
  match a with
  | ⟨0, _⟩ =>
    show win12_2.index ⟨(i 0).val / 2000, ht⟩ (0 : Fin 2) * 2000 ≤ (i 0).val
      ∧ (i 0).val < win12_2.index ⟨(i 0).val / 2000, ht⟩ (0 : Fin 2) * 2000 + 2000
    omega
  | ⟨1, _⟩ =>
    show win12_2.index ⟨(i 0).val / 2000, ht⟩ (1 : Fin 2) * 32 ≤ (i 1).val
      ∧ (i 1).val < win12_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat12 V c).arrAt 2 cfg12.N = Cert.Spec.mix (F := F) (V c (Pipeline.arrRef spec12 0)) (V c (Pipeline.arrRef spec12 1)) :=
  (dat12 V c).arrAt_eq_of_cover 2 _ (fun t _ => flushed_eq V c t) cover

end Cert.KernelIdeal.Mix12

end
-- ==== Proof.Walk12.lean ====
/-
  One diffusion step of the kernel program, number 2 of its second diffusion: host stretch 12 gathers the current
  features along the edges, scales them by the edge weights and scatter-adds them at the destination nodes (the
  convolution), and region 12 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix12
import Idealize.ShloMosaic.Lib.StableHlo.Run

set_option maxRecDepth 16384

noncomputable section

namespace Cert.KernelIdeal.Walk12

open Cert.KernelIdeal Cert.KernelIdeal.Gen Idealize.ShloMosaic Idealize.ShloMosaic.TcCoe Idealize.SL.Sem Idealize.ShloMosaic.StableHlo

variable {F : FTy → Type} [FloatOps F]

/-- The buffers host stretch 12 writes. -/
abbrev written : List (Ref sig .tc) := [main_c_38, main_v181, main_v182, main_c_39, main_v183, main_v184, main_v185, main_v186, main_v187, main_v188, main_v189, main_v190, main_cst_40, main_v191, main_v192, main_v193]

/-- Stretch 12 leaves in its last buffer the convolution of the buffers it reads. -/
theorem conv_eq (V : Valuation τ sig (Elt F)) :
    StableHlo.after hostOps12 V (Proc.devRef .tc main_v193)
      = Cert.Spec.conv (F := F) (V (Proc.devRef .tc main_v1)) (V (Proc.devRef .tc main_v3)) (V (Proc.devRef .tc main_v25)) (V (Proc.devRef .tc main_v180)) := by
  after_results_simp <;> rfl

/-- Each operation of the stretch writes one of the listed buffers. -/
theorem writes_sub : (hostOps12 : List (HloOp τ sig (Elt F))).Forall fun op => op.writes ⊆ (written.map (Proc.devRef (τ := τ) .tc)).toFinset := by
  simp only [hostOps12, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps12 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec12 w ≠ r) :
    W25 m ρ c (Proc.devRef .tc r) = W23 m ρ c (Proc.devRef .tc r) :=
  (W25_of_ne m ρ c r hne).trans (keep_host (W23 m ρ c) r hr)

/-- The anchor of the diffusion, the region's second input, is left as entered. -/
theorem keep_anchor (c : Dev nD) :
    W25 m ρ c (Proc.devRef .tc main_v166) = W23 m ρ c (Proc.devRef .tc main_v166) :=
  ((W25_arr m ρ c 1).trans (((dat12 (V24 m ρ) c).arrAt_in 1 rfl _).trans (A_eq12 (V24 m ρ) c 1))).trans
    (keep_host (W23 m ρ c) main_v166 (by decide))

/-- The region's output array when it is left: one diffusion step of the buffers as they were before the stretch. -/
theorem out (c : Dev nD) :
    W25 m ρ c (Proc.devRef .tc main_v194)
      = Cert.Spec.step (F := F) (W23 m ρ c (Proc.devRef .tc main_v1)) (W23 m ρ c (Proc.devRef .tc main_v3)) (W23 m ρ c (Proc.devRef .tc main_v25))
          (W23 m ρ c (Proc.devRef .tc main_v166)) (W23 m ρ c (Proc.devRef .tc main_v180)) :=
  (W25_arr m ρ c 2).trans ((Cert.KernelIdeal.Mix12.final (V24 m ρ) c).trans
    (mix_is_step (conv_eq (W23 m ρ c)) (keep_host (W23 m ρ c) main_v166 (by decide))))

end Cert.KernelIdeal.Walk12

end
-- ==== Proof.Mix13.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix13

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k13_pay1 x0 x1 j
      = FloatOps.addf (FloatOps.mulf (x0 j) (FloatOps.ofBits .f32 0x3F666666#32))
          (FloatOps.mulf (FloatOps.ofBits .f32 0x3DCCCCCD#32) (x1 j)) := by
  unfold k13_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg13.N, win13_0.index t (0 : Fin 2) = win13_2.index t (0 : Fin 2)
    ∧ win13_0.index t (1 : Fin 2) = win13_2.index t (1 : Fin 2)
    ∧ win13_1.index t (0 : Fin 2) = win13_2.index t (0 : Fin 2)
    ∧ win13_1.index t (1 : Fin 2) = win13_2.index t (1 : Fin 2)
    ∧ win13_2.index t (0 : Fin 2) = t.val
    ∧ win13_2.index t (1 : Fin 2) = 0 :=
  (by decide +kernel : ∀ t : Fin grid13.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg13.N) :
    (dat13 V c).flushed 2 t = ((cfg13.win 2).blk t).view.read (Elt F)
      (Cert.Spec.mix (F := F) (V c (Pipeline.arrRef spec13 0)) (V c (Pipeline.arrRef spec13 1))) := by
  show (cfg13.win 2).cut (grid13.coords t) ((dat13 V c).after 2 t) = _
  rw [after13_2]
  unfold out13_2
  rw [View.canon_unit_zero hz]
  simp only [View.ld_unit_zero (S := S2000x32) hz]
  obtain ⟨e0, e1, e2, e3, e4, e5⟩ := idx_facts t
  funext j
  show k13_pay1 (iblk13 V c 0 t) (iblk13 V c 1 t) j
    = Cert.Spec.mix (F := F) (V c (Pipeline.arrRef spec13 0)) (V c (Pipeline.arrRef spec13 1)) (((cfg13.win 2).blk t).view.emb j)
  rw [pay_apply, mix_apply]
  have h0 : ((cfg13.win 0).blk t).view.emb j = ((cfg13.win 2).blk t).view.emb j := by
    funext a; apply Fin.ext
    match a with
    | ⟨0, _⟩ => show win13_0.index t (0 : Fin 2) * 2000 + 1 * (j 0).val = win13_2.index t (0 : Fin 2) * 2000 + 1 * (j 0).val; omega
    | ⟨1, _⟩ => show win13_0.index t (1 : Fin 2) * 32 + 1 * (j 1).val = win13_2.index t (1 : Fin 2) * 32 + 1 * (j 1).val; omega
  have h1 : ((cfg13.win 1).blk t).view.emb j = ((cfg13.win 2).blk t).view.emb j := by
    funext a; apply Fin.ext
    match a with
    | ⟨0, _⟩ => show win13_1.index t (0 : Fin 2) * 2000 + 1 * (j 0).val = win13_2.index t (0 : Fin 2) * 2000 + 1 * (j 0).val; omega
    | ⟨1, _⟩ => show win13_1.index t (1 : Fin 2) * 32 + 1 * (j 1).val = win13_2.index t (1 : Fin 2) * 32 + 1 * (j 1).val; omega
  show FloatOps.addf (FloatOps.mulf (V c (Pipeline.arrRef spec13 0) (((cfg13.win 0).blk t).view.emb j)) _)
      (FloatOps.mulf _ (V c (Pipeline.arrRef spec13 1) (((cfg13.win 1).blk t).view.emb j))) = _
  rw [h0, h1]

/-- An index of the array is in point `t`'s block iff each coordinate is in the block's range on its axis. -/
theorem mem_blk (t : Fin cfg13.N) (i : S100000x32.Idx) :
    i ∈ ((cfg13.win 2).blk t).view.set ↔ ∀ a : Fin 2, win13_2.index t a * S2000x32.size a ≤ (i a).val
      ∧ (i a).val < win13_2.index t a * S2000x32.size a + S2000x32.size a := by
  show i ∈ ((View.whole (Pipeline.arrRef spec13 2)).slice (win13_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg13.N, (cfg13.win 2).flush t = true ∧ i ∈ ((cfg13.win 2).blk t).view.set := by
  have hi0 : (i 0).val < 100000 := (i 0).isLt
  have hi1 : (i 1).val < 32 := (i 1).isLt
  have ht : (i 0).val / 2000 < cfg13.N := by
    show (i 0).val / 2000 < 50
    omega
  obtain ⟨e0, e1, e2, e3, e4, e5⟩ := idx_facts ⟨(i 0).val / 2000, ht⟩
  have q0 : win13_2.index ⟨(i 0).val / 2000, ht⟩ (0 : Fin 2) = (i 0).val / 2000 := e4
  refine ⟨⟨(i 0).val / 2000, ht⟩, flush13_2 _, ?_⟩
  rw [mem_blk]
  intro a
  match a with
  | ⟨0, _⟩ =>
    show win13_2.index ⟨(i 0).val / 2000, ht⟩ (0 : Fin 2) * 2000 ≤ (i 0).val
      ∧ (i 0).val < win13_2.index ⟨(i 0).val / 2000, ht⟩ (0 : Fin 2) * 2000 + 2000
    omega
  | ⟨1, _⟩ =>
    show win13_2.index ⟨(i 0).val / 2000, ht⟩ (1 : Fin 2) * 32 ≤ (i 1).val
      ∧ (i 1).val < win13_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat13 V c).arrAt 2 cfg13.N = Cert.Spec.mix (F := F) (V c (Pipeline.arrRef spec13 0)) (V c (Pipeline.arrRef spec13 1)) :=
  (dat13 V c).arrAt_eq_of_cover 2 _ (fun t _ => flushed_eq V c t) cover

end Cert.KernelIdeal.Mix13

end
-- ==== Proof.Walk13.lean ====
/-
  One diffusion step of the kernel program, number 3 of its second diffusion: host stretch 13 gathers the current
  features along the edges, scales them by the edge weights and scatter-adds them at the destination nodes (the
  convolution), and region 13 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix13
import Idealize.ShloMosaic.Lib.StableHlo.Run

set_option maxRecDepth 16384

noncomputable section

namespace Cert.KernelIdeal.Walk13

open Cert.KernelIdeal Cert.KernelIdeal.Gen Idealize.ShloMosaic Idealize.ShloMosaic.TcCoe Idealize.SL.Sem Idealize.ShloMosaic.StableHlo

variable {F : FTy → Type} [FloatOps F]

/-- The buffers host stretch 13 writes. -/
abbrev written : List (Ref sig .tc) := [main_c_41, main_v195, main_v196, main_c_42, main_v197, main_v198, main_v199, main_v200, main_v201, main_v202, main_v203, main_v204, main_cst_43, main_v205, main_v206, main_v207]

/-- Stretch 13 leaves in its last buffer the convolution of the buffers it reads. -/
theorem conv_eq (V : Valuation τ sig (Elt F)) :
    StableHlo.after hostOps13 V (Proc.devRef .tc main_v207)
      = Cert.Spec.conv (F := F) (V (Proc.devRef .tc main_v1)) (V (Proc.devRef .tc main_v3)) (V (Proc.devRef .tc main_v25)) (V (Proc.devRef .tc main_v194)) := by
  after_results_simp <;> rfl

/-- Each operation of the stretch writes one of the listed buffers. -/
theorem writes_sub : (hostOps13 : List (HloOp τ sig (Elt F))).Forall fun op => op.writes ⊆ (written.map (Proc.devRef (τ := τ) .tc)).toFinset := by
  simp only [hostOps13, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps13 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec13 w ≠ r) :
    W27 m ρ c (Proc.devRef .tc r) = W25 m ρ c (Proc.devRef .tc r) :=
  (W27_of_ne m ρ c r hne).trans (keep_host (W25 m ρ c) r hr)

/-- The anchor of the diffusion, the region's second input, is left as entered. -/
theorem keep_anchor (c : Dev nD) :
    W27 m ρ c (Proc.devRef .tc main_v166) = W25 m ρ c (Proc.devRef .tc main_v166) :=
  ((W27_arr m ρ c 1).trans (((dat13 (V26 m ρ) c).arrAt_in 1 rfl _).trans (A_eq13 (V26 m ρ) c 1))).trans
    (keep_host (W25 m ρ c) main_v166 (by decide))

/-- The region's output array when it is left: one diffusion step of the buffers as they were before the stretch. -/
theorem out (c : Dev nD) :
    W27 m ρ c (Proc.devRef .tc main_v208)
      = Cert.Spec.step (F := F) (W25 m ρ c (Proc.devRef .tc main_v1)) (W25 m ρ c (Proc.devRef .tc main_v3)) (W25 m ρ c (Proc.devRef .tc main_v25))
          (W25 m ρ c (Proc.devRef .tc main_v166)) (W25 m ρ c (Proc.devRef .tc main_v194)) :=
  (W27_arr m ρ c 2).trans ((Cert.KernelIdeal.Mix13.final (V26 m ρ) c).trans
    (mix_is_step (conv_eq (W25 m ρ c)) (keep_host (W25 m ρ c) main_v166 (by decide))))

end Cert.KernelIdeal.Walk13

end
-- ==== Proof.Mix14.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix14

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k14_pay1 x0 x1 j
      = FloatOps.addf (FloatOps.mulf (x0 j) (FloatOps.ofBits .f32 0x3F666666#32))
          (FloatOps.mulf (FloatOps.ofBits .f32 0x3DCCCCCD#32) (x1 j)) := by
  unfold k14_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg14.N, win14_0.index t (0 : Fin 2) = win14_2.index t (0 : Fin 2)
    ∧ win14_0.index t (1 : Fin 2) = win14_2.index t (1 : Fin 2)
    ∧ win14_1.index t (0 : Fin 2) = win14_2.index t (0 : Fin 2)
    ∧ win14_1.index t (1 : Fin 2) = win14_2.index t (1 : Fin 2)
    ∧ win14_2.index t (0 : Fin 2) = t.val
    ∧ win14_2.index t (1 : Fin 2) = 0 :=
  (by decide +kernel : ∀ t : Fin grid14.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg14.N) :
    (dat14 V c).flushed 2 t = ((cfg14.win 2).blk t).view.read (Elt F)
      (Cert.Spec.mix (F := F) (V c (Pipeline.arrRef spec14 0)) (V c (Pipeline.arrRef spec14 1))) := by
  show (cfg14.win 2).cut (grid14.coords t) ((dat14 V c).after 2 t) = _
  rw [after14_2]
  unfold out14_2
  rw [View.canon_unit_zero hz]
  simp only [View.ld_unit_zero (S := S2000x32) hz]
  obtain ⟨e0, e1, e2, e3, e4, e5⟩ := idx_facts t
  funext j
  show k14_pay1 (iblk14 V c 0 t) (iblk14 V c 1 t) j
    = Cert.Spec.mix (F := F) (V c (Pipeline.arrRef spec14 0)) (V c (Pipeline.arrRef spec14 1)) (((cfg14.win 2).blk t).view.emb j)
  rw [pay_apply, mix_apply]
  have h0 : ((cfg14.win 0).blk t).view.emb j = ((cfg14.win 2).blk t).view.emb j := by
    funext a; apply Fin.ext
    match a with
    | ⟨0, _⟩ => show win14_0.index t (0 : Fin 2) * 2000 + 1 * (j 0).val = win14_2.index t (0 : Fin 2) * 2000 + 1 * (j 0).val; omega
    | ⟨1, _⟩ => show win14_0.index t (1 : Fin 2) * 32 + 1 * (j 1).val = win14_2.index t (1 : Fin 2) * 32 + 1 * (j 1).val; omega
  have h1 : ((cfg14.win 1).blk t).view.emb j = ((cfg14.win 2).blk t).view.emb j := by
    funext a; apply Fin.ext
    match a with
    | ⟨0, _⟩ => show win14_1.index t (0 : Fin 2) * 2000 + 1 * (j 0).val = win14_2.index t (0 : Fin 2) * 2000 + 1 * (j 0).val; omega
    | ⟨1, _⟩ => show win14_1.index t (1 : Fin 2) * 32 + 1 * (j 1).val = win14_2.index t (1 : Fin 2) * 32 + 1 * (j 1).val; omega
  show FloatOps.addf (FloatOps.mulf (V c (Pipeline.arrRef spec14 0) (((cfg14.win 0).blk t).view.emb j)) _)
      (FloatOps.mulf _ (V c (Pipeline.arrRef spec14 1) (((cfg14.win 1).blk t).view.emb j))) = _
  rw [h0, h1]

/-- An index of the array is in point `t`'s block iff each coordinate is in the block's range on its axis. -/
theorem mem_blk (t : Fin cfg14.N) (i : S100000x32.Idx) :
    i ∈ ((cfg14.win 2).blk t).view.set ↔ ∀ a : Fin 2, win14_2.index t a * S2000x32.size a ≤ (i a).val
      ∧ (i a).val < win14_2.index t a * S2000x32.size a + S2000x32.size a := by
  show i ∈ ((View.whole (Pipeline.arrRef spec14 2)).slice (win14_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg14.N, (cfg14.win 2).flush t = true ∧ i ∈ ((cfg14.win 2).blk t).view.set := by
  have hi0 : (i 0).val < 100000 := (i 0).isLt
  have hi1 : (i 1).val < 32 := (i 1).isLt
  have ht : (i 0).val / 2000 < cfg14.N := by
    show (i 0).val / 2000 < 50
    omega
  obtain ⟨e0, e1, e2, e3, e4, e5⟩ := idx_facts ⟨(i 0).val / 2000, ht⟩
  have q0 : win14_2.index ⟨(i 0).val / 2000, ht⟩ (0 : Fin 2) = (i 0).val / 2000 := e4
  refine ⟨⟨(i 0).val / 2000, ht⟩, flush14_2 _, ?_⟩
  rw [mem_blk]
  intro a
  match a with
  | ⟨0, _⟩ =>
    show win14_2.index ⟨(i 0).val / 2000, ht⟩ (0 : Fin 2) * 2000 ≤ (i 0).val
      ∧ (i 0).val < win14_2.index ⟨(i 0).val / 2000, ht⟩ (0 : Fin 2) * 2000 + 2000
    omega
  | ⟨1, _⟩ =>
    show win14_2.index ⟨(i 0).val / 2000, ht⟩ (1 : Fin 2) * 32 ≤ (i 1).val
      ∧ (i 1).val < win14_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat14 V c).arrAt 2 cfg14.N = Cert.Spec.mix (F := F) (V c (Pipeline.arrRef spec14 0)) (V c (Pipeline.arrRef spec14 1)) :=
  (dat14 V c).arrAt_eq_of_cover 2 _ (fun t _ => flushed_eq V c t) cover

end Cert.KernelIdeal.Mix14

end
-- ==== Proof.Walk14.lean ====
/-
  One diffusion step of the kernel program, number 4 of its second diffusion: host stretch 14 gathers the current
  features along the edges, scales them by the edge weights and scatter-adds them at the destination nodes (the
  convolution), and region 14 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix14
import Idealize.ShloMosaic.Lib.StableHlo.Run

set_option maxRecDepth 16384

noncomputable section

namespace Cert.KernelIdeal.Walk14

open Cert.KernelIdeal Cert.KernelIdeal.Gen Idealize.ShloMosaic Idealize.ShloMosaic.TcCoe Idealize.SL.Sem Idealize.ShloMosaic.StableHlo

variable {F : FTy → Type} [FloatOps F]

/-- The buffers host stretch 14 writes. -/
abbrev written : List (Ref sig .tc) := [main_c_44, main_v209, main_v210, main_c_45, main_v211, main_v212, main_v213, main_v214, main_v215, main_v216, main_v217, main_v218, main_cst_46, main_v219, main_v220, main_v221]

/-- Stretch 14 leaves in its last buffer the convolution of the buffers it reads. -/
theorem conv_eq (V : Valuation τ sig (Elt F)) :
    StableHlo.after hostOps14 V (Proc.devRef .tc main_v221)
      = Cert.Spec.conv (F := F) (V (Proc.devRef .tc main_v1)) (V (Proc.devRef .tc main_v3)) (V (Proc.devRef .tc main_v25)) (V (Proc.devRef .tc main_v208)) := by
  after_results_simp <;> rfl

/-- Each operation of the stretch writes one of the listed buffers. -/
theorem writes_sub : (hostOps14 : List (HloOp τ sig (Elt F))).Forall fun op => op.writes ⊆ (written.map (Proc.devRef (τ := τ) .tc)).toFinset := by
  simp only [hostOps14, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps14 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec14 w ≠ r) :
    W29 m ρ c (Proc.devRef .tc r) = W27 m ρ c (Proc.devRef .tc r) :=
  (W29_of_ne m ρ c r hne).trans (keep_host (W27 m ρ c) r hr)

/-- The anchor of the diffusion, the region's second input, is left as entered. -/
theorem keep_anchor (c : Dev nD) :
    W29 m ρ c (Proc.devRef .tc main_v166) = W27 m ρ c (Proc.devRef .tc main_v166) :=
  ((W29_arr m ρ c 1).trans (((dat14 (V28 m ρ) c).arrAt_in 1 rfl _).trans (A_eq14 (V28 m ρ) c 1))).trans
    (keep_host (W27 m ρ c) main_v166 (by decide))

/-- The region's output array when it is left: one diffusion step of the buffers as they were before the stretch. -/
theorem out (c : Dev nD) :
    W29 m ρ c (Proc.devRef .tc main_v222)
      = Cert.Spec.step (F := F) (W27 m ρ c (Proc.devRef .tc main_v1)) (W27 m ρ c (Proc.devRef .tc main_v3)) (W27 m ρ c (Proc.devRef .tc main_v25))
          (W27 m ρ c (Proc.devRef .tc main_v166)) (W27 m ρ c (Proc.devRef .tc main_v208)) :=
  (W29_arr m ρ c 2).trans ((Cert.KernelIdeal.Mix14.final (V28 m ρ) c).trans
    (mix_is_step (conv_eq (W27 m ρ c)) (keep_host (W27 m ρ c) main_v166 (by decide))))

end Cert.KernelIdeal.Walk14

end
-- ==== Proof.Mix15.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix15

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k15_pay1 x0 x1 j
      = FloatOps.addf (FloatOps.mulf (x0 j) (FloatOps.ofBits .f32 0x3F666666#32))
          (FloatOps.mulf (FloatOps.ofBits .f32 0x3DCCCCCD#32) (x1 j)) := by
  unfold k15_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg15.N, win15_0.index t (0 : Fin 2) = win15_2.index t (0 : Fin 2)
    ∧ win15_0.index t (1 : Fin 2) = win15_2.index t (1 : Fin 2)
    ∧ win15_1.index t (0 : Fin 2) = win15_2.index t (0 : Fin 2)
    ∧ win15_1.index t (1 : Fin 2) = win15_2.index t (1 : Fin 2)
    ∧ win15_2.index t (0 : Fin 2) = t.val
    ∧ win15_2.index t (1 : Fin 2) = 0 :=
  (by decide +kernel : ∀ t : Fin grid15.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg15.N) :
    (dat15 V c).flushed 2 t = ((cfg15.win 2).blk t).view.read (Elt F)
      (Cert.Spec.mix (F := F) (V c (Pipeline.arrRef spec15 0)) (V c (Pipeline.arrRef spec15 1))) := by
  show (cfg15.win 2).cut (grid15.coords t) ((dat15 V c).after 2 t) = _
  rw [after15_2]
  unfold out15_2
  rw [View.canon_unit_zero hz]
  simp only [View.ld_unit_zero (S := S2000x32) hz]
  obtain ⟨e0, e1, e2, e3, e4, e5⟩ := idx_facts t
  funext j
  show k15_pay1 (iblk15 V c 0 t) (iblk15 V c 1 t) j
    = Cert.Spec.mix (F := F) (V c (Pipeline.arrRef spec15 0)) (V c (Pipeline.arrRef spec15 1)) (((cfg15.win 2).blk t).view.emb j)
  rw [pay_apply, mix_apply]
  have h0 : ((cfg15.win 0).blk t).view.emb j = ((cfg15.win 2).blk t).view.emb j := by
    funext a; apply Fin.ext
    match a with
    | ⟨0, _⟩ => show win15_0.index t (0 : Fin 2) * 2000 + 1 * (j 0).val = win15_2.index t (0 : Fin 2) * 2000 + 1 * (j 0).val; omega
    | ⟨1, _⟩ => show win15_0.index t (1 : Fin 2) * 32 + 1 * (j 1).val = win15_2.index t (1 : Fin 2) * 32 + 1 * (j 1).val; omega
  have h1 : ((cfg15.win 1).blk t).view.emb j = ((cfg15.win 2).blk t).view.emb j := by
    funext a; apply Fin.ext
    match a with
    | ⟨0, _⟩ => show win15_1.index t (0 : Fin 2) * 2000 + 1 * (j 0).val = win15_2.index t (0 : Fin 2) * 2000 + 1 * (j 0).val; omega
    | ⟨1, _⟩ => show win15_1.index t (1 : Fin 2) * 32 + 1 * (j 1).val = win15_2.index t (1 : Fin 2) * 32 + 1 * (j 1).val; omega
  show FloatOps.addf (FloatOps.mulf (V c (Pipeline.arrRef spec15 0) (((cfg15.win 0).blk t).view.emb j)) _)
      (FloatOps.mulf _ (V c (Pipeline.arrRef spec15 1) (((cfg15.win 1).blk t).view.emb j))) = _
  rw [h0, h1]

/-- An index of the array is in point `t`'s block iff each coordinate is in the block's range on its axis. -/
theorem mem_blk (t : Fin cfg15.N) (i : S100000x32.Idx) :
    i ∈ ((cfg15.win 2).blk t).view.set ↔ ∀ a : Fin 2, win15_2.index t a * S2000x32.size a ≤ (i a).val
      ∧ (i a).val < win15_2.index t a * S2000x32.size a + S2000x32.size a := by
  show i ∈ ((View.whole (Pipeline.arrRef spec15 2)).slice (win15_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg15.N, (cfg15.win 2).flush t = true ∧ i ∈ ((cfg15.win 2).blk t).view.set := by
  have hi0 : (i 0).val < 100000 := (i 0).isLt
  have hi1 : (i 1).val < 32 := (i 1).isLt
  have ht : (i 0).val / 2000 < cfg15.N := by
    show (i 0).val / 2000 < 50
    omega
  obtain ⟨e0, e1, e2, e3, e4, e5⟩ := idx_facts ⟨(i 0).val / 2000, ht⟩
  have q0 : win15_2.index ⟨(i 0).val / 2000, ht⟩ (0 : Fin 2) = (i 0).val / 2000 := e4
  refine ⟨⟨(i 0).val / 2000, ht⟩, flush15_2 _, ?_⟩
  rw [mem_blk]
  intro a
  match a with
  | ⟨0, _⟩ =>
    show win15_2.index ⟨(i 0).val / 2000, ht⟩ (0 : Fin 2) * 2000 ≤ (i 0).val
      ∧ (i 0).val < win15_2.index ⟨(i 0).val / 2000, ht⟩ (0 : Fin 2) * 2000 + 2000
    omega
  | ⟨1, _⟩ =>
    show win15_2.index ⟨(i 0).val / 2000, ht⟩ (1 : Fin 2) * 32 ≤ (i 1).val
      ∧ (i 1).val < win15_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat15 V c).arrAt 2 cfg15.N = Cert.Spec.mix (F := F) (V c (Pipeline.arrRef spec15 0)) (V c (Pipeline.arrRef spec15 1)) :=
  (dat15 V c).arrAt_eq_of_cover 2 _ (fun t _ => flushed_eq V c t) cover

end Cert.KernelIdeal.Mix15

end
-- ==== Proof.Walk15.lean ====
/-
  One diffusion step of the kernel program, number 5 of its second diffusion: host stretch 15 gathers the current
  features along the edges, scales them by the edge weights and scatter-adds them at the destination nodes (the
  convolution), and region 15 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix15
import Idealize.ShloMosaic.Lib.StableHlo.Run

set_option maxRecDepth 16384

noncomputable section

namespace Cert.KernelIdeal.Walk15

open Cert.KernelIdeal Cert.KernelIdeal.Gen Idealize.ShloMosaic Idealize.ShloMosaic.TcCoe Idealize.SL.Sem Idealize.ShloMosaic.StableHlo

variable {F : FTy → Type} [FloatOps F]

/-- The buffers host stretch 15 writes. -/
abbrev written : List (Ref sig .tc) := [main_c_47, main_v223, main_v224, main_c_48, main_v225, main_v226, main_v227, main_v228, main_v229, main_v230, main_v231, main_v232, main_cst_49, main_v233, main_v234, main_v235]

/-- Stretch 15 leaves in its last buffer the convolution of the buffers it reads. -/
theorem conv_eq (V : Valuation τ sig (Elt F)) :
    StableHlo.after hostOps15 V (Proc.devRef .tc main_v235)
      = Cert.Spec.conv (F := F) (V (Proc.devRef .tc main_v1)) (V (Proc.devRef .tc main_v3)) (V (Proc.devRef .tc main_v25)) (V (Proc.devRef .tc main_v222)) := by
  after_results_simp <;> rfl

/-- Each operation of the stretch writes one of the listed buffers. -/
theorem writes_sub : (hostOps15 : List (HloOp τ sig (Elt F))).Forall fun op => op.writes ⊆ (written.map (Proc.devRef (τ := τ) .tc)).toFinset := by
  simp only [hostOps15, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps15 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec15 w ≠ r) :
    W31 m ρ c (Proc.devRef .tc r) = W29 m ρ c (Proc.devRef .tc r) :=
  (W31_of_ne m ρ c r hne).trans (keep_host (W29 m ρ c) r hr)

/-- The anchor of the diffusion, the region's second input, is left as entered. -/
theorem keep_anchor (c : Dev nD) :
    W31 m ρ c (Proc.devRef .tc main_v166) = W29 m ρ c (Proc.devRef .tc main_v166) :=
  ((W31_arr m ρ c 1).trans (((dat15 (V30 m ρ) c).arrAt_in 1 rfl _).trans (A_eq15 (V30 m ρ) c 1))).trans
    (keep_host (W29 m ρ c) main_v166 (by decide))

/-- The region's output array when it is left: one diffusion step of the buffers as they were before the stretch. -/
theorem out (c : Dev nD) :
    W31 m ρ c (Proc.devRef .tc main_v236)
      = Cert.Spec.step (F := F) (W29 m ρ c (Proc.devRef .tc main_v1)) (W29 m ρ c (Proc.devRef .tc main_v3)) (W29 m ρ c (Proc.devRef .tc main_v25))
          (W29 m ρ c (Proc.devRef .tc main_v166)) (W29 m ρ c (Proc.devRef .tc main_v222)) :=
  (W31_arr m ρ c 2).trans ((Cert.KernelIdeal.Mix15.final (V30 m ρ) c).trans
    (mix_is_step (conv_eq (W29 m ρ c)) (keep_host (W29 m ρ c) main_v166 (by decide))))

end Cert.KernelIdeal.Walk15

end
-- ==== Proof.Mix16.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix16

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k16_pay1 x0 x1 j
      = FloatOps.addf (FloatOps.mulf (x0 j) (FloatOps.ofBits .f32 0x3F666666#32))
          (FloatOps.mulf (FloatOps.ofBits .f32 0x3DCCCCCD#32) (x1 j)) := by
  unfold k16_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg16.N, win16_0.index t (0 : Fin 2) = win16_2.index t (0 : Fin 2)
    ∧ win16_0.index t (1 : Fin 2) = win16_2.index t (1 : Fin 2)
    ∧ win16_1.index t (0 : Fin 2) = win16_2.index t (0 : Fin 2)
    ∧ win16_1.index t (1 : Fin 2) = win16_2.index t (1 : Fin 2)
    ∧ win16_2.index t (0 : Fin 2) = t.val
    ∧ win16_2.index t (1 : Fin 2) = 0 :=
  (by decide +kernel : ∀ t : Fin grid16.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg16.N) :
    (dat16 V c).flushed 2 t = ((cfg16.win 2).blk t).view.read (Elt F)
      (Cert.Spec.mix (F := F) (V c (Pipeline.arrRef spec16 0)) (V c (Pipeline.arrRef spec16 1))) := by
  show (cfg16.win 2).cut (grid16.coords t) ((dat16 V c).after 2 t) = _
  rw [after16_2]
  unfold out16_2
  rw [View.canon_unit_zero hz]
  simp only [View.ld_unit_zero (S := S2000x32) hz]
  obtain ⟨e0, e1, e2, e3, e4, e5⟩ := idx_facts t
  funext j
  show k16_pay1 (iblk16 V c 0 t) (iblk16 V c 1 t) j
    = Cert.Spec.mix (F := F) (V c (Pipeline.arrRef spec16 0)) (V c (Pipeline.arrRef spec16 1)) (((cfg16.win 2).blk t).view.emb j)
  rw [pay_apply, mix_apply]
  have h0 : ((cfg16.win 0).blk t).view.emb j = ((cfg16.win 2).blk t).view.emb j := by
    funext a; apply Fin.ext
    match a with
    | ⟨0, _⟩ => show win16_0.index t (0 : Fin 2) * 2000 + 1 * (j 0).val = win16_2.index t (0 : Fin 2) * 2000 + 1 * (j 0).val; omega
    | ⟨1, _⟩ => show win16_0.index t (1 : Fin 2) * 32 + 1 * (j 1).val = win16_2.index t (1 : Fin 2) * 32 + 1 * (j 1).val; omega
  have h1 : ((cfg16.win 1).blk t).view.emb j = ((cfg16.win 2).blk t).view.emb j := by
    funext a; apply Fin.ext
    match a with
    | ⟨0, _⟩ => show win16_1.index t (0 : Fin 2) * 2000 + 1 * (j 0).val = win16_2.index t (0 : Fin 2) * 2000 + 1 * (j 0).val; omega
    | ⟨1, _⟩ => show win16_1.index t (1 : Fin 2) * 32 + 1 * (j 1).val = win16_2.index t (1 : Fin 2) * 32 + 1 * (j 1).val; omega
  show FloatOps.addf (FloatOps.mulf (V c (Pipeline.arrRef spec16 0) (((cfg16.win 0).blk t).view.emb j)) _)
      (FloatOps.mulf _ (V c (Pipeline.arrRef spec16 1) (((cfg16.win 1).blk t).view.emb j))) = _
  rw [h0, h1]

/-- An index of the array is in point `t`'s block iff each coordinate is in the block's range on its axis. -/
theorem mem_blk (t : Fin cfg16.N) (i : S100000x32.Idx) :
    i ∈ ((cfg16.win 2).blk t).view.set ↔ ∀ a : Fin 2, win16_2.index t a * S2000x32.size a ≤ (i a).val
      ∧ (i a).val < win16_2.index t a * S2000x32.size a + S2000x32.size a := by
  show i ∈ ((View.whole (Pipeline.arrRef spec16 2)).slice (win16_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg16.N, (cfg16.win 2).flush t = true ∧ i ∈ ((cfg16.win 2).blk t).view.set := by
  have hi0 : (i 0).val < 100000 := (i 0).isLt
  have hi1 : (i 1).val < 32 := (i 1).isLt
  have ht : (i 0).val / 2000 < cfg16.N := by
    show (i 0).val / 2000 < 50
    omega
  obtain ⟨e0, e1, e2, e3, e4, e5⟩ := idx_facts ⟨(i 0).val / 2000, ht⟩
  have q0 : win16_2.index ⟨(i 0).val / 2000, ht⟩ (0 : Fin 2) = (i 0).val / 2000 := e4
  refine ⟨⟨(i 0).val / 2000, ht⟩, flush16_2 _, ?_⟩
  rw [mem_blk]
  intro a
  match a with
  | ⟨0, _⟩ =>
    show win16_2.index ⟨(i 0).val / 2000, ht⟩ (0 : Fin 2) * 2000 ≤ (i 0).val
      ∧ (i 0).val < win16_2.index ⟨(i 0).val / 2000, ht⟩ (0 : Fin 2) * 2000 + 2000
    omega
  | ⟨1, _⟩ =>
    show win16_2.index ⟨(i 0).val / 2000, ht⟩ (1 : Fin 2) * 32 ≤ (i 1).val
      ∧ (i 1).val < win16_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat16 V c).arrAt 2 cfg16.N = Cert.Spec.mix (F := F) (V c (Pipeline.arrRef spec16 0)) (V c (Pipeline.arrRef spec16 1)) :=
  (dat16 V c).arrAt_eq_of_cover 2 _ (fun t _ => flushed_eq V c t) cover

end Cert.KernelIdeal.Mix16

end
-- ==== Proof.Walk16.lean ====
/-
  One diffusion step of the kernel program, number 6 of its second diffusion: host stretch 16 gathers the current
  features along the edges, scales them by the edge weights and scatter-adds them at the destination nodes (the
  convolution), and region 16 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix16
import Idealize.ShloMosaic.Lib.StableHlo.Run

set_option maxRecDepth 16384

noncomputable section

namespace Cert.KernelIdeal.Walk16

open Cert.KernelIdeal Cert.KernelIdeal.Gen Idealize.ShloMosaic Idealize.ShloMosaic.TcCoe Idealize.SL.Sem Idealize.ShloMosaic.StableHlo

variable {F : FTy → Type} [FloatOps F]

/-- The buffers host stretch 16 writes. -/
abbrev written : List (Ref sig .tc) := [main_c_50, main_v237, main_v238, main_c_51, main_v239, main_v240, main_v241, main_v242, main_v243, main_v244, main_v245, main_v246, main_cst_52, main_v247, main_v248, main_v249]

/-- Stretch 16 leaves in its last buffer the convolution of the buffers it reads. -/
theorem conv_eq (V : Valuation τ sig (Elt F)) :
    StableHlo.after hostOps16 V (Proc.devRef .tc main_v249)
      = Cert.Spec.conv (F := F) (V (Proc.devRef .tc main_v1)) (V (Proc.devRef .tc main_v3)) (V (Proc.devRef .tc main_v25)) (V (Proc.devRef .tc main_v236)) := by
  after_results_simp <;> rfl

/-- Each operation of the stretch writes one of the listed buffers. -/
theorem writes_sub : (hostOps16 : List (HloOp τ sig (Elt F))).Forall fun op => op.writes ⊆ (written.map (Proc.devRef (τ := τ) .tc)).toFinset := by
  simp only [hostOps16, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps16 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec16 w ≠ r) :
    W33 m ρ c (Proc.devRef .tc r) = W31 m ρ c (Proc.devRef .tc r) :=
  (W33_of_ne m ρ c r hne).trans (keep_host (W31 m ρ c) r hr)

/-- The anchor of the diffusion, the region's second input, is left as entered. -/
theorem keep_anchor (c : Dev nD) :
    W33 m ρ c (Proc.devRef .tc main_v166) = W31 m ρ c (Proc.devRef .tc main_v166) :=
  ((W33_arr m ρ c 1).trans (((dat16 (V32 m ρ) c).arrAt_in 1 rfl _).trans (A_eq16 (V32 m ρ) c 1))).trans
    (keep_host (W31 m ρ c) main_v166 (by decide))

/-- The region's output array when it is left: one diffusion step of the buffers as they were before the stretch. -/
theorem out (c : Dev nD) :
    W33 m ρ c (Proc.devRef .tc main_v250)
      = Cert.Spec.step (F := F) (W31 m ρ c (Proc.devRef .tc main_v1)) (W31 m ρ c (Proc.devRef .tc main_v3)) (W31 m ρ c (Proc.devRef .tc main_v25))
          (W31 m ρ c (Proc.devRef .tc main_v166)) (W31 m ρ c (Proc.devRef .tc main_v236)) :=
  (W33_arr m ρ c 2).trans ((Cert.KernelIdeal.Mix16.final (V32 m ρ) c).trans
    (mix_is_step (conv_eq (W31 m ρ c)) (keep_host (W31 m ρ c) main_v166 (by decide))))

end Cert.KernelIdeal.Walk16

end
-- ==== Proof.Mix17.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix17

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k17_pay1 x0 x1 j
      = FloatOps.addf (FloatOps.mulf (x0 j) (FloatOps.ofBits .f32 0x3F666666#32))
          (FloatOps.mulf (FloatOps.ofBits .f32 0x3DCCCCCD#32) (x1 j)) := by
  unfold k17_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg17.N, win17_0.index t (0 : Fin 2) = win17_2.index t (0 : Fin 2)
    ∧ win17_0.index t (1 : Fin 2) = win17_2.index t (1 : Fin 2)
    ∧ win17_1.index t (0 : Fin 2) = win17_2.index t (0 : Fin 2)
    ∧ win17_1.index t (1 : Fin 2) = win17_2.index t (1 : Fin 2)
    ∧ win17_2.index t (0 : Fin 2) = t.val
    ∧ win17_2.index t (1 : Fin 2) = 0 :=
  (by decide +kernel : ∀ t : Fin grid17.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg17.N) :
    (dat17 V c).flushed 2 t = ((cfg17.win 2).blk t).view.read (Elt F)
      (Cert.Spec.mix (F := F) (V c (Pipeline.arrRef spec17 0)) (V c (Pipeline.arrRef spec17 1))) := by
  show (cfg17.win 2).cut (grid17.coords t) ((dat17 V c).after 2 t) = _
  rw [after17_2]
  unfold out17_2
  rw [View.canon_unit_zero hz]
  simp only [View.ld_unit_zero (S := S2000x32) hz]
  obtain ⟨e0, e1, e2, e3, e4, e5⟩ := idx_facts t
  funext j
  show k17_pay1 (iblk17 V c 0 t) (iblk17 V c 1 t) j
    = Cert.Spec.mix (F := F) (V c (Pipeline.arrRef spec17 0)) (V c (Pipeline.arrRef spec17 1)) (((cfg17.win 2).blk t).view.emb j)
  rw [pay_apply, mix_apply]
  have h0 : ((cfg17.win 0).blk t).view.emb j = ((cfg17.win 2).blk t).view.emb j := by
    funext a; apply Fin.ext
    match a with
    | ⟨0, _⟩ => show win17_0.index t (0 : Fin 2) * 2000 + 1 * (j 0).val = win17_2.index t (0 : Fin 2) * 2000 + 1 * (j 0).val; omega
    | ⟨1, _⟩ => show win17_0.index t (1 : Fin 2) * 32 + 1 * (j 1).val = win17_2.index t (1 : Fin 2) * 32 + 1 * (j 1).val; omega
  have h1 : ((cfg17.win 1).blk t).view.emb j = ((cfg17.win 2).blk t).view.emb j := by
    funext a; apply Fin.ext
    match a with
    | ⟨0, _⟩ => show win17_1.index t (0 : Fin 2) * 2000 + 1 * (j 0).val = win17_2.index t (0 : Fin 2) * 2000 + 1 * (j 0).val; omega
    | ⟨1, _⟩ => show win17_1.index t (1 : Fin 2) * 32 + 1 * (j 1).val = win17_2.index t (1 : Fin 2) * 32 + 1 * (j 1).val; omega
  show FloatOps.addf (FloatOps.mulf (V c (Pipeline.arrRef spec17 0) (((cfg17.win 0).blk t).view.emb j)) _)
      (FloatOps.mulf _ (V c (Pipeline.arrRef spec17 1) (((cfg17.win 1).blk t).view.emb j))) = _
  rw [h0, h1]

/-- An index of the array is in point `t`'s block iff each coordinate is in the block's range on its axis. -/
theorem mem_blk (t : Fin cfg17.N) (i : S100000x32.Idx) :
    i ∈ ((cfg17.win 2).blk t).view.set ↔ ∀ a : Fin 2, win17_2.index t a * S2000x32.size a ≤ (i a).val
      ∧ (i a).val < win17_2.index t a * S2000x32.size a + S2000x32.size a := by
  show i ∈ ((View.whole (Pipeline.arrRef spec17 2)).slice (win17_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg17.N, (cfg17.win 2).flush t = true ∧ i ∈ ((cfg17.win 2).blk t).view.set := by
  have hi0 : (i 0).val < 100000 := (i 0).isLt
  have hi1 : (i 1).val < 32 := (i 1).isLt
  have ht : (i 0).val / 2000 < cfg17.N := by
    show (i 0).val / 2000 < 50
    omega
  obtain ⟨e0, e1, e2, e3, e4, e5⟩ := idx_facts ⟨(i 0).val / 2000, ht⟩
  have q0 : win17_2.index ⟨(i 0).val / 2000, ht⟩ (0 : Fin 2) = (i 0).val / 2000 := e4
  refine ⟨⟨(i 0).val / 2000, ht⟩, flush17_2 _, ?_⟩
  rw [mem_blk]
  intro a
  match a with
  | ⟨0, _⟩ =>
    show win17_2.index ⟨(i 0).val / 2000, ht⟩ (0 : Fin 2) * 2000 ≤ (i 0).val
      ∧ (i 0).val < win17_2.index ⟨(i 0).val / 2000, ht⟩ (0 : Fin 2) * 2000 + 2000
    omega
  | ⟨1, _⟩ =>
    show win17_2.index ⟨(i 0).val / 2000, ht⟩ (1 : Fin 2) * 32 ≤ (i 1).val
      ∧ (i 1).val < win17_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat17 V c).arrAt 2 cfg17.N = Cert.Spec.mix (F := F) (V c (Pipeline.arrRef spec17 0)) (V c (Pipeline.arrRef spec17 1)) :=
  (dat17 V c).arrAt_eq_of_cover 2 _ (fun t _ => flushed_eq V c t) cover

end Cert.KernelIdeal.Mix17

end
-- ==== Proof.Walk17.lean ====
/-
  One diffusion step of the kernel program, number 7 of its second diffusion: host stretch 17 gathers the current
  features along the edges, scales them by the edge weights and scatter-adds them at the destination nodes (the
  convolution), and region 17 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix17
import Idealize.ShloMosaic.Lib.StableHlo.Run

set_option maxRecDepth 16384

noncomputable section

namespace Cert.KernelIdeal.Walk17

open Cert.KernelIdeal Cert.KernelIdeal.Gen Idealize.ShloMosaic Idealize.ShloMosaic.TcCoe Idealize.SL.Sem Idealize.ShloMosaic.StableHlo

variable {F : FTy → Type} [FloatOps F]

/-- The buffers host stretch 17 writes. -/
abbrev written : List (Ref sig .tc) := [main_c_53, main_v251, main_v252, main_c_54, main_v253, main_v254, main_v255, main_v256, main_v257, main_v258, main_v259, main_v260, main_cst_55, main_v261, main_v262, main_v263]

/-- Stretch 17 leaves in its last buffer the convolution of the buffers it reads. -/
theorem conv_eq (V : Valuation τ sig (Elt F)) :
    StableHlo.after hostOps17 V (Proc.devRef .tc main_v263)
      = Cert.Spec.conv (F := F) (V (Proc.devRef .tc main_v1)) (V (Proc.devRef .tc main_v3)) (V (Proc.devRef .tc main_v25)) (V (Proc.devRef .tc main_v250)) := by
  after_results_simp <;> rfl

/-- Each operation of the stretch writes one of the listed buffers. -/
theorem writes_sub : (hostOps17 : List (HloOp τ sig (Elt F))).Forall fun op => op.writes ⊆ (written.map (Proc.devRef (τ := τ) .tc)).toFinset := by
  simp only [hostOps17, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps17 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec17 w ≠ r) :
    W35 m ρ c (Proc.devRef .tc r) = W33 m ρ c (Proc.devRef .tc r) :=
  (W35_of_ne m ρ c r hne).trans (keep_host (W33 m ρ c) r hr)

/-- The anchor of the diffusion, the region's second input, is left as entered. -/
theorem keep_anchor (c : Dev nD) :
    W35 m ρ c (Proc.devRef .tc main_v166) = W33 m ρ c (Proc.devRef .tc main_v166) :=
  ((W35_arr m ρ c 1).trans (((dat17 (V34 m ρ) c).arrAt_in 1 rfl _).trans (A_eq17 (V34 m ρ) c 1))).trans
    (keep_host (W33 m ρ c) main_v166 (by decide))

/-- The region's output array when it is left: one diffusion step of the buffers as they were before the stretch. -/
theorem out (c : Dev nD) :
    W35 m ρ c (Proc.devRef .tc main_v264)
      = Cert.Spec.step (F := F) (W33 m ρ c (Proc.devRef .tc main_v1)) (W33 m ρ c (Proc.devRef .tc main_v3)) (W33 m ρ c (Proc.devRef .tc main_v25))
          (W33 m ρ c (Proc.devRef .tc main_v166)) (W33 m ρ c (Proc.devRef .tc main_v250)) :=
  (W35_arr m ρ c 2).trans ((Cert.KernelIdeal.Mix17.final (V34 m ρ) c).trans
    (mix_is_step (conv_eq (W33 m ρ c)) (keep_host (W33 m ρ c) main_v166 (by decide))))

end Cert.KernelIdeal.Walk17

end
-- ==== Proof.Mix18.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix18

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k18_pay1 x0 x1 j
      = FloatOps.addf (FloatOps.mulf (x0 j) (FloatOps.ofBits .f32 0x3F666666#32))
          (FloatOps.mulf (FloatOps.ofBits .f32 0x3DCCCCCD#32) (x1 j)) := by
  unfold k18_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg18.N, win18_0.index t (0 : Fin 2) = win18_2.index t (0 : Fin 2)
    ∧ win18_0.index t (1 : Fin 2) = win18_2.index t (1 : Fin 2)
    ∧ win18_1.index t (0 : Fin 2) = win18_2.index t (0 : Fin 2)
    ∧ win18_1.index t (1 : Fin 2) = win18_2.index t (1 : Fin 2)
    ∧ win18_2.index t (0 : Fin 2) = t.val
    ∧ win18_2.index t (1 : Fin 2) = 0 :=
  (by decide +kernel : ∀ t : Fin grid18.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg18.N) :
    (dat18 V c).flushed 2 t = ((cfg18.win 2).blk t).view.read (Elt F)
      (Cert.Spec.mix (F := F) (V c (Pipeline.arrRef spec18 0)) (V c (Pipeline.arrRef spec18 1))) := by
  show (cfg18.win 2).cut (grid18.coords t) ((dat18 V c).after 2 t) = _
  rw [after18_2]
  unfold out18_2
  rw [View.canon_unit_zero hz]
  simp only [View.ld_unit_zero (S := S2000x32) hz]
  obtain ⟨e0, e1, e2, e3, e4, e5⟩ := idx_facts t
  funext j
  show k18_pay1 (iblk18 V c 0 t) (iblk18 V c 1 t) j
    = Cert.Spec.mix (F := F) (V c (Pipeline.arrRef spec18 0)) (V c (Pipeline.arrRef spec18 1)) (((cfg18.win 2).blk t).view.emb j)
  rw [pay_apply, mix_apply]
  have h0 : ((cfg18.win 0).blk t).view.emb j = ((cfg18.win 2).blk t).view.emb j := by
    funext a; apply Fin.ext
    match a with
    | ⟨0, _⟩ => show win18_0.index t (0 : Fin 2) * 2000 + 1 * (j 0).val = win18_2.index t (0 : Fin 2) * 2000 + 1 * (j 0).val; omega
    | ⟨1, _⟩ => show win18_0.index t (1 : Fin 2) * 32 + 1 * (j 1).val = win18_2.index t (1 : Fin 2) * 32 + 1 * (j 1).val; omega
  have h1 : ((cfg18.win 1).blk t).view.emb j = ((cfg18.win 2).blk t).view.emb j := by
    funext a; apply Fin.ext
    match a with
    | ⟨0, _⟩ => show win18_1.index t (0 : Fin 2) * 2000 + 1 * (j 0).val = win18_2.index t (0 : Fin 2) * 2000 + 1 * (j 0).val; omega
    | ⟨1, _⟩ => show win18_1.index t (1 : Fin 2) * 32 + 1 * (j 1).val = win18_2.index t (1 : Fin 2) * 32 + 1 * (j 1).val; omega
  show FloatOps.addf (FloatOps.mulf (V c (Pipeline.arrRef spec18 0) (((cfg18.win 0).blk t).view.emb j)) _)
      (FloatOps.mulf _ (V c (Pipeline.arrRef spec18 1) (((cfg18.win 1).blk t).view.emb j))) = _
  rw [h0, h1]

/-- An index of the array is in point `t`'s block iff each coordinate is in the block's range on its axis. -/
theorem mem_blk (t : Fin cfg18.N) (i : S100000x32.Idx) :
    i ∈ ((cfg18.win 2).blk t).view.set ↔ ∀ a : Fin 2, win18_2.index t a * S2000x32.size a ≤ (i a).val
      ∧ (i a).val < win18_2.index t a * S2000x32.size a + S2000x32.size a := by
  show i ∈ ((View.whole (Pipeline.arrRef spec18 2)).slice (win18_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg18.N, (cfg18.win 2).flush t = true ∧ i ∈ ((cfg18.win 2).blk t).view.set := by
  have hi0 : (i 0).val < 100000 := (i 0).isLt
  have hi1 : (i 1).val < 32 := (i 1).isLt
  have ht : (i 0).val / 2000 < cfg18.N := by
    show (i 0).val / 2000 < 50
    omega
  obtain ⟨e0, e1, e2, e3, e4, e5⟩ := idx_facts ⟨(i 0).val / 2000, ht⟩
  have q0 : win18_2.index ⟨(i 0).val / 2000, ht⟩ (0 : Fin 2) = (i 0).val / 2000 := e4
  refine ⟨⟨(i 0).val / 2000, ht⟩, flush18_2 _, ?_⟩
  rw [mem_blk]
  intro a
  match a with
  | ⟨0, _⟩ =>
    show win18_2.index ⟨(i 0).val / 2000, ht⟩ (0 : Fin 2) * 2000 ≤ (i 0).val
      ∧ (i 0).val < win18_2.index ⟨(i 0).val / 2000, ht⟩ (0 : Fin 2) * 2000 + 2000
    omega
  | ⟨1, _⟩ =>
    show win18_2.index ⟨(i 0).val / 2000, ht⟩ (1 : Fin 2) * 32 ≤ (i 1).val
      ∧ (i 1).val < win18_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat18 V c).arrAt 2 cfg18.N = Cert.Spec.mix (F := F) (V c (Pipeline.arrRef spec18 0)) (V c (Pipeline.arrRef spec18 1)) :=
  (dat18 V c).arrAt_eq_of_cover 2 _ (fun t _ => flushed_eq V c t) cover

end Cert.KernelIdeal.Mix18

end
-- ==== Proof.Walk18.lean ====
/-
  One diffusion step of the kernel program, number 8 of its second diffusion: host stretch 18 gathers the current
  features along the edges, scales them by the edge weights and scatter-adds them at the destination nodes (the
  convolution), and region 18 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix18
import Idealize.ShloMosaic.Lib.StableHlo.Run

set_option maxRecDepth 16384

noncomputable section

namespace Cert.KernelIdeal.Walk18

open Cert.KernelIdeal Cert.KernelIdeal.Gen Idealize.ShloMosaic Idealize.ShloMosaic.TcCoe Idealize.SL.Sem Idealize.ShloMosaic.StableHlo

variable {F : FTy → Type} [FloatOps F]

/-- The buffers host stretch 18 writes. -/
abbrev written : List (Ref sig .tc) := [main_c_56, main_v265, main_v266, main_c_57, main_v267, main_v268, main_v269, main_v270, main_v271, main_v272, main_v273, main_v274, main_cst_58, main_v275, main_v276, main_v277]

/-- Stretch 18 leaves in its last buffer the convolution of the buffers it reads. -/
theorem conv_eq (V : Valuation τ sig (Elt F)) :
    StableHlo.after hostOps18 V (Proc.devRef .tc main_v277)
      = Cert.Spec.conv (F := F) (V (Proc.devRef .tc main_v1)) (V (Proc.devRef .tc main_v3)) (V (Proc.devRef .tc main_v25)) (V (Proc.devRef .tc main_v264)) := by
  after_results_simp <;> rfl

/-- Each operation of the stretch writes one of the listed buffers. -/
theorem writes_sub : (hostOps18 : List (HloOp τ sig (Elt F))).Forall fun op => op.writes ⊆ (written.map (Proc.devRef (τ := τ) .tc)).toFinset := by
  simp only [hostOps18, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps18 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec18 w ≠ r) :
    W37 m ρ c (Proc.devRef .tc r) = W35 m ρ c (Proc.devRef .tc r) :=
  (W37_of_ne m ρ c r hne).trans (keep_host (W35 m ρ c) r hr)

/-- The anchor of the diffusion, the region's second input, is left as entered. -/
theorem keep_anchor (c : Dev nD) :
    W37 m ρ c (Proc.devRef .tc main_v166) = W35 m ρ c (Proc.devRef .tc main_v166) :=
  ((W37_arr m ρ c 1).trans (((dat18 (V36 m ρ) c).arrAt_in 1 rfl _).trans (A_eq18 (V36 m ρ) c 1))).trans
    (keep_host (W35 m ρ c) main_v166 (by decide))

/-- The region's output array when it is left: one diffusion step of the buffers as they were before the stretch. -/
theorem out (c : Dev nD) :
    W37 m ρ c (Proc.devRef .tc main_v278)
      = Cert.Spec.step (F := F) (W35 m ρ c (Proc.devRef .tc main_v1)) (W35 m ρ c (Proc.devRef .tc main_v3)) (W35 m ρ c (Proc.devRef .tc main_v25))
          (W35 m ρ c (Proc.devRef .tc main_v166)) (W35 m ρ c (Proc.devRef .tc main_v264)) :=
  (W37_arr m ρ c 2).trans ((Cert.KernelIdeal.Mix18.final (V36 m ρ) c).trans
    (mix_is_step (conv_eq (W35 m ρ c)) (keep_host (W35 m ρ c) main_v166 (by decide))))

end Cert.KernelIdeal.Walk18

end
-- ==== Proof.Mix19.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix19

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k19_pay1 x0 x1 j
      = FloatOps.addf (FloatOps.mulf (x0 j) (FloatOps.ofBits .f32 0x3F666666#32))
          (FloatOps.mulf (FloatOps.ofBits .f32 0x3DCCCCCD#32) (x1 j)) := by
  unfold k19_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg19.N, win19_0.index t (0 : Fin 2) = win19_2.index t (0 : Fin 2)
    ∧ win19_0.index t (1 : Fin 2) = win19_2.index t (1 : Fin 2)
    ∧ win19_1.index t (0 : Fin 2) = win19_2.index t (0 : Fin 2)
    ∧ win19_1.index t (1 : Fin 2) = win19_2.index t (1 : Fin 2)
    ∧ win19_2.index t (0 : Fin 2) = t.val
    ∧ win19_2.index t (1 : Fin 2) = 0 :=
  (by decide +kernel : ∀ t : Fin grid19.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg19.N) :
    (dat19 V c).flushed 2 t = ((cfg19.win 2).blk t).view.read (Elt F)
      (Cert.Spec.mix (F := F) (V c (Pipeline.arrRef spec19 0)) (V c (Pipeline.arrRef spec19 1))) := by
  show (cfg19.win 2).cut (grid19.coords t) ((dat19 V c).after 2 t) = _
  rw [after19_2]
  unfold out19_2
  rw [View.canon_unit_zero hz]
  simp only [View.ld_unit_zero (S := S2000x32) hz]
  obtain ⟨e0, e1, e2, e3, e4, e5⟩ := idx_facts t
  funext j
  show k19_pay1 (iblk19 V c 0 t) (iblk19 V c 1 t) j
    = Cert.Spec.mix (F := F) (V c (Pipeline.arrRef spec19 0)) (V c (Pipeline.arrRef spec19 1)) (((cfg19.win 2).blk t).view.emb j)
  rw [pay_apply, mix_apply]
  have h0 : ((cfg19.win 0).blk t).view.emb j = ((cfg19.win 2).blk t).view.emb j := by
    funext a; apply Fin.ext
    match a with
    | ⟨0, _⟩ => show win19_0.index t (0 : Fin 2) * 2000 + 1 * (j 0).val = win19_2.index t (0 : Fin 2) * 2000 + 1 * (j 0).val; omega
    | ⟨1, _⟩ => show win19_0.index t (1 : Fin 2) * 32 + 1 * (j 1).val = win19_2.index t (1 : Fin 2) * 32 + 1 * (j 1).val; omega
  have h1 : ((cfg19.win 1).blk t).view.emb j = ((cfg19.win 2).blk t).view.emb j := by
    funext a; apply Fin.ext
    match a with
    | ⟨0, _⟩ => show win19_1.index t (0 : Fin 2) * 2000 + 1 * (j 0).val = win19_2.index t (0 : Fin 2) * 2000 + 1 * (j 0).val; omega
    | ⟨1, _⟩ => show win19_1.index t (1 : Fin 2) * 32 + 1 * (j 1).val = win19_2.index t (1 : Fin 2) * 32 + 1 * (j 1).val; omega
  show FloatOps.addf (FloatOps.mulf (V c (Pipeline.arrRef spec19 0) (((cfg19.win 0).blk t).view.emb j)) _)
      (FloatOps.mulf _ (V c (Pipeline.arrRef spec19 1) (((cfg19.win 1).blk t).view.emb j))) = _
  rw [h0, h1]

/-- An index of the array is in point `t`'s block iff each coordinate is in the block's range on its axis. -/
theorem mem_blk (t : Fin cfg19.N) (i : S100000x32.Idx) :
    i ∈ ((cfg19.win 2).blk t).view.set ↔ ∀ a : Fin 2, win19_2.index t a * S2000x32.size a ≤ (i a).val
      ∧ (i a).val < win19_2.index t a * S2000x32.size a + S2000x32.size a := by
  show i ∈ ((View.whole (Pipeline.arrRef spec19 2)).slice (win19_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg19.N, (cfg19.win 2).flush t = true ∧ i ∈ ((cfg19.win 2).blk t).view.set := by
  have hi0 : (i 0).val < 100000 := (i 0).isLt
  have hi1 : (i 1).val < 32 := (i 1).isLt
  have ht : (i 0).val / 2000 < cfg19.N := by
    show (i 0).val / 2000 < 50
    omega
  obtain ⟨e0, e1, e2, e3, e4, e5⟩ := idx_facts ⟨(i 0).val / 2000, ht⟩
  have q0 : win19_2.index ⟨(i 0).val / 2000, ht⟩ (0 : Fin 2) = (i 0).val / 2000 := e4
  refine ⟨⟨(i 0).val / 2000, ht⟩, flush19_2 _, ?_⟩
  rw [mem_blk]
  intro a
  match a with
  | ⟨0, _⟩ =>
    show win19_2.index ⟨(i 0).val / 2000, ht⟩ (0 : Fin 2) * 2000 ≤ (i 0).val
      ∧ (i 0).val < win19_2.index ⟨(i 0).val / 2000, ht⟩ (0 : Fin 2) * 2000 + 2000
    omega
  | ⟨1, _⟩ =>
    show win19_2.index ⟨(i 0).val / 2000, ht⟩ (1 : Fin 2) * 32 ≤ (i 1).val
      ∧ (i 1).val < win19_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat19 V c).arrAt 2 cfg19.N = Cert.Spec.mix (F := F) (V c (Pipeline.arrRef spec19 0)) (V c (Pipeline.arrRef spec19 1)) :=
  (dat19 V c).arrAt_eq_of_cover 2 _ (fun t _ => flushed_eq V c t) cover

end Cert.KernelIdeal.Mix19

end
-- ==== Proof.Walk19.lean ====
/-
  One diffusion step of the kernel program, number 9 of its second diffusion: host stretch 19 gathers the current
  features along the edges, scales them by the edge weights and scatter-adds them at the destination nodes (the
  convolution), and region 19 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix19
import Idealize.ShloMosaic.Lib.StableHlo.Run

set_option maxRecDepth 16384

noncomputable section

namespace Cert.KernelIdeal.Walk19

open Cert.KernelIdeal Cert.KernelIdeal.Gen Idealize.ShloMosaic Idealize.ShloMosaic.TcCoe Idealize.SL.Sem Idealize.ShloMosaic.StableHlo

variable {F : FTy → Type} [FloatOps F]

/-- The buffers host stretch 19 writes. -/
abbrev written : List (Ref sig .tc) := [main_c_59, main_v279, main_v280, main_c_60, main_v281, main_v282, main_v283, main_v284, main_v285, main_v286, main_v287, main_v288, main_cst_61, main_v289, main_v290, main_v291]

/-- Stretch 19 leaves in its last buffer the convolution of the buffers it reads. -/
theorem conv_eq (V : Valuation τ sig (Elt F)) :
    StableHlo.after hostOps19 V (Proc.devRef .tc main_v291)
      = Cert.Spec.conv (F := F) (V (Proc.devRef .tc main_v1)) (V (Proc.devRef .tc main_v3)) (V (Proc.devRef .tc main_v25)) (V (Proc.devRef .tc main_v278)) := by
  after_results_simp <;> rfl

/-- Each operation of the stretch writes one of the listed buffers. -/
theorem writes_sub : (hostOps19 : List (HloOp τ sig (Elt F))).Forall fun op => op.writes ⊆ (written.map (Proc.devRef (τ := τ) .tc)).toFinset := by
  simp only [hostOps19, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps19 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec19 w ≠ r) :
    W39 m ρ c (Proc.devRef .tc r) = W37 m ρ c (Proc.devRef .tc r) :=
  (W39_of_ne m ρ c r hne).trans (keep_host (W37 m ρ c) r hr)

/-- The anchor of the diffusion, the region's second input, is left as entered. -/
theorem keep_anchor (c : Dev nD) :
    W39 m ρ c (Proc.devRef .tc main_v166) = W37 m ρ c (Proc.devRef .tc main_v166) :=
  ((W39_arr m ρ c 1).trans (((dat19 (V38 m ρ) c).arrAt_in 1 rfl _).trans (A_eq19 (V38 m ρ) c 1))).trans
    (keep_host (W37 m ρ c) main_v166 (by decide))

/-- The region's output array when it is left: one diffusion step of the buffers as they were before the stretch. -/
theorem out (c : Dev nD) :
    W39 m ρ c (Proc.devRef .tc main_v292)
      = Cert.Spec.step (F := F) (W37 m ρ c (Proc.devRef .tc main_v1)) (W37 m ρ c (Proc.devRef .tc main_v3)) (W37 m ρ c (Proc.devRef .tc main_v25))
          (W37 m ρ c (Proc.devRef .tc main_v166)) (W37 m ρ c (Proc.devRef .tc main_v278)) :=
  (W39_arr m ρ c 2).trans ((Cert.KernelIdeal.Mix19.final (V38 m ρ) c).trans
    (mix_is_step (conv_eq (W37 m ρ c)) (keep_host (W37 m ρ c) main_v166 (by decide))))

end Cert.KernelIdeal.Walk19

end
-- ==== Proof.Mix20.lean ====
/-
  A residual-mix region of the kernel program, read as one equation between whole arrays.

  The region's body, on one 2000 x 32 block of each of its two input arrays `cv` and `h0`, stores
  `cv * 0.9 + 0.1 * h0` (the two factors are the binary fractions 0x3F666666 and 0x3DCCCCCD) into the same block of
  its output array.  Its 50 grid points take the 50 consecutive blocks of 2000 rows, and every point writes its block
  back; the blocks tile the 100000 rows.  So when the region is left, the output array is `Cert.Spec.mix` of the two
  input arrays as the region found them.
-/
import proofs.«104874_j7885559956094_2_alg».proof.Proof.Spec
import proofs.«104874_j7885559956094_2_alg».proof.Proof.Gen.KernelIdeal.Frame
import Idealize.ShloMosaic.Lib.Pipeline.Value

noncomputable section

namespace Cert.KernelIdeal.Mix20

open Cert.KernelIdeal Cert.KernelIdeal.Gen Idealize.ShloMosaic Idealize.ShloMosaic.TcCoe Idealize.SL.Sem
open Idealize.ShloMosaic.Pipeline (Dat)

variable {F : FTy → Type} [FloatOps F]

/-! ## The two sides, entry by entry -/

/-- The residual mix at one entry: a whole-array constant read at an index is the constant. -/
theorem mix_apply (a b : Cert.Spec.Nodes F) (i : S100000x32.Idx) :
    Cert.Spec.mix (F := F) a b i
      = FloatOps.addf (FloatOps.mulf (a i) (FloatOps.ofBits .f32 0x3F666666#32))
          (FloatOps.mulf (FloatOps.ofBits .f32 0x3DCCCCCD#32) (b i)) := by
  unfold Cert.Spec.mix
  show FloatOps.addf (FloatOps.mulf (a i) (broadcastInDim _ _ _ _ i)) (FloatOps.mulf (broadcastInDim _ _ _ _ i) (b i)) = _
  rw [broadcastInDim_apply _ _ _ i (fun a => a.elim0) (fun a => a.elim0),
    broadcastInDim_apply _ _ _ i (fun a => a.elim0) (fun a => a.elim0)]
  rfl

/-- The body's payload at one entry of its block: the cast to the same shape is the identity, and a broadcast scalar
    read at an index is the scalar. -/
theorem pay_apply (x0 x1 : Vec F S2000x32 .f32) (j : S2000x32.Idx) :
    k20_pay1 x0 x1 j
      = FloatOps.addf (FloatOps.mulf (x0 j) (FloatOps.ofBits .f32 0x3F666666#32))
          (FloatOps.mulf (FloatOps.ofBits .f32 0x3DCCCCCD#32) (x1 j)) := by
  unfold k20_pay1
  simp only [shapeCast_self]
  rfl

/-! ## The blocks -/

theorem hz : (![0, 0] : Fin 2 → Nat) = fun _ => 0 := funext fun a => by fin_cases a <;> rfl

/-- The index maps, decided over the grid: at point `t` all three windows take block `(t, 0)`. -/
theorem idx_facts : ∀ t : Fin cfg20.N, win20_0.index t (0 : Fin 2) = win20_2.index t (0 : Fin 2)
    ∧ win20_0.index t (1 : Fin 2) = win20_2.index t (1 : Fin 2)
    ∧ win20_1.index t (0 : Fin 2) = win20_2.index t (0 : Fin 2)
    ∧ win20_1.index t (1 : Fin 2) = win20_2.index t (1 : Fin 2)
    ∧ win20_2.index t (0 : Fin 2) = t.val
    ∧ win20_2.index t (1 : Fin 2) = 0 :=
  (by decide +kernel : ∀ t : Fin grid20.N, _)

variable (V : (c : Dev nD) → (b : Ref sig .tc) → Buf (Elt F) ((c : Thread nD τ).loc b))

/-- What point `t` writes back is block `t` of the residual mix of the two input arrays as the region finds them:
    the input blocks are the arrays read through the output's rectangle, since the three index maps agree. -/
theorem flushed_eq (c : Dev nD) (t : Fin cfg20.N) :
    (dat20 V c).flushed 2 t = ((cfg20.win 2).blk t).view.read (Elt F)
      (Cert.Spec.mix (F := F) (V c (Pipeline.arrRef spec20 0)) (V c (Pipeline.arrRef spec20 1))) := by
  show (cfg20.win 2).cut (grid20.coords t) ((dat20 V c).after 2 t) = _
  rw [after20_2]
  unfold out20_2
  rw [View.canon_unit_zero hz]
  simp only [View.ld_unit_zero (S := S2000x32) hz]
  obtain ⟨e0, e1, e2, e3, e4, e5⟩ := idx_facts t
  funext j
  show k20_pay1 (iblk20 V c 0 t) (iblk20 V c 1 t) j
    = Cert.Spec.mix (F := F) (V c (Pipeline.arrRef spec20 0)) (V c (Pipeline.arrRef spec20 1)) (((cfg20.win 2).blk t).view.emb j)
  rw [pay_apply, mix_apply]
  have h0 : ((cfg20.win 0).blk t).view.emb j = ((cfg20.win 2).blk t).view.emb j := by
    funext a; apply Fin.ext
    match a with
    | ⟨0, _⟩ => show win20_0.index t (0 : Fin 2) * 2000 + 1 * (j 0).val = win20_2.index t (0 : Fin 2) * 2000 + 1 * (j 0).val; omega
    | ⟨1, _⟩ => show win20_0.index t (1 : Fin 2) * 32 + 1 * (j 1).val = win20_2.index t (1 : Fin 2) * 32 + 1 * (j 1).val; omega
  have h1 : ((cfg20.win 1).blk t).view.emb j = ((cfg20.win 2).blk t).view.emb j := by
    funext a; apply Fin.ext
    match a with
    | ⟨0, _⟩ => show win20_1.index t (0 : Fin 2) * 2000 + 1 * (j 0).val = win20_2.index t (0 : Fin 2) * 2000 + 1 * (j 0).val; omega
    | ⟨1, _⟩ => show win20_1.index t (1 : Fin 2) * 32 + 1 * (j 1).val = win20_2.index t (1 : Fin 2) * 32 + 1 * (j 1).val; omega
  show FloatOps.addf (FloatOps.mulf (V c (Pipeline.arrRef spec20 0) (((cfg20.win 0).blk t).view.emb j)) _)
      (FloatOps.mulf _ (V c (Pipeline.arrRef spec20 1) (((cfg20.win 1).blk t).view.emb j))) = _
  rw [h0, h1]

/-- An index of the array is in point `t`'s block iff each coordinate is in the block's range on its axis. -/
theorem mem_blk (t : Fin cfg20.N) (i : S100000x32.Idx) :
    i ∈ ((cfg20.win 2).blk t).view.set ↔ ∀ a : Fin 2, win20_2.index t a * S2000x32.size a ≤ (i a).val
      ∧ (i a).val < win20_2.index t a * S2000x32.size a + S2000x32.size a := by
  show i ∈ ((View.whole (Pipeline.arrRef spec20 2)).slice (win20_2.rect t)).set ↔ _
  rw [View.set_slice_whole, Rect.mem_set_unit]
  exact Iff.rfl

/-- Row `r` is in the block of point `r / 2000`, and every point writes its block back: the blocks cover the array. -/
theorem cover (i : S100000x32.Idx) :
    ∃ t : Fin cfg20.N, (cfg20.win 2).flush t = true ∧ i ∈ ((cfg20.win 2).blk t).view.set := by
  have hi0 : (i 0).val < 100000 := (i 0).isLt
  have hi1 : (i 1).val < 32 := (i 1).isLt
  have ht : (i 0).val / 2000 < cfg20.N := by
    show (i 0).val / 2000 < 50
    omega
  obtain ⟨e0, e1, e2, e3, e4, e5⟩ := idx_facts ⟨(i 0).val / 2000, ht⟩
  have q0 : win20_2.index ⟨(i 0).val / 2000, ht⟩ (0 : Fin 2) = (i 0).val / 2000 := e4
  refine ⟨⟨(i 0).val / 2000, ht⟩, flush20_2 _, ?_⟩
  rw [mem_blk]
  intro a
  match a with
  | ⟨0, _⟩ =>
    show win20_2.index ⟨(i 0).val / 2000, ht⟩ (0 : Fin 2) * 2000 ≤ (i 0).val
      ∧ (i 0).val < win20_2.index ⟨(i 0).val / 2000, ht⟩ (0 : Fin 2) * 2000 + 2000
    omega
  | ⟨1, _⟩ =>
    show win20_2.index ⟨(i 0).val / 2000, ht⟩ (1 : Fin 2) * 32 ≤ (i 1).val
      ∧ (i 1).val < win20_2.index ⟨(i 0).val / 2000, ht⟩ (1 : Fin 2) * 32 + 32
    omega

/-! ## The array -/

/-- When the region is left, its output array is the residual mix of its two input arrays as it found them. -/
theorem final (V : (c : Dev nD) → (b : Ref sig .tc) → Buf (Elt F) ((c : Thread nD τ).loc b)) (c : Dev nD) :
    (dat20 V c).arrAt 2 cfg20.N = Cert.Spec.mix (F := F) (V c (Pipeline.arrRef spec20 0)) (V c (Pipeline.arrRef spec20 1)) :=
  (dat20 V c).arrAt_eq_of_cover 2 _ (fun t _ => flushed_eq V c t) cover

end Cert.KernelIdeal.Mix20

end
-- ==== Proof.Walk20.lean ====
/-
  One diffusion step of the kernel program, number 10 of its second diffusion: host stretch 20 gathers the current
  features along the edges, scales them by the edge weights and scatter-adds them at the destination nodes (the
  convolution), and region 20 mixes the result with the features the diffusion started from.  Read through the fold of
  buffer contents: the region's output array when it is left is one `Spec.step` of the buffers as they were before the
  stretch, and every buffer neither the stretch nor the region writes is as it was.
-/
import proofs.«104874_j7885559956094_2_alg».proof.Proof.Spec
import proofs.«104874_j7885559956094_2_alg».proof.Proof.Gen.KernelIdeal.Frame
import proofs.«104874_j7885559956094_2_alg».proof.Proof.Mix20
import Idealize.ShloMosaic.Lib.StableHlo.Run

set_option maxRecDepth 16384

noncomputable section

namespace Cert.KernelIdeal.Walk20

open Cert.KernelIdeal Cert.KernelIdeal.Gen Idealize.ShloMosaic Idealize.ShloMosaic.TcCoe Idealize.SL.Sem Idealize.ShloMosaic.StableHlo

variable {F : FTy → Type} [FloatOps F]

/-- The buffers host stretch 20 writes. -/
abbrev written : List (Ref sig .tc) := [main_c_62, main_v293, main_v294, main_c_63, main_v295, main_v296, main_v297, main_v298, main_v299, main_v300, main_v301, main_v302, main_cst_64, main_v303, main_v304, main_v305]

/-- Stretch 20 leaves in its last buffer the convolution of the buffers it reads. -/
theorem conv_eq (V : Valuation τ sig (Elt F)) :
    StableHlo.after hostOps20 V (Proc.devRef .tc main_v305)
      = Cert.Spec.conv (F := F) (V (Proc.devRef .tc main_v1)) (V (Proc.devRef .tc main_v3)) (V (Proc.devRef .tc main_v25)) (V (Proc.devRef .tc main_v292)) := by
  after_results_simp <;> rfl

/-- Each operation of the stretch writes one of the listed buffers. -/
theorem writes_sub : (hostOps20 : List (HloOp τ sig (Elt F))).Forall fun op => op.writes ⊆ (written.map (Proc.devRef (τ := τ) .tc)).toFinset := by
  simp only [hostOps20, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the stretch does not write is unchanged by it. -/
theorem keep_host (V : Valuation τ sig (Elt F)) (r : Ref sig .tc) (hr : r ∉ written) :
    StableHlo.after hostOps20 V (Proc.devRef .tc r) = V (Proc.devRef .tc r) :=
  StableHlo.after_of_writes_sub _ V writes_sub hr

/-- A residual mix whose first operand is a convolution is one diffusion step. -/
theorem mix_is_step {a b h0 h : Cert.Spec.Nodes F} {s d : Cert.Spec.EdgeIx F} {w : Cert.Spec.EdgeW F}
    (ha : a = Cert.Spec.conv s d w h) (hb : b = h0) : Cert.Spec.mix a b = Cert.Spec.step s d w h0 h := by
  subst ha hb; rfl

variable (m : (ℓ : Loc nD τ sig) → Buf (Elt F) ℓ) (ρ : Dev nD → PrngReg)

/-- A buffer that is neither written by the stretch nor an array of the region is, when the region is left, as it was
    before the stretch. -/
theorem keep (c : Dev nD) (r : Ref sig .tc) (hr : r ∉ written) (hne : ∀ w, Pipeline.arrRef spec20 w ≠ r) :
    W41 m ρ c (Proc.devRef .tc r) = W39 m ρ c (Proc.devRef .tc r) :=
  (W41_of_ne m ρ c r hne).trans (keep_host (W39 m ρ c) r hr)

/-- The anchor of the diffusion, the region's second input, is left as entered. -/
theorem keep_anchor (c : Dev nD) :
    W41 m ρ c (Proc.devRef .tc main_v166) = W39 m ρ c (Proc.devRef .tc main_v166) :=
  ((W41_arr m ρ c 1).trans (((dat20 (V40 m ρ) c).arrAt_in 1 rfl _).trans (A_eq20 (V40 m ρ) c 1))).trans
    (keep_host (W39 m ρ c) main_v166 (by decide))

/-- The region's output array when it is left: one diffusion step of the buffers as they were before the stretch. -/
theorem out (c : Dev nD) :
    W41 m ρ c (Proc.devRef .tc main_v306)
      = Cert.Spec.step (F := F) (W39 m ρ c (Proc.devRef .tc main_v1)) (W39 m ρ c (Proc.devRef .tc main_v3)) (W39 m ρ c (Proc.devRef .tc main_v25))
          (W39 m ρ c (Proc.devRef .tc main_v166)) (W39 m ρ c (Proc.devRef .tc main_v292)) :=
  (W41_arr m ρ c 2).trans ((Cert.KernelIdeal.Mix20.final (V40 m ρ) c).trans
    (mix_is_step (conv_eq (W39 m ρ c)) (keep_host (W39 m ρ c) main_v166 (by decide))))

end Cert.KernelIdeal.Walk20

end
-- ==== Proof.MlpCell.lean ====
/-
  The perceptron of one entry, on the extended reals.

  An entry `x` of the node features, followed by the six numbers `e` attached to its column, is a row of seven
  numbers.  The first layer multiplies the row into the 7 x 9 matrix `W1` and adds `b1`; spelt with the entry's
  own term first, hidden unit `j` is `x * W1 0 j + (sum over k of e k * W1 (k+1) j + b1 j)`.  After a maximum with
  `0` the second layer contracts the nine hidden units with the column `W2` and adds `b2`.
  Addition on the extended reals is associative and commutative, and nothing here distributes a product over a
  sum, so no finiteness is needed to regroup the first layer's sum.
-/
import Mathlib.Data.EReal.Basic
import Mathlib.Algebra.BigOperators.Fin

noncomputable section

namespace Cert.Spec

open scoped BigOperators

/-- One entry through the two layers. -/
def cell (x : EReal) (e : Fin 6 → EReal) (W1 : Fin 7 → Fin 9 → EReal) (b1 : Fin 9 → EReal) (W2 : Fin 9 → EReal)
    (b2 : EReal) : EReal :=
  (∑ j : Fin 9, max (x * W1 0 j + ((∑ k : Fin 6, e k * W1 k.succ j) + b1 j)) 0 * W2 j) + b2

/-- The first layer as the host computes it — the whole row of seven contracted at once, then the bias — is the
    same number: split off the row's first term and regroup. -/
theorem hidden_regroup (x : EReal) (e : Fin 6 → EReal) (W1 : Fin 7 → Fin 9 → EReal) (b1 : Fin 9 → EReal) (j : Fin 9) :
    (∑ k : Fin 7, (Fin.cons x e : Fin 7 → EReal) k * W1 k j) + b1 j
      = x * W1 0 j + ((∑ k : Fin 6, e k * W1 k.succ j) + b1 j) := by
  rw [Fin.sum_univ_succ, add_assoc]
  simp only [Fin.cons_zero, Fin.cons_succ]

end Cert.Spec

end
-- ==== Proof.MlpRefIdx.lean ====
/-
  The layout and contraction operations of the per-entry perceptron, each read at explicit coordinates.

  The host lays the 100000 x 32 entries out as 3200000 rows, entry `(n, ch)` on row `ch * 100000 + n`.  Read at that
  row, the one-column piece is the entry itself and the six-column piece is row `ch` of the 32 x 6 table, so the
  concatenated row of seven is the entry followed by the six numbers.  A contraction over one axis is the sum over
  that axis of the products; a bias broadcast along the rows reads the bias at the column; the zero splat reads 0.
-/
import proofs.«104874_j7885559956094_2_alg».proof.Proof.Gen.ReferenceIdeal
import Idealize.ShloMosaic.Lib.Pipeline.Value
import Idealize.ShloMosaic.Lib.ValueIdx
import Idealize.ShloMosaic.PureOps.Ideal.Laws

noncomputable section

namespace Cert.Spec.MlpRef

open Cert.ReferenceIdeal Cert.ReferenceIdeal.Gen Idealize.ShloMosaic Idealize.ShloMosaic.ValueIdx
open scoped BigOperators

/-- Row `ch * 100000 + n` of the 3200000 rows: entry `(n, ch)` in the column-major layout. -/
abbrev row (ch : Fin 32) (n : Fin 100000) : Fin 3200000 :=
  ⟨ch.val * 100000 + n.val, by have h0 := ch.isLt; have h1 := n.isLt; omega⟩

section Layout
variable {α : Type}

/-- The reshape 3200000 x 1 → 32 x 100000 followed by the transpose to 100000 x 32, read at `(n, ch)`, is row
    `ch * 100000 + n` of the column. -/
theorem outer_apply (y : S3200000x1.Idx → α) (hc : S3200000x1.ShapeCasts S32x100000)
    (ht : S32x100000.Transposes [1, 0] S100000x32) (n : Fin 100000) (ch : Fin 32) :
    transpose S100000x32 [1, 0] (shapeCast S32x100000 y hc) ht (ix2 n ch) = y (ix2 (row ch n) (0 : Fin 1)) := by
  rw [transpose_apply [1, 0] _ ht (ix2 n ch) (ix2 ch n) (fun b => match b with
    | ⟨0, _⟩ => rfl
    | ⟨1, _⟩ => rfl)]
  exact shapeCast_apply y hc (ix2 ch n) (ix2 (row ch n) (0 : Fin 1)) (by
    rw [Shape.rowMajor_val_two, Shape.rowMajor_val_two]
    show (ch.val * 100000 + n.val) * 1 + 0 = ch.val * 100000 + n.val
    omega)

/-- The transpose to 32 x 100000 followed by the reshape to one column, read at row `ch * 100000 + n`, is entry
    `(n, ch)`. -/
theorem left_apply (h : S100000x32.Idx → α) (ht : S100000x32.Transposes [1, 0] S32x100000)
    (hc : S32x100000.ShapeCasts S3200000x1) (n : Fin 100000) (ch : Fin 32) :
    shapeCast S3200000x1 (transpose S32x100000 [1, 0] h ht) hc (ix2 (row ch n) (0 : Fin 1)) = h (ix2 n ch) := by
  rw [shapeCast_apply _ hc (ix2 (row ch n) (0 : Fin 1)) (ix2 ch n) (by
    rw [Shape.rowMajor_val_two, Shape.rowMajor_val_two]
    show ch.val * 100000 + n.val = (ch.val * 100000 + n.val) * 1 + 0
    omega)]
  exact transpose_apply [1, 0] h ht (ix2 ch n) (ix2 n ch) (fun b => match b with
    | ⟨0, _⟩ => rfl
    | ⟨1, _⟩ => rfl)

/-- The 32 x 6 table broadcast along the nodes and reshaped to six columns, read at row `ch * 100000 + n` and
    column `k`, is the table at `(ch, k)`. -/
theorem right_apply (emb : S32x6.Idx → α)
    (hb : S32x6.BroadcastsInDim S32x100000x6 (![0, 2] : Fin 2 → Fin S32x100000x6.rank))
    (hc : S32x100000x6.ShapeCasts S3200000x6) (n : Fin 100000) (ch : Fin 32) (k : Fin 6) :
    shapeCast S3200000x6 (broadcastInDim S32x100000x6 ![0, 2] hb emb) hc (ix2 (row ch n) k) = emb (ix2 ch k) := by
  rw [shapeCast_apply _ hc (ix2 (row ch n) k) (ix3 ch n k) (by
    rw [Shape.rowMajor_val_three, Shape.rowMajor_val_two]
    show (ch.val * 100000 + n.val) * 6 + k.val = (ch.val * 100000 + n.val) * 6 + k.val
    rfl)]
  exact broadcastInDim_apply _ hb emb (ix3 ch n k) (ix2 ch k) (fun a => match a with
    | ⟨0, _⟩ => by show ch.val = if (32 : Nat) = 1 then 0 else ch.val; rw [if_neg (by decide)]
    | ⟨1, _⟩ => by show k.val = if (6 : Nat) = 1 then 0 else k.val; rw [if_neg (by decide)])

/-- Column 0 of the concatenation is the one-column piece. -/
theorem cat_zero (x₁ : S3200000x1.Idx → α) (x₂ : S3200000x6.Idx → α)
    (hcat : Shape.Concatenates [S3200000x1, S3200000x6] S3200000x7 1) (q : Fin 3200000) :
    concatenate S3200000x7 1 [⟨S3200000x1, x₁⟩, ⟨S3200000x6, x₂⟩] hcat (ix2 q (0 : Fin 7)) = x₁ (ix2 q (0 : Fin 1)) :=
  concatenate_pair_apply_left (1 : Fin S3200000x7.rank) x₁ x₂ hcat (ix2 q (0 : Fin 7)) rfl (ix2 q (0 : Fin 1))
    (fun b => match b with
      | ⟨0, _⟩ => rfl
      | ⟨1, _⟩ => rfl)

/-- Column `k + 1` of the concatenation is column `k` of the six-column piece. -/
theorem cat_succ (x₁ : S3200000x1.Idx → α) (x₂ : S3200000x6.Idx → α)
    (hcat : Shape.Concatenates [S3200000x1, S3200000x6] S3200000x7 1) (q : Fin 3200000) (k : Fin 6) :
    concatenate S3200000x7 1 [⟨S3200000x1, x₁⟩, ⟨S3200000x6, x₂⟩] hcat (ix2 q k.succ) = x₂ (ix2 q k) :=
  concatenate_pair_apply_right (1 : Fin S3200000x7.rank) x₁ x₂ hcat (ix2 q k.succ) rfl rfl (ix2 q k)
    (fun b hb => match b, hb with
      | ⟨0, _⟩, _ => rfl
      | ⟨1, _⟩, hb => absurd rfl hb)
    (by show k.val + 1 = k.succ.val; rw [Fin.val_succ])

/-- The concatenated row of entry `(n, ch)`: the entry, then row `ch` of the table. -/
theorem row_apply (h : S100000x32.Idx → α) (emb : S32x6.Idx → α)
    (ht : S100000x32.Transposes [1, 0] S32x100000) (hc : S32x100000.ShapeCasts S3200000x1)
    (hb : S32x6.BroadcastsInDim S32x100000x6 (![0, 2] : Fin 2 → Fin S32x100000x6.rank))
    (hc6 : S32x100000x6.ShapeCasts S3200000x6)
    (hcat : Shape.Concatenates [S3200000x1, S3200000x6] S3200000x7 1) (n : Fin 100000) (ch : Fin 32) (k : Fin 7) :
    concatenate S3200000x7 1
        [⟨S3200000x1, shapeCast S3200000x1 (transpose S32x100000 [1, 0] h ht) hc⟩,
         ⟨S3200000x6, shapeCast S3200000x6 (broadcastInDim S32x100000x6 ![0, 2] hb emb) hc6⟩] hcat (ix2 (row ch n) k)
      = (Fin.cons (h (ix2 n ch)) (fun k => emb (ix2 ch k)) : Fin 7 → α) k := by
  refine Fin.cases ?_ (fun k' => ?_) k
  · rw [cat_zero, left_apply, Fin.cons_zero]
  · rw [cat_succ, right_apply, Fin.cons_succ]

/-- The first bias, made a row and broadcast along the 3200000 rows, reads the bias at the column. -/
theorem bias1_apply (b1 : S9.Idx → α) (h1 : S9.BroadcastsInDim S1x9 (![1] : Fin 1 → Fin S1x9.rank))
    (h2 : S1x9.BroadcastsInDim S3200000x9 (![0, 1] : Fin 2 → Fin S3200000x9.rank)) (q : Fin 3200000) (j : Fin 9) :
    broadcastInDim S3200000x9 ![0, 1] h2 (broadcastInDim S1x9 ![1] h1 b1) (ix2 q j) = b1 (ix1 j) := by
  rw [broadcastInDim_apply _ h2 _ (ix2 q j) (ix2 (0 : Fin 1) j) (fun a => match a with
    | ⟨0, _⟩ => by show 0 = if (1 : Nat) = 1 then 0 else q.val; rw [if_pos rfl]
    | ⟨1, _⟩ => by show j.val = if (9 : Nat) = 1 then 0 else j.val; rw [if_neg (by decide)])]
  exact broadcastInDim_apply _ h1 b1 (ix2 (0 : Fin 1) j) (ix1 j) (fun a => match a with
    | ⟨0, _⟩ => by show j.val = if (9 : Nat) = 1 then 0 else j.val; rw [if_neg (by decide)])

/-- The second bias, made 1 x 1 and broadcast along the 3200000 rows, reads the one bias. -/
theorem bias2_apply (b2 : S1.Idx → α) (h1 : S1.BroadcastsInDim S1x1 (![1] : Fin 1 → Fin S1x1.rank))
    (h2 : S1x1.BroadcastsInDim S3200000x1 (![0, 1] : Fin 2 → Fin S3200000x1.rank)) (q : Fin 3200000) :
    broadcastInDim S3200000x1 ![0, 1] h2 (broadcastInDim S1x1 ![1] h1 b2) (ix2 q (0 : Fin 1)) = b2 (ix1 (0 : Fin 1)) := by
  rw [broadcastInDim_apply _ h2 _ (ix2 q (0 : Fin 1)) (ix2 (0 : Fin 1) (0 : Fin 1)) (fun a => match a with
    | ⟨0, _⟩ => by show 0 = if (1 : Nat) = 1 then 0 else q.val; rw [if_pos rfl]
    | ⟨1, _⟩ => by show 0 = if (1 : Nat) = 1 then 0 else 0; rw [if_pos rfl])]
  exact broadcastInDim_apply _ h1 b2 (ix2 (0 : Fin 1) (0 : Fin 1)) (ix1 (0 : Fin 1)) (fun a => match a with
    | ⟨0, _⟩ => by show 0 = if (1 : Nat) = 1 then 0 else 0; rw [if_pos rfl])

end Layout

/-- The zero splat reads 0 everywhere. -/
theorem zero_apply (h0 : S_.BroadcastsInDim S3200000x9 (![] : Fin 0 → Fin S3200000x9.rank)) (i : S3200000x9.Idx) :
    broadcastInDim S3200000x9 ![] h0 (constant (F := Ideal) S_ .f32 0x00000000#32) i = (0 : EReal) := by
  rw [broadcastInDim_apply _ h0 _ i ix0 (fun a => a.elim0), constant_apply, Ideal.ofBits_zero_f32]

end Cert.Spec.MlpRef

end
-- ==== Proof.MlpRefDot.lean ====
/-
  The two contractions of the per-entry perceptron read at explicit coordinates, on the extended reals: a
  contraction over one axis, read at row `q` and column `j`, is the sum over that axis of the left operand at
  `(q, k)` times the right operand at `(k, j)`.
-/
import proofs.«104874_j7885559956094_2_alg».proof.Proof.Gen.ReferenceIdeal
import Idealize.ShloMosaic.Lib.Pipeline.Value
import Idealize.ShloMosaic.Lib.ValueIdx
import Idealize.ShloMosaic.PureOps.Ideal.Laws

noncomputable section

namespace Cert.Spec.MlpRef

open Cert.ReferenceIdeal Cert.ReferenceIdeal.Gen Idealize.ShloMosaic Idealize.ShloMosaic.ValueIdx
open scoped BigOperators

/-! ## Where the first contraction reads its operands -/

theorem dot1_lhs0 (i : S3200000x9.Idx) (q : dot_S3200000x7_S7x9_S3200000x9_1_0_0_1_n_n.contr.Idx) : (dot_S3200000x7_S7x9_S3200000x9_1_0_0_1_n_n.lhsIdx i q 0).val = (i 0).val := by
  unfold DotDims.lhsIdx
  rw [dif_neg (show ¬(0 : Fin S3200000x7.rank) ∈ dot_S3200000x7_S7x9_S3200000x9_1_0_0_1_n_n.lhsBatch by decide), dif_pos (show (0 : Fin S3200000x7.rank) ∈ dot_S3200000x7_S7x9_S3200000x9_1_0_0_1_n_n.lhsNonContracting by decide)]
  rfl
theorem dot1_lhs1 (i : S3200000x9.Idx) (q : dot_S3200000x7_S7x9_S3200000x9_1_0_0_1_n_n.contr.Idx) : (dot_S3200000x7_S7x9_S3200000x9_1_0_0_1_n_n.lhsIdx i q 1).val = (q ⟨0, by decide⟩).val :=
  dot_S3200000x7_S7x9_S3200000x9_1_0_0_1_n_n.lhsIdx_val_of_single rfl i q
theorem dot1_rhs0 (i : S3200000x9.Idx) (q : dot_S3200000x7_S7x9_S3200000x9_1_0_0_1_n_n.contr.Idx) : (dot_S3200000x7_S7x9_S3200000x9_1_0_0_1_n_n.rhsIdx i q 0).val = (q ⟨0, by decide⟩).val :=
  dot_S3200000x7_S7x9_S3200000x9_1_0_0_1_n_n.rhsIdx_val_of_single rfl i q
theorem dot1_rhs1 (i : S3200000x9.Idx) (q : dot_S3200000x7_S7x9_S3200000x9_1_0_0_1_n_n.contr.Idx) : (dot_S3200000x7_S7x9_S3200000x9_1_0_0_1_n_n.rhsIdx i q 1).val = (i 1).val := by
  unfold DotDims.rhsIdx
  rw [dif_neg (show ¬(1 : Fin S7x9.rank) ∈ dot_S3200000x7_S7x9_S3200000x9_1_0_0_1_n_n.rhsBatch by decide), dif_pos (show (1 : Fin S7x9.rank) ∈ dot_S3200000x7_S7x9_S3200000x9_1_0_0_1_n_n.rhsNonContracting by decide)]
  rfl

/-- The first layer's contraction at row `q`, hidden unit `j`: the sum over the seven columns. -/
theorem dot1_apply (X : (⟨S3200000x7, .f32⟩ : BufTy).Contents (Elt Ideal)) (W : (⟨S7x9, .f32⟩ : BufTy).Contents (Elt Ideal))
    (q : Fin 3200000) (j : Fin 9) :
    Host.dotGeneral (F := Ideal) (φ₁ := .f32) (φ₂ := .f32) dot_S3200000x7_S7x9_S3200000x9_1_0_0_1_n_n none X W (ix2 q j) = ∑ k : Fin 7, X (ix2 q k) * W (ix2 k j) := by
  simp only [Host.dotGeneral]
  rw [Ideal.dotGeneral_apply, ← Equiv.sum_comp (ValueIdx.contrEquiv1 dot_S3200000x7_S7x9_S3200000x9_1_0_0_1_n_n 7 rfl rfl).symm]
  refine Finset.sum_congr rfl fun k _ => ?_
  have hk := ValueIdx.contrEquiv1_symm_val dot_S3200000x7_S7x9_S3200000x9_1_0_0_1_n_n 7 rfl rfl k
  have el : dot_S3200000x7_S7x9_S3200000x9_1_0_0_1_n_n.lhsIdx (ix2 q j) ((ValueIdx.contrEquiv1 dot_S3200000x7_S7x9_S3200000x9_1_0_0_1_n_n 7 rfl rfl).symm k) = ix2 q k := funext fun a => Fin.ext (by
    match a with
    | ⟨0, _⟩ => exact dot1_lhs0 _ _
    | ⟨1, _⟩ => exact (dot1_lhs1 _ _).trans hk)
  have er : dot_S3200000x7_S7x9_S3200000x9_1_0_0_1_n_n.rhsIdx (ix2 q j) ((ValueIdx.contrEquiv1 dot_S3200000x7_S7x9_S3200000x9_1_0_0_1_n_n 7 rfl rfl).symm k) = ix2 k j := funext fun a => Fin.ext (by
    match a with
    | ⟨0, _⟩ => exact (dot1_rhs0 _ _).trans hk
    | ⟨1, _⟩ => exact dot1_rhs1 _ _)
  rw [el, er]

/-! ## Where the second contraction reads its operands -/

theorem dot2_lhs0 (i : S3200000x1.Idx) (q : dot_S3200000x9_S9x1_S3200000x1_1_0_0_1_n_n.contr.Idx) : (dot_S3200000x9_S9x1_S3200000x1_1_0_0_1_n_n.lhsIdx i q 0).val = (i 0).val := by
  unfold DotDims.lhsIdx
  rw [dif_neg (show ¬(0 : Fin S3200000x9.rank) ∈ dot_S3200000x9_S9x1_S3200000x1_1_0_0_1_n_n.lhsBatch by decide), dif_pos (show (0 : Fin S3200000x9.rank) ∈ dot_S3200000x9_S9x1_S3200000x1_1_0_0_1_n_n.lhsNonContracting by decide)]
  rfl
theorem dot2_lhs1 (i : S3200000x1.Idx) (q : dot_S3200000x9_S9x1_S3200000x1_1_0_0_1_n_n.contr.Idx) : (dot_S3200000x9_S9x1_S3200000x1_1_0_0_1_n_n.lhsIdx i q 1).val = (q ⟨0, by decide⟩).val :=
  dot_S3200000x9_S9x1_S3200000x1_1_0_0_1_n_n.lhsIdx_val_of_single rfl i q
theorem dot2_rhs0 (i : S3200000x1.Idx) (q : dot_S3200000x9_S9x1_S3200000x1_1_0_0_1_n_n.contr.Idx) : (dot_S3200000x9_S9x1_S3200000x1_1_0_0_1_n_n.rhsIdx i q 0).val = (q ⟨0, by decide⟩).val :=
  dot_S3200000x9_S9x1_S3200000x1_1_0_0_1_n_n.rhsIdx_val_of_single rfl i q
theorem dot2_rhs1 (i : S3200000x1.Idx) (q : dot_S3200000x9_S9x1_S3200000x1_1_0_0_1_n_n.contr.Idx) : (dot_S3200000x9_S9x1_S3200000x1_1_0_0_1_n_n.rhsIdx i q 1).val = (i 1).val := by
  unfold DotDims.rhsIdx
  rw [dif_neg (show ¬(1 : Fin S9x1.rank) ∈ dot_S3200000x9_S9x1_S3200000x1_1_0_0_1_n_n.rhsBatch by decide), dif_pos (show (1 : Fin S9x1.rank) ∈ dot_S3200000x9_S9x1_S3200000x1_1_0_0_1_n_n.rhsNonContracting by decide)]
  rfl

/-- The second layer's contraction at row `q`: the sum over the nine hidden units. -/
theorem dot2_apply (Y : (⟨S3200000x9, .f32⟩ : BufTy).Contents (Elt Ideal)) (W : (⟨S9x1, .f32⟩ : BufTy).Contents (Elt Ideal))
    (q : Fin 3200000) :
    Host.dotGeneral (F := Ideal) (φ₁ := .f32) (φ₂ := .f32) dot_S3200000x9_S9x1_S3200000x1_1_0_0_1_n_n none Y W (ix2 q (0 : Fin 1)) = ∑ j : Fin 9, Y (ix2 q j) * W (ix2 j (0 : Fin 1)) := by
  simp only [Host.dotGeneral]
  rw [Ideal.dotGeneral_apply, ← Equiv.sum_comp (ValueIdx.contrEquiv1 dot_S3200000x9_S9x1_S3200000x1_1_0_0_1_n_n 9 rfl rfl).symm]
  refine Finset.sum_congr rfl fun k _ => ?_
  have hk := ValueIdx.contrEquiv1_symm_val dot_S3200000x9_S9x1_S3200000x1_1_0_0_1_n_n 9 rfl rfl k
  have el : dot_S3200000x9_S9x1_S3200000x1_1_0_0_1_n_n.lhsIdx (ix2 q (0 : Fin 1)) ((ValueIdx.contrEquiv1 dot_S3200000x9_S9x1_S3200000x1_1_0_0_1_n_n 9 rfl rfl).symm k) = ix2 q k := funext fun a => Fin.ext (by
    match a with
    | ⟨0, _⟩ => exact dot2_lhs0 _ _
    | ⟨1, _⟩ => exact (dot2_lhs1 _ _).trans hk)
  have er : dot_S3200000x9_S9x1_S3200000x1_1_0_0_1_n_n.rhsIdx (ix2 q (0 : Fin 1)) ((ValueIdx.contrEquiv1 dot_S3200000x9_S9x1_S3200000x1_1_0_0_1_n_n 9 rfl rfl).symm k) = ix2 k (0 : Fin 1) := funext fun a => Fin.ext (by
    match a with
    | ⟨0, _⟩ => exact (dot2_rhs0 _ _).trans hk
    | ⟨1, _⟩ => exact dot2_rhs1 _ _)
  rw [el, er]

end Cert.Spec.MlpRef

end
-- ==== Proof.MlpRef.lean ====
/-
  The host's per-entry perceptron read at one entry.

  Entry `(n, ch)` of the result sits on row `ch * 100000 + n` of the 3200000 rows.  On that row the concatenated
  input is the entry of `h` followed by row `ch` of the table; the first contraction plus its bias, regrouped by
  associativity so that the entry's own term comes first, is the hidden unit; the maximum with the zero splat is the
  maximum with 0; the second contraction plus its bias is the cell's output.
-/
import proofs.«104874_j7885559956094_2_alg».proof.Proof.Spec
import proofs.«104874_j7885559956094_2_alg».proof.Proof.MlpCell
import proofs.«104874_j7885559956094_2_alg».proof.Proof.MlpRefIdx
import proofs.«104874_j7885559956094_2_alg».proof.Proof.MlpRefDot

noncomputable section

namespace Cert.Spec.MlpRef

open Cert.ReferenceIdeal Cert.ReferenceIdeal.Gen Idealize.ShloMosaic Idealize.ShloMosaic.ValueIdx
open scoped BigOperators

/-- The perceptron array at entry `(n, ch)` is the cell of that entry of `h` and row `ch` of the table. -/
theorem mlp_apply (h : Cert.Spec.Nodes Ideal) (emb : (⟨S32x6, .f32⟩ : BufTy).Contents (Elt Ideal))
    (W1 : (⟨S7x9, .f32⟩ : BufTy).Contents (Elt Ideal)) (b1 : (⟨S9, .f32⟩ : BufTy).Contents (Elt Ideal))
    (W2 : (⟨S9x1, .f32⟩ : BufTy).Contents (Elt Ideal)) (b2 : (⟨S1, .f32⟩ : BufTy).Contents (Elt Ideal))
    (n : Fin 100000) (ch : Fin 32) :
    Cert.Spec.mlp (F := Ideal) h emb W1 b1 W2 b2 (ValueIdx.ix2 n ch)
      = Cert.Spec.cell (h (ValueIdx.ix2 n ch)) (fun k => emb (ValueIdx.ix2 ch k)) (fun k j => W1 (ValueIdx.ix2 k j))
          (fun j => b1 (ValueIdx.ix1 j)) (fun j => W2 (ValueIdx.ix2 j 0)) (b2 (ValueIdx.ix1 0)) := by
  unfold Cert.Spec.mlp Cert.Spec.cell
  -- the result's entry is row `ch * 100000 + n` of the last column; open the second layer there
  rw [outer_apply, addf_apply, dot2_apply, bias2_apply]
  refine congrArg (· + b2 (ix1 (0 : Fin 1))) (Finset.sum_congr rfl fun j _ => ?_)
  refine congrArg (· * W2 (ix2 j (0 : Fin 1))) ?_
  -- hidden unit `j`: the maximum with 0 of the first layer
  rw [maximumf_apply, zero_apply, addf_apply, dot1_apply, bias1_apply]
  refine congrArg (max · (0 : EReal)) ?_
  -- the first layer, regrouped so that the entry's own term comes first
  refine Eq.trans ?_ (Cert.Spec.hidden_regroup (h (ix2 n ch)) (fun k => emb (ix2 ch k)) (fun k j => W1 (ix2 k j))
    (fun j => b1 (ix1 j)) j)
  refine congrArg (· + b1 (ix1 j)) (Finset.sum_congr rfl fun k _ => ?_)
  rw [row_apply]

end Cert.Spec.MlpRef

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«104874_j7885559956094_2_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.Mlp10Col.lean ====
/-
  One column of the block through the two layers, on the extended reals.

  For a column `xc` of 400 entries, the first row `w` of the first layer's matrix laid out as one row of nine, and one
  row `e` of nine numbers (the column's share of the first layer, its bias included), the body forms the 400 x 9 array
  `max (xc r * w j + e j) 0`, multiplies it into the 9 x 1 matrix `W2` starting from zeros, and adds `b2`.
  Entry `r` of the result is `(sum over j of max (xc r * w j + e j) 0 * W2 j) + b2`.
-/
import proofs.«104874_j7885559956094_2_alg».proof.Proof.Gen.KernelIdeal.Skeleton
import proofs.«104874_j7885559956094_2_alg».proof.Proof.LibDenseRows
import proofs.«104874_j7885559956094_2_alg».proof.Proof.LibBlockRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Mlp10

open Cert.KernelIdeal Cert.KernelIdeal.Gen Idealize.ShloMosaic Idealize.ShloMosaic.TcCoe Idealize.SL.Sem
open Idealize.ShloMosaic.ValueIdx Cert.DenseRows Cert.LibBlockRows

/-- The column computation, as the body spells it. -/
def col (xc : FVec Ideal S400x1 .f32) (w e : FVec Ideal S1x9 .f32) (W2 : FVec Ideal S9x1 .f32) (b2 : FVec Ideal S1 .f32) :
    FVec Ideal S400x1 .f32 :=
  addf
    (matmul dot_S400x9_S9x1_S400x1_1_0_0_1_n_n none
      (truncf .bf16
        (maximumf
          (addf (mulf (broadcastTo S400x9 xc broadcasts_S400x1_S400x9) (broadcastTo S400x9 w broadcasts_S1x9_S400x9))
            (broadcastTo S400x9 e broadcasts_S1x9_S400x9))
          (broadcast S400x9 (Scalar.ofBits .f32 0x00000000#32)))
        bitsLt_bf16_f32)
      (truncf .bf16 W2 bitsLt_bf16_f32) (constant S400x1 .f32 0x00000000#32))
    (broadcastTo S400x1 (shapeCast S1x1 b2 shapeCasts_S1_S1x1) broadcasts_S1x1_S400x1)

/-- Entry `r` of the column. -/
theorem col_apply (xc : FVec Ideal S400x1 .f32) (w e : FVec Ideal S1x9 .f32) (W2 : FVec Ideal S9x1 .f32) (b2 : FVec Ideal S1 .f32)
    (r : Fin 400) :
    col xc w e W2 b2 (ix2 r (0 : Fin 1))
      = (∑ j : Fin 9, max (xc (ix2 r (0 : Fin 1)) * w (ix2 (0 : Fin 1) j) + e (ix2 (0 : Fin 1) j)) 0 * W2 (ix2 j (0 : Fin 1)))
          + b2 (ix1 (0 : Fin 1)) := by
  unfold col
  show FloatOps.matmul (DotDims.plain 400 9 1) none _ _ (constant (F := Ideal) S400x1 .f32 0x00000000#32) (ix2 r (0 : Fin 1))
      + broadcastTo S400x1 (shapeCast S1x1 b2 shapeCasts_S1_S1x1) broadcasts_S1x1_S400x1 (ix2 r (0 : Fin 1)) = _
  rw [Ideal.matmul_constant_zero_apply, plain_contr_sum, row_spread, shapeCast_a_1a_apply]
  refine congrArg (· + b2 (ix1 (0 : Fin 1))) (Finset.sum_congr rfl fun j _ => ?_)
  show max (broadcastTo S400x9 xc broadcasts_S400x1_S400x9 (ix2 r j) * broadcastTo S400x9 w broadcasts_S1x9_S400x9 (ix2 r j)
        + broadcastTo S400x9 e broadcasts_S1x9_S400x9 (ix2 r j)) (Ideal.ofBits .f32 0x00000000#32) * W2 (ix2 j (0 : Fin 1)) = _
  rw [column_spread, row_spread, row_spread, Ideal.ofBits_zero_f32]

end Cert.KernelIdeal.Mlp10

end
-- ==== Proof.Mlp10Cols.lean ====
/-
  The thirty-two columns of the block the body stores, and the block entry by entry.

  The body cuts the loaded 400 x 32 block into its thirty-two columns, runs the column computation on each — with the
  first row of the first layer's matrix and row `K` of the 32 x 9 array `table · (rows 1 to 6 of the matrix) + bias` —
  and lays the thirty-two results side by side. Entry `(r, K)` of the result is therefore the perceptron of entry
  `(r, K)` of the block with row `K` of the table: the first layer's hidden unit `j` is
  `x (r, K) * W1 (0, j) + (sum over k of table (K, k) * W1 (k + 1, j) + b1 j)`, in that association.
-/
import proofs.«104874_j7885559956094_2_alg».proof.Proof.Mlp10Col
import proofs.«104874_j7885559956094_2_alg».proof.Proof.MlpCell

noncomputable section

namespace Cert.KernelIdeal.Mlp10

open Cert.KernelIdeal Cert.KernelIdeal.Gen Idealize.ShloMosaic Idealize.ShloMosaic.TcCoe Idealize.SL.Sem
open Idealize.ShloMosaic.ValueIdx Cert.DenseRows

/-- Column `K` of the 400 x 32 block is a slice of it along the second axis. -/
theorem slx (K : Fin 32) : S400x32.Slices ![0, K.val] S400x1 := by revert K; decide
/-- Row `K` of a 32 x 9 array is a slice of it along the first axis. -/
theorem sle (K : Fin 32) : S32x9.Slices ![K.val, 0] S1x9 := by revert K; decide

/-- Column `K` of the body's result: the column computation at column `K` of the loaded block, the first row of the
    first layer's matrix, and row `K` of the 32 x 9 array the body forms from the table, the rest of the matrix and the bias. -/
def colAt (K : Fin 32) (x0 : Vec Ideal S400x32 .f32) (x1 : Vec Ideal S32x6 .f32) (x2 : Vec Ideal S7x9 .f32) (x3 : Vec Ideal S9 .f32) (x4 : Vec Ideal S9x1 .f32) (x5 : Vec Ideal S1 .f32) : FVec Ideal S400x1 .f32 :=
  col (extractStridedSlice S400x1 ![0, K.val] (k10_pay3 x0) (slx K)) (shapeCast S1x9 (k10_pay4 x2) shapeCasts_S9_S1x9)
    (extractStridedSlice S1x9 ![K.val, 0] (k10_pay5 x1 x2 x3) (sle K)) x4 x5

theorem colEq_0 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay6 x0 x1 x2 x3 x4 x5 = colAt 0 x0 x1 x2 x3 x4 x5 := rfl
theorem colEq_1 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay9 x5 (k10_pay7 x0 x1 x2 x3) (k10_pay8 x4) (constant S400x1 .f32 0x00000000#32) = colAt 1 x0 x1 x2 x3 x4 x5 := rfl
theorem colEq_2 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay10 (k10_pay3 x0) x4 x5 (k10_pay4 x2) (k10_pay5 x1 x2 x3) = colAt 2 x0 x1 x2 x3 x4 x5 := rfl
theorem colEq_3 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay11 (k10_pay3 x0) x4 x5 (k10_pay4 x2) (k10_pay5 x1 x2 x3) = colAt 3 x0 x1 x2 x3 x4 x5 := rfl
theorem colEq_4 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay12 (k10_pay3 x0) x4 x5 (k10_pay4 x2) (k10_pay5 x1 x2 x3) = colAt 4 x0 x1 x2 x3 x4 x5 := rfl
theorem colEq_5 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay15 x4 x5 (k10_pay5 x1 x2 x3) (k10_pay13 (k10_pay3 x0)) (k10_pay14 (k10_pay4 x2)) = colAt 5 x0 x1 x2 x3 x4 x5 := rfl
theorem colEq_6 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay16 (k10_pay3 x0) x4 x5 (k10_pay4 x2) (k10_pay5 x1 x2 x3) = colAt 6 x0 x1 x2 x3 x4 x5 := rfl
theorem colEq_7 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay17 (k10_pay3 x0) x4 x5 (k10_pay4 x2) (k10_pay5 x1 x2 x3) = colAt 7 x0 x1 x2 x3 x4 x5 := rfl
theorem colEq_8 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay19 x4 x5 (k10_pay18 (k10_pay3 x0) (k10_pay4 x2) (k10_pay5 x1 x2 x3)) = colAt 8 x0 x1 x2 x3 x4 x5 := rfl
theorem colEq_9 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay20 (k10_pay3 x0) x4 x5 (k10_pay4 x2) (k10_pay5 x1 x2 x3) = colAt 9 x0 x1 x2 x3 x4 x5 := rfl
theorem colEq_10 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay21 (k10_pay3 x0) x4 x5 (k10_pay4 x2) (k10_pay5 x1 x2 x3) = colAt 10 x0 x1 x2 x3 x4 x5 := rfl
theorem colEq_11 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay24 x5 (k10_pay22 (k10_pay3 x0) (k10_pay4 x2) (k10_pay5 x1 x2 x3)) (k10_pay23 x4) (constant S400x1 .f32 0x00000000#32) = colAt 11 x0 x1 x2 x3 x4 x5 := rfl
theorem colEq_12 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay25 (k10_pay3 x0) x4 x5 (k10_pay4 x2) (k10_pay5 x1 x2 x3) = colAt 12 x0 x1 x2 x3 x4 x5 := rfl
theorem colEq_13 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay26 (k10_pay3 x0) x4 x5 (k10_pay4 x2) (k10_pay5 x1 x2 x3) = colAt 13 x0 x1 x2 x3 x4 x5 := rfl
theorem colEq_14 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay27 (k10_pay3 x0) x4 x5 (k10_pay4 x2) (k10_pay5 x1 x2 x3) = colAt 14 x0 x1 x2 x3 x4 x5 := rfl
theorem colEq_15 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay30 x4 x5 (k10_pay5 x1 x2 x3) (k10_pay28 (k10_pay3 x0)) (k10_pay29 (k10_pay4 x2)) = colAt 15 x0 x1 x2 x3 x4 x5 := rfl
theorem colEq_16 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay31 (k10_pay3 x0) x4 x5 (k10_pay4 x2) (k10_pay5 x1 x2 x3) = colAt 16 x0 x1 x2 x3 x4 x5 := rfl
theorem colEq_17 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay32 (k10_pay3 x0) x4 x5 (k10_pay4 x2) (k10_pay5 x1 x2 x3) = colAt 17 x0 x1 x2 x3 x4 x5 := rfl
theorem colEq_18 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay34 x4 x5 (k10_pay33 (k10_pay3 x0) (k10_pay4 x2) (k10_pay5 x1 x2 x3)) = colAt 18 x0 x1 x2 x3 x4 x5 := rfl
theorem colEq_19 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay35 (k10_pay3 x0) x4 x5 (k10_pay4 x2) (k10_pay5 x1 x2 x3) = colAt 19 x0 x1 x2 x3 x4 x5 := rfl
theorem colEq_20 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay36 (k10_pay3 x0) x4 x5 (k10_pay4 x2) (k10_pay5 x1 x2 x3) = colAt 20 x0 x1 x2 x3 x4 x5 := rfl
theorem colEq_21 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay39 x5 (k10_pay37 (k10_pay3 x0) (k10_pay4 x2) (k10_pay5 x1 x2 x3)) (k10_pay38 x4) (constant S400x1 .f32 0x00000000#32) = colAt 21 x0 x1 x2 x3 x4 x5 := rfl
theorem colEq_22 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay40 (k10_pay3 x0) x4 x5 (k10_pay4 x2) (k10_pay5 x1 x2 x3) = colAt 22 x0 x1 x2 x3 x4 x5 := rfl
theorem colEq_23 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay41 (k10_pay3 x0) x4 x5 (k10_pay4 x2) (k10_pay5 x1 x2 x3) = colAt 23 x0 x1 x2 x3 x4 x5 := rfl
theorem colEq_24 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay42 (k10_pay3 x0) x4 x5 (k10_pay4 x2) (k10_pay5 x1 x2 x3) = colAt 24 x0 x1 x2 x3 x4 x5 := rfl
theorem colEq_25 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay45 x4 x5 (k10_pay5 x1 x2 x3) (k10_pay43 (k10_pay3 x0)) (k10_pay44 (k10_pay4 x2)) = colAt 25 x0 x1 x2 x3 x4 x5 := rfl
theorem colEq_26 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay46 (k10_pay3 x0) x4 x5 (k10_pay4 x2) (k10_pay5 x1 x2 x3) = colAt 26 x0 x1 x2 x3 x4 x5 := rfl
theorem colEq_27 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay47 (k10_pay3 x0) x4 x5 (k10_pay4 x2) (k10_pay5 x1 x2 x3) = colAt 27 x0 x1 x2 x3 x4 x5 := rfl
theorem colEq_28 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay49 x4 x5 (k10_pay48 (k10_pay3 x0) (k10_pay4 x2) (k10_pay5 x1 x2 x3)) = colAt 28 x0 x1 x2 x3 x4 x5 := rfl
theorem colEq_29 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay50 (k10_pay3 x0) x4 x5 (k10_pay4 x2) (k10_pay5 x1 x2 x3) = colAt 29 x0 x1 x2 x3 x4 x5 := rfl
theorem colEq_30 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay51 (k10_pay3 x0) x4 x5 (k10_pay4 x2) (k10_pay5 x1 x2 x3) = colAt 30 x0 x1 x2 x3 x4 x5 := rfl
theorem colEq_31 (x0 : Vec Ideal S400x32 .f32) (x1 : Vec Ideal S32x6 .f32) (x2 : Vec Ideal S7x9 .f32) (x3 : Vec Ideal S9 .f32) (x4 : Vec Ideal S9x1 .f32) (x5 : Vec Ideal S1 .f32) :
    k10_pay1 x5 (k10_pay52 (k10_pay3 x0) (k10_pay4 x2) (k10_pay5 x1 x2 x3)) (k10_pay53 x4) (constant S400x1 .f32 0x00000000#32) = colAt 31 x0 x1 x2 x3 x4 x5 := rfl

/-- Thirty-two columns side by side have the shapes of a concatenation along the second axis. -/
theorem hcat (f : Fin 32 → FVec Ideal S400x1 .f32) :
    Shape.Concatenates ((List.ofFn fun n : Fin 32 => (⟨S400x1, f n⟩ : (s : Shape) × (s.Idx → Ideal .f32))).map (·.1)) S400x32 1 :=
  concatenates_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x32_d1

/-- The body's concatenation of its thirty-two columns, the columns given as a family. -/
theorem pay2_ofFn (f : Fin 32 → FVec Ideal S400x1 .f32) :
    k10_pay2 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31)
      = concatenate S400x32 1 (List.ofFn fun n : Fin 32 => (⟨S400x1, f n⟩ : (s : Shape) × (s.Idx → Ideal .f32))) (hcat f) := rfl

/-- Entry `(r, ch)` of the concatenation is entry `r` of column `ch`. -/
theorem pay2_apply (f : Fin 32 → FVec Ideal S400x1 .f32) (r : Fin 400) (ch : Fin 32) :
    k10_pay2 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (ix2 r ch) = f ch (ix2 r (0 : Fin 1)) := by
  rw [pay2_ofFn]
  refine concatenate_ofFn_unit_apply (t := S400x32) (s₁ := S400x1) (1 : Fin 2) f (hcat f) rfl rfl (ix2 r ch) ch rfl (ix2 r (0 : Fin 1)) fun b hb => ?_
  match b, hb with
  | ⟨0, _⟩, _ => rfl
  | ⟨1, _⟩, hb => exact absurd rfl hb

/-- Column `K` of the loaded block at row `r`. -/
theorem xcol_apply (x0 : Vec Ideal S400x32 .f32) (K : Fin 32) (r : Fin 400) :
    extractStridedSlice S400x1 ![0, K.val] (k10_pay3 x0) (slx K) (ix2 r (0 : Fin 1)) = x0 (ix2 r K) := by
  unfold k10_pay3
  rw [shapeCast_self]
  exact slice2_axis1_apply K.val x0 (slx K) r 0 K rfl

/-- The first row of the first layer's matrix, laid out as one row of nine. -/
theorem w1x_apply (x2 : Vec Ideal S7x9 .f32) (j : Fin 9) :
    shapeCast S1x9 (k10_pay4 x2) shapeCasts_S9_S1x9 (ix2 (0 : Fin 1) j) = x2 (ix2 (0 : Fin 7) j) := by
  unfold k10_pay4
  rw [shapeCast_a_1a_apply, shapeCast_1a_a_apply]
  exact slice2_axis0_apply 0 x2 slices_S7x9_o0_0_S1x9 0 j 0 rfl

/-- Row `K` of the 32 x 9 array: row `K` of the table through rows 1 to 6 of the first layer's matrix, plus the bias. -/
theorem emb_apply (x1 : Vec Ideal S32x6 .f32) (x2 : Vec Ideal S7x9 .f32) (x3 : Vec Ideal S9 .f32) (K : Fin 32) (j : Fin 9) :
    extractStridedSlice S1x9 ![K.val, 0] (k10_pay5 x1 x2 x3) (sle K) (ix2 (0 : Fin 1) j)
      = (∑ k : Fin 6, x1 (ix2 K k) * x2 (ix2 k.succ j)) + x3 (ix1 j) := by
  rw [slice2_axis0_apply K.val _ (sle K) 0 j K rfl]
  unfold k10_pay5
  show FloatOps.matmul (DotDims.plain 32 6 9) none (truncf .bf16 x1 bitsLt_bf16_f32)
        (truncf .bf16 (extractStridedSlice S6x9 ![1, 0] x2 slices_S7x9_o1_0_S6x9) bitsLt_bf16_f32)
        (constant (F := Ideal) S32x9 .f32 0x00000000#32) (ix2 K j)
      + broadcastTo S32x9 (shapeCast S1x9 x3 shapeCasts_S9_S1x9) broadcasts_S1x9_S32x9 (ix2 K j) = _
  rw [Ideal.matmul_constant_zero_apply, plain_contr_sum, castBroadcast_apply]
  refine congrArg (· + x3 (ix1 j)) (Finset.sum_congr rfl fun k _ => ?_)
  show x1 (ix2 K k) * extractStridedSlice S6x9 ![1, 0] x2 slices_S7x9_o1_0_S6x9 (ix2 k j) = _
  rw [slice2_axis0_apply 1 x2 slices_S7x9_o1_0_S6x9 k j k.succ (by rw [Fin.val_succ, Nat.add_comm])]

/-- Entry `r` of column `K` of the body's result is the perceptron of entry `(r, K)` of the block with row `K` of the table. -/
theorem colAt_apply (K : Fin 32) (x0 : Vec Ideal S400x32 .f32) (x1 : Vec Ideal S32x6 .f32) (x2 : Vec Ideal S7x9 .f32) (x3 : Vec Ideal S9 .f32) (x4 : Vec Ideal S9x1 .f32) (x5 : Vec Ideal S1 .f32) (r : Fin 400) :
    colAt K x0 x1 x2 x3 x4 x5 (ix2 r (0 : Fin 1))
      = Cert.Spec.cell (x0 (ix2 r K)) (fun k => x1 (ix2 K k)) (fun k j => x2 (ix2 k j)) (fun j => x3 (ix1 j))
          (fun j => x4 (ix2 j (0 : Fin 1))) (x5 (ix1 (0 : Fin 1))) := by
  unfold colAt
  rw [col_apply, xcol_apply]
  unfold Cert.Spec.cell
  refine congrArg (· + x5 (ix1 (0 : Fin 1))) (Finset.sum_congr rfl fun j _ => ?_)
  rw [w1x_apply, emb_apply]

/-- Entry `(r, ch)` of the block the body stores: the perceptron of entry `(r, ch)` of the loaded block with row `ch` of
    the table. Each of the thirty-two column terms is the column computation at its column; the concatenation picks
    column `ch`. -/
theorem body_apply (x0 : Vec Ideal S400x32 .f32) (x1 : Vec Ideal S32x6 .f32) (x2 : Vec Ideal S7x9 .f32) (x3 : Vec Ideal S9 .f32) (x4 : Vec Ideal S9x1 .f32) (x5 : Vec Ideal S1 .f32) (r : Fin 400) (ch : Fin 32) :
    k10_pay2 (k10_pay6 x0 x1 x2 x3 x4 x5) (k10_pay9 x5 (k10_pay7 x0 x1 x2 x3) (k10_pay8 x4) (constant S400x1 .f32 0x00000000#32)) (k10_pay10 (k10_pay3 x0) x4 x5 (k10_pay4 x2) (k10_pay5 x1 x2 x3)) (k10_pay11 (k10_pay3 x0) x4 x5 (k10_pay4 x2) (k10_pay5 x1 x2 x3)) (k10_pay12 (k10_pay3 x0) x4 x5 (k10_pay4 x2) (k10_pay5 x1 x2 x3)) (k10_pay15 x4 x5 (k10_pay5 x1 x2 x3) (k10_pay13 (k10_pay3 x0)) (k10_pay14 (k10_pay4 x2))) (k10_pay16 (k10_pay3 x0) x4 x5 (k10_pay4 x2) (k10_pay5 x1 x2 x3)) (k10_pay17 (k10_pay3 x0) x4 x5 (k10_pay4 x2) (k10_pay5 x1 x2 x3)) (k10_pay19 x4 x5 (k10_pay18 (k10_pay3 x0) (k10_pay4 x2) (k10_pay5 x1 x2 x3))) (k10_pay20 (k10_pay3 x0) x4 x5 (k10_pay4 x2) (k10_pay5 x1 x2 x3)) (k10_pay21 (k10_pay3 x0) x4 x5 (k10_pay4 x2) (k10_pay5 x1 x2 x3)) (k10_pay24 x5 (k10_pay22 (k10_pay3 x0) (k10_pay4 x2) (k10_pay5 x1 x2 x3)) (k10_pay23 x4) (constant S400x1 .f32 0x00000000#32)) (k10_pay25 (k10_pay3 x0) x4 x5 (k10_pay4 x2) (k10_pay5 x1 x2 x3)) (k10_pay26 (k10_pay3 x0) x4 x5 (k10_pay4 x2) (k10_pay5 x1 x2 x3)) (k10_pay27 (k10_pay3 x0) x4 x5 (k10_pay4 x2) (k10_pay5 x1 x2 x3)) (k10_pay30 x4 x5 (k10_pay5 x1 x2 x3) (k10_pay28 (k10_pay3 x0)) (k10_pay29 (k10_pay4 x2))) (k10_pay31 (k10_pay3 x0) x4 x5 (k10_pay4 x2) (k10_pay5 x1 x2 x3)) (k10_pay32 (k10_pay3 x0) x4 x5 (k10_pay4 x2) (k10_pay5 x1 x2 x3)) (k10_pay34 x4 x5 (k10_pay33 (k10_pay3 x0) (k10_pay4 x2) (k10_pay5 x1 x2 x3))) (k10_pay35 (k10_pay3 x0) x4 x5 (k10_pay4 x2) (k10_pay5 x1 x2 x3)) (k10_pay36 (k10_pay3 x0) x4 x5 (k10_pay4 x2) (k10_pay5 x1 x2 x3)) (k10_pay39 x5 (k10_pay37 (k10_pay3 x0) (k10_pay4 x2) (k10_pay5 x1 x2 x3)) (k10_pay38 x4) (constant S400x1 .f32 0x00000000#32)) (k10_pay40 (k10_pay3 x0) x4 x5 (k10_pay4 x2) (k10_pay5 x1 x2 x3)) (k10_pay41 (k10_pay3 x0) x4 x5 (k10_pay4 x2) (k10_pay5 x1 x2 x3)) (k10_pay42 (k10_pay3 x0) x4 x5 (k10_pay4 x2) (k10_pay5 x1 x2 x3)) (k10_pay45 x4 x5 (k10_pay5 x1 x2 x3) (k10_pay43 (k10_pay3 x0)) (k10_pay44 (k10_pay4 x2))) (k10_pay46 (k10_pay3 x0) x4 x5 (k10_pay4 x2) (k10_pay5 x1 x2 x3)) (k10_pay47 (k10_pay3 x0) x4 x5 (k10_pay4 x2) (k10_pay5 x1 x2 x3)) (k10_pay49 x4 x5 (k10_pay48 (k10_pay3 x0) (k10_pay4 x2) (k10_pay5 x1 x2 x3))) (k10_pay50 (k10_pay3 x0) x4 x5 (k10_pay4 x2) (k10_pay5 x1 x2 x3)) (k10_pay51 (k10_pay3 x0) x4 x5 (k10_pay4 x2) (k10_pay5 x1 x2 x3)) (k10_pay1 x5 (k10_pay52 (k10_pay3 x0) (k10_pay4 x2) (k10_pay5 x1 x2 x3)) (k10_pay53 x4) (constant S400x1 .f32 0x00000000#32)) (ix2 r ch)
      = Cert.Spec.cell (x0 (ix2 r ch)) (fun k => x1 (ix2 ch k)) (fun k j => x2 (ix2 k j)) (fun j => x3 (ix1 j))
          (fun j => x4 (ix2 j (0 : Fin 1))) (x5 (ix1 (0 : Fin 1))) := by
  rw [colEq_0, colEq_1, colEq_2, colEq_3, colEq_4, colEq_5, colEq_6, colEq_7, colEq_8, colEq_9, colEq_10, colEq_11, colEq_12, colEq_13, colEq_14, colEq_15, colEq_16, colEq_17, colEq_18, colEq_19, colEq_20, colEq_21, colEq_22, colEq_23, colEq_24, colEq_25, colEq_26, colEq_27, colEq_28, colEq_29, colEq_30, colEq_31]
  exact (pay2_apply (fun K => colAt K x0 x1 x2 x3 x4 x5) r ch).trans (colAt_apply ch x0 x1 x2 x3 x4 x5 r)

end Cert.KernelIdeal.Mlp10

end
-- ==== Proof.Mlp10Body.lean ====
/-
  The block the body leaves in the output window's buffer, entry by entry.

  The body stores once, through the whole buffer, the concatenation of its thirty-two columns; each operand is loaded
  whole. So the buffer after the body is that concatenation of the loaded blocks, and entry `(r, ch)` is the perceptron
  of entry `(r, ch)` of the first block with row `ch` of the table.
-/
import proofs.«104874_j7885559956094_2_alg».proof.Proof.Gen.KernelIdeal.Frame
import proofs.«104874_j7885559956094_2_alg».proof.Proof.Mlp10Cols

noncomputable section

namespace Cert.KernelIdeal.Mlp10

open Cert.KernelIdeal Cert.KernelIdeal.Gen Idealize.ShloMosaic Idealize.ShloMosaic.TcCoe Idealize.SL.Sem
open Idealize.ShloMosaic.ValueIdx

/-- The zero offsets of a rank-two access, as the constant function. -/
theorem zero2 : (![0, 0] : Fin 2 → Nat) = fun _ => 0 := funext fun a => by fin_cases a <;> rfl
/-- The zero offset of a rank-one access, as the constant function. -/
theorem zero1 : (![0] : Fin 1 → Nat) = fun _ => 0 := funext fun a => by fin_cases a; rfl

/-- Entry `(r, ch)` of the output window's buffer after the body. -/
theorem block_apply (x0 : Vec Ideal S400x32 .f32) (x1 : Vec Ideal S32x6 .f32) (x2 : Vec Ideal S7x9 .f32) (x3 : Vec Ideal S9 .f32) (x4 : Vec Ideal S9x1 .f32) (x5 : Vec Ideal S1 .f32) (r : Fin 400) (ch : Fin 32) :
    Gen.out10_6 x0 x1 x2 x3 x4 x5 (ValueIdx.ix2 r ch)
      = Cert.Spec.cell (x0 (ValueIdx.ix2 r ch)) (fun k => x1 (ValueIdx.ix2 ch k)) (fun k j => x2 (ValueIdx.ix2 k j))
          (fun j => x3 (ValueIdx.ix1 j)) (fun j => x4 (ValueIdx.ix2 j 0)) (x5 (ValueIdx.ix1 0)) := by
  unfold out10_6
  rw [View.canon_unit_zero zero2]
  simp only [View.ld_unit_zero (S := S400x32) zero2, View.ld_unit_zero (S := S32x6) zero2, View.ld_unit_zero (S := S7x9) zero2,
    View.ld_unit_zero (S := S9) zero1, View.ld_unit_zero (S := S9x1) zero2, View.ld_unit_zero (S := S1) zero1]
  exact body_apply x0 x1 x2 x3 x4 x5 r ch

end Cert.KernelIdeal.Mlp10

end
-- ==== Proof.Mlp10Blocks.lean ====
/-
  The perceptron region's output array, from its blocks.

  The region walks 250 points; point `t` reads rows `400 t … 400 t + 399` of the 100000 x 32 input, the whole 32 x 6
  table and the whole weights and biases, and writes rows `400 t … 400 t + 399` of the output.  Given that the body's
  block, entry by entry, is the cell of the input block's entry and the table's row (the hypothesis `hblk`), each
  written block is the restriction of ONE function of the whole arrays — entry `(n, ch)` is the cell of the input's
  entry `(n, ch)` and row `ch` of the table — and the 250 blocks cover every row (row `n` lies in block `n / 400`),
  so the output array is that function.
-/
import proofs.«104874_j7885559956094_2_alg».proof.Proof.MlpCell
import proofs.«104874_j7885559956094_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Mlp10Blocks

open Cert.KernelIdeal Cert.KernelIdeal.Gen Idealize.ShloMosaic Idealize.ShloMosaic.TcCoe Idealize.SL.Sem
open Idealize.ShloMosaic.ValueIdx
open Idealize.ShloMosaic.Pipeline (Dat)

/-- Entry `i = (n, ch)` of the output as a function of the whole arrays: the cell of the input's entry and row `ch`
    of the table. -/
abbrev G (X : S100000x32.Idx → EReal) (E : S32x6.Idx → EReal) (A : S7x9.Idx → EReal) (B : S9.Idx → EReal)
    (C : S9x1.Idx → EReal) (D : S1.Idx → EReal) : S100000x32.Idx → EReal :=
  fun i => Cert.Spec.cell (X i) (fun k => E (ix2 (i 1 : Fin 32) k)) (fun k j => A (ix2 k j)) (fun j => B (ix1 j))
    (fun j => C (ix2 j (0 : Fin 1))) (D (ix1 (0 : Fin 1)))

/-- The body's block hypothesis, named. -/
abbrev BlockIsCell : Prop :=
  ∀ (x0 : Vec Ideal S400x32 .f32) (x1 : Vec Ideal S32x6 .f32) (x2 : Vec Ideal S7x9 .f32) (x3 : Vec Ideal S9 .f32)
    (x4 : Vec Ideal S9x1 .f32) (x5 : Vec Ideal S1 .f32) (r : Fin 400) (ch : Fin 32),
    Gen.out10_6 x0 x1 x2 x3 x4 x5 (ValueIdx.ix2 r ch)
      = Cert.Spec.cell (x0 (ValueIdx.ix2 r ch)) (fun k => x1 (ValueIdx.ix2 ch k)) (fun k j => x2 (ValueIdx.ix2 k j))
          (fun j => x3 (ValueIdx.ix1 j)) (fun j => x4 (ValueIdx.ix2 j 0)) (x5 (ValueIdx.ix1 0))

/-- One block against the whole arrays: if the input block is rows `400 b …` of `X` and the other five blocks are the
    whole arrays, the body's block at `y` is `G` at row `400 b + y 0`, column `y 1`. -/
theorem block_eq (hblk : BlockIsCell) (x0 : Vec Ideal S400x32 .f32) (x1 : Vec Ideal S32x6 .f32) (x2 : Vec Ideal S7x9 .f32)
    (x3 : Vec Ideal S9 .f32) (x4 : Vec Ideal S9x1 .f32) (x5 : Vec Ideal S1 .f32)
    (X : S100000x32.Idx → EReal) (b : Nat)
    (h0 : ∀ (y : S400x32.Idx) (k : S100000x32.Idx), (k 0).val = b * 400 + (y 0).val → (k 1).val = (y 1).val → x0 y = X k)
    (y : S400x32.Idx) (k : S100000x32.Idx) (hk0 : (k 0).val = b * 400 + (y 0).val) (hk1 : (k 1).val = (y 1).val) :
    Gen.out10_6 x0 x1 x2 x3 x4 x5 y = G X x1 x2 x3 x4 x5 k := by
  obtain ⟨r, ch, rfl⟩ : ∃ (r : Fin 400) (ch : Fin 32), y = ix2 r ch := ⟨y 0, y 1, eq_ix2 y⟩
  have hc : (k 1 : Fin 32) = ch := Fin.ext hk1
  rw [hblk x0 x1 x2 x3 x4 x5 r ch, h0 (ix2 r ch) k hk0 hk1]
  show _ = Cert.Spec.cell (X k) (fun j => x1 (ix2 (k 1 : Fin 32) j)) _ _ _ _
  rw [hc]

/-- The printed index maps, decided over the grid: the input block and the output block sit at block row `t`, block
    column 0; the table, the weights and the biases are read whole (block index 0). -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 1) = 0
    ∧ win10_4.index t (0 : Fin 2) = 0 ∧ win10_4.index t (1 : Fin 2) = 0
    ∧ win10_5.index t (0 : Fin 1) = 0
    ∧ win10_6.index t (0 : Fin 2) = t.val ∧ win10_6.index t (1 : Fin 2) = 0 :=
  (by decide +kernel : ∀ t : Fin grid10.N, _)

section AtEntry
variable (V : (c : Dev nD) → (b : Ref sig .tc) → Buf (Elt Ideal) ((c : Thread nD τ).loc b))

/-- The input block at point `t` is rows `400 t … 400 t + 399` of the input array. -/
theorem iblk0_apply (c : Dev nD) (t : Fin cfg10.N) (y : S400x32.Idx) (k : S100000x32.Idx)
    (hk0 : (k 0).val = t.val * 400 + (y 0).val) (hk1 : (k 1).val = (y 1).val) :
    (iblk10 V c 0 t : Vec Ideal S400x32 .f32) y = ((V c (Pipeline.arrRef spec10 0)) : S100000x32.Idx → EReal) k := by
  obtain ⟨e0, e1, -⟩ := idx_facts t
  unfold iblk10
  rw [View.read_apply]
  refine congrArg ((V c (Pipeline.arrRef spec10 0)) : S100000x32.Idx → EReal) (funext fun a => Fin.ext ?_)
  match a with
  | ⟨0, _⟩ => show win10_0.index t (0 : Fin 2) * 400 + 1 * (y 0).val = (k 0).val; rw [e0, hk0]; omega
  | ⟨1, _⟩ => show win10_0.index t (1 : Fin 2) * 32 + 1 * (y 1).val = (k 1).val; rw [e1, hk1]; omega

/-- The table's block at every point is the whole table. -/
theorem iblk1_eq (c : Dev nD) (t : Fin cfg10.N) : (iblk10 V c 1 t : Vec Ideal S32x6 .f32) = ((V c (Pipeline.arrRef spec10 1)) : S32x6.Idx → EReal) := by
  obtain ⟨-, -, e0, e1, -⟩ := idx_facts t
  funext y
  unfold iblk10
  rw [View.read_apply]
  refine congrArg ((V c (Pipeline.arrRef spec10 1)) : S32x6.Idx → EReal) (funext fun a => Fin.ext ?_)
  match a with
  | ⟨0, _⟩ => show win10_1.index t (0 : Fin 2) * 32 + 1 * (y 0).val = (y 0).val; rw [e0]; omega
  | ⟨1, _⟩ => show win10_1.index t (1 : Fin 2) * 6 + 1 * (y 1).val = (y 1).val; rw [e1]; omega

/-- The first weights' block at every point is the whole 7 x 9 array. -/
theorem iblk2_eq (c : Dev nD) (t : Fin cfg10.N) : (iblk10 V c 2 t : Vec Ideal S7x9 .f32) = ((V c (Pipeline.arrRef spec10 2)) : S7x9.Idx → EReal) := by
  obtain ⟨-, -, -, -, e0, e1, -⟩ := idx_facts t
  funext y
  unfold iblk10
  rw [View.read_apply]
  refine congrArg ((V c (Pipeline.arrRef spec10 2)) : S7x9.Idx → EReal) (funext fun a => Fin.ext ?_)
  match a with
  | ⟨0, _⟩ => show win10_2.index t (0 : Fin 2) * 7 + 1 * (y 0).val = (y 0).val; rw [e0]; omega
  | ⟨1, _⟩ => show win10_2.index t (1 : Fin 2) * 9 + 1 * (y 1).val = (y 1).val; rw [e1]; omega

/-- The first bias's block at every point is the whole bias. -/
theorem iblk3_eq (c : Dev nD) (t : Fin cfg10.N) : (iblk10 V c 3 t : Vec Ideal S9 .f32) = ((V c (Pipeline.arrRef spec10 3)) : S9.Idx → EReal) := by
  obtain ⟨-, -, -, -, -, -, e0, -⟩ := idx_facts t
  funext y
  unfold iblk10
  rw [View.read_apply]
  refine congrArg ((V c (Pipeline.arrRef spec10 3)) : S9.Idx → EReal) (funext fun a => Fin.ext ?_)
  match a with
  | ⟨0, _⟩ => show win10_3.index t (0 : Fin 1) * 9 + 1 * (y 0).val = (y 0).val; rw [e0]; omega

/-- The second weights' block at every point is the whole 9 x 1 array. -/
theorem iblk4_eq (c : Dev nD) (t : Fin cfg10.N) : (iblk10 V c 4 t : Vec Ideal S9x1 .f32) = ((V c (Pipeline.arrRef spec10 4)) : S9x1.Idx → EReal) := by
  obtain ⟨-, -, -, -, -, -, -, e0, e1, -⟩ := idx_facts t
  funext y
  unfold iblk10
  rw [View.read_apply]
  refine congrArg ((V c (Pipeline.arrRef spec10 4)) : S9x1.Idx → EReal) (funext fun a => Fin.ext ?_)
  match a with
  | ⟨0, _⟩ => show win10_4.index t (0 : Fin 2) * 9 + 1 * (y 0).val = (y 0).val; rw [e0]; omega
  | ⟨1, _⟩ => show win10_4.index t (1 : Fin 2) * 1 + 1 * (y 1).val = (y 1).val; rw [e1]; omega

/-- The second bias's block at every point is the whole bias. -/
theorem iblk5_eq (c : Dev nD) (t : Fin cfg10.N) : (iblk10 V c 5 t : Vec Ideal S1 .f32) = ((V c (Pipeline.arrRef spec10 5)) : S1.Idx → EReal) := by
  obtain ⟨-, -, -, -, -, -, -, -, -, e0, -⟩ := idx_facts t
  funext y
  unfold iblk10
  rw [View.read_apply]
  refine congrArg ((V c (Pipeline.arrRef spec10 5)) : S1.Idx → EReal) (funext fun a => Fin.ext ?_)
  match a with
  | ⟨0, _⟩ => show win10_5.index t (0 : Fin 1) * 1 + 1 * (y 0).val = (y 0).val; rw [e0]; omega

/-- The whole-array function of the region's entry contents. -/
abbrev GV (c : Dev nD) : S100000x32.Idx → EReal :=
  G (V c (Pipeline.arrRef spec10 0)) (V c (Pipeline.arrRef spec10 1)) (V c (Pipeline.arrRef spec10 2)) (V c (Pipeline.arrRef spec10 3)) (V c (Pipeline.arrRef spec10 4)) (V c (Pipeline.arrRef spec10 5))

/-- What point `t` writes back is block `t` of that function. -/
theorem flushed_eq (hblk : BlockIsCell) (c : Dev nD) (t : Fin cfg10.N) :
    (dat10 V c).flushed 6 t = ((cfg10.win 6).blk t).view.read (Elt Ideal) (GV V c) := by
  show (cfg10.win 6).cut (grid10.coords t) ((dat10 V c).after 6 t) = _
  rw [after10_6, iblk1_eq, iblk2_eq, iblk3_eq, iblk4_eq, iblk5_eq]
  obtain ⟨-, -, -, -, -, -, -, -, -, -, e0, e1⟩ := idx_facts t
  funext y
  rw [View.read_apply]
  refine block_eq hblk (iblk10 V c 0 t) (V c (Pipeline.arrRef spec10 1)) (V c (Pipeline.arrRef spec10 2)) (V c (Pipeline.arrRef spec10 3)) (V c (Pipeline.arrRef spec10 4)) (V c (Pipeline.arrRef spec10 5)) (V c (Pipeline.arrRef spec10 0)) t.val
    (fun y k h0 h1 => iblk0_apply V c t y k h0 h1) y (((cfg10.win 6).blk t).view.emb y) ?_ ?_
  · show win10_6.index t (0 : Fin 2) * 400 + 1 * (y 0).val = t.val * 400 + (y 0).val; rw [e0]; omega
  · show win10_6.index t (1 : Fin 2) * 32 + 1 * (y 1).val = (y 1).val; rw [e1]; omega

/-- An index of the array is in point `t`'s block iff each coordinate is in the block's range on its axis. -/
theorem mem_blk (t : Fin cfg10.N) (i : S100000x32.Idx) :
    i ∈ ((cfg10.win 6).blk t).view.set ↔ ∀ a : Fin 2, win10_6.index t a * S400x32.size a ≤ (i a).val ∧ (i a).val < win10_6.index t a * S400x32.size a + S400x32.size a := by
  show i ∈ ((View.whole main_v166).slice (win10_6.rect t)).set ↔ _
  rw [View.set_slice_whole, Rect.mem_set_unit]
  exact Iff.rfl

/-- Every row is in some point's block: row `n` in block `n / 400`. -/
theorem cover (i : S100000x32.Idx) : ∃ t : Fin cfg10.N, (cfg10.win 6).flush t = true ∧ i ∈ ((cfg10.win 6).blk t).view.set := by
  have hN : cfg10.N = 250 := N_10
  have hi0 : (i 0).val < 100000 := (i 0).isLt
  have hi1 : (i 1).val < 32 := (i 1).isLt
  let t : Fin cfg10.N := ⟨(i 0).val / 400, by omega⟩
  obtain ⟨-, -, -, -, -, -, -, -, -, -, e0, e1⟩ := idx_facts t
  have ht : t.val = (i 0).val / 400 := rfl
  refine ⟨t, flush10_6 t, ?_⟩
  rw [mem_blk]
  intro a
  match a with
  | ⟨0, _⟩ => show win10_6.index t (0 : Fin 2) * 400 ≤ (i 0).val ∧ (i 0).val < win10_6.index t (0 : Fin 2) * 400 + 400; rw [e0, ht]; omega
  | ⟨1, _⟩ => show win10_6.index t (1 : Fin 2) * 32 ≤ (i 1).val ∧ (i 1).val < win10_6.index t (1 : Fin 2) * 32 + 32; rw [e1]; omega

/-- The output array after the region is that function of the entry contents. -/
theorem final (hblk : BlockIsCell) (c : Dev nD) : (dat10 V c).arrAt 6 cfg10.N = GV V c :=
  (dat10 V c).arrAt_eq_of_cover 6 (GV V c) (fun t _ => flushed_eq V hblk c t) (cover)

end AtEntry

/-- The output array at entry `(n, ch)`: the cell of the input's entry and row `ch` of the table. -/
theorem final_at_of
    (hblk : ∀ (x0 : Vec Ideal S400x32 .f32) (x1 : Vec Ideal S32x6 .f32) (x2 : Vec Ideal S7x9 .f32) (x3 : Vec Ideal S9 .f32) (x4 : Vec Ideal S9x1 .f32) (x5 : Vec Ideal S1 .f32) (r : Fin 400) (ch : Fin 32),
      Gen.out10_6 x0 x1 x2 x3 x4 x5 (ValueIdx.ix2 r ch) = Cert.Spec.cell (x0 (ValueIdx.ix2 r ch)) (fun k => x1 (ValueIdx.ix2 ch k)) (fun k j => x2 (ValueIdx.ix2 k j)) (fun j => x3 (ValueIdx.ix1 j)) (fun j => x4 (ValueIdx.ix2 j 0)) (x5 (ValueIdx.ix1 0)))
    (V : (c : Dev nD) → (b : Ref sig .tc) → Buf (Elt Ideal) ((c : Thread nD τ).loc b)) (c : Dev nD) (n : Fin 100000) (ch : Fin 32) :
    (dat10 V c).arrAt 6 cfg10.N (ValueIdx.ix2 n ch)
      = Cert.Spec.cell (V c (Pipeline.arrRef spec10 0) (ValueIdx.ix2 n ch)) (fun k => V c (Pipeline.arrRef spec10 1) (ValueIdx.ix2 ch k))
          (fun k j => V c (Pipeline.arrRef spec10 2) (ValueIdx.ix2 k j)) (fun j => V c (Pipeline.arrRef spec10 3) (ValueIdx.ix1 j))
          (fun j => V c (Pipeline.arrRef spec10 4) (ValueIdx.ix2 j 0)) (V c (Pipeline.arrRef spec10 5) (ValueIdx.ix1 0)) := by
  rw [final V hblk c]

end Cert.KernelIdeal.Mlp10Blocks

end
-- ==== Proof.Mlp10.lean ====
/-
  Region 10 of the kernel program applies the per-entry perceptron to the whole array.

  Entry by entry: what the region leaves at `(n, ch)` of its output array is the perceptron of the input array's
  entry there with column `ch`'s six attached numbers (the blocks' bodies, read through the grid), and the host's
  spelling of the perceptron — rows laid out column-major, concatenated with the repeated table, two dense layers —
  reads the same number at `(n, ch)`.
-/
import proofs.«104874_j7885559956094_2_alg».proof.Proof.Spec
import proofs.«104874_j7885559956094_2_alg».proof.Proof.MlpRef
import proofs.«104874_j7885559956094_2_alg».proof.Proof.Mlp10Body
import proofs.«104874_j7885559956094_2_alg».proof.Proof.Mlp10Blocks
import Idealize.ShloMosaic.Lib.ValueIdx

set_option maxRecDepth 16384

noncomputable section

namespace Cert.KernelIdeal.Mlp10

open Cert.KernelIdeal Cert.KernelIdeal.Gen Idealize.ShloMosaic Idealize.ShloMosaic.TcCoe Idealize.SL.Sem

/-- The output array of region 10 when it is left is the perceptron of the arrays it was entered with. -/
theorem final (V : (c : Dev nD) → (b : Ref sig .tc) → Buf (Elt Ideal) ((c : Thread nD τ).loc b)) (c : Dev nD) :
    (dat10 V c).arrAt 6 cfg10.N
      = Cert.Spec.mlp (F := Ideal) (V c (Pipeline.arrRef spec10 0)) (V c (Pipeline.arrRef spec10 1)) (V c (Pipeline.arrRef spec10 2))
          (V c (Pipeline.arrRef spec10 3)) (V c (Pipeline.arrRef spec10 4)) (V c (Pipeline.arrRef spec10 5)) := by
  funext i
  obtain ⟨n, ch, rfl⟩ : ∃ (n : Fin 100000) (ch : Fin 32), i = ValueIdx.ix2 n ch := ⟨i 0, i 1, ValueIdx.eq_ix2 i⟩
  exact (Cert.KernelIdeal.Mlp10Blocks.final_at_of Cert.KernelIdeal.Mlp10.block_apply V c n ch).trans
    (Cert.Spec.MlpRef.mlp_apply _ _ _ _ _ _ n ch).symm

end Cert.KernelIdeal.Mlp10

end
-- ==== Proof.Fin21.lean ====
/-
  The last dense layer: what the kernel's final region leaves in its output array.

  The region walks 50 grid points. At point t it holds rows 2000 t … 2000 t + 1999 of the 100000 x 32 array x, the
  whole 32 x 16 matrix Wout and the whole bias [16], and writes rows 2000 t … 2000 t + 1999 of the 100000 x 16 result.
  Row r of a dense layer depends on row r of x alone: it is k ↦ (∑ j, x r j * Wout j k) + bias k. The block's
  matrix product into the zero accumulator plus the cast-and-broadcast bias, and the host's dot_general plus the bias
  broadcast in dimension twice, both read as that same function of the row; so each block written back is a block of
  the host's whole-array result, and the 50 blocks tile the array.
-/
import proofs.«104874_j7885559956094_2_alg».proof.Proof.Spec
import proofs.«104874_j7885559956094_2_alg».proof.Proof.Gen.KernelIdeal.Frame
import proofs.«104874_j7885559956094_2_alg».proof.Proof.LibDenseRows
import Idealize.ShloMosaic.Lib.Pipeline.Value
import Idealize.ShloMosaic.Lib.ValueIdx

noncomputable section

namespace Cert.KernelIdeal.Fin21

open Cert.KernelIdeal Cert.KernelIdeal.Gen Idealize.ShloMosaic Idealize.ShloMosaic.TcCoe Idealize.SL.Sem
open Idealize.ShloMosaic.ValueIdx Cert.DenseRows
open Idealize.ShloMosaic.Pipeline (Dat)

/-! ## One row of the layer, in the block's spelling and in the host's -/

/-- The block's contraction is the plain one: the left operand's last axis against the right operand's first. -/
theorem dot_plain : dot_S2000x32_S32x16_S2000x16_1_0_0_1_n_n = DotDims.plain 2000 32 16 := rfl

/-- Row p of the block's result: the change of float format is the identity on the extended reals, the product
    into the zero accumulator is the plain sum, the bias is read at its column. -/
theorem pay_row (x0 : Vec Ideal S2000x32 .f32) (x1 : Vec Ideal S32x16 .f32) (x2 : Vec Ideal S16 .f32) (p : Fin 2000) :
    row (k21_pay1 x0 x1 x2) p = affine (row x0 p) (mat x1) (vec x2) := by
  unfold k21_pay1
  simp only []
  rw [row_matmul_bias _ dot_plain]
  rw [row_truncf, row_shapeCast_self]
  rfl

/-- Row n of the host's layer: the same affine function of row n. -/
theorem fin_row (X : (⟨S100000x32, .f32⟩ : BufTy).Contents (Elt Ideal)) (W : (⟨S32x16, .f32⟩ : BufTy).Contents (Elt Ideal))
    (b : (⟨S16, .f32⟩ : BufTy).Contents (Elt Ideal)) (n : Fin 100000) :
    row (Cert.Spec.fin (F := Ideal) X W b) n = affine (row X n) (mat W) (vec b) := by
  unfold Cert.Spec.fin
  exact row_dotGeneral_bias _ rfl none X W b _ _ n

/-! ## From the blocks to the array -/

section
variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- The printed index maps, decided over the 50 grid points: the row block of x moves with the output's, at column
    block 0; the matrix and the bias stay at block 0; the output's row block index is at most 49, its column block 0. -/
theorem idx_facts : ∀ t : Fin cfg21.N, win21_0.index t (0 : Fin 2) = win21_3.index t (0 : Fin 2)
    ∧ win21_0.index t (1 : Fin 2) = 0
    ∧ win21_1.index t (0 : Fin 2) = 0
    ∧ win21_1.index t (1 : Fin 2) = 0
    ∧ win21_2.index t (0 : Fin 1) = 0
    ∧ win21_3.index t (0 : Fin 2) ≤ 49
    ∧ win21_3.index t (1 : Fin 2) = 0 :=
  (by decide +kernel : ∀ t : Fin grid21.N, _)

/-- Every row block of the output is some point's. -/
theorem idx_onto : ∀ (q0 : Fin 50) (q1 : Fin 1), ∃ t : Fin cfg21.N, win21_3.index t = ![q0.val + 0, q1.val + 0] :=
  (by decide +kernel : ∀ (q0 : Fin 50) (q1 : Fin 1), ∃ t : Fin grid21.N, win21_3.index t = ![q0.val + 0, q1.val + 0])

/-- The array row that row p of point t's block is. -/
def rowOf (t : Fin cfg21.N) (p : Fin 2000) : Fin 100000 :=
  ⟨win21_3.index t (0 : Fin 2) * 2000 + p.val, by
    have h := (idx_facts t).2.2.2.2.2.1
    have hp := p.isLt
    omega⟩

/-- Entry (p, q) of the output's block at point t sits at row rowOf t p, column q of the array. -/
theorem emb_out (t : Fin cfg21.N) (p : Fin 2000) (q : Fin 16) :
    ((cfg21.win 3).blk t).view.emb (ix2 p q) = ix2 (rowOf t p) q := by
  obtain ⟨e0, e1, e2, e3, e4, e5, e6⟩ := idx_facts t
  funext a; apply Fin.ext
  match a with
  | ⟨0, _⟩ => show win21_3.index t (0 : Fin 2) * 2000 + 1 * p.val = win21_3.index t (0 : Fin 2) * 2000 + p.val; omega
  | ⟨1, _⟩ => show win21_3.index t (1 : Fin 2) * 16 + 1 * q.val = q.val; omega

/-- Row p of the block of x at point t is row rowOf t p of x. -/
theorem blk_row (c : Dev nD) (t : Fin cfg21.N) (p : Fin 2000) :
    row (iblk21 V c 0 t) p = row (V c (Pipeline.arrRef spec21 0)) (rowOf t p) := by
  obtain ⟨e0, e1, e2, e3, e4, e5, e6⟩ := idx_facts t
  funext k
  show V c (Pipeline.arrRef spec21 0) (((cfg21.win 0).blk t).view.emb (ix2 p k)) = V c (Pipeline.arrRef spec21 0) (ix2 (rowOf t p) k)
  congr 1
  funext a; apply Fin.ext
  match a with
  | ⟨0, _⟩ => show win21_0.index t (0 : Fin 2) * 2000 + 1 * p.val = win21_3.index t (0 : Fin 2) * 2000 + p.val; omega
  | ⟨1, _⟩ => show win21_0.index t (1 : Fin 2) * 32 + 1 * k.val = k.val; omega

/-- The block of the matrix at any point is the whole matrix. -/
theorem blk_mat (c : Dev nD) (t : Fin cfg21.N) :
    mat (iblk21 V c 1 t) = mat (V c (Pipeline.arrRef spec21 1)) := by
  obtain ⟨e0, e1, e2, e3, e4, e5, e6⟩ := idx_facts t
  funext k o
  show V c (Pipeline.arrRef spec21 1) (((cfg21.win 1).blk t).view.emb (ix2 k o)) = V c (Pipeline.arrRef spec21 1) (ix2 k o)
  congr 1
  funext a; apply Fin.ext
  match a with
  | ⟨0, _⟩ => show win21_1.index t (0 : Fin 2) * 32 + 1 * k.val = k.val; omega
  | ⟨1, _⟩ => show win21_1.index t (1 : Fin 2) * 16 + 1 * o.val = o.val; omega

/-- The block of the bias at any point is the whole bias. -/
theorem blk_vec (c : Dev nD) (t : Fin cfg21.N) :
    vec (iblk21 V c 2 t) = vec (V c (Pipeline.arrRef spec21 2)) := by
  obtain ⟨e0, e1, e2, e3, e4, e5, e6⟩ := idx_facts t
  funext o
  show V c (Pipeline.arrRef spec21 2) (((cfg21.win 2).blk t).view.emb (ix1 o)) = V c (Pipeline.arrRef spec21 2) (ix1 o)
  congr 1
  funext a; apply Fin.ext
  match a with
  | ⟨0, _⟩ => show win21_2.index t (0 : Fin 1) * 16 + 1 * o.val = o.val; omega

/-- What point t writes back is block t of the host's layer applied to the arrays as the region finds them. -/
theorem flushed_eq (c : Dev nD) (t : Fin cfg21.N) :
    (dat21 V c).flushed 3 t = ((cfg21.win 3).blk t).view.read (Elt Ideal)
      (Cert.Spec.fin (F := Ideal) (V c (Pipeline.arrRef spec21 0)) (V c (Pipeline.arrRef spec21 1)) (V c (Pipeline.arrRef spec21 2))) := by
  show (cfg21.win 3).cut (grid21.coords t) ((dat21 V c).after 3 t) = _
  rw [after21_3]
  unfold out21_3
  rw [View.canon_unit_zero off2]
  simp only [View.ld_unit_zero (S := S2000x32) off2, View.ld_unit_zero (S := S32x16) off2, View.ld_unit_zero (S := S16) off1]
  funext j
  obtain ⟨p, q, rfl⟩ : ∃ (p : Fin 2000) (q : Fin 16), j = ix2 p q := ⟨j 0, j 1, eq_ix2 j⟩
  have hL := congrFun (pay_row (iblk21 V c 0 t) (iblk21 V c 1 t) (iblk21 V c 2 t) p) q
  have hR := congrFun (fin_row (V c (Pipeline.arrRef spec21 0)) (V c (Pipeline.arrRef spec21 1)) (V c (Pipeline.arrRef spec21 2)) (rowOf t p)) q
  rw [blk_row, blk_mat, blk_vec] at hL
  generalize k21_pay1 (iblk21 V c 0 t) (iblk21 V c 1 t) (iblk21 V c 2 t) = P at hL ⊢
  generalize Cert.Spec.fin (F := Ideal) (V c (Pipeline.arrRef spec21 0)) (V c (Pipeline.arrRef spec21 1)) (V c (Pipeline.arrRef spec21 2)) = G at hR ⊢
  show P (ix2 p q) = G (((cfg21.win 3).blk t).view.emb (ix2 p q))
  rw [emb_out]
  exact hL.trans hR.symm

/-- An index of the array is in point t's block iff each coordinate is in the block's range on its axis. -/
theorem mem_blk (t : Fin cfg21.N) (i : S100000x16.Idx) :
    i ∈ ((cfg21.win 3).blk t).view.set ↔ ∀ a : Fin 2, win21_3.index t a * S2000x16.size a ≤ (i a).val ∧ (i a).val < win21_3.index t a * S2000x16.size a + S2000x16.size a := by
  show i ∈ ((View.whole main_v307).slice (win21_3.rect t)).set ↔ _
  rw [View.set_slice_whole, Rect.mem_set_unit]
  exact Iff.rfl

/-- The 50 blocks cover the array: row r is in the block of point r / 2000. -/
theorem cover (i : S100000x16.Idx) : ∃ t : Fin cfg21.N, (cfg21.win 3).flush t = true ∧ i ∈ ((cfg21.win 3).blk t).view.set := by
  have hi0 : (i 0).val < 100000 := (i 0).isLt
  have hi1 : (i 1).val < 16 := (i 1).isLt
  obtain ⟨t, ht⟩ := idx_onto ⟨(i 0).val / 2000, by omega⟩ ⟨0, by omega⟩
  have q0 : win21_3.index t (0 : Fin 2) = (i 0).val / 2000 + 0 := congrFun ht 0
  have q1 : win21_3.index t (1 : Fin 2) = 0 + 0 := congrFun ht 1
  refine ⟨t, flush21_3 t, ?_⟩
  rw [mem_blk]
  intro a
  match a with
  | ⟨0, _⟩ => show win21_3.index t (0 : Fin 2) * 2000 ≤ (i 0).val ∧ (i 0).val < win21_3.index t (0 : Fin 2) * 2000 + 2000; omega
  | ⟨1, _⟩ => show win21_3.index t (1 : Fin 2) * 16 ≤ (i 1).val ∧ (i 1).val < win21_3.index t (1 : Fin 2) * 16 + 16; omega

end

/-- The output array when the region is left: the host's last dense layer of the arrays as the region finds them. -/
theorem final (V : (c : Dev nD) → (b : Ref sig .tc) → Buf (Elt Ideal) ((c : Thread nD τ).loc b)) (c : Dev nD) :
    (dat21 V c).arrAt 3 cfg21.N = Cert.Spec.fin (F := Ideal) (V c (Pipeline.arrRef spec21 0)) (V c (Pipeline.arrRef spec21 1)) (V c (Pipeline.arrRef spec21 2)) :=
  (dat21 V c).arrAt_eq_of_cover 3 _ (fun t _ => flushed_eq V c t) cover

end Cert.KernelIdeal.Fin21

end
-- ==== Proof.Chain.lean ====
/-
  The kernel program's result is `Spec.whole` of its arguments.

  The contents of the program's buffers at its 42 boundaries are a fold from the launch memory.  Walking it forward:
  after host stretch 0 and region 0 the edge rows, the edge weights and one diffusion step of the input features are
  in place; each following stretch-and-region pair performs one more step and touches none of the buffers the later
  steps read (the edge rows and weights, the diffusion's anchor, the arguments); region 10 applies the per-entry
  perceptron; ten more steps anchored at its result follow; region 21 is the last dense layer.
-/
import proofs.«104874_j7885559956094_2_alg».proof.Proof.Spec
import proofs.«104874_j7885559956094_2_alg».proof.Proof.Gen.KernelIdeal.Frame
import proofs.«104874_j7885559956094_2_alg».proof.Proof.Walk0
import proofs.«104874_j7885559956094_2_alg».proof.Proof.Walk1
import proofs.«104874_j7885559956094_2_alg».proof.Proof.Walk2
import proofs.«104874_j7885559956094_2_alg».proof.Proof.Walk3
import proofs.«104874_j7885559956094_2_alg».proof.Proof.Walk4
import proofs.«104874_j7885559956094_2_alg».proof.Proof.Walk5
import proofs.«104874_j7885559956094_2_alg».proof.Proof.Walk6
import proofs.«104874_j7885559956094_2_alg».proof.Proof.Walk7
import proofs.«104874_j7885559956094_2_alg».proof.Proof.Walk8
import proofs.«104874_j7885559956094_2_alg».proof.Proof.Walk9
import proofs.«104874_j7885559956094_2_alg».proof.Proof.Walk11
import proofs.«104874_j7885559956094_2_alg».proof.Proof.Walk12
import proofs.«104874_j7885559956094_2_alg».proof.Proof.Walk13
import proofs.«104874_j7885559956094_2_alg».proof.Proof.Walk14
import proofs.«104874_j7885559956094_2_alg».proof.Proof.Walk15
import proofs.«104874_j7885559956094_2_alg».proof.Proof.Walk16
import proofs.«104874_j7885559956094_2_alg».proof.Proof.Walk17
import proofs.«104874_j7885559956094_2_alg».proof.Proof.Walk18
import proofs.«104874_j7885559956094_2_alg».proof.Proof.Walk19
import proofs.«104874_j7885559956094_2_alg».proof.Proof.Walk20
import proofs.«104874_j7885559956094_2_alg».proof.Proof.Mlp10
import proofs.«104874_j7885559956094_2_alg».proof.Proof.Fin21

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.Spec

variable (m : (ℓ : Loc nD τ sig) → Buf (Elt Ideal) ℓ) (ρ : Dev nD → PrngReg)

/-- The edge rows and weights of the launch memory's edge list. -/
abbrev eS (c : Dev nD) : EdgeIx Ideal := srcOf (W0 m ρ c (Proc.devRef .tc main_arg1))
abbrev eD (c : Dev nD) : EdgeIx Ideal := dstOf (W0 m ρ c (Proc.devRef .tc main_arg1))
abbrev eW (c : Dev nD) : EdgeW Ideal := normOf (eS m ρ c) (eD m ρ c)

/-- `n` diffusion steps from the anchor. -/
def iter (s d : EdgeIx Ideal) (w : EdgeW Ideal) (h0 : Nodes Ideal) : Nat → Nodes Ideal
  | 0 => h0
  | n + 1 => step s d w h0 (iter s d w h0 n)

theorem diffuse_eq_iter (s d : EdgeIx Ideal) (w : EdgeW Ideal) (h0 : Nodes Ideal) : diffuse s d w h0 = iter s d w h0 10 := rfl

/-- One more diffusion step. -/
theorem iter_succ (s d : EdgeIx Ideal) (w : EdgeW Ideal) (h0 : Nodes Ideal) (n : Nat) :
    iter s d w h0 (n + 1) = step s d w h0 (iter s d w h0 n) := rfl

/-- A diffusion step of equal operands. -/
theorem step_congr {s s' d d' : EdgeIx Ideal} {w w' : EdgeW Ideal} {h0 h0' h h' : Nodes Ideal}
    (e1 : s = s') (e2 : d = d') (e3 : w = w') (e4 : h0 = h0') (e5 : h = h') : step s d w h0 h = step s' d' w' h0' h' := by
  subst e1 e2 e3 e4 e5; rfl

/-- The perceptron of equal operands. -/
theorem mlp_congr {h h' : Nodes Ideal} {emb emb' : (⟨S32x6, .f32⟩ : BufTy).Contents (Elt Ideal)}
    {W1 W1' : (⟨S7x9, .f32⟩ : BufTy).Contents (Elt Ideal)} {b1 b1' : (⟨S9, .f32⟩ : BufTy).Contents (Elt Ideal)}
    {W2 W2' : (⟨S9x1, .f32⟩ : BufTy).Contents (Elt Ideal)} {b2 b2' : (⟨S1, .f32⟩ : BufTy).Contents (Elt Ideal)}
    (e1 : h = h') (e2 : emb = emb') (e3 : W1 = W1') (e4 : b1 = b1') (e5 : W2 = W2') (e6 : b2 = b2') :
    mlp h emb W1 b1 W2 b2 = mlp h' emb' W1' b1' W2' b2' := by
  subst e1 e2 e3 e4 e5 e6; rfl

/-- The last layer of equal operands. -/
theorem fin_congr {h h' : Nodes Ideal} {Wo Wo' : (⟨S32x16, .f32⟩ : BufTy).Contents (Elt Ideal)}
    {bo bo' : (⟨S16, .f32⟩ : BufTy).Contents (Elt Ideal)} (e1 : h = h') (e2 : Wo = Wo') (e3 : bo = bo') :
    fin h Wo bo = fin h' Wo' bo' := by
  subst e1 e2 e3; rfl

/-- What the later steps read, at a boundary `V` of the first diffusion: the edge rows and weights and the arguments. -/
structure LiveA (V : Valuation τ sig (Elt Ideal)) (c : Dev nD) : Prop where
  src : V (Proc.devRef .tc main_v1) = eS m ρ c
  dst : V (Proc.devRef .tc main_v3) = eD m ρ c
  nrm : V (Proc.devRef .tc main_v25) = eW m ρ c
  a0 : V (Proc.devRef .tc main_arg0) = W0 m ρ c (Proc.devRef .tc main_arg0)
  a2 : V (Proc.devRef .tc main_arg2) = W0 m ρ c (Proc.devRef .tc main_arg2)
  a3 : V (Proc.devRef .tc main_arg3) = W0 m ρ c (Proc.devRef .tc main_arg3)
  a4 : V (Proc.devRef .tc main_arg4) = W0 m ρ c (Proc.devRef .tc main_arg4)
  a5 : V (Proc.devRef .tc main_arg5) = W0 m ρ c (Proc.devRef .tc main_arg5)
  a6 : V (Proc.devRef .tc main_arg6) = W0 m ρ c (Proc.devRef .tc main_arg6)
  a7 : V (Proc.devRef .tc main_arg7) = W0 m ρ c (Proc.devRef .tc main_arg7)
  a8 : V (Proc.devRef .tc main_arg8) = W0 m ρ c (Proc.devRef .tc main_arg8)

/-- The perceptron's result: the anchor of the second diffusion. -/
abbrev midA (c : Dev nD) : Nodes Ideal :=
  mlp (diffuse (eS m ρ c) (eD m ρ c) (eW m ρ c) (W0 m ρ c (Proc.devRef .tc main_arg0))) (W0 m ρ c (Proc.devRef .tc main_arg2)) (W0 m ρ c (Proc.devRef .tc main_arg3))
    (W0 m ρ c (Proc.devRef .tc main_arg4)) (W0 m ρ c (Proc.devRef .tc main_arg5)) (W0 m ρ c (Proc.devRef .tc main_arg6))

/-- What the later steps read, at a boundary `V` of the second diffusion. -/
structure LiveB (V : Valuation τ sig (Elt Ideal)) (c : Dev nD) : Prop where
  src : V (Proc.devRef .tc main_v1) = eS m ρ c
  dst : V (Proc.devRef .tc main_v3) = eD m ρ c
  nrm : V (Proc.devRef .tc main_v25) = eW m ρ c
  mid : V (Proc.devRef .tc main_v166) = midA m ρ c
  a7 : V (Proc.devRef .tc main_arg7) = W0 m ρ c (Proc.devRef .tc main_arg7)
  a8 : V (Proc.devRef .tc main_arg8) = W0 m ρ c (Proc.devRef .tc main_arg8)

/-! ## The first diffusion -/

theorem live2 (c : Dev nD) : LiveA m ρ (W2 m ρ c) c where
  src := Walk0.src_at m ρ c
  dst := Walk0.dst_at m ρ c
  nrm := Walk0.nrm_at m ρ c
  a0 := Walk0.keep_anchor m ρ c
  a2 := Walk0.keep m ρ c main_arg2 (by decide) (by decide)
  a3 := Walk0.keep m ρ c main_arg3 (by decide) (by decide)
  a4 := Walk0.keep m ρ c main_arg4 (by decide) (by decide)
  a5 := Walk0.keep m ρ c main_arg5 (by decide) (by decide)
  a6 := Walk0.keep m ρ c main_arg6 (by decide) (by decide)
  a7 := Walk0.keep m ρ c main_arg7 (by decide) (by decide)
  a8 := Walk0.keep m ρ c main_arg8 (by decide) (by decide)

theorem out2 (c : Dev nD) : W2 m ρ c (Proc.devRef .tc main_v39) = iter (eS m ρ c) (eD m ρ c) (eW m ρ c) (W0 m ρ c (Proc.devRef .tc main_arg0)) 1 :=
  Walk0.out m ρ c

theorem live4 (c : Dev nD) : LiveA m ρ (W4 m ρ c) c where
  src := (Walk1.keep m ρ c main_v1 (by decide) (by decide)).trans (live2 m ρ c).src
  dst := (Walk1.keep m ρ c main_v3 (by decide) (by decide)).trans (live2 m ρ c).dst
  nrm := (Walk1.keep m ρ c main_v25 (by decide) (by decide)).trans (live2 m ρ c).nrm
  a0 := (Walk1.keep_anchor m ρ c).trans (live2 m ρ c).a0
  a2 := (Walk1.keep m ρ c main_arg2 (by decide) (by decide)).trans (live2 m ρ c).a2
  a3 := (Walk1.keep m ρ c main_arg3 (by decide) (by decide)).trans (live2 m ρ c).a3
  a4 := (Walk1.keep m ρ c main_arg4 (by decide) (by decide)).trans (live2 m ρ c).a4
  a5 := (Walk1.keep m ρ c main_arg5 (by decide) (by decide)).trans (live2 m ρ c).a5
  a6 := (Walk1.keep m ρ c main_arg6 (by decide) (by decide)).trans (live2 m ρ c).a6
  a7 := (Walk1.keep m ρ c main_arg7 (by decide) (by decide)).trans (live2 m ρ c).a7
  a8 := (Walk1.keep m ρ c main_arg8 (by decide) (by decide)).trans (live2 m ρ c).a8

theorem out4 (c : Dev nD) : W4 m ρ c (Proc.devRef .tc main_v53) = iter (eS m ρ c) (eD m ρ c) (eW m ρ c) (W0 m ρ c (Proc.devRef .tc main_arg0)) 2 :=
  (Walk1.out m ρ c).trans
    (step_congr (live2 m ρ c).src (live2 m ρ c).dst (live2 m ρ c).nrm (live2 m ρ c).a0 (out2 m ρ c))

theorem live6 (c : Dev nD) : LiveA m ρ (W6 m ρ c) c where
  src := (Walk2.keep m ρ c main_v1 (by decide) (by decide)).trans (live4 m ρ c).src
  dst := (Walk2.keep m ρ c main_v3 (by decide) (by decide)).trans (live4 m ρ c).dst
  nrm := (Walk2.keep m ρ c main_v25 (by decide) (by decide)).trans (live4 m ρ c).nrm
  a0 := (Walk2.keep_anchor m ρ c).trans (live4 m ρ c).a0
  a2 := (Walk2.keep m ρ c main_arg2 (by decide) (by decide)).trans (live4 m ρ c).a2
  a3 := (Walk2.keep m ρ c main_arg3 (by decide) (by decide)).trans (live4 m ρ c).a3
  a4 := (Walk2.keep m ρ c main_arg4 (by decide) (by decide)).trans (live4 m ρ c).a4
  a5 := (Walk2.keep m ρ c main_arg5 (by decide) (by decide)).trans (live4 m ρ c).a5
  a6 := (Walk2.keep m ρ c main_arg6 (by decide) (by decide)).trans (live4 m ρ c).a6
  a7 := (Walk2.keep m ρ c main_arg7 (by decide) (by decide)).trans (live4 m ρ c).a7
  a8 := (Walk2.keep m ρ c main_arg8 (by decide) (by decide)).trans (live4 m ρ c).a8

theorem out6 (c : Dev nD) : W6 m ρ c (Proc.devRef .tc main_v67) = iter (eS m ρ c) (eD m ρ c) (eW m ρ c) (W0 m ρ c (Proc.devRef .tc main_arg0)) 3 :=
  (Walk2.out m ρ c).trans
    (step_congr (live4 m ρ c).src (live4 m ρ c).dst (live4 m ρ c).nrm (live4 m ρ c).a0 (out4 m ρ c))

theorem live8 (c : Dev nD) : LiveA m ρ (W8 m ρ c) c where
  src := (Walk3.keep m ρ c main_v1 (by decide) (by decide)).trans (live6 m ρ c).src
  dst := (Walk3.keep m ρ c main_v3 (by decide) (by decide)).trans (live6 m ρ c).dst
  nrm := (Walk3.keep m ρ c main_v25 (by decide) (by decide)).trans (live6 m ρ c).nrm
  a0 := (Walk3.keep_anchor m ρ c).trans (live6 m ρ c).a0
  a2 := (Walk3.keep m ρ c main_arg2 (by decide) (by decide)).trans (live6 m ρ c).a2
  a3 := (Walk3.keep m ρ c main_arg3 (by decide) (by decide)).trans (live6 m ρ c).a3
  a4 := (Walk3.keep m ρ c main_arg4 (by decide) (by decide)).trans (live6 m ρ c).a4
  a5 := (Walk3.keep m ρ c main_arg5 (by decide) (by decide)).trans (live6 m ρ c).a5
  a6 := (Walk3.keep m ρ c main_arg6 (by decide) (by decide)).trans (live6 m ρ c).a6
  a7 := (Walk3.keep m ρ c main_arg7 (by decide) (by decide)).trans (live6 m ρ c).a7
  a8 := (Walk3.keep m ρ c main_arg8 (by decide) (by decide)).trans (live6 m ρ c).a8

theorem out8 (c : Dev nD) : W8 m ρ c (Proc.devRef .tc main_v81) = iter (eS m ρ c) (eD m ρ c) (eW m ρ c) (W0 m ρ c (Proc.devRef .tc main_arg0)) 4 :=
  (Walk3.out m ρ c).trans
    (step_congr (live6 m ρ c).src (live6 m ρ c).dst (live6 m ρ c).nrm (live6 m ρ c).a0 (out6 m ρ c))

theorem live10 (c : Dev nD) : LiveA m ρ (W10 m ρ c) c where
  src := (Walk4.keep m ρ c main_v1 (by decide) (by decide)).trans (live8 m ρ c).src
  dst := (Walk4.keep m ρ c main_v3 (by decide) (by decide)).trans (live8 m ρ c).dst
  nrm := (Walk4.keep m ρ c main_v25 (by decide) (by decide)).trans (live8 m ρ c).nrm
  a0 := (Walk4.keep_anchor m ρ c).trans (live8 m ρ c).a0
  a2 := (Walk4.keep m ρ c main_arg2 (by decide) (by decide)).trans (live8 m ρ c).a2
  a3 := (Walk4.keep m ρ c main_arg3 (by decide) (by decide)).trans (live8 m ρ c).a3
  a4 := (Walk4.keep m ρ c main_arg4 (by decide) (by decide)).trans (live8 m ρ c).a4
  a5 := (Walk4.keep m ρ c main_arg5 (by decide) (by decide)).trans (live8 m ρ c).a5
  a6 := (Walk4.keep m ρ c main_arg6 (by decide) (by decide)).trans (live8 m ρ c).a6
  a7 := (Walk4.keep m ρ c main_arg7 (by decide) (by decide)).trans (live8 m ρ c).a7
  a8 := (Walk4.keep m ρ c main_arg8 (by decide) (by decide)).trans (live8 m ρ c).a8

theorem out10 (c : Dev nD) : W10 m ρ c (Proc.devRef .tc main_v95) = iter (eS m ρ c) (eD m ρ c) (eW m ρ c) (W0 m ρ c (Proc.devRef .tc main_arg0)) 5 :=
  (Walk4.out m ρ c).trans
    (step_congr (live8 m ρ c).src (live8 m ρ c).dst (live8 m ρ c).nrm (live8 m ρ c).a0 (out8 m ρ c))

theorem live12 (c : Dev nD) : LiveA m ρ (W12 m ρ c) c where
  src := (Walk5.keep m ρ c main_v1 (by decide) (by decide)).trans (live10 m ρ c).src
  dst := (Walk5.keep m ρ c main_v3 (by decide) (by decide)).trans (live10 m ρ c).dst
  nrm := (Walk5.keep m ρ c main_v25 (by decide) (by decide)).trans (live10 m ρ c).nrm
  a0 := (Walk5.keep_anchor m ρ c).trans (live10 m ρ c).a0
  a2 := (Walk5.keep m ρ c main_arg2 (by decide) (by decide)).trans (live10 m ρ c).a2
  a3 := (Walk5.keep m ρ c main_arg3 (by decide) (by decide)).trans (live10 m ρ c).a3
  a4 := (Walk5.keep m ρ c main_arg4 (by decide) (by decide)).trans (live10 m ρ c).a4
  a5 := (Walk5.keep m ρ c main_arg5 (by decide) (by decide)).trans (live10 m ρ c).a5
  a6 := (Walk5.keep m ρ c main_arg6 (by decide) (by decide)).trans (live10 m ρ c).a6
  a7 := (Walk5.keep m ρ c main_arg7 (by decide) (by decide)).trans (live10 m ρ c).a7
  a8 := (Walk5.keep m ρ c main_arg8 (by decide) (by decide)).trans (live10 m ρ c).a8

theorem out12 (c : Dev nD) : W12 m ρ c (Proc.devRef .tc main_v109) = iter (eS m ρ c) (eD m ρ c) (eW m ρ c) (W0 m ρ c (Proc.devRef .tc main_arg0)) 6 :=
  (Walk5.out m ρ c).trans
    (step_congr (live10 m ρ c).src (live10 m ρ c).dst (live10 m ρ c).nrm (live10 m ρ c).a0 (out10 m ρ c))

theorem live14 (c : Dev nD) : LiveA m ρ (W14 m ρ c) c where
  src := (Walk6.keep m ρ c main_v1 (by decide) (by decide)).trans (live12 m ρ c).src
  dst := (Walk6.keep m ρ c main_v3 (by decide) (by decide)).trans (live12 m ρ c).dst
  nrm := (Walk6.keep m ρ c main_v25 (by decide) (by decide)).trans (live12 m ρ c).nrm
  a0 := (Walk6.keep_anchor m ρ c).trans (live12 m ρ c).a0
  a2 := (Walk6.keep m ρ c main_arg2 (by decide) (by decide)).trans (live12 m ρ c).a2
  a3 := (Walk6.keep m ρ c main_arg3 (by decide) (by decide)).trans (live12 m ρ c).a3
  a4 := (Walk6.keep m ρ c main_arg4 (by decide) (by decide)).trans (live12 m ρ c).a4
  a5 := (Walk6.keep m ρ c main_arg5 (by decide) (by decide)).trans (live12 m ρ c).a5
  a6 := (Walk6.keep m ρ c main_arg6 (by decide) (by decide)).trans (live12 m ρ c).a6
  a7 := (Walk6.keep m ρ c main_arg7 (by decide) (by decide)).trans (live12 m ρ c).a7
  a8 := (Walk6.keep m ρ c main_arg8 (by decide) (by decide)).trans (live12 m ρ c).a8

theorem out14 (c : Dev nD) : W14 m ρ c (Proc.devRef .tc main_v123) = iter (eS m ρ c) (eD m ρ c) (eW m ρ c) (W0 m ρ c (Proc.devRef .tc main_arg0)) 7 :=
  (Walk6.out m ρ c).trans
    (step_congr (live12 m ρ c).src (live12 m ρ c).dst (live12 m ρ c).nrm (live12 m ρ c).a0 (out12 m ρ c))

theorem live16 (c : Dev nD) : LiveA m ρ (W16 m ρ c) c where
  src := (Walk7.keep m ρ c main_v1 (by decide) (by decide)).trans (live14 m ρ c).src
  dst := (Walk7.keep m ρ c main_v3 (by decide) (by decide)).trans (live14 m ρ c).dst
  nrm := (Walk7.keep m ρ c main_v25 (by decide) (by decide)).trans (live14 m ρ c).nrm
  a0 := (Walk7.keep_anchor m ρ c).trans (live14 m ρ c).a0
  a2 := (Walk7.keep m ρ c main_arg2 (by decide) (by decide)).trans (live14 m ρ c).a2
  a3 := (Walk7.keep m ρ c main_arg3 (by decide) (by decide)).trans (live14 m ρ c).a3
  a4 := (Walk7.keep m ρ c main_arg4 (by decide) (by decide)).trans (live14 m ρ c).a4
  a5 := (Walk7.keep m ρ c main_arg5 (by decide) (by decide)).trans (live14 m ρ c).a5
  a6 := (Walk7.keep m ρ c main_arg6 (by decide) (by decide)).trans (live14 m ρ c).a6
  a7 := (Walk7.keep m ρ c main_arg7 (by decide) (by decide)).trans (live14 m ρ c).a7
  a8 := (Walk7.keep m ρ c main_arg8 (by decide) (by decide)).trans (live14 m ρ c).a8

theorem out16 (c : Dev nD) : W16 m ρ c (Proc.devRef .tc main_v137) = iter (eS m ρ c) (eD m ρ c) (eW m ρ c) (W0 m ρ c (Proc.devRef .tc main_arg0)) 8 :=
  (Walk7.out m ρ c).trans
    (step_congr (live14 m ρ c).src (live14 m ρ c).dst (live14 m ρ c).nrm (live14 m ρ c).a0 (out14 m ρ c))

theorem live18 (c : Dev nD) : LiveA m ρ (W18 m ρ c) c where
  src := (Walk8.keep m ρ c main_v1 (by decide) (by decide)).trans (live16 m ρ c).src
  dst := (Walk8.keep m ρ c main_v3 (by decide) (by decide)).trans (live16 m ρ c).dst
  nrm := (Walk8.keep m ρ c main_v25 (by decide) (by decide)).trans (live16 m ρ c).nrm
  a0 := (Walk8.keep_anchor m ρ c).trans (live16 m ρ c).a0
  a2 := (Walk8.keep m ρ c main_arg2 (by decide) (by decide)).trans (live16 m ρ c).a2
  a3 := (Walk8.keep m ρ c main_arg3 (by decide) (by decide)).trans (live16 m ρ c).a3
  a4 := (Walk8.keep m ρ c main_arg4 (by decide) (by decide)).trans (live16 m ρ c).a4
  a5 := (Walk8.keep m ρ c main_arg5 (by decide) (by decide)).trans (live16 m ρ c).a5
  a6 := (Walk8.keep m ρ c main_arg6 (by decide) (by decide)).trans (live16 m ρ c).a6
  a7 := (Walk8.keep m ρ c main_arg7 (by decide) (by decide)).trans (live16 m ρ c).a7
  a8 := (Walk8.keep m ρ c main_arg8 (by decide) (by decide)).trans (live16 m ρ c).a8

theorem out18 (c : Dev nD) : W18 m ρ c (Proc.devRef .tc main_v151) = iter (eS m ρ c) (eD m ρ c) (eW m ρ c) (W0 m ρ c (Proc.devRef .tc main_arg0)) 9 :=
  (Walk8.out m ρ c).trans
    (step_congr (live16 m ρ c).src (live16 m ρ c).dst (live16 m ρ c).nrm (live16 m ρ c).a0 (out16 m ρ c))

theorem live20 (c : Dev nD) : LiveA m ρ (W20 m ρ c) c where
  src := (Walk9.keep m ρ c main_v1 (by decide) (by decide)).trans (live18 m ρ c).src
  dst := (Walk9.keep m ρ c main_v3 (by decide) (by decide)).trans (live18 m ρ c).dst
  nrm := (Walk9.keep m ρ c main_v25 (by decide) (by decide)).trans (live18 m ρ c).nrm
  a0 := (Walk9.keep_anchor m ρ c).trans (live18 m ρ c).a0
  a2 := (Walk9.keep m ρ c main_arg2 (by decide) (by decide)).trans (live18 m ρ c).a2
  a3 := (Walk9.keep m ρ c main_arg3 (by decide) (by decide)).trans (live18 m ρ c).a3
  a4 := (Walk9.keep m ρ c main_arg4 (by decide) (by decide)).trans (live18 m ρ c).a4
  a5 := (Walk9.keep m ρ c main_arg5 (by decide) (by decide)).trans (live18 m ρ c).a5
  a6 := (Walk9.keep m ρ c main_arg6 (by decide) (by decide)).trans (live18 m ρ c).a6
  a7 := (Walk9.keep m ρ c main_arg7 (by decide) (by decide)).trans (live18 m ρ c).a7
  a8 := (Walk9.keep m ρ c main_arg8 (by decide) (by decide)).trans (live18 m ρ c).a8

theorem out20 (c : Dev nD) : W20 m ρ c (Proc.devRef .tc main_v165) = iter (eS m ρ c) (eD m ρ c) (eW m ρ c) (W0 m ρ c (Proc.devRef .tc main_arg0)) 10 :=
  (Walk9.out m ρ c).trans
    (step_congr (live18 m ρ c).src (live18 m ρ c).dst (live18 m ρ c).nrm (live18 m ρ c).a0 (out18 m ρ c))

/-! ## The perceptron -/

theorem out21 (c : Dev nD) : W21 m ρ c (Proc.devRef .tc main_v166) = midA m ρ c :=
  (W21_arr m ρ c 6).trans ((Cert.KernelIdeal.Mlp10.final (V20 m ρ) c).trans
    (mlp_congr ((out20 m ρ c).trans (diffuse_eq_iter _ _ _ _).symm) (live20 m ρ c).a2 (live20 m ρ c).a3 (live20 m ρ c).a4 (live20 m ρ c).a5 (live20 m ρ c).a6))

theorem live21 (c : Dev nD) : LiveB m ρ (W21 m ρ c) c where
  src := (W21_of_ne m ρ c main_v1 (by decide)).trans (live20 m ρ c).src
  dst := (W21_of_ne m ρ c main_v3 (by decide)).trans (live20 m ρ c).dst
  nrm := (W21_of_ne m ρ c main_v25 (by decide)).trans (live20 m ρ c).nrm
  mid := out21 m ρ c
  a7 := (W21_of_ne m ρ c main_arg7 (by decide)).trans (live20 m ρ c).a7
  a8 := (W21_of_ne m ρ c main_arg8 (by decide)).trans (live20 m ρ c).a8

/-! ## The second diffusion -/

theorem live23 (c : Dev nD) : LiveB m ρ (W23 m ρ c) c where
  src := (Walk11.keep m ρ c main_v1 (by decide) (by decide)).trans (live21 m ρ c).src
  dst := (Walk11.keep m ρ c main_v3 (by decide) (by decide)).trans (live21 m ρ c).dst
  nrm := (Walk11.keep m ρ c main_v25 (by decide) (by decide)).trans (live21 m ρ c).nrm
  mid := (Walk11.keep_anchor m ρ c).trans (live21 m ρ c).mid
  a7 := (Walk11.keep m ρ c main_arg7 (by decide) (by decide)).trans (live21 m ρ c).a7
  a8 := (Walk11.keep m ρ c main_arg8 (by decide) (by decide)).trans (live21 m ρ c).a8

theorem out23 (c : Dev nD) : W23 m ρ c (Proc.devRef .tc main_v180) = iter (eS m ρ c) (eD m ρ c) (eW m ρ c) (midA m ρ c) 1 :=
  (Walk11.out m ρ c).trans
    (step_congr (live21 m ρ c).src (live21 m ρ c).dst (live21 m ρ c).nrm (live21 m ρ c).mid (live21 m ρ c).mid)

theorem live25 (c : Dev nD) : LiveB m ρ (W25 m ρ c) c where
  src := (Walk12.keep m ρ c main_v1 (by decide) (by decide)).trans (live23 m ρ c).src
  dst := (Walk12.keep m ρ c main_v3 (by decide) (by decide)).trans (live23 m ρ c).dst
  nrm := (Walk12.keep m ρ c main_v25 (by decide) (by decide)).trans (live23 m ρ c).nrm
  mid := (Walk12.keep_anchor m ρ c).trans (live23 m ρ c).mid
  a7 := (Walk12.keep m ρ c main_arg7 (by decide) (by decide)).trans (live23 m ρ c).a7
  a8 := (Walk12.keep m ρ c main_arg8 (by decide) (by decide)).trans (live23 m ρ c).a8

theorem out25 (c : Dev nD) : W25 m ρ c (Proc.devRef .tc main_v194) = iter (eS m ρ c) (eD m ρ c) (eW m ρ c) (midA m ρ c) 2 :=
  (Walk12.out m ρ c).trans
    (step_congr (live23 m ρ c).src (live23 m ρ c).dst (live23 m ρ c).nrm (live23 m ρ c).mid (out23 m ρ c))

theorem live27 (c : Dev nD) : LiveB m ρ (W27 m ρ c) c where
  src := (Walk13.keep m ρ c main_v1 (by decide) (by decide)).trans (live25 m ρ c).src
  dst := (Walk13.keep m ρ c main_v3 (by decide) (by decide)).trans (live25 m ρ c).dst
  nrm := (Walk13.keep m ρ c main_v25 (by decide) (by decide)).trans (live25 m ρ c).nrm
  mid := (Walk13.keep_anchor m ρ c).trans (live25 m ρ c).mid
  a7 := (Walk13.keep m ρ c main_arg7 (by decide) (by decide)).trans (live25 m ρ c).a7
  a8 := (Walk13.keep m ρ c main_arg8 (by decide) (by decide)).trans (live25 m ρ c).a8

theorem out27 (c : Dev nD) : W27 m ρ c (Proc.devRef .tc main_v208) = iter (eS m ρ c) (eD m ρ c) (eW m ρ c) (midA m ρ c) 3 :=
  (Walk13.out m ρ c).trans
    (step_congr (live25 m ρ c).src (live25 m ρ c).dst (live25 m ρ c).nrm (live25 m ρ c).mid (out25 m ρ c))

theorem live29 (c : Dev nD) : LiveB m ρ (W29 m ρ c) c where
  src := (Walk14.keep m ρ c main_v1 (by decide) (by decide)).trans (live27 m ρ c).src
  dst := (Walk14.keep m ρ c main_v3 (by decide) (by decide)).trans (live27 m ρ c).dst
  nrm := (Walk14.keep m ρ c main_v25 (by decide) (by decide)).trans (live27 m ρ c).nrm
  mid := (Walk14.keep_anchor m ρ c).trans (live27 m ρ c).mid
  a7 := (Walk14.keep m ρ c main_arg7 (by decide) (by decide)).trans (live27 m ρ c).a7
  a8 := (Walk14.keep m ρ c main_arg8 (by decide) (by decide)).trans (live27 m ρ c).a8

theorem out29 (c : Dev nD) : W29 m ρ c (Proc.devRef .tc main_v222) = iter (eS m ρ c) (eD m ρ c) (eW m ρ c) (midA m ρ c) 4 :=
  (Walk14.out m ρ c).trans
    (step_congr (live27 m ρ c).src (live27 m ρ c).dst (live27 m ρ c).nrm (live27 m ρ c).mid (out27 m ρ c))

theorem live31 (c : Dev nD) : LiveB m ρ (W31 m ρ c) c where
  src := (Walk15.keep m ρ c main_v1 (by decide) (by decide)).trans (live29 m ρ c).src
  dst := (Walk15.keep m ρ c main_v3 (by decide) (by decide)).trans (live29 m ρ c).dst
  nrm := (Walk15.keep m ρ c main_v25 (by decide) (by decide)).trans (live29 m ρ c).nrm
  mid := (Walk15.keep_anchor m ρ c).trans (live29 m ρ c).mid
  a7 := (Walk15.keep m ρ c main_arg7 (by decide) (by decide)).trans (live29 m ρ c).a7
  a8 := (Walk15.keep m ρ c main_arg8 (by decide) (by decide)).trans (live29 m ρ c).a8

theorem out31 (c : Dev nD) : W31 m ρ c (Proc.devRef .tc main_v236) = iter (eS m ρ c) (eD m ρ c) (eW m ρ c) (midA m ρ c) 5 :=
  (Walk15.out m ρ c).trans
    (step_congr (live29 m ρ c).src (live29 m ρ c).dst (live29 m ρ c).nrm (live29 m ρ c).mid (out29 m ρ c))

theorem live33 (c : Dev nD) : LiveB m ρ (W33 m ρ c) c where
  src := (Walk16.keep m ρ c main_v1 (by decide) (by decide)).trans (live31 m ρ c).src
  dst := (Walk16.keep m ρ c main_v3 (by decide) (by decide)).trans (live31 m ρ c).dst
  nrm := (Walk16.keep m ρ c main_v25 (by decide) (by decide)).trans (live31 m ρ c).nrm
  mid := (Walk16.keep_anchor m ρ c).trans (live31 m ρ c).mid
  a7 := (Walk16.keep m ρ c main_arg7 (by decide) (by decide)).trans (live31 m ρ c).a7
  a8 := (Walk16.keep m ρ c main_arg8 (by decide) (by decide)).trans (live31 m ρ c).a8

theorem out33 (c : Dev nD) : W33 m ρ c (Proc.devRef .tc main_v250) = iter (eS m ρ c) (eD m ρ c) (eW m ρ c) (midA m ρ c) 6 :=
  (Walk16.out m ρ c).trans
    (step_congr (live31 m ρ c).src (live31 m ρ c).dst (live31 m ρ c).nrm (live31 m ρ c).mid (out31 m ρ c))

theorem live35 (c : Dev nD) : LiveB m ρ (W35 m ρ c) c where
  src := (Walk17.keep m ρ c main_v1 (by decide) (by decide)).trans (live33 m ρ c).src
  dst := (Walk17.keep m ρ c main_v3 (by decide) (by decide)).trans (live33 m ρ c).dst
  nrm := (Walk17.keep m ρ c main_v25 (by decide) (by decide)).trans (live33 m ρ c).nrm
  mid := (Walk17.keep_anchor m ρ c).trans (live33 m ρ c).mid
  a7 := (Walk17.keep m ρ c main_arg7 (by decide) (by decide)).trans (live33 m ρ c).a7
  a8 := (Walk17.keep m ρ c main_arg8 (by decide) (by decide)).trans (live33 m ρ c).a8

theorem out35 (c : Dev nD) : W35 m ρ c (Proc.devRef .tc main_v264) = iter (eS m ρ c) (eD m ρ c) (eW m ρ c) (midA m ρ c) 7 :=
  (Walk17.out m ρ c).trans
    (step_congr (live33 m ρ c).src (live33 m ρ c).dst (live33 m ρ c).nrm (live33 m ρ c).mid (out33 m ρ c))

theorem live37 (c : Dev nD) : LiveB m ρ (W37 m ρ c) c where
  src := (Walk18.keep m ρ c main_v1 (by decide) (by decide)).trans (live35 m ρ c).src
  dst := (Walk18.keep m ρ c main_v3 (by decide) (by decide)).trans (live35 m ρ c).dst
  nrm := (Walk18.keep m ρ c main_v25 (by decide) (by decide)).trans (live35 m ρ c).nrm
  mid := (Walk18.keep_anchor m ρ c).trans (live35 m ρ c).mid
  a7 := (Walk18.keep m ρ c main_arg7 (by decide) (by decide)).trans (live35 m ρ c).a7
  a8 := (Walk18.keep m ρ c main_arg8 (by decide) (by decide)).trans (live35 m ρ c).a8

theorem out37 (c : Dev nD) : W37 m ρ c (Proc.devRef .tc main_v278) = iter (eS m ρ c) (eD m ρ c) (eW m ρ c) (midA m ρ c) 8 :=
  (Walk18.out m ρ c).trans
    (step_congr (live35 m ρ c).src (live35 m ρ c).dst (live35 m ρ c).nrm (live35 m ρ c).mid (out35 m ρ c))

theorem live39 (c : Dev nD) : LiveB m ρ (W39 m ρ c) c where
  src := (Walk19.keep m ρ c main_v1 (by decide) (by decide)).trans (live37 m ρ c).src
  dst := (Walk19.keep m ρ c main_v3 (by decide) (by decide)).trans (live37 m ρ c).dst
  nrm := (Walk19.keep m ρ c main_v25 (by decide) (by decide)).trans (live37 m ρ c).nrm
  mid := (Walk19.keep_anchor m ρ c).trans (live37 m ρ c).mid
  a7 := (Walk19.keep m ρ c main_arg7 (by decide) (by decide)).trans (live37 m ρ c).a7
  a8 := (Walk19.keep m ρ c main_arg8 (by decide) (by decide)).trans (live37 m ρ c).a8

theorem out39 (c : Dev nD) : W39 m ρ c (Proc.devRef .tc main_v292) = iter (eS m ρ c) (eD m ρ c) (eW m ρ c) (midA m ρ c) 9 :=
  (Walk19.out m ρ c).trans
    (step_congr (live37 m ρ c).src (live37 m ρ c).dst (live37 m ρ c).nrm (live37 m ρ c).mid (out37 m ρ c))

theorem live41 (c : Dev nD) : LiveB m ρ (W41 m ρ c) c where
  src := (Walk20.keep m ρ c main_v1 (by decide) (by decide)).trans (live39 m ρ c).src
  dst := (Walk20.keep m ρ c main_v3 (by decide) (by decide)).trans (live39 m ρ c).dst
  nrm := (Walk20.keep m ρ c main_v25 (by decide) (by decide)).trans (live39 m ρ c).nrm
  mid := (Walk20.keep_anchor m ρ c).trans (live39 m ρ c).mid
  a7 := (Walk20.keep m ρ c main_arg7 (by decide) (by decide)).trans (live39 m ρ c).a7
  a8 := (Walk20.keep m ρ c main_arg8 (by decide) (by decide)).trans (live39 m ρ c).a8

theorem out41 (c : Dev nD) : W41 m ρ c (Proc.devRef .tc main_v306) = iter (eS m ρ c) (eD m ρ c) (eW m ρ c) (midA m ρ c) 10 :=
  (Walk20.out m ρ c).trans
    (step_congr (live39 m ρ c).src (live39 m ρ c).dst (live39 m ρ c).nrm (live39 m ρ c).mid (out39 m ρ c))

/-! ## The last layer -/

/-- The result buffer at the last boundary is the specification's function of the launch memory's arguments. -/
theorem result (c : Dev nD) :
    W42 m ρ c (Proc.devRef .tc main_v307)
      = whole (F := Ideal) (W0 m ρ c (Proc.devRef .tc main_arg0)) (W0 m ρ c (Proc.devRef .tc main_arg1)) (W0 m ρ c (Proc.devRef .tc main_arg2)) (W0 m ρ c (Proc.devRef .tc main_arg3))
          (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) :=
  (W42_arr m ρ c 3).trans ((Cert.KernelIdeal.Fin21.final (V41 m ρ) c).trans
    (fin_congr ((out41 m ρ c).trans (diffuse_eq_iter _ _ _ _).symm) (live41 m ρ c).a7 (live41 m ρ c).a8))

end Cert.KernelIdeal.Chain

end
-- ==== Proof.lean ====
/-
  The certificate's claims, assembled.

  Both idealized programs compute `Cert.Spec.whole` of the argument arrays: a graph diffusion (ten steps of a
  degree-normalised convolution mixed with its starting point), a small perceptron applied to every entry, a
  second diffusion, and a dense layer.  The kernel program does the residual mixes, the perceptron and the last
  layer in kernel regions, block by block, where the host program does them with whole-array operations; on the
  extended reals the two agree entry by entry, the only regrouping being the association of the perceptron's first
  sum.  The kernel programs' frame claims are the generated frame runs, the host program's is its run with the result dropped; the
  idealization rewrote nothing.
-/
import proofs.«104874_j7885559956094_2_alg».proof.Defs
import proofs.«104874_j7885559956094_2_alg».proof.Proof.Gen.Kernel
import proofs.«104874_j7885559956094_2_alg».proof.Proof.Gen.Kernel.Skeleton
import proofs.«104874_j7885559956094_2_alg».proof.Proof.Gen.Kernel.Launch
import proofs.«104874_j7885559956094_2_alg».proof.Proof.Gen.Kernel.Points
import proofs.«104874_j7885559956094_2_alg».proof.Proof.Gen.Kernel.Frame
import proofs.«104874_j7885559956094_2_alg».proof.Proof.Gen.KernelIdeal
import proofs.«104874_j7885559956094_2_alg».proof.Proof.Gen.KernelIdeal.Skeleton
import proofs.«104874_j7885559956094_2_alg».proof.Proof.Gen.KernelIdeal.Launch
import proofs.«104874_j7885559956094_2_alg».proof.Proof.Gen.KernelIdeal.Points
import proofs.«104874_j7885559956094_2_alg».proof.Proof.Gen.KernelIdeal.Frame
import proofs.«104874_j7885559956094_2_alg».proof.Proof.Gen.ReferenceIdeal
import proofs.«104874_j7885559956094_2_alg».proof.Proof.Gen.Pre_finite_inputs
import proofs.«104874_j7885559956094_2_alg».proof.Proof.Spec
import proofs.«104874_j7885559956094_2_alg».proof.Proof.RefRun
import proofs.«104874_j7885559956094_2_alg».proof.Proof.KRun
import proofs.«104874_j7885559956094_2_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- From memories that agree on the arguments both idealized programs end with the specification's function of
    the arguments in their result buffers. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.whole (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Chain.result m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
